-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v436) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x4096 .f32) (main_arg1 : FVec F S64x4096 .f32) (main_arg2 : FVec F S64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x4096 : Shape := ⟨2, ![16384, 4096]⟩
abbrev S64x4096 : Shape := ⟨2, ![64, 4096]⟩
abbrev S64 : Shape := ⟨1, ![64]⟩
abbrev S1x64 : Shape := ⟨2, ![1, 64]⟩
abbrev S16384x64 : Shape := ⟨2, ![16384, 64]⟩
abbrev S1024x4096 : Shape := ⟨2, ![1024, 4096]⟩
abbrev S1024x64 : Shape := ⟨2, ![1024, 64]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S16384x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S1024x4096_S1024x4096_0_0 : ∀ a, (![0, 0] : Fin 2 → Nat) a + S1024x4096.size a ≤ S1024x4096.size a
  h_S1024x4096 : 0 < S1024x4096.numel
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  iota_S1024x64_d1_w32 : S1024x64.Iotas .tc 32 [1]
  rotates_S1024x64_d1 : S1024x64.Rotates 1 none
  natLt_1_32 : 1 < 32
  inb_S1024x64_S1024x64_0_0 : ∀ a, (![0, 0] : Fin 2 → Nat) a + S1024x64.size a ≤ S1024x64.size a
  h_S1024x64 : 0 < S1024x64.numel
  dot_S1024x4096_S64x4096_S1024x64_1_1_0_0_n_n_wf : DotDims.WF S1024x4096 S64x4096 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)

variable [Facts₀]

def dot_S1024x4096_S64x4096_S1024x64_1_1_0_0_n_n : DotDims S1024x4096 S64x4096 S1024x64 where
  lhsContracting := [1]
  rhsContracting := [1]
  lhsNonContracting := [0]
  rhsNonContracting := [0]
  lhsBatch := []
  rhsBatch := []
  wf := dot_S1024x4096_S64x4096_S1024x64_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S64 : Shape := ⟨1, ![64]⟩
abbrev S4 : Shape := ⟨1, ![4]⟩
abbrev S4096x64 : Shape := ⟨2, ![4096, 64]⟩
abbrev S16384x64 : Shape := ⟨2, ![16384, 64]⟩
abbrev S1x64 : Shape := ⟨2, ![1, 64]⟩
abbrev S_ : Shape := ⟨0, ![]⟩
abbrev S4x1 : Shape := ⟨2, ![4, 1]⟩
abbrev S16384x4 : Shape := ⟨2, ![16384, 4]⟩
abbrev S16384 : Shape := ⟨1, ![16384]⟩
abbrev S16384x1 : Shape := ⟨2, ![16384, 1]⟩
abbrev S1 : Shape := ⟨1, ![1]⟩

abbrev nBuf : Space → Nat
  | .hbm => 600
  | .vmem => 0
  | .smem => 0
  | _ => 0

abbrev hbmTy0_0 (i : Nat) : BufTy := match i % 128 with
  | 0 => ⟨S16384x4096, .f32⟩
  | 1 => ⟨S64x4096, .f32⟩
  | 2 => ⟨S64, .f32⟩
  | 3 => ⟨S4, .i32⟩
  | 4 => ⟨S4, .i32⟩
  | 5 => ⟨S4, .i32⟩
  | 6 => ⟨S4, .i32⟩
  | 7 => ⟨S4, .i32⟩
  | 8 => ⟨S4, .i32⟩
  | 9 => ⟨S4, .i32⟩
  | 10 => ⟨S4, .i32⟩
  | 11 => ⟨S4, .i32⟩
  | 12 => ⟨S4, .i32⟩
  | 13 => ⟨S4, .i32⟩
  | 14 => ⟨S4, .i32⟩
  | 15 => ⟨S4, .i32⟩
  | 16 => ⟨S4, .i32⟩
  | 17 => ⟨S4, .i32⟩
  | 18 => ⟨S4, .i32⟩
  | 19 => ⟨S4096x64, .f32⟩
  | 20 => ⟨S16384x64, .f32⟩
  | 21 => ⟨S1x64, .f32⟩
  | 22 => ⟨S16384x64, .f32⟩
  | 23 => ⟨S16384x64, .f32⟩
  | 24 => ⟨S_, .i32⟩
  | 25 => ⟨S4, .i32⟩
  | 26 => ⟨S4, .i1⟩
  | 27 => ⟨S_, .i32⟩
  | 28 => ⟨S4, .i32⟩
  | 29 => ⟨S4, .i32⟩
  | 30 => ⟨S4, .i32⟩
  | 31 => ⟨S4x1, .i32⟩
  | 32 => ⟨S16384x4, .f32⟩
  | 33 => ⟨S_, .f32⟩
  | 34 => ⟨S16384, .f32⟩
  | 35 => ⟨S16384x1, .f32⟩
  | 36 => ⟨S16384x4, .f32⟩
  | 37 => ⟨S16384x4, .f32⟩
  | 38 => ⟨S_, .f32⟩
  | 39 => ⟨S16384x4, .f32⟩
  | 40 => ⟨S16384x4, .i1⟩
  | 41 => ⟨S_, .i1⟩
  | 42 => ⟨S16384, .i1⟩
  | 43 => ⟨S16384x4, .i32⟩
  | 44 => ⟨S_, .i32⟩
  | 45 => ⟨S16384, .i32⟩
  | 46 => ⟨S_, .i32⟩
  | 47 => ⟨S16384, .i32⟩
  | 48 => ⟨S16384, .i1⟩
  | 49 => ⟨S16384, .i1⟩
  | 50 => ⟨S16384, .f32⟩
  | 51 => ⟨S_, .f32⟩
  | 52 => ⟨S16384, .f32⟩
  | 53 => ⟨S16384, .f32⟩
  | 54 => ⟨S16384x1, .f32⟩
  | 55 => ⟨S16384, .f32⟩
  | 56 => ⟨S16384, .f32⟩
  | 57 => ⟨S_, .i32⟩
  | 58 => ⟨S1, .i32⟩
  | 59 => ⟨S16384x64, .f32⟩
  | 60 => ⟨S_, .i32⟩
  | 61 => ⟨S4, .i32⟩
  | 62 => ⟨S4, .i1⟩
  | 63 => ⟨S_, .i32⟩
  | 64 => ⟨S4, .i32⟩
  | 65 => ⟨S4, .i32⟩
  | 66 => ⟨S4, .i32⟩
  | 67 => ⟨S4x1, .i32⟩
  | 68 => ⟨S16384x4, .f32⟩
  | 69 => ⟨S_, .f32⟩
  | 70 => ⟨S16384, .f32⟩
  | 71 => ⟨S16384x1, .f32⟩
  | 72 => ⟨S16384x4, .f32⟩
  | 73 => ⟨S16384x4, .f32⟩
  | 74 => ⟨S_, .f32⟩
  | 75 => ⟨S16384x4, .f32⟩
  | 76 => ⟨S16384x4, .i1⟩
  | 77 => ⟨S_, .i1⟩
  | 78 => ⟨S16384, .i1⟩
  | 79 => ⟨S16384x4, .i32⟩
  | 80 => ⟨S_, .i32⟩
  | 81 => ⟨S16384, .i32⟩
  | 82 => ⟨S_, .i32⟩
  | 83 => ⟨S16384, .i32⟩
  | 84 => ⟨S16384, .i1⟩
  | 85 => ⟨S16384, .i1⟩
  | 86 => ⟨S16384, .f32⟩
  | 87 => ⟨S_, .f32⟩
  | 88 => ⟨S16384, .f32⟩
  | 89 => ⟨S16384, .f32⟩
  | 90 => ⟨S16384x1, .f32⟩
  | 91 => ⟨S16384, .f32⟩
  | 92 => ⟨S16384, .f32⟩
  | 93 => ⟨S_, .i32⟩
  | 94 => ⟨S1, .i32⟩
  | 95 => ⟨S16384x64, .f32⟩
  | 96 => ⟨S_, .i32⟩
  | 97 => ⟨S4, .i32⟩
  | 98 => ⟨S4, .i1⟩
  | 99 => ⟨S_, .i32⟩
  | 100 => ⟨S4, .i32⟩
  | 101 => ⟨S4, .i32⟩
  | 102 => ⟨S4, .i32⟩
  | 103 => ⟨S4x1, .i32⟩
  | 104 => ⟨S16384x4, .f32⟩
  | 105 => ⟨S_, .f32⟩
  | 106 => ⟨S16384, .f32⟩
  | 107 => ⟨S16384x1, .f32⟩
  | 108 => ⟨S16384x4, .f32⟩
  | 109 => ⟨S16384x4, .f32⟩
  | 110 => ⟨S_, .f32⟩
  | 111 => ⟨S16384x4, .f32⟩
  | 112 => ⟨S16384x4, .i1⟩
  | 113 => ⟨S_, .i1⟩
  | 114 => ⟨S16384, .i1⟩
  | 115 => ⟨S16384x4, .i32⟩
  | 116 => ⟨S_, .i32⟩
  | 117 => ⟨S16384, .i32⟩
  | 118 => ⟨S_, .i32⟩
  | 119 => ⟨S16384, .i32⟩
  | 120 => ⟨S16384, .i1⟩
  | 121 => ⟨S16384, .i1⟩
  | 122 => ⟨S16384, .f32⟩
  | 123 => ⟨S_, .f32⟩
  | 124 => ⟨S16384, .f32⟩
  | 125 => ⟨S16384, .f32⟩
  | 126 => ⟨S16384x1, .f32⟩
  | 127 => ⟨S16384, .f32⟩
  | _ => ⟨S16384x4096, .f32⟩

abbrev hbmTy0_1 (i : Nat) : BufTy := match i % 128 with
  | 0 => ⟨S16384, .f32⟩
  | 1 => ⟨S_, .i32⟩
  | 2 => ⟨S1, .i32⟩
  | 3 => ⟨S16384x64, .f32⟩
  | 4 => ⟨S_, .i32⟩
  | 5 => ⟨S4, .i32⟩
  | 6 => ⟨S4, .i1⟩
  | 7 => ⟨S_, .i32⟩
  | 8 => ⟨S4, .i32⟩
  | 9 => ⟨S4, .i32⟩
  | 10 => ⟨S4, .i32⟩
  | 11 => ⟨S4x1, .i32⟩
  | 12 => ⟨S16384x4, .f32⟩
  | 13 => ⟨S_, .f32⟩
  | 14 => ⟨S16384, .f32⟩
  | 15 => ⟨S16384x1, .f32⟩
  | 16 => ⟨S16384x4, .f32⟩
  | 17 => ⟨S16384x4, .f32⟩
  | 18 => ⟨S_, .f32⟩
  | 19 => ⟨S16384x4, .f32⟩
  | 20 => ⟨S16384x4, .i1⟩
  | 21 => ⟨S_, .i1⟩
  | 22 => ⟨S16384, .i1⟩
  | 23 => ⟨S16384x4, .i32⟩
  | 24 => ⟨S_, .i32⟩
  | 25 => ⟨S16384, .i32⟩
  | 26 => ⟨S_, .i32⟩
  | 27 => ⟨S16384, .i32⟩
  | 28 => ⟨S16384, .i1⟩
  | 29 => ⟨S16384, .i1⟩
  | 30 => ⟨S16384, .f32⟩
  | 31 => ⟨S_, .f32⟩
  | 32 => ⟨S16384, .f32⟩
  | 33 => ⟨S16384, .f32⟩
  | 34 => ⟨S16384x1, .f32⟩
  | 35 => ⟨S16384, .f32⟩
  | 36 => ⟨S16384, .f32⟩
  | 37 => ⟨S_, .i32⟩
  | 38 => ⟨S1, .i32⟩
  | 39 => ⟨S16384x64, .f32⟩
  | 40 => ⟨S_, .i32⟩
  | 41 => ⟨S4, .i32⟩
  | 42 => ⟨S4, .i1⟩
  | 43 => ⟨S_, .i32⟩
  | 44 => ⟨S4, .i32⟩
  | 45 => ⟨S4, .i32⟩
  | 46 => ⟨S4, .i32⟩
  | 47 => ⟨S4x1, .i32⟩
  | 48 => ⟨S16384x4, .f32⟩
  | 49 => ⟨S_, .f32⟩
  | 50 => ⟨S16384, .f32⟩
  | 51 => ⟨S16384x1, .f32⟩
  | 52 => ⟨S16384x4, .f32⟩
  | 53 => ⟨S16384x4, .f32⟩
  | 54 => ⟨S_, .f32⟩
  | 55 => ⟨S16384x4, .f32⟩
  | 56 => ⟨S16384x4, .i1⟩
  | 57 => ⟨S_, .i1⟩
  | 58 => ⟨S16384, .i1⟩
  | 59 => ⟨S16384x4, .i32⟩
  | 60 => ⟨S_, .i32⟩
  | 61 => ⟨S16384, .i32⟩
  | 62 => ⟨S_, .i32⟩
  | 63 => ⟨S16384, .i32⟩
  | 64 => ⟨S16384, .i1⟩
  | 65 => ⟨S16384, .i1⟩
  | 66 => ⟨S16384, .f32⟩
  | 67 => ⟨S_, .f32⟩
  | 68 => ⟨S16384, .f32⟩
  | 69 => ⟨S16384, .f32⟩
  | 70 => ⟨S16384x1, .f32⟩
  | 71 => ⟨S16384, .f32⟩
  | 72 => ⟨S16384, .f32⟩
  | 73 => ⟨S_, .i32⟩
  | 74 => ⟨S1, .i32⟩
  | 75 => ⟨S16384x64, .f32⟩
  | 76 => ⟨S_, .i32⟩
  | 77 => ⟨S4, .i32⟩
  | 78 => ⟨S4, .i1⟩
  | 79 => ⟨S_, .i32⟩
  | 80 => ⟨S4, .i32⟩
  | 81 => ⟨S4, .i32⟩
  | 82 => ⟨S4, .i32⟩
  | 83 => ⟨S4x1, .i32⟩
  | 84 => ⟨S16384x4, .f32⟩
  | 85 => ⟨S_, .f32⟩
  | 86 => ⟨S16384, .f32⟩
  | 87 => ⟨S16384x1, .f32⟩
  | 88 => ⟨S16384x4, .f32⟩
  | 89 => ⟨S16384x4, .f32⟩
  | 90 => ⟨S_, .f32⟩
  | 91 => ⟨S16384x4, .f32⟩
  | 92 => ⟨S16384x4, .i1⟩
  | 93 => ⟨S_, .i1⟩
  | 94 => ⟨S16384, .i1⟩
  | 95 => ⟨S16384x4, .i32⟩
  | 96 => ⟨S_, .i32⟩
  | 97 => ⟨S16384, .i32⟩
  | 98 => ⟨S_, .i32⟩
  | 99 => ⟨S16384, .i32⟩
  | 100 => ⟨S16384, .i1⟩
  | 101 => ⟨S16384, .i1⟩
  | 102 => ⟨S16384, .f32⟩
  | 103 => ⟨S_, .f32⟩
  | 104 => ⟨S16384, .f32⟩
  | 105 => ⟨S16384, .f32⟩
  | 106 => ⟨S16384x1, .f32⟩
  | 107 => ⟨S16384, .f32⟩
  | 108 => ⟨S16384, .f32⟩
  | 109 => ⟨S_, .i32⟩
  | 110 => ⟨S1, .i32⟩
  | 111 => ⟨S16384x64, .f32⟩
  | 112 => ⟨S_, .i32⟩
  | 113 => ⟨S4, .i32⟩
  | 114 => ⟨S4, .i1⟩
  | 115 => ⟨S_, .i32⟩
  | 116 => ⟨S4, .i32⟩
  | 117 => ⟨S4, .i32⟩
  | 118 => ⟨S4, .i32⟩
  | 119 => ⟨S4x1, .i32⟩
  | 120 => ⟨S16384x4, .f32⟩
  | 121 => ⟨S_, .f32⟩
  | 122 => ⟨S16384, .f32⟩
  | 123 => ⟨S16384x1, .f32⟩
  | 124 => ⟨S16384x4, .f32⟩
  | 125 => ⟨S16384x4, .f32⟩
  | 126 => ⟨S_, .f32⟩
  | 127 => ⟨S16384x4, .f32⟩
  | _ => ⟨S16384x4096, .f32⟩

abbrev hbmTy0_2 (i : Nat) : BufTy := match i % 128 with
  | 0 => ⟨S16384x4, .i1⟩
  | 1 => ⟨S_, .i1⟩
  | 2 => ⟨S16384, .i1⟩
  | 3 => ⟨S16384x4, .i32⟩
  | 4 => ⟨S_, .i32⟩
  | 5 => ⟨S16384, .i32⟩
  | 6 => ⟨S_, .i32⟩
  | 7 => ⟨S16384, .i32⟩
  | 8 => ⟨S16384, .i1⟩
  | 9 => ⟨S16384, .i1⟩
  | 10 => ⟨S16384, .f32⟩
  | 11 => ⟨S_, .f32⟩
  | 12 => ⟨S16384, .f32⟩
  | 13 => ⟨S16384, .f32⟩
  | 14 => ⟨S16384x1, .f32⟩
  | 15 => ⟨S16384, .f32⟩
  | 16 => ⟨S16384, .f32⟩
  | 17 => ⟨S_, .i32⟩
  | 18 => ⟨S1, .i32⟩
  | 19 => ⟨S16384x64, .f32⟩
  | 20 => ⟨S_, .i32⟩
  | 21 => ⟨S4, .i32⟩
  | 22 => ⟨S4, .i1⟩
  | 23 => ⟨S_, .i32⟩
  | 24 => ⟨S4, .i32⟩
  | 25 => ⟨S4, .i32⟩
  | 26 => ⟨S4, .i32⟩
  | 27 => ⟨S4x1, .i32⟩
  | 28 => ⟨S16384x4, .f32⟩
  | 29 => ⟨S_, .f32⟩
  | 30 => ⟨S16384, .f32⟩
  | 31 => ⟨S16384x1, .f32⟩
  | 32 => ⟨S16384x4, .f32⟩
  | 33 => ⟨S16384x4, .f32⟩
  | 34 => ⟨S_, .f32⟩
  | 35 => ⟨S16384x4, .f32⟩
  | 36 => ⟨S16384x4, .i1⟩
  | 37 => ⟨S_, .i1⟩
  | 38 => ⟨S16384, .i1⟩
  | 39 => ⟨S16384x4, .i32⟩
  | 40 => ⟨S_, .i32⟩
  | 41 => ⟨S16384, .i32⟩
  | 42 => ⟨S_, .i32⟩
  | 43 => ⟨S16384, .i32⟩
  | 44 => ⟨S16384, .i1⟩
  | 45 => ⟨S16384, .i1⟩
  | 46 => ⟨S16384, .f32⟩
  | 47 => ⟨S_, .f32⟩
  | 48 => ⟨S16384, .f32⟩
  | 49 => ⟨S16384, .f32⟩
  | 50 => ⟨S16384x1, .f32⟩
  | 51 => ⟨S16384, .f32⟩
  | 52 => ⟨S16384, .f32⟩
  | 53 => ⟨S_, .i32⟩
  | 54 => ⟨S1, .i32⟩
  | 55 => ⟨S16384x64, .f32⟩
  | 56 => ⟨S_, .i32⟩
  | 57 => ⟨S4, .i32⟩
  | 58 => ⟨S4, .i1⟩
  | 59 => ⟨S_, .i32⟩
  | 60 => ⟨S4, .i32⟩
  | 61 => ⟨S4, .i32⟩
  | 62 => ⟨S4, .i32⟩
  | 63 => ⟨S4x1, .i32⟩
  | 64 => ⟨S16384x4, .f32⟩
  | 65 => ⟨S_, .f32⟩
  | 66 => ⟨S16384, .f32⟩
  | 67 => ⟨S16384x1, .f32⟩
  | 68 => ⟨S16384x4, .f32⟩
  | 69 => ⟨S16384x4, .f32⟩
  | 70 => ⟨S_, .f32⟩
  | 71 => ⟨S16384x4, .f32⟩
  | 72 => ⟨S16384x4, .i1⟩
  | 73 => ⟨S_, .i1⟩
  | 74 => ⟨S16384, .i1⟩
  | 75 => ⟨S16384x4, .i32⟩
  | 76 => ⟨S_, .i32⟩
  | 77 => ⟨S16384, .i32⟩
  | 78 => ⟨S_, .i32⟩
  | 79 => ⟨S16384, .i32⟩
  | 80 => ⟨S16384, .i1⟩
  | 81 => ⟨S16384, .i1⟩
  | 82 => ⟨S16384, .f32⟩
  | 83 => ⟨S_, .f32⟩
  | 84 => ⟨S16384, .f32⟩
  | 85 => ⟨S16384, .f32⟩
  | 86 => ⟨S16384x1, .f32⟩
  | 87 => ⟨S16384, .f32⟩
  | 88 => ⟨S16384, .f32⟩
  | 89 => ⟨S_, .i32⟩
  | 90 => ⟨S1, .i32⟩
  | 91 => ⟨S16384x64, .f32⟩
  | 92 => ⟨S_, .i32⟩
  | 93 => ⟨S4, .i32⟩
  | 94 => ⟨S4, .i1⟩
  | 95 => ⟨S_, .i32⟩
  | 96 => ⟨S4, .i32⟩
  | 97 => ⟨S4, .i32⟩
  | 98 => ⟨S4, .i32⟩
  | 99 => ⟨S4x1, .i32⟩
  | 100 => ⟨S16384x4, .f32⟩
  | 101 => ⟨S_, .f32⟩
  | 102 => ⟨S16384, .f32⟩
  | 103 => ⟨S16384x1, .f32⟩
  | 104 => ⟨S16384x4, .f32⟩
  | 105 => ⟨S16384x4, .f32⟩
  | 106 => ⟨S_, .f32⟩
  | 107 => ⟨S16384x4, .f32⟩
  | 108 => ⟨S16384x4, .i1⟩
  | 109 => ⟨S_, .i1⟩
  | 110 => ⟨S16384, .i1⟩
  | 111 => ⟨S16384x4, .i32⟩
  | 112 => ⟨S_, .i32⟩
  | 113 => ⟨S16384, .i32⟩
  | 114 => ⟨S_, .i32⟩
  | 115 => ⟨S16384, .i32⟩
  | 116 => ⟨S16384, .i1⟩
  | 117 => ⟨S16384, .i1⟩
  | 118 => ⟨S16384, .f32⟩
  | 119 => ⟨S_, .f32⟩
  | 120 => ⟨S16384, .f32⟩
  | 121 => ⟨S16384, .f32⟩
  | 122 => ⟨S16384x1, .f32⟩
  | 123 => ⟨S16384, .f32⟩
  | 124 => ⟨S16384, .f32⟩
  | 125 => ⟨S_, .i32⟩
  | 126 => ⟨S1, .i32⟩
  | 127 => ⟨S16384x64, .f32⟩
  | _ => ⟨S16384x4096, .f32⟩

abbrev hbmTy0_3 (i : Nat) : BufTy := match i % 128 with
  | 0 => ⟨S_, .i32⟩
  | 1 => ⟨S4, .i32⟩
  | 2 => ⟨S4, .i1⟩
  | 3 => ⟨S_, .i32⟩
  | 4 => ⟨S4, .i32⟩
  | 5 => ⟨S4, .i32⟩
  | 6 => ⟨S4, .i32⟩
  | 7 => ⟨S4x1, .i32⟩
  | 8 => ⟨S16384x4, .f32⟩
  | 9 => ⟨S_, .f32⟩
  | 10 => ⟨S16384, .f32⟩
  | 11 => ⟨S16384x1, .f32⟩
  | 12 => ⟨S16384x4, .f32⟩
  | 13 => ⟨S16384x4, .f32⟩
  | 14 => ⟨S_, .f32⟩
  | 15 => ⟨S16384x4, .f32⟩
  | 16 => ⟨S16384x4, .i1⟩
  | 17 => ⟨S_, .i1⟩
  | 18 => ⟨S16384, .i1⟩
  | 19 => ⟨S16384x4, .i32⟩
  | 20 => ⟨S_, .i32⟩
  | 21 => ⟨S16384, .i32⟩
  | 22 => ⟨S_, .i32⟩
  | 23 => ⟨S16384, .i32⟩
  | 24 => ⟨S16384, .i1⟩
  | 25 => ⟨S16384, .i1⟩
  | 26 => ⟨S16384, .f32⟩
  | 27 => ⟨S_, .f32⟩
  | 28 => ⟨S16384, .f32⟩
  | 29 => ⟨S16384, .f32⟩
  | 30 => ⟨S16384x1, .f32⟩
  | 31 => ⟨S16384, .f32⟩
  | 32 => ⟨S16384, .f32⟩
  | 33 => ⟨S_, .i32⟩
  | 34 => ⟨S1, .i32⟩
  | 35 => ⟨S16384x64, .f32⟩
  | 36 => ⟨S_, .i32⟩
  | 37 => ⟨S4, .i32⟩
  | 38 => ⟨S4, .i1⟩
  | 39 => ⟨S_, .i32⟩
  | 40 => ⟨S4, .i32⟩
  | 41 => ⟨S4, .i32⟩
  | 42 => ⟨S4, .i32⟩
  | 43 => ⟨S4x1, .i32⟩
  | 44 => ⟨S16384x4, .f32⟩
  | 45 => ⟨S_, .f32⟩
  | 46 => ⟨S16384, .f32⟩
  | 47 => ⟨S16384x1, .f32⟩
  | 48 => ⟨S16384x4, .f32⟩
  | 49 => ⟨S16384x4, .f32⟩
  | 50 => ⟨S_, .f32⟩
  | 51 => ⟨S16384x4, .f32⟩
  | 52 => ⟨S16384x4, .i1⟩
  | 53 => ⟨S_, .i1⟩
  | 54 => ⟨S16384, .i1⟩
  | 55 => ⟨S16384x4, .i32⟩
  | 56 => ⟨S_, .i32⟩
  | 57 => ⟨S16384, .i32⟩
  | 58 => ⟨S_, .i32⟩
  | 59 => ⟨S16384, .i32⟩
  | 60 => ⟨S16384, .i1⟩
  | 61 => ⟨S16384, .i1⟩
  | 62 => ⟨S16384, .f32⟩
  | 63 => ⟨S_, .f32⟩
  | 64 => ⟨S16384, .f32⟩
  | 65 => ⟨S16384, .f32⟩
  | 66 => ⟨S16384x1, .f32⟩
  | 67 => ⟨S16384, .f32⟩
  | 68 => ⟨S16384, .f32⟩
  | 69 => ⟨S_, .i32⟩
  | 70 => ⟨S1, .i32⟩
  | 71 => ⟨S16384x64, .f32⟩
  | 72 => ⟨S_, .i32⟩
  | 73 => ⟨S4, .i32⟩
  | 74 => ⟨S4, .i1⟩
  | 75 => ⟨S_, .i32⟩
  | 76 => ⟨S4, .i32⟩
  | 77 => ⟨S4, .i32⟩
  | 78 => ⟨S4, .i32⟩
  | 79 => ⟨S4x1, .i32⟩
  | 80 => ⟨S16384x4, .f32⟩
  | 81 => ⟨S_, .f32⟩
  | 82 => ⟨S16384, .f32⟩
  | 83 => ⟨S16384x1, .f32⟩
  | 84 => ⟨S16384x4, .f32⟩
  | 85 => ⟨S16384x4, .f32⟩
  | 86 => ⟨S_, .f32⟩
  | 87 => ⟨S16384x4, .f32⟩
  | 88 => ⟨S16384x4, .i1⟩
  | 89 => ⟨S_, .i1⟩
  | 90 => ⟨S16384, .i1⟩
  | 91 => ⟨S16384x4, .i32⟩
  | 92 => ⟨S_, .i32⟩
  | 93 => ⟨S16384, .i32⟩
  | 94 => ⟨S_, .i32⟩
  | 95 => ⟨S16384, .i32⟩
  | 96 => ⟨S16384, .i1⟩
  | 97 => ⟨S16384, .i1⟩
  | 98 => ⟨S16384, .f32⟩
  | 99 => ⟨S_, .f32⟩
  | 100 => ⟨S16384, .f32⟩
  | 101 => ⟨S16384, .f32⟩
  | 102 => ⟨S16384x1, .f32⟩
  | 103 => ⟨S16384, .f32⟩
  | 104 => ⟨S16384, .f32⟩
  | 105 => ⟨S_, .i32⟩
  | 106 => ⟨S1, .i32⟩
  | 107 => ⟨S16384x64, .f32⟩
  | 108 => ⟨S_, .i32⟩
  | 109 => ⟨S4, .i32⟩
  | 110 => ⟨S4, .i1⟩
  | 111 => ⟨S_, .i32⟩
  | 112 => ⟨S4, .i32⟩
  | 113 => ⟨S4, .i32⟩
  | 114 => ⟨S4, .i32⟩
  | 115 => ⟨S4x1, .i32⟩
  | 116 => ⟨S16384x4, .f32⟩
  | 117 => ⟨S_, .f32⟩
  | 118 => ⟨S16384, .f32⟩
  | 119 => ⟨S16384x1, .f32⟩
  | 120 => ⟨S16384x4, .f32⟩
  | 121 => ⟨S16384x4, .f32⟩
  | 122 => ⟨S_, .f32⟩
  | 123 => ⟨S16384x4, .f32⟩
  | 124 => ⟨S16384x4, .i1⟩
  | 125 => ⟨S_, .i1⟩
  | 126 => ⟨S16384, .i1⟩
  | 127 => ⟨S16384x4, .i32⟩
  | _ => ⟨S16384x4096, .f32⟩

abbrev hbmTy0_4 (i : Nat) : BufTy := match i % 128 with
  | 0 => ⟨S_, .i32⟩
  | 1 => ⟨S16384, .i32⟩
  | 2 => ⟨S_, .i32⟩
  | 3 => ⟨S16384, .i32⟩
  | 4 => ⟨S16384, .i1⟩
  | 5 => ⟨S16384, .i1⟩
  | 6 => ⟨S16384, .f32⟩
  | 7 => ⟨S_, .f32⟩
  | 8 => ⟨S16384, .f32⟩
  | 9 => ⟨S16384, .f32⟩
  | 10 => ⟨S16384x1, .f32⟩
  | 11 => ⟨S16384, .f32⟩
  | 12 => ⟨S16384, .f32⟩
  | 13 => ⟨S_, .i32⟩
  | 14 => ⟨S1, .i32⟩
  | 15 => ⟨S16384x64, .f32⟩
  | 16 => ⟨S_, .i32⟩
  | 17 => ⟨S4, .i32⟩
  | 18 => ⟨S4, .i1⟩
  | 19 => ⟨S_, .i32⟩
  | 20 => ⟨S4, .i32⟩
  | 21 => ⟨S4, .i32⟩
  | 22 => ⟨S4, .i32⟩
  | 23 => ⟨S4x1, .i32⟩
  | 24 => ⟨S16384x4, .f32⟩
  | 25 => ⟨S_, .f32⟩
  | 26 => ⟨S16384, .f32⟩
  | 27 => ⟨S16384x1, .f32⟩
  | 28 => ⟨S16384x4, .f32⟩
  | 29 => ⟨S16384x4, .f32⟩
  | 30 => ⟨S_, .f32⟩
  | 31 => ⟨S16384x4, .f32⟩
  | 32 => ⟨S16384x4, .i1⟩
  | 33 => ⟨S_, .i1⟩
  | 34 => ⟨S16384, .i1⟩
  | 35 => ⟨S16384x4, .i32⟩
  | 36 => ⟨S_, .i32⟩
  | 37 => ⟨S16384, .i32⟩
  | 38 => ⟨S_, .i32⟩
  | 39 => ⟨S16384, .i32⟩
  | 40 => ⟨S16384, .i1⟩
  | 41 => ⟨S16384, .i1⟩
  | 42 => ⟨S16384, .f32⟩
  | 43 => ⟨S_, .f32⟩
  | 44 => ⟨S16384, .f32⟩
  | 45 => ⟨S16384, .f32⟩
  | 46 => ⟨S16384x1, .f32⟩
  | 47 => ⟨S16384, .f32⟩
  | 48 => ⟨S16384, .f32⟩
  | 49 => ⟨S_, .i32⟩
  | 50 => ⟨S1, .i32⟩
  | 51 => ⟨S16384x64, .f32⟩
  | 52 => ⟨S_, .i32⟩
  | 53 => ⟨S4, .i32⟩
  | 54 => ⟨S4, .i1⟩
  | 55 => ⟨S_, .i32⟩
  | 56 => ⟨S4, .i32⟩
  | 57 => ⟨S4, .i32⟩
  | 58 => ⟨S4, .i32⟩
  | 59 => ⟨S4x1, .i32⟩
  | 60 => ⟨S16384x4, .f32⟩
  | 61 => ⟨S_, .f32⟩
  | 62 => ⟨S16384, .f32⟩
  | 63 => ⟨S16384x1, .f32⟩
  | 64 => ⟨S16384x4, .f32⟩
  | 65 => ⟨S16384x4, .f32⟩
  | 66 => ⟨S_, .f32⟩
  | 67 => ⟨S16384x4, .f32⟩
  | 68 => ⟨S16384x4, .i1⟩
  | 69 => ⟨S_, .i1⟩
  | 70 => ⟨S16384, .i1⟩
  | 71 => ⟨S16384x4, .i32⟩
  | 72 => ⟨S_, .i32⟩
  | 73 => ⟨S16384, .i32⟩
  | 74 => ⟨S_, .i32⟩
  | 75 => ⟨S16384, .i32⟩
  | 76 => ⟨S16384, .i1⟩
  | 77 => ⟨S16384, .i1⟩
  | 78 => ⟨S16384, .f32⟩
  | 79 => ⟨S_, .f32⟩
  | 80 => ⟨S16384, .f32⟩
  | 81 => ⟨S16384, .f32⟩
  | 82 => ⟨S16384x1, .f32⟩
  | 83 => ⟨S16384, .f32⟩
  | 84 => ⟨S16384, .f32⟩
  | 85 => ⟨S_, .i32⟩
  | 86 => ⟨S1, .i32⟩
  | 87 => ⟨S16384x64, .f32⟩
  | _ => ⟨S16384x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_c_11 : Ref sig .tc := ⟨.hbm, 15, rfl⟩
abbrev main_c_12 : Ref sig .tc := ⟨.hbm, 16, rfl⟩
abbrev main_c_13 : Ref sig .tc := ⟨.hbm, 17, rfl⟩
abbrev main_c_14 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c_15 : Ref sig .tc := ⟨.hbm, 24, rfl⟩
abbrev main_v5 : Ref sig .tc := ⟨.hbm, 25, rfl⟩
abbrev main_v6 : Ref sig .tc := ⟨.hbm, 26, rfl⟩
abbrev main_c_16 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_17 : Ref sig .tc := ⟨.hbm, 38, rfl⟩
abbrev main_v16 : Ref sig .tc := ⟨.hbm, 39, rfl⟩
abbrev main_v17 : Ref sig .tc := ⟨.hbm, 40, rfl⟩
abbrev main_c_18 : Ref sig .tc := ⟨.hbm, 41, rfl⟩
abbrev main_v18 : Ref sig .tc := ⟨.hbm, 42, rfl⟩
abbrev main_v19 : Ref sig .tc := ⟨.hbm, 43, rfl⟩
abbrev main_c_19 : Ref sig .tc := ⟨.hbm, 44, rfl⟩
abbrev main_v20 : Ref sig .tc := ⟨.hbm, 45, rfl⟩
abbrev main_c_20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_21 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_22 : Ref sig .tc := ⟨.hbm, 57, rfl⟩
abbrev main_v30 : Ref sig .tc := ⟨.hbm, 58, rfl⟩
abbrev main_v31 : Ref sig .tc := ⟨.hbm, 59, rfl⟩
abbrev main_c_23 : Ref sig .tc := ⟨.hbm, 60, rfl⟩
abbrev main_v32 : Ref sig .tc := ⟨.hbm, 61, rfl⟩
abbrev main_v33 : Ref sig .tc := ⟨.hbm, 62, rfl⟩
abbrev main_c_24 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_25 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_26 : Ref sig .tc := ⟨.hbm, 74, rfl⟩
abbrev main_v43 : Ref sig .tc := ⟨.hbm, 75, rfl⟩
abbrev main_v44 : Ref sig .tc := ⟨.hbm, 76, rfl⟩
abbrev main_c_27 : Ref sig .tc := ⟨.hbm, 77, rfl⟩
abbrev main_v45 : Ref sig .tc := ⟨.hbm, 78, rfl⟩
abbrev main_v46 : Ref sig .tc := ⟨.hbm, 79, rfl⟩
abbrev main_c_28 : Ref sig .tc := ⟨.hbm, 80, rfl⟩
abbrev main_v47 : Ref sig .tc := ⟨.hbm, 81, rfl⟩
abbrev main_c_29 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_30 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_31 : Ref sig .tc := ⟨.hbm, 93, rfl⟩
abbrev main_v57 : Ref sig .tc := ⟨.hbm, 94, rfl⟩
abbrev main_v58 : Ref sig .tc := ⟨.hbm, 95, rfl⟩
abbrev main_c_32 : Ref sig .tc := ⟨.hbm, 96, rfl⟩
abbrev main_v59 : Ref sig .tc := ⟨.hbm, 97, rfl⟩
abbrev main_v60 : Ref sig .tc := ⟨.hbm, 98, rfl⟩
abbrev main_c_33 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_34 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_35 : Ref sig .tc := ⟨.hbm, 110, rfl⟩
abbrev main_v70 : Ref sig .tc := ⟨.hbm, 111, rfl⟩
abbrev main_v71 : Ref sig .tc := ⟨.hbm, 112, rfl⟩
abbrev main_c_36 : Ref sig .tc := ⟨.hbm, 113, rfl⟩
abbrev main_v72 : Ref sig .tc := ⟨.hbm, 114, rfl⟩
abbrev main_v73 : Ref sig .tc := ⟨.hbm, 115, rfl⟩
abbrev main_c_37 : Ref sig .tc := ⟨.hbm, 116, rfl⟩
abbrev main_v74 : Ref sig .tc := ⟨.hbm, 117, rfl⟩
abbrev main_c_38 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_39 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_40 : Ref sig .tc := ⟨.hbm, 129, rfl⟩
abbrev main_v84 : Ref sig .tc := ⟨.hbm, 130, rfl⟩
abbrev main_v85 : Ref sig .tc := ⟨.hbm, 131, rfl⟩
abbrev main_c_41 : Ref sig .tc := ⟨.hbm, 132, rfl⟩
abbrev main_v86 : Ref sig .tc := ⟨.hbm, 133, rfl⟩
abbrev main_v87 : Ref sig .tc := ⟨.hbm, 134, rfl⟩
abbrev main_c_42 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_43 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_44 : Ref sig .tc := ⟨.hbm, 146, rfl⟩
abbrev main_v97 : Ref sig .tc := ⟨.hbm, 147, rfl⟩
abbrev main_v98 : Ref sig .tc := ⟨.hbm, 148, rfl⟩
abbrev main_c_45 : Ref sig .tc := ⟨.hbm, 149, rfl⟩
abbrev main_v99 : Ref sig .tc := ⟨.hbm, 150, rfl⟩
abbrev main_v100 : Ref sig .tc := ⟨.hbm, 151, rfl⟩
abbrev main_c_46 : Ref sig .tc := ⟨.hbm, 152, rfl⟩
abbrev main_v101 : Ref sig .tc := ⟨.hbm, 153, rfl⟩
abbrev main_c_47 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_48 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_c_49 : Ref sig .tc := ⟨.hbm, 165, rfl⟩
abbrev main_v111 : Ref sig .tc := ⟨.hbm, 166, rfl⟩
abbrev main_v112 : Ref sig .tc := ⟨.hbm, 167, rfl⟩
abbrev main_c_50 : Ref sig .tc := ⟨.hbm, 168, rfl⟩
abbrev main_v113 : Ref sig .tc := ⟨.hbm, 169, rfl⟩
abbrev main_v114 : Ref sig .tc := ⟨.hbm, 170, rfl⟩
abbrev main_c_51 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_cst_52 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_53 : Ref sig .tc := ⟨.hbm, 182, rfl⟩
abbrev main_v124 : Ref sig .tc := ⟨.hbm, 183, rfl⟩
abbrev main_v125 : Ref sig .tc := ⟨.hbm, 184, rfl⟩
abbrev main_c_54 : Ref sig .tc := ⟨.hbm, 185, rfl⟩
abbrev main_v126 : Ref sig .tc := ⟨.hbm, 186, rfl⟩
abbrev main_v127 : Ref sig .tc := ⟨.hbm, 187, rfl⟩
abbrev main_c_55 : Ref sig .tc := ⟨.hbm, 188, rfl⟩
abbrev main_v128 : Ref sig .tc := ⟨.hbm, 189, rfl⟩
abbrev main_c_56 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_57 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_c_58 : Ref sig .tc := ⟨.hbm, 201, rfl⟩
abbrev main_v138 : Ref sig .tc := ⟨.hbm, 202, rfl⟩
abbrev main_v139 : Ref sig .tc := ⟨.hbm, 203, rfl⟩
abbrev main_c_59 : Ref sig .tc := ⟨.hbm, 204, rfl⟩
abbrev main_v140 : Ref sig .tc := ⟨.hbm, 205, rfl⟩
abbrev main_v141 : Ref sig .tc := ⟨.hbm, 206, rfl⟩
abbrev main_c_60 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_61 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_cst_62 : Ref sig .tc := ⟨.hbm, 218, rfl⟩
abbrev main_v151 : Ref sig .tc := ⟨.hbm, 219, rfl⟩
abbrev main_v152 : Ref sig .tc := ⟨.hbm, 220, rfl⟩
abbrev main_c_63 : Ref sig .tc := ⟨.hbm, 221, rfl⟩
abbrev main_v153 : Ref sig .tc := ⟨.hbm, 222, rfl⟩
abbrev main_v154 : Ref sig .tc := ⟨.hbm, 223, rfl⟩
abbrev main_c_64 : Ref sig .tc := ⟨.hbm, 224, rfl⟩
abbrev main_v155 : Ref sig .tc := ⟨.hbm, 225, rfl⟩
abbrev main_c_65 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_cst_66 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_c_67 : Ref sig .tc := ⟨.hbm, 237, rfl⟩
abbrev main_v165 : Ref sig .tc := ⟨.hbm, 238, rfl⟩
abbrev main_v166 : Ref sig .tc := ⟨.hbm, 239, rfl⟩
abbrev main_c_68 : Ref sig .tc := ⟨.hbm, 240, rfl⟩
abbrev main_v167 : Ref sig .tc := ⟨.hbm, 241, rfl⟩
abbrev main_v168 : Ref sig .tc := ⟨.hbm, 242, rfl⟩
abbrev main_c_69 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_cst_70 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_cst_71 : Ref sig .tc := ⟨.hbm, 254, rfl⟩
abbrev main_v178 : Ref sig .tc := ⟨.hbm, 255, rfl⟩
abbrev main_v179 : Ref sig .tc := ⟨.hbm, 256, rfl⟩
abbrev main_c_72 : Ref sig .tc := ⟨.hbm, 257, rfl⟩
abbrev main_v180 : Ref sig .tc := ⟨.hbm, 258, rfl⟩
abbrev main_v181 : Ref sig .tc := ⟨.hbm, 259, rfl⟩
abbrev main_c_73 : Ref sig .tc := ⟨.hbm, 260, rfl⟩
abbrev main_v182 : Ref sig .tc := ⟨.hbm, 261, rfl⟩
abbrev main_c_74 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_cst_75 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_c_76 : Ref sig .tc := ⟨.hbm, 273, rfl⟩
abbrev main_v192 : Ref sig .tc := ⟨.hbm, 274, rfl⟩
abbrev main_v193 : Ref sig .tc := ⟨.hbm, 275, rfl⟩
abbrev main_c_77 : Ref sig .tc := ⟨.hbm, 276, rfl⟩
abbrev main_v194 : Ref sig .tc := ⟨.hbm, 277, rfl⟩
abbrev main_v195 : Ref sig .tc := ⟨.hbm, 278, rfl⟩
abbrev main_c_78 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_cst_79 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_cst_80 : Ref sig .tc := ⟨.hbm, 290, rfl⟩
abbrev main_v205 : Ref sig .tc := ⟨.hbm, 291, rfl⟩
abbrev main_v206 : Ref sig .tc := ⟨.hbm, 292, rfl⟩
abbrev main_c_81 : Ref sig .tc := ⟨.hbm, 293, rfl⟩
abbrev main_v207 : Ref sig .tc := ⟨.hbm, 294, rfl⟩
abbrev main_v208 : Ref sig .tc := ⟨.hbm, 295, rfl⟩
abbrev main_c_82 : Ref sig .tc := ⟨.hbm, 296, rfl⟩
abbrev main_v209 : Ref sig .tc := ⟨.hbm, 297, rfl⟩
abbrev main_c_83 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_cst_84 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_c_85 : Ref sig .tc := ⟨.hbm, 309, rfl⟩
abbrev main_v219 : Ref sig .tc := ⟨.hbm, 310, rfl⟩
abbrev main_v220 : Ref sig .tc := ⟨.hbm, 311, rfl⟩
abbrev main_c_86 : Ref sig .tc := ⟨.hbm, 312, rfl⟩
abbrev main_v221 : Ref sig .tc := ⟨.hbm, 313, rfl⟩
abbrev main_v222 : Ref sig .tc := ⟨.hbm, 314, rfl⟩
abbrev main_c_87 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_cst_88 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_cst_89 : Ref sig .tc := ⟨.hbm, 326, rfl⟩
abbrev main_v232 : Ref sig .tc := ⟨.hbm, 327, rfl⟩
abbrev main_v233 : Ref sig .tc := ⟨.hbm, 328, rfl⟩
abbrev main_c_90 : Ref sig .tc := ⟨.hbm, 329, rfl⟩
abbrev main_v234 : Ref sig .tc := ⟨.hbm, 330, rfl⟩
abbrev main_v235 : Ref sig .tc := ⟨.hbm, 331, rfl⟩
abbrev main_c_91 : Ref sig .tc := ⟨.hbm, 332, rfl⟩
abbrev main_v236 : Ref sig .tc := ⟨.hbm, 333, rfl⟩
abbrev main_c_92 : Ref sig .tc := ⟨.hbm, 334, rfl⟩
abbrev main_v237 : Ref sig .tc := ⟨.hbm, 335, rfl⟩
abbrev main_v238 : Ref sig .tc := ⟨.hbm, 336, rfl⟩
abbrev main_v239 : Ref sig .tc := ⟨.hbm, 337, rfl⟩
abbrev main_v240 : Ref sig .tc := ⟨.hbm, 338, rfl⟩
abbrev main_cst_93 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_c_94 : Ref sig .tc := ⟨.hbm, 345, rfl⟩
abbrev main_v246 : Ref sig .tc := ⟨.hbm, 346, rfl⟩
abbrev main_v247 : Ref sig .tc := ⟨.hbm, 347, rfl⟩
abbrev main_c_95 : Ref sig .tc := ⟨.hbm, 348, rfl⟩
abbrev main_v248 : Ref sig .tc := ⟨.hbm, 349, rfl⟩
abbrev main_v249 : Ref sig .tc := ⟨.hbm, 350, rfl⟩
abbrev main_c_96 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_v253 : Ref sig .tc := ⟨.hbm, 355, rfl⟩
abbrev main_v254 : Ref sig .tc := ⟨.hbm, 356, rfl⟩
abbrev main_cst_97 : Ref sig .tc := ⟨.hbm, 357, rfl⟩
abbrev main_v255 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_cst_98 : Ref sig .tc := ⟨.hbm, 362, rfl⟩
abbrev main_v259 : Ref sig .tc := ⟨.hbm, 363, rfl⟩
abbrev main_v260 : Ref sig .tc := ⟨.hbm, 364, rfl⟩
abbrev main_c_99 : Ref sig .tc := ⟨.hbm, 365, rfl⟩
abbrev main_v261 : Ref sig .tc := ⟨.hbm, 366, rfl⟩
abbrev main_v262 : Ref sig .tc := ⟨.hbm, 367, rfl⟩
abbrev main_c_100 : Ref sig .tc := ⟨.hbm, 368, rfl⟩
abbrev main_v263 : Ref sig .tc := ⟨.hbm, 369, rfl⟩
abbrev main_c_101 : Ref sig .tc := ⟨.hbm, 370, rfl⟩
abbrev main_v264 : Ref sig .tc := ⟨.hbm, 371, rfl⟩
abbrev main_v265 : Ref sig .tc := ⟨.hbm, 372, rfl⟩
abbrev main_v266 : Ref sig .tc := ⟨.hbm, 373, rfl⟩
abbrev main_v267 : Ref sig .tc := ⟨.hbm, 374, rfl⟩
abbrev main_cst_102 : Ref sig .tc := ⟨.hbm, 375, rfl⟩
abbrev main_v268 : Ref sig .tc := ⟨.hbm, 376, rfl⟩
abbrev main_v269 : Ref sig .tc := ⟨.hbm, 377, rfl⟩
abbrev main_v270 : Ref sig .tc := ⟨.hbm, 378, rfl⟩
abbrev main_v271 : Ref sig .tc := ⟨.hbm, 379, rfl⟩
abbrev main_v272 : Ref sig .tc := ⟨.hbm, 380, rfl⟩
abbrev main_c_103 : Ref sig .tc := ⟨.hbm, 381, rfl⟩
abbrev main_v273 : Ref sig .tc := ⟨.hbm, 382, rfl⟩
abbrev main_v274 : Ref sig .tc := ⟨.hbm, 383, rfl⟩
abbrev main_c_104 : Ref sig .tc := ⟨.hbm, 384, rfl⟩
abbrev main_v275 : Ref sig .tc := ⟨.hbm, 385, rfl⟩
abbrev main_v276 : Ref sig .tc := ⟨.hbm, 386, rfl⟩
abbrev main_c_105 : Ref sig .tc := ⟨.hbm, 387, rfl⟩
abbrev main_v277 : Ref sig .tc := ⟨.hbm, 388, rfl⟩
abbrev main_v278 : Ref sig .tc := ⟨.hbm, 389, rfl⟩
abbrev main_v279 : Ref sig .tc := ⟨.hbm, 390, rfl⟩
abbrev main_v280 : Ref sig .tc := ⟨.hbm, 391, rfl⟩
abbrev main_v281 : Ref sig .tc := ⟨.hbm, 392, rfl⟩
abbrev main_cst_106 : Ref sig .tc := ⟨.hbm, 393, rfl⟩
abbrev main_v282 : Ref sig .tc := ⟨.hbm, 394, rfl⟩
abbrev main_v283 : Ref sig .tc := ⟨.hbm, 395, rfl⟩
abbrev main_v284 : Ref sig .tc := ⟨.hbm, 396, rfl⟩
abbrev main_v285 : Ref sig .tc := ⟨.hbm, 397, rfl⟩
abbrev main_cst_107 : Ref sig .tc := ⟨.hbm, 398, rfl⟩
abbrev main_v286 : Ref sig .tc := ⟨.hbm, 399, rfl⟩
abbrev main_v287 : Ref sig .tc := ⟨.hbm, 400, rfl⟩
abbrev main_c_108 : Ref sig .tc := ⟨.hbm, 401, rfl⟩
abbrev main_v288 : Ref sig .tc := ⟨.hbm, 402, rfl⟩
abbrev main_v289 : Ref sig .tc := ⟨.hbm, 403, rfl⟩
abbrev main_c_109 : Ref sig .tc := ⟨.hbm, 404, rfl⟩
abbrev main_v290 : Ref sig .tc := ⟨.hbm, 405, rfl⟩
abbrev main_c_110 : Ref sig .tc := ⟨.hbm, 406, rfl⟩
abbrev main_v291 : Ref sig .tc := ⟨.hbm, 407, rfl⟩
abbrev main_v292 : Ref sig .tc := ⟨.hbm, 408, rfl⟩
abbrev main_v293 : Ref sig .tc := ⟨.hbm, 409, rfl⟩
abbrev main_v294 : Ref sig .tc := ⟨.hbm, 410, rfl⟩
abbrev main_cst_111 : Ref sig .tc := ⟨.hbm, 411, rfl⟩
abbrev main_v295 : Ref sig .tc := ⟨.hbm, 412, rfl⟩
abbrev main_v296 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_c_112 : Ref sig .tc := ⟨.hbm, 417, rfl⟩
abbrev main_v300 : Ref sig .tc := ⟨.hbm, 418, rfl⟩
abbrev main_v301 : Ref sig .tc := ⟨.hbm, 419, rfl⟩
abbrev main_c_113 : Ref sig .tc := ⟨.hbm, 420, rfl⟩
abbrev main_v302 : Ref sig .tc := ⟨.hbm, 421, rfl⟩
abbrev main_v303 : Ref sig .tc := ⟨.hbm, 422, rfl⟩
abbrev main_c_114 : Ref sig .tc := ⟨.hbm, 423, rfl⟩
abbrev main_v304 : Ref sig .tc := ⟨.hbm, 424, rfl⟩
abbrev main_v305 : Ref sig .tc := ⟨.hbm, 425, rfl⟩
abbrev main_v306 : Ref sig .tc := ⟨.hbm, 426, rfl⟩
abbrev main_v307 : Ref sig .tc := ⟨.hbm, 427, rfl⟩
abbrev main_v308 : Ref sig .tc := ⟨.hbm, 428, rfl⟩
abbrev main_cst_115 : Ref sig .tc := ⟨.hbm, 429, rfl⟩
abbrev main_v309 : Ref sig .tc := ⟨.hbm, 430, rfl⟩
abbrev main_v310 : Ref sig .tc := ⟨.hbm, 431, rfl⟩
abbrev main_v311 : Ref sig .tc := ⟨.hbm, 432, rfl⟩
abbrev main_v312 : Ref sig .tc := ⟨.hbm, 433, rfl⟩
abbrev main_cst_116 : Ref sig .tc := ⟨.hbm, 434, rfl⟩
abbrev main_v313 : Ref sig .tc := ⟨.hbm, 435, rfl⟩
abbrev main_v314 : Ref sig .tc := ⟨.hbm, 436, rfl⟩
abbrev main_c_117 : Ref sig .tc := ⟨.hbm, 437, rfl⟩
abbrev main_v315 : Ref sig .tc := ⟨.hbm, 438, rfl⟩
abbrev main_v316 : Ref sig .tc := ⟨.hbm, 439, rfl⟩
abbrev main_c_118 : Ref sig .tc := ⟨.hbm, 440, rfl⟩
abbrev main_v317 : Ref sig .tc := ⟨.hbm, 441, rfl⟩
abbrev main_c_119 : Ref sig .tc := ⟨.hbm, 442, rfl⟩
abbrev main_v318 : Ref sig .tc := ⟨.hbm, 443, rfl⟩
abbrev main_v319 : Ref sig .tc := ⟨.hbm, 444, rfl⟩
abbrev main_v320 : Ref sig .tc := ⟨.hbm, 445, rfl⟩
abbrev main_v321 : Ref sig .tc := ⟨.hbm, 446, rfl⟩
abbrev main_cst_120 : Ref sig .tc := ⟨.hbm, 447, rfl⟩
abbrev main_v322 : Ref sig .tc := ⟨.hbm, 448, rfl⟩
abbrev main_v323 : Ref sig .tc := ⟨.hbm, 449, rfl⟩
abbrev main_v324 : Ref sig .tc := ⟨.hbm, 450, rfl⟩
abbrev main_v325 : Ref sig .tc := ⟨.hbm, 451, rfl⟩
abbrev main_v326 : Ref sig .tc := ⟨.hbm, 452, rfl⟩
abbrev main_c_121 : Ref sig .tc := ⟨.hbm, 453, rfl⟩
abbrev main_v327 : Ref sig .tc := ⟨.hbm, 454, rfl⟩
abbrev main_v328 : Ref sig .tc := ⟨.hbm, 455, rfl⟩
abbrev main_c_122 : Ref sig .tc := ⟨.hbm, 456, rfl⟩
abbrev main_v329 : Ref sig .tc := ⟨.hbm, 457, rfl⟩
abbrev main_v330 : Ref sig .tc := ⟨.hbm, 458, rfl⟩
abbrev main_c_123 : Ref sig .tc := ⟨.hbm, 459, rfl⟩
abbrev main_v331 : Ref sig .tc := ⟨.hbm, 460, rfl⟩
abbrev main_v332 : Ref sig .tc := ⟨.hbm, 461, rfl⟩
abbrev main_v333 : Ref sig .tc := ⟨.hbm, 462, rfl⟩
abbrev main_v334 : Ref sig .tc := ⟨.hbm, 463, rfl⟩
abbrev main_v335 : Ref sig .tc := ⟨.hbm, 464, rfl⟩
abbrev main_cst_124 : Ref sig .tc := ⟨.hbm, 465, rfl⟩
abbrev main_v336 : Ref sig .tc := ⟨.hbm, 466, rfl⟩
abbrev main_v337 : Ref sig .tc := ⟨.hbm, 467, rfl⟩
abbrev main_v338 : Ref sig .tc := ⟨.hbm, 468, rfl⟩
abbrev main_v339 : Ref sig .tc := ⟨.hbm, 469, rfl⟩
abbrev main_cst_125 : Ref sig .tc := ⟨.hbm, 470, rfl⟩
abbrev main_v340 : Ref sig .tc := ⟨.hbm, 471, rfl⟩
abbrev main_v341 : Ref sig .tc := ⟨.hbm, 472, rfl⟩
abbrev main_c_126 : Ref sig .tc := ⟨.hbm, 473, rfl⟩
abbrev main_v342 : Ref sig .tc := ⟨.hbm, 474, rfl⟩
abbrev main_v343 : Ref sig .tc := ⟨.hbm, 475, rfl⟩
abbrev main_c_127 : Ref sig .tc := ⟨.hbm, 476, rfl⟩
abbrev main_v344 : Ref sig .tc := ⟨.hbm, 477, rfl⟩
abbrev main_c_128 : Ref sig .tc := ⟨.hbm, 478, rfl⟩
abbrev main_v345 : Ref sig .tc := ⟨.hbm, 479, rfl⟩
abbrev main_v346 : Ref sig .tc := ⟨.hbm, 480, rfl⟩
abbrev main_v347 : Ref sig .tc := ⟨.hbm, 481, rfl⟩
abbrev main_v348 : Ref sig .tc := ⟨.hbm, 482, rfl⟩
abbrev main_cst_129 : Ref sig .tc := ⟨.hbm, 483, rfl⟩
abbrev main_v349 : Ref sig .tc := ⟨.hbm, 484, rfl⟩
abbrev main_v350 : Ref sig .tc := ⟨.hbm, 485, rfl⟩
abbrev main_v351 : Ref sig .tc := ⟨.hbm, 486, rfl⟩
abbrev main_v352 : Ref sig .tc := ⟨.hbm, 487, rfl⟩
abbrev main_v353 : Ref sig .tc := ⟨.hbm, 488, rfl⟩
abbrev main_c_130 : Ref sig .tc := ⟨.hbm, 489, rfl⟩
abbrev main_v354 : Ref sig .tc := ⟨.hbm, 490, rfl⟩
abbrev main_v355 : Ref sig .tc := ⟨.hbm, 491, rfl⟩
abbrev main_c_131 : Ref sig .tc := ⟨.hbm, 492, rfl⟩
abbrev main_v356 : Ref sig .tc := ⟨.hbm, 493, rfl⟩
abbrev main_v357 : Ref sig .tc := ⟨.hbm, 494, rfl⟩
abbrev main_c_132 : Ref sig .tc := ⟨.hbm, 495, rfl⟩
abbrev main_v358 : Ref sig .tc := ⟨.hbm, 496, rfl⟩
abbrev main_v359 : Ref sig .tc := ⟨.hbm, 497, rfl⟩
abbrev main_v360 : Ref sig .tc := ⟨.hbm, 498, rfl⟩
abbrev main_v361 : Ref sig .tc := ⟨.hbm, 499, rfl⟩
abbrev main_v362 : Ref sig .tc := ⟨.hbm, 500, rfl⟩
abbrev main_cst_133 : Ref sig .tc := ⟨.hbm, 501, rfl⟩
abbrev main_v363 : Ref sig .tc := ⟨.hbm, 502, rfl⟩
abbrev main_v364 : Ref sig .tc := ⟨.hbm, 503, rfl⟩
abbrev main_v365 : Ref sig .tc := ⟨.hbm, 504, rfl⟩
abbrev main_v366 : Ref sig .tc := ⟨.hbm, 505, rfl⟩
abbrev main_cst_134 : Ref sig .tc := ⟨.hbm, 506, rfl⟩
abbrev main_v367 : Ref sig .tc := ⟨.hbm, 507, rfl⟩
abbrev main_v368 : Ref sig .tc := ⟨.hbm, 508, rfl⟩
abbrev main_c_135 : Ref sig .tc := ⟨.hbm, 509, rfl⟩
abbrev main_v369 : Ref sig .tc := ⟨.hbm, 510, rfl⟩
abbrev main_v370 : Ref sig .tc := ⟨.hbm, 511, rfl⟩
abbrev main_c_136 : Ref sig .tc := ⟨.hbm, 512, rfl⟩
abbrev main_v371 : Ref sig .tc := ⟨.hbm, 513, rfl⟩
abbrev main_c_137 : Ref sig .tc := ⟨.hbm, 514, rfl⟩
abbrev main_v372 : Ref sig .tc := ⟨.hbm, 515, rfl⟩
abbrev main_v373 : Ref sig .tc := ⟨.hbm, 516, rfl⟩
abbrev main_v374 : Ref sig .tc := ⟨.hbm, 517, rfl⟩
abbrev main_v375 : Ref sig .tc := ⟨.hbm, 518, rfl⟩
abbrev main_cst_138 : Ref sig .tc := ⟨.hbm, 519, rfl⟩
abbrev main_v376 : Ref sig .tc := ⟨.hbm, 520, rfl⟩
abbrev main_v377 : Ref sig .tc := ⟨.hbm, 521, rfl⟩
abbrev main_v378 : Ref sig .tc := ⟨.hbm, 522, rfl⟩
abbrev main_v379 : Ref sig .tc := ⟨.hbm, 523, rfl⟩
abbrev main_v380 : Ref sig .tc := ⟨.hbm, 524, rfl⟩
abbrev main_c_139 : Ref sig .tc := ⟨.hbm, 525, rfl⟩
abbrev main_v381 : Ref sig .tc := ⟨.hbm, 526, rfl⟩
abbrev main_v382 : Ref sig .tc := ⟨.hbm, 527, rfl⟩
abbrev main_c_140 : Ref sig .tc := ⟨.hbm, 528, rfl⟩
abbrev main_v383 : Ref sig .tc := ⟨.hbm, 529, rfl⟩
abbrev main_v384 : Ref sig .tc := ⟨.hbm, 530, rfl⟩
abbrev main_c_141 : Ref sig .tc := ⟨.hbm, 531, rfl⟩
abbrev main_v385 : Ref sig .tc := ⟨.hbm, 532, rfl⟩
abbrev main_v386 : Ref sig .tc := ⟨.hbm, 533, rfl⟩
abbrev main_v387 : Ref sig .tc := ⟨.hbm, 534, rfl⟩
abbrev main_v388 : Ref sig .tc := ⟨.hbm, 535, rfl⟩
abbrev main_v389 : Ref sig .tc := ⟨.hbm, 536, rfl⟩
abbrev main_cst_142 : Ref sig .tc := ⟨.hbm, 537, rfl⟩
abbrev main_v390 : Ref sig .tc := ⟨.hbm, 538, rfl⟩
abbrev main_v391 : Ref sig .tc := ⟨.hbm, 539, rfl⟩
abbrev main_v392 : Ref sig .tc := ⟨.hbm, 540, rfl⟩
abbrev main_v393 : Ref sig .tc := ⟨.hbm, 541, rfl⟩
abbrev main_cst_143 : Ref sig .tc := ⟨.hbm, 542, rfl⟩
abbrev main_v394 : Ref sig .tc := ⟨.hbm, 543, rfl⟩
abbrev main_v395 : Ref sig .tc := ⟨.hbm, 544, rfl⟩
abbrev main_c_144 : Ref sig .tc := ⟨.hbm, 545, rfl⟩
abbrev main_v396 : Ref sig .tc := ⟨.hbm, 546, rfl⟩
abbrev main_v397 : Ref sig .tc := ⟨.hbm, 547, rfl⟩
abbrev main_c_145 : Ref sig .tc := ⟨.hbm, 548, rfl⟩
abbrev main_v398 : Ref sig .tc := ⟨.hbm, 549, rfl⟩
abbrev main_c_146 : Ref sig .tc := ⟨.hbm, 550, rfl⟩
abbrev main_v399 : Ref sig .tc := ⟨.hbm, 551, rfl⟩
abbrev main_v400 : Ref sig .tc := ⟨.hbm, 552, rfl⟩
abbrev main_v401 : Ref sig .tc := ⟨.hbm, 553, rfl⟩
abbrev main_v402 : Ref sig .tc := ⟨.hbm, 554, rfl⟩
abbrev main_cst_147 : Ref sig .tc := ⟨.hbm, 555, rfl⟩
abbrev main_v403 : Ref sig .tc := ⟨.hbm, 556, rfl⟩
abbrev main_v404 : Ref sig .tc := ⟨.hbm, 557, rfl⟩
abbrev main_v405 : Ref sig .tc := ⟨.hbm, 558, rfl⟩
abbrev main_v406 : Ref sig .tc := ⟨.hbm, 559, rfl⟩
abbrev main_v407 : Ref sig .tc := ⟨.hbm, 560, rfl⟩
abbrev main_c_148 : Ref sig .tc := ⟨.hbm, 561, rfl⟩
abbrev main_v408 : Ref sig .tc := ⟨.hbm, 562, rfl⟩
abbrev main_v409 : Ref sig .tc := ⟨.hbm, 563, rfl⟩
abbrev main_c_149 : Ref sig .tc := ⟨.hbm, 564, rfl⟩
abbrev main_v410 : Ref sig .tc := ⟨.hbm, 565, rfl⟩
abbrev main_v411 : Ref sig .tc := ⟨.hbm, 566, rfl⟩
abbrev main_c_150 : Ref sig .tc := ⟨.hbm, 567, rfl⟩
abbrev main_v412 : Ref sig .tc := ⟨.hbm, 568, rfl⟩
abbrev main_v413 : Ref sig .tc := ⟨.hbm, 569, rfl⟩
abbrev main_v414 : Ref sig .tc := ⟨.hbm, 570, rfl⟩
abbrev main_v415 : Ref sig .tc := ⟨.hbm, 571, rfl⟩
abbrev main_v416 : Ref sig .tc := ⟨.hbm, 572, rfl⟩
abbrev main_cst_151 : Ref sig .tc := ⟨.hbm, 573, rfl⟩
abbrev main_v417 : Ref sig .tc := ⟨.hbm, 574, rfl⟩
abbrev main_v418 : Ref sig .tc := ⟨.hbm, 575, rfl⟩
abbrev main_v419 : Ref sig .tc := ⟨.hbm, 576, rfl⟩
abbrev main_v420 : Ref sig .tc := ⟨.hbm, 577, rfl⟩
abbrev main_cst_152 : Ref sig .tc := ⟨.hbm, 578, rfl⟩
abbrev main_v421 : Ref sig .tc := ⟨.hbm, 579, rfl⟩
abbrev main_v422 : Ref sig .tc := ⟨.hbm, 580, rfl⟩
abbrev main_c_153 : Ref sig .tc := ⟨.hbm, 581, rfl⟩
abbrev main_v423 : Ref sig .tc := ⟨.hbm, 582, rfl⟩
abbrev main_v424 : Ref sig .tc := ⟨.hbm, 583, rfl⟩
abbrev main_c_154 : Ref sig .tc := ⟨.hbm, 584, rfl⟩
abbrev main_v425 : Ref sig .tc := ⟨.hbm, 585, rfl⟩
abbrev main_c_155 : Ref sig .tc := ⟨.hbm, 586, rfl⟩
abbrev main_v426 : Ref sig .tc := ⟨.hbm, 587, rfl⟩
abbrev main_v427 : Ref sig .tc := ⟨.hbm, 588, rfl⟩
abbrev main_v428 : Ref sig .tc := ⟨.hbm, 589, rfl⟩
abbrev main_v429 : Ref sig .tc := ⟨.hbm, 590, rfl⟩
abbrev main_cst_156 : Ref sig .tc := ⟨.hbm, 591, rfl⟩
abbrev main_v430 : Ref sig .tc := ⟨.hbm, 592, rfl⟩
abbrev main_v431 : Ref sig .tc := ⟨.hbm, 593, rfl⟩
abbrev main_v432 : Ref sig .tc := ⟨.hbm, 594, rfl⟩
abbrev main_v433 : Ref sig .tc := ⟨.hbm, 595, rfl⟩
abbrev main_v434 : Ref sig .tc := ⟨.hbm, 596, rfl⟩
abbrev main_c_157 : Ref sig .tc := ⟨.hbm, 597, rfl⟩
abbrev main_v435 : Ref sig .tc := ⟨.hbm, 598, rfl⟩
abbrev main_v436 : Ref sig .tc := ⟨.hbm, 599, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S4 : S_.BroadcastsInDim S4 (![] : Fin 0 → Fin S4.rank)
  bcast_S4_S4x1_0 : S4.BroadcastsInDim S4x1 (![0] : Fin 1 → Fin S4x1.rank)
  reducesTo_S16384x4_S16384_d1 : S16384x4.ReducesTo [1] S16384
  h_S_ : 0 < S_.numel
  bcast_S16384_S16384x1_0 : S16384.BroadcastsInDim S16384x1 (![0] : Fin 1 → Fin S16384x1.rank)
  bcast_S16384x1_S16384x4_0_1 : S16384x1.BroadcastsInDim S16384x4 (![0, 1] : Fin 2 → Fin S16384x4.rank)
  bcast_S_S16384x4 : S_.BroadcastsInDim S16384x4 (![] : Fin 0 → Fin S16384x4.rank)
  natLt_1_32 : 1 < 32
  bcast_S_S16384 : S_.BroadcastsInDim S16384 (![] : Fin 0 → Fin S16384.rank)
  shapeCasts_S16384x1_S16384 : S16384x1.ShapeCasts S16384
  slices_S16384x64_S16384x1_0_0 : S16384x64.Slices ![0, 0] S16384x1
  bcast_S_S1 : S_.BroadcastsInDim S1 (![] : Fin 0 → Fin S1.rank)
  slices_S16384x64_S16384x1_0_4 : S16384x64.Slices ![0, 4] S16384x1
  slices_S16384x64_S16384x1_0_8 : S16384x64.Slices ![0, 8] S16384x1
  slices_S16384x64_S16384x1_0_12 : S16384x64.Slices ![0, 12] S16384x1
  slices_S16384x64_S16384x1_0_16 : S16384x64.Slices ![0, 16] S16384x1
  slices_S16384x64_S16384x1_0_20 : S16384x64.Slices ![0, 20] S16384x1
  slices_S16384x64_S16384x1_0_24 : S16384x64.Slices ![0, 24] S16384x1
  slices_S16384x64_S16384x1_0_28 : S16384x64.Slices ![0, 28] S16384x1
  slices_S16384x64_S16384x1_0_32 : S16384x64.Slices ![0, 32] S16384x1
  slices_S16384x64_S16384x1_0_36 : S16384x64.Slices ![0, 36] S16384x1
  slices_S16384x64_S16384x1_0_40 : S16384x64.Slices ![0, 40] S16384x1
  slices_S16384x64_S16384x1_0_44 : S16384x64.Slices ![0, 44] S16384x1
  slices_S16384x64_S16384x1_0_48 : S16384x64.Slices ![0, 48] S16384x1
  slices_S16384x64_S16384x1_0_52 : S16384x64.Slices ![0, 52] S16384x1
  slices_S16384x64_S16384x1_0_56 : S16384x64.Slices ![0, 56] S16384x1
  slices_S16384x64_S16384x1_0_60 : S16384x64.Slices ![0, 60] S16384x1
  dot_S16384x4096_S4096x64_S16384x64_1_0_0_1_n_n_wf : DotDims.WF S16384x4096 S4096x64 S16384x64 [1] [0] [0] [1] [] []
  gather_S16384x64_S4x1_S16384x4_0_1_n_n_1_1_163841_wf : GatherDims.WF S16384x64 S4x1 S16384x4 [0] [1] [] [1] [] 1 ![16384, 1]
  scatter_S16384x64_S1_S16384_0_1_1_0_wf : ScatterDims.WF S16384x64 S1 S16384 [0] [1] [1] 0

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def gather_S16384x64_S4x1_S16384x4_0_1_n_n_1_1_163841 : GatherDims S16384x64 S4x1 S16384x4 where
  offsetDims := [0]
  collapsedSliceDims := [1]
  operandBatchingDims := []
  startIndicesBatchingDims := []
  startIndexMap := [1]
  indexVectorDim := 1
  sliceSizes := ![16384, 1]
  wf := gather_S16384x64_S4x1_S16384x4_0_1_n_n_1_1_163841_wf
def scatter_S16384x64_S1_S16384_0_1_1_0 : ScatterDims S16384x64 S1 S16384 where
  updateWindowDims := [0]
  insertedWindowDims := [1]
  scatterDimsToOperandDims := [1]
  indexVectorDim := 0
  wf := scatter_S16384x64_S1_S16384_0_1_1_0_wf

class Facts : Prop extends Facts₀ where

variable [Facts]
-- ==== Proof.Spec.lean ====
/-
  The router's canonical overwrite, as one function of the three argument arrays.

  A token's row of 64 logits is `x · Wᵀ + b`. The 64 expert columns fall into 16 groups of four
  adjacent columns. In each group take the largest logit `M`; count the members `j` of the group with
  `M - l j < 0.1`; when at least two members are that close, the group's first column is overwritten by
  `M + 0.0001`; every other entry keeps its logit. The two float literals are kept as the extended reals
  their f32 words denote: both programs use the same two words, so they are never evaluated.
-/
import Idealize.ShloMosaic.PureOps.Ideal
import Idealize.ShloMosaic.Lib.ValueIdx

noncomputable section

namespace Cert.RouterSpec

open Idealize.ShloMosaic

/-- The margin, the extended real that the f32 word of `0.1` denotes. -/
def margin : EReal := Ideal.ofBits .f32 0x3DCCCCCD#32

/-- The boost, the extended real that the f32 word of `0.0001` denotes. -/
def boost : EReal := Ideal.ofBits .f32 0x38D1B717#32

/-- Column `j` of group `g`: `4 g + j`. -/
def col (g : Fin 16) (j : Fin 4) : Fin 64 := ⟨4 * g.val + j.val, by omega⟩

/-- The group a column belongs to. -/
def grp (e : Fin 64) : Fin 16 := ⟨e.val / 4, by omega⟩

/-- The largest logit of group `g` of a row. -/
def gmax (l : Fin 64 → EReal) (g : Fin 16) : EReal :=
  max (max (l (col g 0)) (l (col g 1))) (max (l (col g 2)) (l (col g 3)))

/-- Member `j` of group `g` is within the margin of the group's maximum. -/
def within (l : Fin 64 → EReal) (g : Fin 16) (j : Fin 4) : Prop := gmax l g - l (col g j) < margin

open Classical in
/-- How many of the four members of group `g` are within the margin of its maximum. -/
def cnt (l : Fin 64 → EReal) (g : Fin 16) : ℕ :=
  (if within l g 0 then 1 else 0) + (if within l g 1 then 1 else 0)
    + (if within l g 2 then 1 else 0) + (if within l g 3 then 1 else 0)

open Classical in
/-- The canonical overwrite of one row: a group's first column takes the group's maximum plus the boost when at least
    two members are within the margin; every other entry is unchanged. -/
def canonRow (l : Fin 64 → EReal) (e : Fin 64) : EReal :=
  if e.val % 4 = 0 ∧ 2 ≤ cnt l (grp e) then gmax l (grp e) + boost else l e

/-- The logit of token `t` for expert `e`: the row of `x` against the row of `W`, plus the bias. -/
def logit (A : (⟨2, ![16384, 4096]⟩ : Shape).Idx → EReal) (B : (⟨2, ![64, 4096]⟩ : Shape).Idx → EReal)
    (C : (⟨1, ![64]⟩ : Shape).Idx → EReal) (t : Fin 16384) (e : Fin 64) : EReal :=
  (∑ k : Fin 4096, A (ValueIdx.ix2 t k) * B (ValueIdx.ix2 e k)) + C (ValueIdx.ix1 e)

/-- The whole result: every token's row of logits, canonically overwritten. -/
def out (A : (⟨2, ![16384, 4096]⟩ : Shape).Idx → EReal) (B : (⟨2, ![64, 4096]⟩ : Shape).Idx → EReal)
    (C : (⟨1, ![64]⟩ : Shape).Idx → EReal) : (⟨2, ![16384, 64]⟩ : Shape).Idx → EReal :=
  fun i => canonRow (fun e => logit A B C (i 0) e) (i 1)

end Cert.RouterSpec

end
-- ==== Proof.KerRow.lean ====
/-
  The kernel's row computation, as mathematics on one row of 64 extended reals.

  The kernel never looks at a group of four columns directly: it combines every column with a partner one
  place away (the next column at an even column, the previous one at an odd column), and then with a partner
  two places away (two forward when bit 1 of the column is clear, two back otherwise), both around the row.
  Doing this with `max` gives at EVERY column the maximum of its group of four; doing it with `+` on the
  0/1 indicators "within the margin of the maximum" gives at every column the number of such members of
  its group. This module states that computation (`kerRow`) and proves it is the specification's
  canonical overwrite (`Cert.RouterSpec.canonRow`).
-/
import proofs.«144457_g41274635714715_cont_8to1_b_145_24_alg».proof.Proof.Spec

noncomputable section

namespace Cert.KernelIdeal.KValue

open Idealize.ShloMosaic Cert.RouterSpec

/-- Column `q` moved `s` places forward, around the row of 64. -/
def nx (s : ℕ) (q : Fin 64) : Fin 64 := ⟨(q.val + s) % 64, Nat.mod_lt _ (by decide)⟩

theorem nx_val (s : ℕ) (q : Fin 64) : (nx s q).val = (q.val + s) % 64 := rfl

/-- The value at the partner one place away: the next column at an even column, the previous one at an odd column. -/
def pair1 {α : Type} (f : Fin 64 → α) (q : Fin 64) : α := if q.val % 2 = 0 then f (nx 1 q) else f (nx 63 q)

/-- The value at the partner two places away: two forward when bit 1 of the column is clear, two back otherwise. -/
def pair2 {α : Type} (f : Fin 64 → α) (q : Fin 64) : α := if q.val / 2 % 2 = 0 then f (nx 2 q) else f (nx 62 q)

/-- The larger of a column and its partner one place away. -/
def yRow (l : Fin 64 → EReal) (q : Fin 64) : EReal := max (l q) (pair1 l q)

/-- The larger of that and the same at the partner two places away: the maximum of the column's group. -/
def mxRow (l : Fin 64 → EReal) (q : Fin 64) : EReal := max (yRow l q) (pair2 (yRow l) q)

open Classical in
/-- 1 where the column is within the margin of that maximum, else 0. -/
def wRow (l : Fin 64 → EReal) (q : Fin 64) : EReal := (((if mxRow l q - l q < margin then (1 : ℝ) else 0) : ℝ) : EReal)

/-- The indicator plus the partner's one place away. -/
def cRow (l : Fin 64 → EReal) (q : Fin 64) : EReal := wRow l q + pair1 (wRow l) q

/-- That plus the same at the partner two places away: how many of the column's group are within the margin. -/
def cntRow (l : Fin 64 → EReal) (q : Fin 64) : EReal := cRow l q + pair2 (cRow l) q

/-- The threshold the count is compared with: the extended real the f32 word of `1.5` denotes. -/
def threeHalves : EReal := Ideal.ofBits .f32 0x3FC00000#32

/-- That word denotes the real 3/2. -/
theorem threeHalves_eq : threeHalves = ((3 / 2 : ℝ) : EReal) := by
  unfold threeHalves
  simp [Ideal.ofBits, Ideal.ieee, -EReal.coe_mul]; norm_num

open Classical in
/-- The kernel's row: a column divisible by four whose count exceeds 3/2 takes the maximum plus the boost; every other
    column keeps its logit. -/
def kerRow (l : Fin 64 → EReal) (q : Fin 64) : EReal :=
  if q.val % 4 = 0 ∧ threeHalves < cntRow l q then mxRow l q + boost else l q

/-! ## The four columns of a group -/

theorem col_val0 (g : Fin 16) : (col g 0).val = 4 * g.val := rfl
theorem col_val1 (g : Fin 16) : (col g 1).val = 4 * g.val + 1 := rfl
theorem col_val2 (g : Fin 16) : (col g 2).val = 4 * g.val + 2 := rfl
theorem col_val3 (g : Fin 16) : (col g 3).val = 4 * g.val + 3 := rfl

section Partners
variable {α : Type} (f : Fin 64 → α) (g : Fin 16)

theorem pair1_col0 : pair1 f (col g 0) = f (col g 1) := by
  unfold pair1
  rw [if_pos (by rw [col_val0]; omega)]
  exact congrArg f (Fin.ext (by rw [nx_val, col_val0, col_val1]; have := g.isLt; omega))
theorem pair1_col1 : pair1 f (col g 1) = f (col g 0) := by
  unfold pair1
  rw [if_neg (by rw [col_val1]; omega)]
  exact congrArg f (Fin.ext (by rw [nx_val, col_val0, col_val1]; have := g.isLt; omega))
theorem pair1_col2 : pair1 f (col g 2) = f (col g 3) := by
  unfold pair1
  rw [if_pos (by rw [col_val2]; omega)]
  exact congrArg f (Fin.ext (by rw [nx_val, col_val2, col_val3]; have := g.isLt; omega))
theorem pair1_col3 : pair1 f (col g 3) = f (col g 2) := by
  unfold pair1
  rw [if_neg (by rw [col_val3]; omega)]
  exact congrArg f (Fin.ext (by rw [nx_val, col_val2, col_val3]; have := g.isLt; omega))
theorem pair2_col0 : pair2 f (col g 0) = f (col g 2) := by
  unfold pair2
  rw [if_pos (by rw [col_val0]; omega)]
  exact congrArg f (Fin.ext (by rw [nx_val, col_val0, col_val2]; have := g.isLt; omega))
theorem pair2_col1 : pair2 f (col g 1) = f (col g 3) := by
  unfold pair2
  rw [if_pos (by rw [col_val1]; omega)]
  exact congrArg f (Fin.ext (by rw [nx_val, col_val1, col_val3]; have := g.isLt; omega))
theorem pair2_col2 : pair2 f (col g 2) = f (col g 0) := by
  unfold pair2
  rw [if_neg (by rw [col_val2]; omega)]
  exact congrArg f (Fin.ext (by rw [nx_val, col_val0, col_val2]; have := g.isLt; omega))
theorem pair2_col3 : pair2 f (col g 3) = f (col g 1) := by
  unfold pair2
  rw [if_neg (by rw [col_val3]; omega)]
  exact congrArg f (Fin.ext (by rw [nx_val, col_val1, col_val3]; have := g.isLt; omega))

end Partners

/-! ## At every column of a group the two steps of `max` give the group's maximum -/

variable (l : Fin 64 → EReal) (g : Fin 16)

theorem mxRow_col0 : mxRow l (col g 0) = gmax l g := by
  simp only [mxRow, yRow, pair2_col0, pair1_col0, pair1_col2, gmax]
theorem mxRow_col1 : mxRow l (col g 1) = gmax l g := by
  simp only [mxRow, yRow, pair2_col1, pair1_col1, pair1_col3, gmax]
  rw [max_comm (l (col g 1)), max_comm (l (col g 3))]
theorem mxRow_col2 : mxRow l (col g 2) = gmax l g := by
  simp only [mxRow, yRow, pair2_col2, pair1_col0, pair1_col2, gmax]
  rw [max_comm]
theorem mxRow_col3 : mxRow l (col g 3) = gmax l g := by
  simp only [mxRow, yRow, pair2_col3, pair1_col1, pair1_col3, gmax]
  rw [max_comm, max_comm (l (col g 1)), max_comm (l (col g 3))]

open Classical in
/-- So the indicator at member `j` of group `g` is that of the specification's `within`. -/
theorem wRow_col (j : Fin 4) : wRow l (col g j) = (((if within l g j then (1 : ℝ) else 0) : ℝ) : EReal) := by
  unfold wRow within
  have h : mxRow l (col g j) = gmax l g := by
    match j with
    | ⟨0, _⟩ => exact mxRow_col0 l g
    | ⟨1, _⟩ => exact mxRow_col1 l g
    | ⟨2, _⟩ => exact mxRow_col2 l g
    | ⟨3, _⟩ => exact mxRow_col3 l g
  rw [h]
  by_cases hw : gmax l g - l (col g j) < margin
  · rw [if_pos hw, if_pos hw]
  · rw [if_neg hw, if_neg hw]

open Classical in
/-- At a group's first column the two steps of `+` add the four members' indicators. -/
theorem cntRow_col0 : cntRow l (col g 0)
    = ((((if within l g 0 then (1 : ℝ) else 0) + (if within l g 1 then (1 : ℝ) else 0)
        + ((if within l g 2 then (1 : ℝ) else 0) + (if within l g 3 then (1 : ℝ) else 0)) : ℝ)) : EReal) := by
  simp only [cntRow, cRow, pair2_col0, pair1_col0, pair1_col2, wRow_col, EReal.coe_add]

open Classical in
/-- The sum of the four indicators exceeds 3/2 exactly when at least two members are within the margin. -/
theorem count_iff : threeHalves < cntRow l (col g 0) ↔ 2 ≤ cnt l g := by
  rw [cntRow_col0, threeHalves_eq, EReal.coe_lt_coe_iff]
  unfold cnt
  by_cases h0 : within l g 0 <;> by_cases h1 : within l g 1 <;> by_cases h2 : within l g 2 <;>
    by_cases h3 : within l g 3 <;> simp only [h0, h1, h2, h3, if_true, if_false] <;> norm_num

/-- THE ROW: the kernel's computation on a row is the specification's canonical overwrite of it. -/
theorem kerRow_eq_canonRow (q : Fin 64) : kerRow l q = canonRow l q := by
  unfold kerRow canonRow
  by_cases h4 : q.val % 4 = 0
  · obtain ⟨g, rfl⟩ : ∃ g : Fin 16, q = col g 0 :=
      ⟨grp q, Fin.ext (by rw [col_val0]; show q.val = 4 * (q.val / 4); omega)⟩
    have hg : grp (col g 0) = g := Fin.ext (by show (col g 0).val / 4 = g.val; rw [col_val0]; omega)
    rw [hg, mxRow_col0]
    exact if_congr (and_congr Iff.rfl (count_iff l g)) rfl rfl
  · rw [if_neg (fun h => h4 h.1), if_neg (fun h => h4 h.1)]

end Cert.KernelIdeal.KValue

end
-- ==== Proof.KerVec.lean ====
/-
  The kernel's row computation carried by whole [1024, 64] blocks: each vector operation of the body read at
  row `p`, column `q`.

  A rotation along the columns by `s` reads, at column `q`, the operand's column `q - s` around the row of 64;
  the lane number at column `q` is `q`, so the three masks "lane and 1 is 0", "lane and 2 is 0", "lane and 3
  is 0" are "q is even", "bit 1 of q is clear", "q is divisible by four". Row by row the block computation
  is therefore the row computation `kerRow`.
-/
import Idealize.ShloMosaic.Lib.ValueIdx
import proofs.«144457_g41274635714715_cont_8to1_b_145_24_alg».proof.Proof.KerRow

noncomputable section

namespace Cert.KernelIdeal.KValue

open Idealize.ShloMosaic Idealize.ShloMosaic.ValueIdx Cert.RouterSpec

/-- The shape of a block of logits: 1024 rows of 64 columns. -/
abbrev SB : Shape := ⟨2, ![1024, 64]⟩

/-- Row `p` of a block. -/
def row {α : Type} (v : SB.Idx → α) (p : Fin 1024) : Fin 64 → α := fun e => v (ix2 p e)

/-! ## A rotation along the columns, read at an index -/

/-- A rotation along the columns reads, at column `q`, the operand's column `q` moved back by the amount around the row. -/
theorem rot_apply {α : Type} (sb : BitVec 32) (v : SB.Idx → α) (h : SB.Rotates 1 none) (p : Fin 1024) (q : Fin 64) :
    dynamicRotate 1 sb none v h (ix2 p q)
      = v (ix2 p ⟨(q.val + 64 - sb.toNat % 64) % 64, Nat.mod_lt _ (by decide)⟩) := by
  unfold dynamicRotate
  refine congrArg v (funext fun b => ?_)
  match b with
  | ⟨0, _⟩ => rfl
  | ⟨1, _⟩ =>
    refine Fin.ext ?_
    show (q.val + 64 - (sb.toNat + 0) % 64) % 64 = (q.val + 64 - sb.toNat % 64) % 64
    rfl

/-- Moving back by `sb` is moving forward by `s` when the two add up to the row's length. -/
theorem rot_nx {α : Type} (sb : BitVec 32) (s : ℕ) (hs : sb.toNat % 64 + s = 64) (v : SB.Idx → α) (h : SB.Rotates 1 none)
    (p : Fin 1024) (q : Fin 64) : dynamicRotate 1 sb none v h (ix2 p q) = v (ix2 p (nx s q)) := by
  rw [rot_apply]
  refine congrArg v (congrArg (ix2 p) (Fin.ext ?_))
  rw [nx_val]
  show (q.val + 64 - sb.toNat % 64) % 64 = (q.val + s) % 64
  have := q.isLt
  omega

/-! ## The lane number and the three masks -/

/-- The lane number at column `q` is `q`. -/
theorem lane_apply (hi : SB.Iotas .tc 32 [1]) (p : Fin 1024) (q : Fin 64) :
    iota .tc SB 32 [1] hi (ix2 p q) = BitVec.ofNat 32 q.val := by
  show BitVec.ofNat 32 (0 * 64 + q.val) = _
  rw [Nat.zero_mul, Nat.zero_add]

theorem bit0_clear : ∀ q : Fin 64, IntOp.cmpi .eq (IntOp.andi (BitVec.ofNat 32 q.val) 1#32) 0#32 = 1#1 ↔ q.val % 2 = 0 := by
  decide +kernel
theorem bit1_clear : ∀ q : Fin 64, IntOp.cmpi .eq (IntOp.andi (BitVec.ofNat 32 q.val) 2#32) 0#32 = 1#1 ↔ q.val / 2 % 2 = 0 := by
  decide +kernel
theorem low2_clear : ∀ q : Fin 64, IntOp.cmpi .eq (IntOp.andi (BitVec.ofNat 32 q.val) 3#32) 0#32 = 1#1 ↔ q.val % 4 = 0 := by
  decide +kernel

/-- A select on the mask "lane and `k` is 0", read at an index, is the `if` on what the mask says of the column. -/
theorem select_lane_apply {α : Type} (hi : SB.Iotas .tc 32 [1]) (k : BitVec 32) (P : Fin 64 → Prop) [DecidablePred P]
    (hk : ∀ q : Fin 64, IntOp.cmpi .eq (IntOp.andi (BitVec.ofNat 32 q.val) k) 0#32 = 1#1 ↔ P q)
    (a b : SB.Idx → α) (p : Fin 1024) (q : Fin 64) :
    select (cmpi .eq (andi (iota .tc SB 32 [1] hi) (broadcast SB k)) (broadcast SB 0#32)) a b (ix2 p q)
      = if P q then a (ix2 p q) else b (ix2 p q) := by
  show Scalar.select (IntOp.cmpi .eq (IntOp.andi (iota .tc SB 32 [1] hi (ix2 p q)) k) 0#32) _ _ = _
  rw [lane_apply]
  exact if_congr (hk q) rfl rfl

/-! ## The body's vector operations -/

section Vec
variable (h : SB.Rotates 1 none) (hi : SB.Iotas .tc 32 [1]) (hlt : 1 < 32)

/-- The partner one place away, for a whole block. -/
def partner1 {α : Type} (v : SB.Idx → α) : SB.Idx → α :=
  select (cmpi .eq (andi (iota .tc SB 32 [1] hi) (broadcast SB 1#32)) (broadcast SB 0#32))
    (dynamicRotate 1 63#32 none v h) (dynamicRotate 1 1#32 none v h)

/-- The partner two places away, for a whole block. -/
def partner2 {α : Type} (v : SB.Idx → α) : SB.Idx → α :=
  select (cmpi .eq (andi (iota .tc SB 32 [1] hi) (broadcast SB 2#32)) (broadcast SB 0#32))
    (dynamicRotate 1 62#32 none v h) (dynamicRotate 1 2#32 none v h)

theorem partner1_row {α : Type} (v : SB.Idx → α) (p : Fin 1024) : row (partner1 h hi v) p = pair1 (row v p) := by
  funext q
  show partner1 h hi v (ix2 p q) = _
  unfold partner1
  rw [select_lane_apply hi 1#32 (fun q => q.val % 2 = 0) bit0_clear, rot_nx 63#32 1 rfl, rot_nx 1#32 63 rfl]
  rfl

theorem partner2_row {α : Type} (v : SB.Idx → α) (p : Fin 1024) : row (partner2 h hi v) p = pair2 (row v p) := by
  funext q
  show partner2 h hi v (ix2 p q) = _
  unfold partner2
  rw [select_lane_apply hi 2#32 (fun q => q.val / 2 % 2 = 0) bit1_clear, rot_nx 62#32 2 rfl, rot_nx 2#32 62 rfl]
  rfl

/-- The larger of a block and its partner one place away. -/
def yVec (L : FVec Ideal SB .f32) : FVec Ideal SB .f32 := maximumf L (partner1 h hi L)
/-- The larger of that and the same two places away. -/
def mxVec (L : FVec Ideal SB .f32) : FVec Ideal SB .f32 := maximumf (yVec h hi L) (partner2 h hi (yVec h hi L))
/-- The 0/1 indicator "within the margin of the maximum", as a float. -/
def wVec (L : FVec Ideal SB .f32) : FVec Ideal SB .f32 :=
  sitofp .f32 (extui 32 (cmpf .olt (subf (mxVec h hi L) L) (broadcast SB (Scalar.ofBits (F := Ideal) .f32 0x3DCCCCCD#32))) hlt)
/-- The indicator plus the partner's one place away. -/
def cVec (L : FVec Ideal SB .f32) : FVec Ideal SB .f32 := addf (wVec h hi hlt L) (partner1 h hi (wVec h hi hlt L))
/-- That plus the same two places away. -/
def cntVec (L : FVec Ideal SB .f32) : FVec Ideal SB .f32 := addf (cVec h hi hlt L) (partner2 h hi (cVec h hi hlt L))
/-- The block the body stores. -/
def kerVec (L : FVec Ideal SB .f32) : FVec Ideal SB .f32 :=
  select (andi (cmpi .eq (andi (iota .tc SB 32 [1] hi) (broadcast SB 3#32)) (broadcast SB 0#32))
      (cmpf .ogt (cntVec h hi hlt L) (broadcast SB (Scalar.ofBits (F := Ideal) .f32 0x3FC00000#32))))
    (addf (mxVec h hi L) (broadcast SB (Scalar.ofBits (F := Ideal) .f32 0x38D1B717#32))) L

variable (L : FVec Ideal SB .f32) (p : Fin 1024)

theorem yVec_row : row (yVec h hi L) p = yRow (row L p) := by
  funext q
  show max (L (ix2 p q)) (row (partner1 h hi L) p q) = _
  rw [partner1_row]
  rfl

theorem mxVec_row : row (mxVec h hi L) p = mxRow (row L p) := by
  funext q
  show max (row (yVec h hi L) p q) (row (partner2 h hi (yVec h hi L)) p q) = _
  rw [partner2_row, yVec_row]
  rfl

/-- A comparison "less than", widened to 32 bits and converted to a float, is 1 or 0. -/
theorem indicator_apply (a b : EReal) :
    FloatOps.sitofp (F := Ideal) .f32 ((FloatOps.cmpf (F := Ideal) (φ := .f32) .olt a b).setWidth 32)
      = (((if a < b then (1 : ℝ) else 0) : ℝ) : EReal) := by
  show ((((BitVec.ofBool (decide (a < b))).setWidth 32).toInt : ℝ) : EReal) = _
  by_cases hab : a < b
  · rw [if_pos hab, decide_eq_true hab]
    have e : (BitVec.setWidth 32 (BitVec.ofBool true)).toInt = 1 := by decide
    rw [e, Int.cast_one]
  · rw [if_neg hab, decide_eq_false hab]
    have e : (BitVec.setWidth 32 (BitVec.ofBool false)).toInt = 0 := by decide
    rw [e, Int.cast_zero]

theorem wVec_row : row (wVec h hi hlt L) p = wRow (row L p) := by
  funext q
  show FloatOps.sitofp (F := Ideal) .f32 ((FloatOps.cmpf (F := Ideal) (φ := .f32) .olt
    (row (mxVec h hi L) p q - L (ix2 p q)) (Ideal.ofBits .f32 0x3DCCCCCD#32)).setWidth 32) = _
  rw [indicator_apply, mxVec_row]
  unfold wRow margin
  by_cases hw : mxRow (row L p) q - L (ix2 p q) < Ideal.ofBits .f32 0x3DCCCCCD#32
  · rw [if_pos hw, if_pos (show mxRow (row L p) q - row L p q < _ from hw)]
  · rw [if_neg hw, if_neg (show ¬ mxRow (row L p) q - row L p q < _ from hw)]

theorem cVec_row : row (cVec h hi hlt L) p = cRow (row L p) := by
  funext q
  show row (wVec h hi hlt L) p q + row (partner1 h hi (wVec h hi hlt L)) p q = _
  rw [partner1_row, wVec_row]
  rfl

theorem cntVec_row : row (cntVec h hi hlt L) p = cntRow (row L p) := by
  funext q
  show row (cVec h hi hlt L) p q + row (partner2 h hi (cVec h hi hlt L)) p q = _
  rw [partner2_row, cVec_row]
  rfl

/-- Two one-bit conditions and-ed are 1 exactly when both are. -/
theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- A comparison "greater than" is 1 exactly when the order says so. -/
theorem ogt_eq_one_iff (a b : EReal) : FloatOps.cmpf (F := Ideal) (φ := .f32) .ogt a b = 1#1 ↔ b < a := by
  show BitVec.ofBool (decide (b < a)) = 1#1 ↔ _
  by_cases hba : b < a
  · rw [decide_eq_true hba]; exact iff_of_true rfl hba
  · rw [decide_eq_false hba]; exact iff_of_false (by decide) hba

/-- ROW BY ROW the block the body stores is the row computation of the block of logits. -/
theorem kerVec_row : row (kerVec h hi hlt L) p = kerRow (row L p) := by
  funext q
  show Scalar.select (IntOp.andi (IntOp.cmpi .eq (IntOp.andi (iota .tc SB 32 [1] hi (ix2 p q)) 3#32) 0#32)
      (FloatOps.cmpf (F := Ideal) (φ := .f32) .ogt (row (cntVec h hi hlt L) p q) (Ideal.ofBits .f32 0x3FC00000#32)))
    (row (mxVec h hi L) p q + Ideal.ofBits .f32 0x38D1B717#32) (L (ix2 p q)) = _
  rw [lane_apply, cntVec_row, mxVec_row]
  unfold kerRow
  exact if_congr ((andi_eq_one_iff _ _).trans (and_congr (low2_clear q) (ogt_eq_one_iff _ _))) rfl rfl

end Vec

end Cert.KernelIdeal.KValue

end
-- ==== Proof.KerPayload.lean ====
/-
  The body's stored block, read at row `p` and column `q` of the block.

  The body first forms the block of logits: the rows of the `x` block against the rows of `W` (a product
  contracting both operands' second axis, into a zero accumulator) plus the bias row broadcast down the
  rows. Everything after that is the row computation of `KerVec`, so the stored block at (p, q) is the
  specification's canonical overwrite of row `p` of the logits, at column `q`.
-/
import proofs.«144457_g41274635714715_cont_8to1_b_145_24_alg».proof.Proof.Gen.KernelIdeal.Skeleton
import proofs.«144457_g41274635714715_cont_8to1_b_145_24_alg».proof.Proof.KerVec
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx Cert.RouterSpec

/-- The product of the `x` block with the rows of `W`, into a zero accumulator, read at (p, e): the sum over the 4096
    features of the products of row `p` of the block and row `e` of `W`. -/
theorem product_apply (x0 : FVec Ideal S1024x4096 .f32) (x1 : FVec Ideal S64x4096 .f32) (p : Fin 1024) (e : Fin 64) :
    matmul (F := Ideal) dot_S1024x4096_S64x4096_S1024x64_1_1_0_0_n_n none x0 x1 (constant S1024x64 .f32 0x00000000#32) (ix2 p e)
      = ∑ k : Fin 4096, x0 (ix2 p k) * x1 (ix2 e k) := by
  show FloatOps.matmul (F := Ideal) dot_S1024x4096_S64x4096_S1024x64_1_1_0_0_n_n none x0 x1 (constant S1024x64 .f32 0x00000000#32) (ix2 p e) = _
  rw [Ideal.matmul_constant_zero_apply,
    ← Equiv.sum_comp (contrEquiv1 dot_S1024x4096_S64x4096_S1024x64_1_1_0_0_n_n 4096 rfl rfl).symm]
  refine Finset.sum_congr rfl fun k _ => ?_
  have ck := contrEquiv1_symm_val dot_S1024x4096_S64x4096_S1024x64_1_1_0_0_n_n 4096 rfl rfl k
  have hl : dot_S1024x4096_S64x4096_S1024x64_1_1_0_0_n_n.lhsIdx (ix2 p e)
      ((contrEquiv1 dot_S1024x4096_S64x4096_S1024x64_1_1_0_0_n_n 4096 rfl rfl).symm k) = ix2 p k := by
    funext ax; apply Fin.ext
    match ax with
    | ⟨0, _⟩ => simp [DotDims.lhsIdx, dot_S1024x4096_S64x4096_S1024x64_1_1_0_0_n_n]; rfl
    | ⟨1, _⟩ => simp [DotDims.lhsIdx, dot_S1024x4096_S64x4096_S1024x64_1_1_0_0_n_n]; exact ck
  have hr : dot_S1024x4096_S64x4096_S1024x64_1_1_0_0_n_n.rhsIdx (ix2 p e)
      ((contrEquiv1 dot_S1024x4096_S64x4096_S1024x64_1_1_0_0_n_n 4096 rfl rfl).symm k) = ix2 e k := by
    funext ax; apply Fin.ext
    match ax with
    | ⟨0, _⟩ => simp [DotDims.rhsIdx, dot_S1024x4096_S64x4096_S1024x64_1_1_0_0_n_n]; rfl
    | ⟨1, _⟩ => simp [DotDims.rhsIdx, dot_S1024x4096_S64x4096_S1024x64_1_1_0_0_n_n]; exact ck
  rw [hl, hr]

/-- The bias row broadcast down the rows, read at (p, e): the bias at `e`. -/
theorem bias_apply (x2 : Vec Ideal S1x64 .f32) (p : Fin 1024) (e : Fin 64) :
    broadcastTo S1024x64 (shapeCast S1x64 x2 Facts₀.shapeCasts_S1x64_S1x64) Facts₀.broadcasts_S1x64_S1024x64 (ix2 p e)
      = x2 (ix2 (0 : Fin 1) e) := by
  rw [shapeCast_self]
  exact broadcastTo_apply x2 _ (ix2 p e) (ix2 (0 : Fin 1) e) (fun a => by
    match a with
    | ⟨0, _⟩ => rfl
    | ⟨1, _⟩ => rfl)

/-- THE BLOCK OF LOGITS at (p, e). -/
theorem logits_apply (x0 : Vec Ideal S1024x4096 .f32) (x1 : Vec Ideal S64x4096 .f32) (x2 : Vec Ideal S1x64 .f32)
    (p : Fin 1024) (e : Fin 64) :
    k0_pay2 x0 x1 x2 (ix2 p e) = (∑ k : Fin 4096, x0 (ix2 p k) * x1 (ix2 e k)) + x2 (ix2 (0 : Fin 1) e) := by
  unfold k0_pay2
  show matmul (F := Ideal) dot_S1024x4096_S64x4096_S1024x64_1_1_0_0_n_n none x0 x1 (constant S1024x64 .f32 0x00000000#32) (ix2 p e)
    + broadcastTo S1024x64 (shapeCast S1x64 x2 Facts₀.shapeCasts_S1x64_S1x64) Facts₀.broadcasts_S1x64_S1024x64 (ix2 p e) = _
  rw [product_apply x0 x1 p e, bias_apply x2 p e]

/-- The stored block is the row computation's block of the block of logits. -/
theorem stored_eq_kerVec (x0 : Vec Ideal S1024x4096 .f32) (x1 : Vec Ideal S64x4096 .f32) (x2 : Vec Ideal S1x64 .f32) :
    k0_pay1 (k0_pay2 x0 x1 x2) (iota .tc S1024x64 32 [1] Facts₀.iota_S1024x64_d1_w32) (k0_pay5 x0 x1 x2) (k0_pay6 x0 x1 x2) k0_pay7
      = kerVec Facts₀.rotates_S1024x64_d1 Facts₀.iota_S1024x64_d1_w32 Facts₀.natLt_1_32 (k0_pay2 x0 x1 x2) := rfl

/-- THE STORED BLOCK at (p, q): the canonical overwrite of row `p` of the logits, at column `q`. -/
theorem stored_apply (x0 : Vec Ideal S1024x4096 .f32) (x1 : Vec Ideal S64x4096 .f32) (x2 : Vec Ideal S1x64 .f32)
    (p : Fin 1024) (q : Fin 64) :
    k0_pay1 (k0_pay2 x0 x1 x2) (iota .tc S1024x64 32 [1] Facts₀.iota_S1024x64_d1_w32) (k0_pay5 x0 x1 x2) (k0_pay6 x0 x1 x2) k0_pay7 (ix2 p q)
      = canonRow (fun e => (∑ k : Fin 4096, x0 (ix2 p k) * x1 (ix2 e k)) + x2 (ix2 (0 : Fin 1) e)) q := by
  rw [stored_eq_kerVec]
  refine (congrFun (kerVec_row Facts₀.rotates_S1024x64_d1 Facts₀.iota_S1024x64_d1_w32 Facts₀.natLt_1_32 (k0_pay2 x0 x1 x2) p) q).trans ?_
  rw [kerRow_eq_canonRow]
  exact congrArg (fun l => canonRow l q) (funext fun e => logits_apply x0 x1 x2 p e)

end Cert.KernelIdeal.KValue

end
-- ==== Proof.KerBlocks.lean ====
/-
  From the blocks to the whole array.

  The grid has 16 points. At point `t` the output window and the window on `x` both stand on rows
  `1024 t … 1024 t + 1023` (all columns); the windows on `W` and on the bias (as a [1, 64] array, which a
  reshape of the [64] argument wrote before the region) stand on their whole arrays at every point. So what
  point `t` writes back is block `t` of the specification's output array, and the 16 blocks cover the
  array: after the run the output array is the specification's.
-/
import proofs.«144457_g41274635714715_cont_8to1_b_145_24_alg».proof.Proof.Gen.KernelIdeal.Value
import proofs.«144457_g41274635714715_cont_8to1_b_145_24_alg».proof.Proof.KerPayload
import Idealize.ShloMosaic.Lib.Pipeline.Value

set_option maxRecDepth 16384

noncomputable section

namespace Cert.KernelIdeal.KValue

open Cert.KernelIdeal Cert.KernelIdeal.Gen Cert.KernelIdeal.Value Idealize.ShloMosaic Idealize.ShloMosaic.TcCoe Idealize.SL.Sem
open Idealize.ShloMosaic.ValueIdx Cert.RouterSpec
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The windows' block indices at every grid point, decided over the 16 points: the windows on `x` and on the output
    stand on block `t` of the rows, every other index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The [1, 64] array the bias window stands on is the reshape of the [64] argument. -/
theorem V_bias (c : Dev nD) : (V m c main_v0 : S1x64.Idx → EReal)
    = shapeCast S1x64 (m ((c : Thread nD τ).loc main_arg2) : S64.Idx → EReal) Facts₀.shapeCasts_S64_S1x64 := by
  dsimp only [Gen.V, Gen.hostOps0]
  after_results
  rfl

/-- The `x` window's block at point `t`, read at (p, k): the argument at row `1024 t + p`. -/
theorem xblock_apply (c : Dev nD) (t : Fin cfg0.N) (p : Fin 1024) (k : Fin 4096) (r : Fin 16384) (hr : r.val = 1024 * t.val + p.val) :
    (iblk m c 0 t : Vec Ideal S1024x4096 .f32) (ix2 p k)
      = (m ((c : Thread nD τ).loc main_arg0) : S16384x4096.Idx → EReal) (ix2 r k) := by
  obtain ⟨e0, e1, -⟩ := idx_facts t
  rw [← V_main_arg0 m c]
  unfold iblk
  rw [View.read_apply]
  show (V m c main_arg0 : S16384x4096.Idx → EReal) _ = (V m c main_arg0 : S16384x4096.Idx → EReal) _
  refine congrArg (V m c main_arg0 : S16384x4096.Idx → EReal) (funext fun a => Fin.ext ?_)
  match a with
  | ⟨0, _⟩ => show win0_0.index t (0 : Fin 2) * 1024 + 1 * p.val = r.val; rw [e0, hr]; omega
  | ⟨1, _⟩ => show win0_0.index t (1 : Fin 2) * 4096 + 1 * k.val = k.val; rw [e1]; omega

/-- The `W` window's block at any point is the whole argument. -/
theorem wblock_apply (c : Dev nD) (t : Fin cfg0.N) (e : Fin 64) (k : Fin 4096) :
    (iblk m c 1 t : Vec Ideal S64x4096 .f32) (ix2 e k)
      = (m ((c : Thread nD τ).loc main_arg1) : S64x4096.Idx → EReal) (ix2 e k) := by
  obtain ⟨-, -, e2, e3, -⟩ := idx_facts t
  rw [← V_main_arg1 m c]
  unfold iblk
  rw [View.read_apply]
  show (V m c main_arg1 : S64x4096.Idx → EReal) _ = (V m c main_arg1 : S64x4096.Idx → EReal) _
  refine congrArg (V m c main_arg1 : S64x4096.Idx → EReal) (funext fun a => Fin.ext ?_)
  match a with
  | ⟨0, _⟩ => show win0_1.index t (0 : Fin 2) * 64 + 1 * e.val = e.val; rw [e2]; omega
  | ⟨1, _⟩ => show win0_1.index t (1 : Fin 2) * 4096 + 1 * k.val = k.val; rw [e3]; omega

/-- The bias window's block at any point, read at (0, e): the bias argument at `e`. -/
theorem bblock_apply (c : Dev nD) (t : Fin cfg0.N) (e : Fin 64) :
    (iblk m c 2 t : Vec Ideal S1x64 .f32) (ix2 (0 : Fin 1) e)
      = (m ((c : Thread nD τ).loc main_arg2) : S64.Idx → EReal) (ix1 e) := by
  obtain ⟨-, -, -, -, e4, e5, -⟩ := idx_facts t
  unfold iblk
  rw [View.read_apply]
  show (V m c main_v0 : S1x64.Idx → EReal) _ = _
  have hi : (((cfg0.win 2).blk t).view.emb (ix2 (0 : Fin 1) e) : S1x64.Idx) = ix2 (0 : Fin 1) e := by
    funext a; apply Fin.ext
    match a with
    | ⟨0, _⟩ => show win0_2.index t (0 : Fin 2) * 1 + 1 * 0 = 0; rw [e4]
    | ⟨1, _⟩ => show win0_2.index t (1 : Fin 2) * 64 + 1 * e.val = e.val; rw [e5]; omega
  rw [hi, V_bias]
  exact shapeCast_apply _ _ (ix2 (0 : Fin 1) e) (ix1 e) (by
    rw [Shape.rowMajor_val_one, Shape.rowMajor_val_two]
    show e.val = 0 * 64 + e.val
    omega)

/-- The stored block at (p, q), over any three blocks that read the three arrays as the windows do at one point:
    the specification's output at row `r`, column `q`. -/
theorem stored_at (x0 : Vec Ideal S1024x4096 .f32) (x1 : Vec Ideal S64x4096 .f32) (x2 : Vec Ideal S1x64 .f32)
    (A : S16384x4096.Idx → EReal) (B : S64x4096.Idx → EReal) (C : S64.Idx → EReal)
    (p : Fin 1024) (q : Fin 64) (r : Fin 16384)
    (h0 : ∀ k : Fin 4096, x0 (ix2 p k) = A (ix2 r k)) (h1 : ∀ (e : Fin 64) (k : Fin 4096), x1 (ix2 e k) = B (ix2 e k))
    (h2 : ∀ e : Fin 64, x2 (ix2 (0 : Fin 1) e) = C (ix1 e)) :
    k0_pay1 (k0_pay2 x0 x1 x2) (iota .tc S1024x64 32 [1] Facts₀.iota_S1024x64_d1_w32) (k0_pay5 x0 x1 x2) (k0_pay6 x0 x1 x2) k0_pay7 (ix2 p q)
      = out A B C (ix2 r q) := by
  rw [stored_apply]
  show canonRow _ q = canonRow (fun e => logit A B C r e) q
  refine congrArg (fun l => canonRow l q) (funext fun e => ?_)
  unfold logit
  rw [h2 e]
  exact congrArg (· + C (ix1 e)) (Finset.sum_congr rfl fun k _ => by rw [h0 k, h1 e k])

/-- WHAT POINT `t` WRITES BACK is block `t` of the specification's output array. -/
theorem flushed_eq (c : Dev nD) (t : Fin cfg0.N) :
    (dats m 0 c).flushed 3 t = ((cfg0.win 3).blk t).view.read (Elt Ideal)
      (out (m ((c : Thread nD τ).loc main_arg0)) (m ((c : Thread nD τ).loc main_arg1)) (m ((c : Thread nD τ).loc main_arg2))) := by
  rw [Value.flushed3]
  unfold out0_3
  rw [View.canon_unit_zero zero_offsets]
  simp only [View.ld_unit_zero (S := S1024x4096) zero_offsets, View.ld_unit_zero (S := S64x4096) zero_offsets,
    View.ld_unit_zero (S := S1x64) zero_offsets]
  obtain ⟨-, -, -, -, -, -, e6, e7⟩ := idx_facts t
  have hN : cfg0.N = 16 := N_0
  have ht : t.val < cfg0.N := t.isLt
  funext j
  obtain ⟨p, q, rfl⟩ : ∃ (p : Fin 1024) (q : Fin 64), j = ix2 p q := ⟨j 0, j 1, eq_ix2 j⟩
  have hp : p.val < 1024 := p.isLt
  have hi : (((cfg0.win 3).blk t).view.emb (ix2 p q) : S16384x64.Idx)
      = ix2 (⟨1024 * t.val + p.val, by omega⟩ : Fin 16384) q := by
    funext a; apply Fin.ext
    match a with
    | ⟨0, _⟩ => show win0_3.index t (0 : Fin 2) * 1024 + 1 * p.val = 1024 * t.val + p.val; rw [e6]; omega
    | ⟨1, _⟩ => show win0_3.index t (1 : Fin 2) * 64 + 1 * q.val = q.val; rw [e7]; omega
  refine (stored_at (iblk m c 0 t) (iblk m c 1 t) (iblk m c 2 t) _ _ _ p q ⟨1024 * t.val + p.val, by omega⟩
    (fun k => xblock_apply m c t p k _ rfl) (fun e k => wblock_apply m c t e k) (fun e => bblock_apply m c t e)).trans ?_
  rw [View.read_apply]
  exact (congrArg (out (m ((c : Thread nD τ).loc main_arg0)) (m ((c : Thread nD τ).loc main_arg1)) (m ((c : Thread nD τ).loc main_arg2))) hi).symm

/-- An index of the output array is in point `t`'s block iff each coordinate is in the block's range on its axis. -/
theorem mem_blk (t : Fin cfg0.N) (i : S16384x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v1).slice (win0_3.rect t)).set ↔ _
  rw [View.set_slice_whole, Rect.mem_set_unit]
  exact Iff.rfl

/-- The 16 blocks cover the output array: row `r` is in the block of point `r / 1024`. -/
theorem cover (i : S16384x64.Idx) : ∃ t : Fin cfg0.N, (cfg0.win 3).flush t = true ∧ i ∈ ((cfg0.win 3).blk t).view.set := by
  have hN : cfg0.N = 16 := N_0
  have hi0 : (i 0).val < 16384 := (i 0).isLt
  have hi1 : (i 1).val < 64 := (i 1).isLt
  have htlt : (i 0).val / 1024 < cfg0.N := by rw [hN]; omega
  obtain ⟨-, -, -, -, -, -, e6, e7⟩ := idx_facts ⟨(i 0).val / 1024, htlt⟩
  refine ⟨⟨(i 0).val / 1024, htlt⟩, flush0_3 _, ?_⟩
  rw [mem_blk]
  intro a
  match a with
  | ⟨0, _⟩ =>
    show win0_3.index ⟨(i 0).val / 1024, htlt⟩ (0 : Fin 2) * 1024 ≤ (i 0).val
      ∧ (i 0).val < win0_3.index ⟨(i 0).val / 1024, htlt⟩ (0 : Fin 2) * 1024 + 1024
    rw [e6]
    show (i 0).val / 1024 * 1024 ≤ (i 0).val ∧ (i 0).val < (i 0).val / 1024 * 1024 + 1024
    omega
  | ⟨1, _⟩ =>
    show win0_3.index ⟨(i 0).val / 1024, htlt⟩ (1 : Fin 2) * 64 ≤ (i 1).val
      ∧ (i 1).val < win0_3.index ⟨(i 0).val / 1024, htlt⟩ (1 : Fin 2) * 64 + 64
    rw [e7]
    omega

/-- THE ARRAY after the run is the specification's output of the three arguments. -/
theorem final (c : Dev nD) : (dats m 0 c).arrAt 3 cfg0.N
    = out (m ((c : Thread nD τ).loc main_arg0)) (m ((c : Thread nD τ).loc main_arg1)) (m ((c : Thread nD τ).loc main_arg2)) :=
  (dats m 0 c).arrAt_eq_of_cover 3 _ (fun t _ => flushed_eq m c t) cover

end Cert.KernelIdeal.KValue

end
-- ==== Proof.KerRun.lean ====
/-
  The kernel's run, read: every weakly fair execution of the idealized kernel's @main terminates with the output
  array at the specification's canonical overwrite of the logits `x · Wᵀ + b`, and the three arguments unchanged.
-/
import proofs.«144457_g41274635714715_cont_8to1_b_145_24_alg».proof.Proof.KerBlocks

noncomputable section

namespace Cert.KernelIdeal.KValue

open Cert.KernelIdeal Cert.KernelIdeal.Gen Idealize.ShloMosaic Idealize.ShloMosaic.TcCoe Idealize.SL.Sem

/-- The frame run re-posted: the output array at the specification's function of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v1)
          = Cert.RouterSpec.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KValue

end
-- ==== Proof.RefOps.lean ====
/-
  The reference program's @main as lists of its host operations, copied line by line from the printed program:
  the twenty-one operations that compute the logits and the sixteen tables of column numbers, then the thirty-six
  operations of each of the sixteen classes (the call of the outlined where-function written as its one select over
  the call's buffer).
-/
import proofs.«144457_g41274635714715_cont_8to1_b_145_24_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The sixteen tables of column numbers, and the logits: transpose, dot_general, the bias broadcast twice, the sum. -/
abbrev pre : List (HloOp τ sig (Elt F)) :=
  [ StableHlo.nullary main_c (fun i => lit0 (S4.rowMajor i)),
    StableHlo.nullary main_c_0 (fun i => lit1 (S4.rowMajor i)),
    StableHlo.nullary main_c_1 (fun i => lit2 (S4.rowMajor i)),
    StableHlo.nullary main_c_2 (fun i => lit3 (S4.rowMajor i)),
    StableHlo.nullary main_c_3 (fun i => lit4 (S4.rowMajor i)),
    StableHlo.nullary main_c_4 (fun i => lit5 (S4.rowMajor i)),
    StableHlo.nullary main_c_5 (fun i => lit6 (S4.rowMajor i)),
    StableHlo.nullary main_c_6 (fun i => lit7 (S4.rowMajor i)),
    StableHlo.nullary main_c_7 (fun i => lit8 (S4.rowMajor i)),
    StableHlo.nullary main_c_8 (fun i => lit9 (S4.rowMajor i)),
    StableHlo.nullary main_c_9 (fun i => lit10 (S4.rowMajor i)),
    StableHlo.nullary main_c_10 (fun i => lit11 (S4.rowMajor i)),
    StableHlo.nullary main_c_11 (fun i => lit12 (S4.rowMajor i)),
    StableHlo.nullary main_c_12 (fun i => lit13 (S4.rowMajor i)),
    StableHlo.nullary main_c_13 (fun i => lit14 (S4.rowMajor i)),
    StableHlo.nullary main_c_14 (fun i => lit15 (S4.rowMajor i)),
    StableHlo.unary main_arg1 main_v0 ((transpose S4096x64 [1, 0] · transposes_S64x4096_S4096x64_1_0) : (⟨S64x4096, .f32⟩ : BufTy).Contents (Elt F) → (⟨S4096x64, .f32⟩ : BufTy).Contents (Elt F)),
    StableHlo.binary main_arg0 main_v0 main_v1 ((fun l r => Host.dotGeneral dot_S16384x4096_S4096x64_S16384x64_1_0_0_1_n_n none l r) : (⟨S16384x4096, .f32⟩ : BufTy).Contents (Elt F) → (⟨S4096x64, .f32⟩ : BufTy).Contents (Elt F) → (⟨S16384x64, .f32⟩ : BufTy).Contents (Elt F)),
    StableHlo.unary main_arg2 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S16384x64 ![0, 1] bcast_S1x64_S16384x64_0_1 : (⟨S1x64, .f32⟩ : BufTy).Contents (Elt F) → (⟨S16384x64, .f32⟩ : BufTy).Contents (Elt F)),
    StableHlo.binary main_v1 main_v3 main_v4 (addf : (⟨S16384x64, .f32⟩ : BufTy).Contents (Elt F) → (⟨S16384x64, .f32⟩ : BufTy).Contents (Elt F) → (⟨S16384x64, .f32⟩ : BufTy).Contents (Elt F)) ]

/-- Class 0's thirty-six operations (columns 0 to 3). -/
abbrev cls0 : List (HloOp τ sig (Elt F)) :=
  [ StableHlo.nullary main_c_15 (constantI S_ 32 0#32),
    StableHlo.unary main_c_15 main_v5 (broadcastInDim S4 ![] bcast_S_S4 : (⟨S_, .i32⟩ : BufTy).Contents (Elt F) → (⟨S4, .i32⟩ : BufTy).Contents (Elt F)),
    StableHlo.binary main_c main_v5 main_v6 (cmpi .slt : (⟨S4, .i32⟩ : BufTy).Contents (Elt F) → (⟨S4, .i32⟩ : BufTy).Contents (Elt F) → (⟨S4, .i1⟩ : BufTy).Contents (Elt F)),
    StableHlo.nullary main_c_16 (constantI S_ 32 64#32),
    StableHlo.unary main_c_16 main_v7 (broadcastInDim S4 ![] bcast_S_S4 : (⟨S_, .i32⟩ : BufTy).Contents (Elt F) → (⟨S4, .i32⟩ : BufTy).Contents (Elt F)),
    StableHlo.binary main_c main_v7 main_v8 (addi : (⟨S4, .i32⟩ : BufTy).Contents (Elt F) → (⟨S4, .i32⟩ : BufTy).Contents (Elt F) → (⟨S4, .i32⟩ : BufTy).Contents (Elt F)),
    StableHlo.ternary main_v6 main_v8 main_c main_v9 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v9 main_v10 (broadcastInDim S4x1 ![0] bcast_S4_S4x1_0 : (⟨S4, .i32⟩ : BufTy).Contents (Elt F) → (⟨S4x1, .i32⟩ : BufTy).Contents (Elt F)),
    StableHlo.binary main_v4 main_v10 main_v11 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst (constant S_ .f32 0xFF800000#32),
    StableHlo.binary main_v11 main_cst main_v12 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v12 main_v13 (broadcastInDim S16384x1 ![0] bcast_S16384_S16384x1_0 : (⟨S16384, .f32⟩ : BufTy).Contents (Elt F) → (⟨S16384x1, .f32⟩ : BufTy).Contents (Elt F)),
    StableHlo.unary main_v13 main_v14 (broadcastInDim S16384x4 ![0, 1] bcast_S16384x1_S16384x4_0_1 : (⟨S16384x1, .f32⟩ : BufTy).Contents (Elt F) → (⟨S16384x4, .f32⟩ : BufTy).Contents (Elt F)),
    StableHlo.binary main_v14 main_v11 main_v15 (subf : (⟨S16384x4, .f32⟩ : BufTy).Contents (Elt F) → (⟨S16384x4, .f32⟩ : BufTy).Contents (Elt F) → (⟨S16384x4, .f32⟩ : BufTy).Contents (Elt F)),
    StableHlo.nullary main_cst_17 (constant S_ .f32 0x3DCCCCCD#32),
    StableHlo.unary main_cst_17 main_v16 (broadcastInDim S16384x4 ![] bcast_S_S16384x4 : (⟨S_, .f32⟩ : BufTy).Contents (Elt F) → (⟨S16384x4, .f32⟩ : BufTy).Contents (Elt F)),
    StableHlo.binary main_v15 main_v16 main_v17 (cmpf .olt : (⟨S16384x4, .f32⟩ : BufTy).Contents (Elt F) → (⟨S16384x4, .f32⟩ : BufTy).Contents (Elt F) → (⟨S16384x4, .i1⟩ : BufTy).Contents (Elt F)),
    StableHlo.nullary main_c_18 (constantI S_ 1 0#1),
    StableHlo.binary main_v17 main_c_18 main_v18 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v17 main_v19 ((extui 32 · natLt_1_32) : (⟨S16384x4, .i1⟩ : BufTy).Contents (Elt F) → (⟨S16384x4, .i32⟩ : BufTy).Contents (Elt F)),
    StableHlo.nullary main_c_19 (constantI S_ 32 0#32),
    StableHlo.binary main_v19 main_c_19 main_v20 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_20 (constantI S_ 32 1#32),
    StableHlo.unary main_c_20 main_v21 (broadcastInDim S16384 ![] bcast_S_S16384 : (⟨S_, .i32⟩ : BufTy).Contents (Elt F) → (⟨S16384, .i32⟩ : BufTy).Contents (Elt F)),
    StableHlo.binary main_v20 main_v21 main_v22 (cmpi .sgt : (⟨S16384, .i32⟩ : BufTy).Contents (Elt F) → (⟨S16384, .i32⟩ : BufTy).Contents (Elt F) → (⟨S16384, .i1⟩ : BufTy).Contents (Elt F)),
    StableHlo.binary main_v18 main_v22 main_v23 (andi : (⟨S16384, .i1⟩ : BufTy).Contents (Elt F) → (⟨S16384, .i1⟩ : BufTy).Contents (Elt F) → (⟨S16384, .i1⟩ : BufTy).Contents (Elt F)),
    StableHlo.reshape main_v13 main_v24 rfl shapeCasts_S16384x1_S16384,
    StableHlo.nullary main_cst_21 (constant S_ .f32 0x38D1B717#32),
    StableHlo.unary main_cst_21 main_v25 (broadcastInDim S16384 ![] bcast_S_S16384 : (⟨S_, .f32⟩ : BufTy).Contents (Elt F) → (⟨S16384, .f32⟩ : BufTy).Contents (Elt F)),
    StableHlo.binary main_v24 main_v25 main_v26 (addf : (⟨S16384, .f32⟩ : BufTy).Contents (Elt F) → (⟨S16384, .f32⟩ : BufTy).Contents (Elt F) → (⟨S16384, .f32⟩ : BufTy).Contents (Elt F)),
    StableHlo.unary main_v4 main_v27 ((extractStridedSlice S16384x1 ![0, 0] · slices_S16384x64_S16384x1_0_0) : (⟨S16384x64, .f32⟩ : BufTy).Contents (Elt F) → (⟨S16384x1, .f32⟩ : BufTy).Contents (Elt F)),
    StableHlo.reshape main_v27 main_v28 rfl shapeCasts_S16384x1_S16384,
    StableHlo.TRef.ternary (.of main_v23) (.of main_v26) (.of main_v28) main_call0.v0 select,
    StableHlo.nullary main_c_22 (constantI S_ 32 0#32),
    StableHlo.unary main_c_22 main_v30 (broadcastInDim S1 ![] bcast_S_S1 : (⟨S_, .i32⟩ : BufTy).Contents (Elt F) → (⟨S1, .i32⟩ : BufTy).Contents (Elt F)),
    StableHlo.ternary main_v4 main_v30 main_v29 main_v31 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 1's thirty-six operations (columns 4 to 7). -/
abbrev cls1 : List (HloOp τ sig (Elt F)) :=
  [ StableHlo.nullary main_c_23 (constantI S_ 32 0#32),
    StableHlo.unary main_c_23 main_v32 (broadcastInDim S4 ![] bcast_S_S4 : (⟨S_, .i32⟩ : BufTy).Contents (Elt F) → (⟨S4, .i32⟩ : BufTy).Contents (Elt F)),
    StableHlo.binary main_c_0 main_v32 main_v33 (cmpi .slt : (⟨S4, .i32⟩ : BufTy).Contents (Elt F) → (⟨S4, .i32⟩ : BufTy).Contents (Elt F) → (⟨S4, .i1⟩ : BufTy).Contents (Elt F)),
    StableHlo.nullary main_c_24 (constantI S_ 32 64#32),
    StableHlo.unary main_c_24 main_v34 (broadcastInDim S4 ![] bcast_S_S4 : (⟨S_, .i32⟩ : BufTy).Contents (Elt F) → (⟨S4, .i32⟩ : BufTy).Contents (Elt F)),
    StableHlo.binary main_c_0 main_v34 main_v35 (addi : (⟨S4, .i32⟩ : BufTy).Contents (Elt F) → (⟨S4, .i32⟩ : BufTy).Contents (Elt F) → (⟨S4, .i32⟩ : BufTy).Contents (Elt F)),
    StableHlo.ternary main_v33 main_v35 main_c_0 main_v36 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v36 main_v37 (broadcastInDim S4x1 ![0] bcast_S4_S4x1_0 : (⟨S4, .i32⟩ : BufTy).Contents (Elt F) → (⟨S4x1, .i32⟩ : BufTy).Contents (Elt F)),
    StableHlo.binary main_v31 main_v37 main_v38 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_25 (constant S_ .f32 0xFF800000#32),
    StableHlo.binary main_v38 main_cst_25 main_v39 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v39 main_v40 (broadcastInDim S16384x1 ![0] bcast_S16384_S16384x1_0 : (⟨S16384, .f32⟩ : BufTy).Contents (Elt F) → (⟨S16384x1, .f32⟩ : BufTy).Contents (Elt F)),
    StableHlo.unary main_v40 main_v41 (broadcastInDim S16384x4 ![0, 1] bcast_S16384x1_S16384x4_0_1 : (⟨S16384x1, .f32⟩ : BufTy).Contents (Elt F) → (⟨S16384x4, .f32⟩ : BufTy).Contents (Elt F)),
    StableHlo.binary main_v41 main_v38 main_v42 (subf : (⟨S16384x4, .f32⟩ : BufTy).Contents (Elt F) → (⟨S16384x4, .f32⟩ : BufTy).Contents (Elt F) → (⟨S16384x4, .f32⟩ : BufTy).Contents (Elt F)),
    StableHlo.nullary main_cst_26 (constant S_ .f32 0x3DCCCCCD#32),
    StableHlo.unary main_cst_26 main_v43 (broadcastInDim S16384x4 ![] bcast_S_S16384x4 : (⟨S_, .f32⟩ : BufTy).Contents (Elt F) → (⟨S16384x4, .f32⟩ : BufTy).Contents (Elt F)),
    StableHlo.binary main_v42 main_v43 main_v44 (cmpf .olt : (⟨S16384x4, .f32⟩ : BufTy).Contents (Elt F) → (⟨S16384x4, .f32⟩ : BufTy).Contents (Elt F) → (⟨S16384x4, .i1⟩ : BufTy).Contents (Elt F)),
    StableHlo.nullary main_c_27 (constantI S_ 1 0#1),
    StableHlo.binary main_v44 main_c_27 main_v45 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v44 main_v46 ((extui 32 · natLt_1_32) : (⟨S16384x4, .i1⟩ : BufTy).Contents (Elt F) → (⟨S16384x4, .i32⟩ : BufTy).Contents (Elt F)),
    StableHlo.nullary main_c_28 (constantI S_ 32 0#32),
    StableHlo.binary main_v46 main_c_28 main_v47 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_29 (constantI S_ 32 1#32),
    StableHlo.unary main_c_29 main_v48 (broadcastInDim S16384 ![] bcast_S_S16384 : (⟨S_, .i32⟩ : BufTy).Contents (Elt F) → (⟨S16384, .i32⟩ : BufTy).Contents (Elt F)),
    StableHlo.binary main_v47 main_v48 main_v49 (cmpi .sgt : (⟨S16384, .i32⟩ : BufTy).Contents (Elt F) → (⟨S16384, .i32⟩ : BufTy).Contents (Elt F) → (⟨S16384, .i1⟩ : BufTy).Contents (Elt F)),
    StableHlo.binary main_v45 main_v49 main_v50 (andi : (⟨S16384, .i1⟩ : BufTy).Contents (Elt F) → (⟨S16384, .i1⟩ : BufTy).Contents (Elt F) → (⟨S16384, .i1⟩ : BufTy).Contents (Elt F)),
    StableHlo.reshape main_v40 main_v51 rfl shapeCasts_S16384x1_S16384,
    StableHlo.nullary main_cst_30 (constant S_ .f32 0x38D1B717#32),
    StableHlo.unary main_cst_30 main_v52 (broadcastInDim S16384 ![] bcast_S_S16384 : (⟨S_, .f32⟩ : BufTy).Contents (Elt F) → (⟨S16384, .f32⟩ : BufTy).Contents (Elt F)),
    StableHlo.binary main_v51 main_v52 main_v53 (addf : (⟨S16384, .f32⟩ : BufTy).Contents (Elt F) → (⟨S16384, .f32⟩ : BufTy).Contents (Elt F) → (⟨S16384, .f32⟩ : BufTy).Contents (Elt F)),
    StableHlo.unary main_v31 main_v54 ((extractStridedSlice S16384x1 ![0, 4] · slices_S16384x64_S16384x1_0_4) : (⟨S16384x64, .f32⟩ : BufTy).Contents (Elt F) → (⟨S16384x1, .f32⟩ : BufTy).Contents (Elt F)),
    StableHlo.reshape main_v54 main_v55 rfl shapeCasts_S16384x1_S16384,
    StableHlo.TRef.ternary (.of main_v50) (.of main_v53) (.of main_v55) main_call1.v0 select,
    StableHlo.nullary main_c_31 (constantI S_ 32 4#32),
    StableHlo.unary main_c_31 main_v57 (broadcastInDim S1 ![] bcast_S_S1 : (⟨S_, .i32⟩ : BufTy).Contents (Elt F) → (⟨S1, .i32⟩ : BufTy).Contents (Elt F)),
    StableHlo.ternary main_v31 main_v57 main_v56 main_v58 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 2's thirty-six operations (columns 8 to 11). -/
abbrev cls2 : List (HloOp τ sig (Elt F)) :=
  [ StableHlo.nullary main_c_32 (constantI S_ 32 0#32),
    StableHlo.unary main_c_32 main_v59 (broadcastInDim S4 ![] bcast_S_S4 : (⟨S_, .i32⟩ : BufTy).Contents (Elt F) → (⟨S4, .i32⟩ : BufTy).Contents (Elt F)),
    StableHlo.binary main_c_1 main_v59 main_v60 (cmpi .slt : (⟨S4, .i32⟩ : BufTy).Contents (Elt F) → (⟨S4, .i32⟩ : BufTy).Contents (Elt F) → (⟨S4, .i1⟩ : BufTy).Contents (Elt F)),
    StableHlo.nullary main_c_33 (constantI S_ 32 64#32),
    StableHlo.unary main_c_33 main_v61 (broadcastInDim S4 ![] bcast_S_S4 : (⟨S_, .i32⟩ : BufTy).Contents (Elt F) → (⟨S4, .i32⟩ : BufTy).Contents (Elt F)),
    StableHlo.binary main_c_1 main_v61 main_v62 (addi : (⟨S4, .i32⟩ : BufTy).Contents (Elt F) → (⟨S4, .i32⟩ : BufTy).Contents (Elt F) → (⟨S4, .i32⟩ : BufTy).Contents (Elt F)),
    StableHlo.ternary main_v60 main_v62 main_c_1 main_v63 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v63 main_v64 (broadcastInDim S4x1 ![0] bcast_S4_S4x1_0 : (⟨S4, .i32⟩ : BufTy).Contents (Elt F) → (⟨S4x1, .i32⟩ : BufTy).Contents (Elt F)),
    StableHlo.binary main_v58 main_v64 main_v65 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_34 (constant S_ .f32 0xFF800000#32),
    StableHlo.binary main_v65 main_cst_34 main_v66 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v66 main_v67 (broadcastInDim S16384x1 ![0] bcast_S16384_S16384x1_0 : (⟨S16384, .f32⟩ : BufTy).Contents (Elt F) → (⟨S16384x1, .f32⟩ : BufTy).Contents (Elt F)),
    StableHlo.unary main_v67 main_v68 (broadcastInDim S16384x4 ![0, 1] bcast_S16384x1_S16384x4_0_1 : (⟨S16384x1, .f32⟩ : BufTy).Contents (Elt F) → (⟨S16384x4, .f32⟩ : BufTy).Contents (Elt F)),
    StableHlo.binary main_v68 main_v65 main_v69 (subf : (⟨S16384x4, .f32⟩ : BufTy).Contents (Elt F) → (⟨S16384x4, .f32⟩ : BufTy).Contents (Elt F) → (⟨S16384x4, .f32⟩ : BufTy).Contents (Elt F)),
    StableHlo.nullary main_cst_35 (constant S_ .f32 0x3DCCCCCD#32),
    StableHlo.unary main_cst_35 main_v70 (broadcastInDim S16384x4 ![] bcast_S_S16384x4 : (⟨S_, .f32⟩ : BufTy).Contents (Elt F) → (⟨S16384x4, .f32⟩ : BufTy).Contents (Elt F)),
    StableHlo.binary main_v69 main_v70 main_v71 (cmpf .olt : (⟨S16384x4, .f32⟩ : BufTy).Contents (Elt F) → (⟨S16384x4, .f32⟩ : BufTy).Contents (Elt F) → (⟨S16384x4, .i1⟩ : BufTy).Contents (Elt F)),
    StableHlo.nullary main_c_36 (constantI S_ 1 0#1),
    StableHlo.binary main_v71 main_c_36 main_v72 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v71 main_v73 ((extui 32 · natLt_1_32) : (⟨S16384x4, .i1⟩ : BufTy).Contents (Elt F) → (⟨S16384x4, .i32⟩ : BufTy).Contents (Elt F)),
    StableHlo.nullary main_c_37 (constantI S_ 32 0#32),
    StableHlo.binary main_v73 main_c_37 main_v74 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_38 (constantI S_ 32 1#32),
    StableHlo.unary main_c_38 main_v75 (broadcastInDim S16384 ![] bcast_S_S16384 : (⟨S_, .i32⟩ : BufTy).Contents (Elt F) → (⟨S16384, .i32⟩ : BufTy).Contents (Elt F)),
    StableHlo.binary main_v74 main_v75 main_v76 (cmpi .sgt : (⟨S16384, .i32⟩ : BufTy).Contents (Elt F) → (⟨S16384, .i32⟩ : BufTy).Contents (Elt F) → (⟨S16384, .i1⟩ : BufTy).Contents (Elt F)),
    StableHlo.binary main_v72 main_v76 main_v77 (andi : (⟨S16384, .i1⟩ : BufTy).Contents (Elt F) → (⟨S16384, .i1⟩ : BufTy).Contents (Elt F) → (⟨S16384, .i1⟩ : BufTy).Contents (Elt F)),
    StableHlo.reshape main_v67 main_v78 rfl shapeCasts_S16384x1_S16384,
    StableHlo.nullary main_cst_39 (constant S_ .f32 0x38D1B717#32),
    StableHlo.unary main_cst_39 main_v79 (broadcastInDim S16384 ![] bcast_S_S16384 : (⟨S_, .f32⟩ : BufTy).Contents (Elt F) → (⟨S16384, .f32⟩ : BufTy).Contents (Elt F)),
    StableHlo.binary main_v78 main_v79 main_v80 (addf : (⟨S16384, .f32⟩ : BufTy).Contents (Elt F) → (⟨S16384, .f32⟩ : BufTy).Contents (Elt F) → (⟨S16384, .f32⟩ : BufTy).Contents (Elt F)),
    StableHlo.unary main_v58 main_v81 ((extractStridedSlice S16384x1 ![0, 8] · slices_S16384x64_S16384x1_0_8) : (⟨S16384x64, .f32⟩ : BufTy).Contents (Elt F) → (⟨S16384x1, .f32⟩ : BufTy).Contents (Elt F)),
    StableHlo.reshape main_v81 main_v82 rfl shapeCasts_S16384x1_S16384,
    StableHlo.TRef.ternary (.of main_v77) (.of main_v80) (.of main_v82) main_call2.v0 select,
    StableHlo.nullary main_c_40 (constantI S_ 32 8#32),
    StableHlo.unary main_c_40 main_v84 (broadcastInDim S1 ![] bcast_S_S1 : (⟨S_, .i32⟩ : BufTy).Contents (Elt F) → (⟨S1, .i32⟩ : BufTy).Contents (Elt F)),
    StableHlo.ternary main_v58 main_v84 main_v83 main_v85 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 3's thirty-six operations (columns 12 to 15). -/
abbrev cls3 : List (HloOp τ sig (Elt F)) :=
  [ StableHlo.nullary main_c_41 (constantI S_ 32 0#32),
    StableHlo.unary main_c_41 main_v86 (broadcastInDim S4 ![] bcast_S_S4 : (⟨S_, .i32⟩ : BufTy).Contents (Elt F) → (⟨S4, .i32⟩ : BufTy).Contents (Elt F)),
    StableHlo.binary main_c_2 main_v86 main_v87 (cmpi .slt : (⟨S4, .i32⟩ : BufTy).Contents (Elt F) → (⟨S4, .i32⟩ : BufTy).Contents (Elt F) → (⟨S4, .i1⟩ : BufTy).Contents (Elt F)),
    StableHlo.nullary main_c_42 (constantI S_ 32 64#32),
    StableHlo.unary main_c_42 main_v88 (broadcastInDim S4 ![] bcast_S_S4 : (⟨S_, .i32⟩ : BufTy).Contents (Elt F) → (⟨S4, .i32⟩ : BufTy).Contents (Elt F)),
    StableHlo.binary main_c_2 main_v88 main_v89 (addi : (⟨S4, .i32⟩ : BufTy).Contents (Elt F) → (⟨S4, .i32⟩ : BufTy).Contents (Elt F) → (⟨S4, .i32⟩ : BufTy).Contents (Elt F)),
    StableHlo.ternary main_v87 main_v89 main_c_2 main_v90 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v90 main_v91 (broadcastInDim S4x1 ![0] bcast_S4_S4x1_0 : (⟨S4, .i32⟩ : BufTy).Contents (Elt F) → (⟨S4x1, .i32⟩ : BufTy).Contents (Elt F)),
    StableHlo.binary main_v85 main_v91 main_v92 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_43 (constant S_ .f32 0xFF800000#32),
    StableHlo.binary main_v92 main_cst_43 main_v93 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v93 main_v94 (broadcastInDim S16384x1 ![0] bcast_S16384_S16384x1_0 : (⟨S16384, .f32⟩ : BufTy).Contents (Elt F) → (⟨S16384x1, .f32⟩ : BufTy).Contents (Elt F)),
    StableHlo.unary main_v94 main_v95 (broadcastInDim S16384x4 ![0, 1] bcast_S16384x1_S16384x4_0_1 : (⟨S16384x1, .f32⟩ : BufTy).Contents (Elt F) → (⟨S16384x4, .f32⟩ : BufTy).Contents (Elt F)),
    StableHlo.binary main_v95 main_v92 main_v96 (subf : (⟨S16384x4, .f32⟩ : BufTy).Contents (Elt F) → (⟨S16384x4, .f32⟩ : BufTy).Contents (Elt F) → (⟨S16384x4, .f32⟩ : BufTy).Contents (Elt F)),
    StableHlo.nullary main_cst_44 (constant S_ .f32 0x3DCCCCCD#32),
    StableHlo.unary main_cst_44 main_v97 (broadcastInDim S16384x4 ![] bcast_S_S16384x4 : (⟨S_, .f32⟩ : BufTy).Contents (Elt F) → (⟨S16384x4, .f32⟩ : BufTy).Contents (Elt F)),
    StableHlo.binary main_v96 main_v97 main_v98 (cmpf .olt : (⟨S16384x4, .f32⟩ : BufTy).Contents (Elt F) → (⟨S16384x4, .f32⟩ : BufTy).Contents (Elt F) → (⟨S16384x4, .i1⟩ : BufTy).Contents (Elt F)),
    StableHlo.nullary main_c_45 (constantI S_ 1 0#1),
    StableHlo.binary main_v98 main_c_45 main_v99 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v98 main_v100 ((extui 32 · natLt_1_32) : (⟨S16384x4, .i1⟩ : BufTy).Contents (Elt F) → (⟨S16384x4, .i32⟩ : BufTy).Contents (Elt F)),
    StableHlo.nullary main_c_46 (constantI S_ 32 0#32),
    StableHlo.binary main_v100 main_c_46 main_v101 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_47 (constantI S_ 32 1#32),
    StableHlo.unary main_c_47 main_v102 (broadcastInDim S16384 ![] bcast_S_S16384 : (⟨S_, .i32⟩ : BufTy).Contents (Elt F) → (⟨S16384, .i32⟩ : BufTy).Contents (Elt F)),
    StableHlo.binary main_v101 main_v102 main_v103 (cmpi .sgt : (⟨S16384, .i32⟩ : BufTy).Contents (Elt F) → (⟨S16384, .i32⟩ : BufTy).Contents (Elt F) → (⟨S16384, .i1⟩ : BufTy).Contents (Elt F)),
    StableHlo.binary main_v99 main_v103 main_v104 (andi : (⟨S16384, .i1⟩ : BufTy).Contents (Elt F) → (⟨S16384, .i1⟩ : BufTy).Contents (Elt F) → (⟨S16384, .i1⟩ : BufTy).Contents (Elt F)),
    StableHlo.reshape main_v94 main_v105 rfl shapeCasts_S16384x1_S16384,
    StableHlo.nullary main_cst_48 (constant S_ .f32 0x38D1B717#32),
    StableHlo.unary main_cst_48 main_v106 (broadcastInDim S16384 ![] bcast_S_S16384 : (⟨S_, .f32⟩ : BufTy).Contents (Elt F) → (⟨S16384, .f32⟩ : BufTy).Contents (Elt F)),
    StableHlo.binary main_v105 main_v106 main_v107 (addf : (⟨S16384, .f32⟩ : BufTy).Contents (Elt F) → (⟨S16384, .f32⟩ : BufTy).Contents (Elt F) → (⟨S16384, .f32⟩ : BufTy).Contents (Elt F)),
    StableHlo.unary main_v85 main_v108 ((extractStridedSlice S16384x1 ![0, 12] · slices_S16384x64_S16384x1_0_12) : (⟨S16384x64, .f32⟩ : BufTy).Contents (Elt F) → (⟨S16384x1, .f32⟩ : BufTy).Contents (Elt F)),
    StableHlo.reshape main_v108 main_v109 rfl shapeCasts_S16384x1_S16384,
    StableHlo.TRef.ternary (.of main_v104) (.of main_v107) (.of main_v109) main_call3.v0 select,
    StableHlo.nullary main_c_49 (constantI S_ 32 12#32),
    StableHlo.unary main_c_49 main_v111 (broadcastInDim S1 ![] bcast_S_S1 : (⟨S_, .i32⟩ : BufTy).Contents (Elt F) → (⟨S1, .i32⟩ : BufTy).Contents (Elt F)),
    StableHlo.ternary main_v85 main_v111 main_v110 main_v112 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 4's thirty-six operations (columns 16 to 19). -/
abbrev cls4 : List (HloOp τ sig (Elt F)) :=
  [ StableHlo.nullary main_c_50 (constantI S_ 32 0#32),
    StableHlo.unary main_c_50 main_v113 (broadcastInDim S4 ![] bcast_S_S4 : (⟨S_, .i32⟩ : BufTy).Contents (Elt F) → (⟨S4, .i32⟩ : BufTy).Contents (Elt F)),
    StableHlo.binary main_c_3 main_v113 main_v114 (cmpi .slt : (⟨S4, .i32⟩ : BufTy).Contents (Elt F) → (⟨S4, .i32⟩ : BufTy).Contents (Elt F) → (⟨S4, .i1⟩ : BufTy).Contents (Elt F)),
    StableHlo.nullary main_c_51 (constantI S_ 32 64#32),
    StableHlo.unary main_c_51 main_v115 (broadcastInDim S4 ![] bcast_S_S4 : (⟨S_, .i32⟩ : BufTy).Contents (Elt F) → (⟨S4, .i32⟩ : BufTy).Contents (Elt F)),
    StableHlo.binary main_c_3 main_v115 main_v116 (addi : (⟨S4, .i32⟩ : BufTy).Contents (Elt F) → (⟨S4, .i32⟩ : BufTy).Contents (Elt F) → (⟨S4, .i32⟩ : BufTy).Contents (Elt F)),
    StableHlo.ternary main_v114 main_v116 main_c_3 main_v117 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v117 main_v118 (broadcastInDim S4x1 ![0] bcast_S4_S4x1_0 : (⟨S4, .i32⟩ : BufTy).Contents (Elt F) → (⟨S4x1, .i32⟩ : BufTy).Contents (Elt F)),
    StableHlo.binary main_v112 main_v118 main_v119 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_52 (constant S_ .f32 0xFF800000#32),
    StableHlo.binary main_v119 main_cst_52 main_v120 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v120 main_v121 (broadcastInDim S16384x1 ![0] bcast_S16384_S16384x1_0 : (⟨S16384, .f32⟩ : BufTy).Contents (Elt F) → (⟨S16384x1, .f32⟩ : BufTy).Contents (Elt F)),
    StableHlo.unary main_v121 main_v122 (broadcastInDim S16384x4 ![0, 1] bcast_S16384x1_S16384x4_0_1 : (⟨S16384x1, .f32⟩ : BufTy).Contents (Elt F) → (⟨S16384x4, .f32⟩ : BufTy).Contents (Elt F)),
    StableHlo.binary main_v122 main_v119 main_v123 (subf : (⟨S16384x4, .f32⟩ : BufTy).Contents (Elt F) → (⟨S16384x4, .f32⟩ : BufTy).Contents (Elt F) → (⟨S16384x4, .f32⟩ : BufTy).Contents (Elt F)),
    StableHlo.nullary main_cst_53 (constant S_ .f32 0x3DCCCCCD#32),
    StableHlo.unary main_cst_53 main_v124 (broadcastInDim S16384x4 ![] bcast_S_S16384x4 : (⟨S_, .f32⟩ : BufTy).Contents (Elt F) → (⟨S16384x4, .f32⟩ : BufTy).Contents (Elt F)),
    StableHlo.binary main_v123 main_v124 main_v125 (cmpf .olt : (⟨S16384x4, .f32⟩ : BufTy).Contents (Elt F) → (⟨S16384x4, .f32⟩ : BufTy).Contents (Elt F) → (⟨S16384x4, .i1⟩ : BufTy).Contents (Elt F)),
    StableHlo.nullary main_c_54 (constantI S_ 1 0#1),
    StableHlo.binary main_v125 main_c_54 main_v126 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v125 main_v127 ((extui 32 · natLt_1_32) : (⟨S16384x4, .i1⟩ : BufTy).Contents (Elt F) → (⟨S16384x4, .i32⟩ : BufTy).Contents (Elt F)),
    StableHlo.nullary main_c_55 (constantI S_ 32 0#32),
    StableHlo.binary main_v127 main_c_55 main_v128 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_56 (constantI S_ 32 1#32),
    StableHlo.unary main_c_56 main_v129 (broadcastInDim S16384 ![] bcast_S_S16384 : (⟨S_, .i32⟩ : BufTy).Contents (Elt F) → (⟨S16384, .i32⟩ : BufTy).Contents (Elt F)),
    StableHlo.binary main_v128 main_v129 main_v130 (cmpi .sgt : (⟨S16384, .i32⟩ : BufTy).Contents (Elt F) → (⟨S16384, .i32⟩ : BufTy).Contents (Elt F) → (⟨S16384, .i1⟩ : BufTy).Contents (Elt F)),
    StableHlo.binary main_v126 main_v130 main_v131 (andi : (⟨S16384, .i1⟩ : BufTy).Contents (Elt F) → (⟨S16384, .i1⟩ : BufTy).Contents (Elt F) → (⟨S16384, .i1⟩ : BufTy).Contents (Elt F)),
    StableHlo.reshape main_v121 main_v132 rfl shapeCasts_S16384x1_S16384,
    StableHlo.nullary main_cst_57 (constant S_ .f32 0x38D1B717#32),
    StableHlo.unary main_cst_57 main_v133 (broadcastInDim S16384 ![] bcast_S_S16384 : (⟨S_, .f32⟩ : BufTy).Contents (Elt F) → (⟨S16384, .f32⟩ : BufTy).Contents (Elt F)),
    StableHlo.binary main_v132 main_v133 main_v134 (addf : (⟨S16384, .f32⟩ : BufTy).Contents (Elt F) → (⟨S16384, .f32⟩ : BufTy).Contents (Elt F) → (⟨S16384, .f32⟩ : BufTy).Contents (Elt F)),
    StableHlo.unary main_v112 main_v135 ((extractStridedSlice S16384x1 ![0, 16] · slices_S16384x64_S16384x1_0_16) : (⟨S16384x64, .f32⟩ : BufTy).Contents (Elt F) → (⟨S16384x1, .f32⟩ : BufTy).Contents (Elt F)),
    StableHlo.reshape main_v135 main_v136 rfl shapeCasts_S16384x1_S16384,
    StableHlo.TRef.ternary (.of main_v131) (.of main_v134) (.of main_v136) main_call4.v0 select,
    StableHlo.nullary main_c_58 (constantI S_ 32 16#32),
    StableHlo.unary main_c_58 main_v138 (broadcastInDim S1 ![] bcast_S_S1 : (⟨S_, .i32⟩ : BufTy).Contents (Elt F) → (⟨S1, .i32⟩ : BufTy).Contents (Elt F)),
    StableHlo.ternary main_v112 main_v138 main_v137 main_v139 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 5's thirty-six operations (columns 20 to 23). -/
abbrev cls5 : List (HloOp τ sig (Elt F)) :=
  [ StableHlo.nullary main_c_59 (constantI S_ 32 0#32),
    StableHlo.unary main_c_59 main_v140 (broadcastInDim S4 ![] bcast_S_S4 : (⟨S_, .i32⟩ : BufTy).Contents (Elt F) → (⟨S4, .i32⟩ : BufTy).Contents (Elt F)),
    StableHlo.binary main_c_4 main_v140 main_v141 (cmpi .slt : (⟨S4, .i32⟩ : BufTy).Contents (Elt F) → (⟨S4, .i32⟩ : BufTy).Contents (Elt F) → (⟨S4, .i1⟩ : BufTy).Contents (Elt F)),
    StableHlo.nullary main_c_60 (constantI S_ 32 64#32),
    StableHlo.unary main_c_60 main_v142 (broadcastInDim S4 ![] bcast_S_S4 : (⟨S_, .i32⟩ : BufTy).Contents (Elt F) → (⟨S4, .i32⟩ : BufTy).Contents (Elt F)),
    StableHlo.binary main_c_4 main_v142 main_v143 (addi : (⟨S4, .i32⟩ : BufTy).Contents (Elt F) → (⟨S4, .i32⟩ : BufTy).Contents (Elt F) → (⟨S4, .i32⟩ : BufTy).Contents (Elt F)),
    StableHlo.ternary main_v141 main_v143 main_c_4 main_v144 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v144 main_v145 (broadcastInDim S4x1 ![0] bcast_S4_S4x1_0 : (⟨S4, .i32⟩ : BufTy).Contents (Elt F) → (⟨S4x1, .i32⟩ : BufTy).Contents (Elt F)),
    StableHlo.binary main_v139 main_v145 main_v146 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_61 (constant S_ .f32 0xFF800000#32),
    StableHlo.binary main_v146 main_cst_61 main_v147 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v147 main_v148 (broadcastInDim S16384x1 ![0] bcast_S16384_S16384x1_0 : (⟨S16384, .f32⟩ : BufTy).Contents (Elt F) → (⟨S16384x1, .f32⟩ : BufTy).Contents (Elt F)),
    StableHlo.unary main_v148 main_v149 (broadcastInDim S16384x4 ![0, 1] bcast_S16384x1_S16384x4_0_1 : (⟨S16384x1, .f32⟩ : BufTy).Contents (Elt F) → (⟨S16384x4, .f32⟩ : BufTy).Contents (Elt F)),
    StableHlo.binary main_v149 main_v146 main_v150 (subf : (⟨S16384x4, .f32⟩ : BufTy).Contents (Elt F) → (⟨S16384x4, .f32⟩ : BufTy).Contents (Elt F) → (⟨S16384x4, .f32⟩ : BufTy).Contents (Elt F)),
    StableHlo.nullary main_cst_62 (constant S_ .f32 0x3DCCCCCD#32),
    StableHlo.unary main_cst_62 main_v151 (broadcastInDim S16384x4 ![] bcast_S_S16384x4 : (⟨S_, .f32⟩ : BufTy).Contents (Elt F) → (⟨S16384x4, .f32⟩ : BufTy).Contents (Elt F)),
    StableHlo.binary main_v150 main_v151 main_v152 (cmpf .olt : (⟨S16384x4, .f32⟩ : BufTy).Contents (Elt F) → (⟨S16384x4, .f32⟩ : BufTy).Contents (Elt F) → (⟨S16384x4, .i1⟩ : BufTy).Contents (Elt F)),
    StableHlo.nullary main_c_63 (constantI S_ 1 0#1),
    StableHlo.binary main_v152 main_c_63 main_v153 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v152 main_v154 ((extui 32 · natLt_1_32) : (⟨S16384x4, .i1⟩ : BufTy).Contents (Elt F) → (⟨S16384x4, .i32⟩ : BufTy).Contents (Elt F)),
    StableHlo.nullary main_c_64 (constantI S_ 32 0#32),
    StableHlo.binary main_v154 main_c_64 main_v155 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_65 (constantI S_ 32 1#32),
    StableHlo.unary main_c_65 main_v156 (broadcastInDim S16384 ![] bcast_S_S16384 : (⟨S_, .i32⟩ : BufTy).Contents (Elt F) → (⟨S16384, .i32⟩ : BufTy).Contents (Elt F)),
    StableHlo.binary main_v155 main_v156 main_v157 (cmpi .sgt : (⟨S16384, .i32⟩ : BufTy).Contents (Elt F) → (⟨S16384, .i32⟩ : BufTy).Contents (Elt F) → (⟨S16384, .i1⟩ : BufTy).Contents (Elt F)),
    StableHlo.binary main_v153 main_v157 main_v158 (andi : (⟨S16384, .i1⟩ : BufTy).Contents (Elt F) → (⟨S16384, .i1⟩ : BufTy).Contents (Elt F) → (⟨S16384, .i1⟩ : BufTy).Contents (Elt F)),
    StableHlo.reshape main_v148 main_v159 rfl shapeCasts_S16384x1_S16384,
    StableHlo.nullary main_cst_66 (constant S_ .f32 0x38D1B717#32),
    StableHlo.unary main_cst_66 main_v160 (broadcastInDim S16384 ![] bcast_S_S16384 : (⟨S_, .f32⟩ : BufTy).Contents (Elt F) → (⟨S16384, .f32⟩ : BufTy).Contents (Elt F)),
    StableHlo.binary main_v159 main_v160 main_v161 (addf : (⟨S16384, .f32⟩ : BufTy).Contents (Elt F) → (⟨S16384, .f32⟩ : BufTy).Contents (Elt F) → (⟨S16384, .f32⟩ : BufTy).Contents (Elt F)),
    StableHlo.unary main_v139 main_v162 ((extractStridedSlice S16384x1 ![0, 20] · slices_S16384x64_S16384x1_0_20) : (⟨S16384x64, .f32⟩ : BufTy).Contents (Elt F) → (⟨S16384x1, .f32⟩ : BufTy).Contents (Elt F)),
    StableHlo.reshape main_v162 main_v163 rfl shapeCasts_S16384x1_S16384,
    StableHlo.TRef.ternary (.of main_v158) (.of main_v161) (.of main_v163) main_call5.v0 select,
    StableHlo.nullary main_c_67 (constantI S_ 32 20#32),
    StableHlo.unary main_c_67 main_v165 (broadcastInDim S1 ![] bcast_S_S1 : (⟨S_, .i32⟩ : BufTy).Contents (Elt F) → (⟨S1, .i32⟩ : BufTy).Contents (Elt F)),
    StableHlo.ternary main_v139 main_v165 main_v164 main_v166 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 6's thirty-six operations (columns 24 to 27). -/
abbrev cls6 : List (HloOp τ sig (Elt F)) :=
  [ StableHlo.nullary main_c_68 (constantI S_ 32 0#32),
    StableHlo.unary main_c_68 main_v167 (broadcastInDim S4 ![] bcast_S_S4 : (⟨S_, .i32⟩ : BufTy).Contents (Elt F) → (⟨S4, .i32⟩ : BufTy).Contents (Elt F)),
    StableHlo.binary main_c_5 main_v167 main_v168 (cmpi .slt : (⟨S4, .i32⟩ : BufTy).Contents (Elt F) → (⟨S4, .i32⟩ : BufTy).Contents (Elt F) → (⟨S4, .i1⟩ : BufTy).Contents (Elt F)),
    StableHlo.nullary main_c_69 (constantI S_ 32 64#32),
    StableHlo.unary main_c_69 main_v169 (broadcastInDim S4 ![] bcast_S_S4 : (⟨S_, .i32⟩ : BufTy).Contents (Elt F) → (⟨S4, .i32⟩ : BufTy).Contents (Elt F)),
    StableHlo.binary main_c_5 main_v169 main_v170 (addi : (⟨S4, .i32⟩ : BufTy).Contents (Elt F) → (⟨S4, .i32⟩ : BufTy).Contents (Elt F) → (⟨S4, .i32⟩ : BufTy).Contents (Elt F)),
    StableHlo.ternary main_v168 main_v170 main_c_5 main_v171 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v171 main_v172 (broadcastInDim S4x1 ![0] bcast_S4_S4x1_0 : (⟨S4, .i32⟩ : BufTy).Contents (Elt F) → (⟨S4x1, .i32⟩ : BufTy).Contents (Elt F)),
    StableHlo.binary main_v166 main_v172 main_v173 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_70 (constant S_ .f32 0xFF800000#32),
    StableHlo.binary main_v173 main_cst_70 main_v174 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v174 main_v175 (broadcastInDim S16384x1 ![0] bcast_S16384_S16384x1_0 : (⟨S16384, .f32⟩ : BufTy).Contents (Elt F) → (⟨S16384x1, .f32⟩ : BufTy).Contents (Elt F)),
    StableHlo.unary main_v175 main_v176 (broadcastInDim S16384x4 ![0, 1] bcast_S16384x1_S16384x4_0_1 : (⟨S16384x1, .f32⟩ : BufTy).Contents (Elt F) → (⟨S16384x4, .f32⟩ : BufTy).Contents (Elt F)),
    StableHlo.binary main_v176 main_v173 main_v177 (subf : (⟨S16384x4, .f32⟩ : BufTy).Contents (Elt F) → (⟨S16384x4, .f32⟩ : BufTy).Contents (Elt F) → (⟨S16384x4, .f32⟩ : BufTy).Contents (Elt F)),
    StableHlo.nullary main_cst_71 (constant S_ .f32 0x3DCCCCCD#32),
    StableHlo.unary main_cst_71 main_v178 (broadcastInDim S16384x4 ![] bcast_S_S16384x4 : (⟨S_, .f32⟩ : BufTy).Contents (Elt F) → (⟨S16384x4, .f32⟩ : BufTy).Contents (Elt F)),
    StableHlo.binary main_v177 main_v178 main_v179 (cmpf .olt : (⟨S16384x4, .f32⟩ : BufTy).Contents (Elt F) → (⟨S16384x4, .f32⟩ : BufTy).Contents (Elt F) → (⟨S16384x4, .i1⟩ : BufTy).Contents (Elt F)),
    StableHlo.nullary main_c_72 (constantI S_ 1 0#1),
    StableHlo.binary main_v179 main_c_72 main_v180 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v179 main_v181 ((extui 32 · natLt_1_32) : (⟨S16384x4, .i1⟩ : BufTy).Contents (Elt F) → (⟨S16384x4, .i32⟩ : BufTy).Contents (Elt F)),
    StableHlo.nullary main_c_73 (constantI S_ 32 0#32),
    StableHlo.binary main_v181 main_c_73 main_v182 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_74 (constantI S_ 32 1#32),
    StableHlo.unary main_c_74 main_v183 (broadcastInDim S16384 ![] bcast_S_S16384 : (⟨S_, .i32⟩ : BufTy).Contents (Elt F) → (⟨S16384, .i32⟩ : BufTy).Contents (Elt F)),
    StableHlo.binary main_v182 main_v183 main_v184 (cmpi .sgt : (⟨S16384, .i32⟩ : BufTy).Contents (Elt F) → (⟨S16384, .i32⟩ : BufTy).Contents (Elt F) → (⟨S16384, .i1⟩ : BufTy).Contents (Elt F)),
    StableHlo.binary main_v180 main_v184 main_v185 (andi : (⟨S16384, .i1⟩ : BufTy).Contents (Elt F) → (⟨S16384, .i1⟩ : BufTy).Contents (Elt F) → (⟨S16384, .i1⟩ : BufTy).Contents (Elt F)),
    StableHlo.reshape main_v175 main_v186 rfl shapeCasts_S16384x1_S16384,
    StableHlo.nullary main_cst_75 (constant S_ .f32 0x38D1B717#32),
    StableHlo.unary main_cst_75 main_v187 (broadcastInDim S16384 ![] bcast_S_S16384 : (⟨S_, .f32⟩ : BufTy).Contents (Elt F) → (⟨S16384, .f32⟩ : BufTy).Contents (Elt F)),
    StableHlo.binary main_v186 main_v187 main_v188 (addf : (⟨S16384, .f32⟩ : BufTy).Contents (Elt F) → (⟨S16384, .f32⟩ : BufTy).Contents (Elt F) → (⟨S16384, .f32⟩ : BufTy).Contents (Elt F)),
    StableHlo.unary main_v166 main_v189 ((extractStridedSlice S16384x1 ![0, 24] · slices_S16384x64_S16384x1_0_24) : (⟨S16384x64, .f32⟩ : BufTy).Contents (Elt F) → (⟨S16384x1, .f32⟩ : BufTy).Contents (Elt F)),
    StableHlo.reshape main_v189 main_v190 rfl shapeCasts_S16384x1_S16384,
    StableHlo.TRef.ternary (.of main_v185) (.of main_v188) (.of main_v190) main_call6.v0 select,
    StableHlo.nullary main_c_76 (constantI S_ 32 24#32),
    StableHlo.unary main_c_76 main_v192 (broadcastInDim S1 ![] bcast_S_S1 : (⟨S_, .i32⟩ : BufTy).Contents (Elt F) → (⟨S1, .i32⟩ : BufTy).Contents (Elt F)),
    StableHlo.ternary main_v166 main_v192 main_v191 main_v193 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 7's thirty-six operations (columns 28 to 31). -/
abbrev cls7 : List (HloOp τ sig (Elt F)) :=
  [ StableHlo.nullary main_c_77 (constantI S_ 32 0#32),
    StableHlo.unary main_c_77 main_v194 (broadcastInDim S4 ![] bcast_S_S4 : (⟨S_, .i32⟩ : BufTy).Contents (Elt F) → (⟨S4, .i32⟩ : BufTy).Contents (Elt F)),
    StableHlo.binary main_c_6 main_v194 main_v195 (cmpi .slt : (⟨S4, .i32⟩ : BufTy).Contents (Elt F) → (⟨S4, .i32⟩ : BufTy).Contents (Elt F) → (⟨S4, .i1⟩ : BufTy).Contents (Elt F)),
    StableHlo.nullary main_c_78 (constantI S_ 32 64#32),
    StableHlo.unary main_c_78 main_v196 (broadcastInDim S4 ![] bcast_S_S4 : (⟨S_, .i32⟩ : BufTy).Contents (Elt F) → (⟨S4, .i32⟩ : BufTy).Contents (Elt F)),
    StableHlo.binary main_c_6 main_v196 main_v197 (addi : (⟨S4, .i32⟩ : BufTy).Contents (Elt F) → (⟨S4, .i32⟩ : BufTy).Contents (Elt F) → (⟨S4, .i32⟩ : BufTy).Contents (Elt F)),
    StableHlo.ternary main_v195 main_v197 main_c_6 main_v198 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v198 main_v199 (broadcastInDim S4x1 ![0] bcast_S4_S4x1_0 : (⟨S4, .i32⟩ : BufTy).Contents (Elt F) → (⟨S4x1, .i32⟩ : BufTy).Contents (Elt F)),
    StableHlo.binary main_v193 main_v199 main_v200 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_79 (constant S_ .f32 0xFF800000#32),
    StableHlo.binary main_v200 main_cst_79 main_v201 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v201 main_v202 (broadcastInDim S16384x1 ![0] bcast_S16384_S16384x1_0 : (⟨S16384, .f32⟩ : BufTy).Contents (Elt F) → (⟨S16384x1, .f32⟩ : BufTy).Contents (Elt F)),
    StableHlo.unary main_v202 main_v203 (broadcastInDim S16384x4 ![0, 1] bcast_S16384x1_S16384x4_0_1 : (⟨S16384x1, .f32⟩ : BufTy).Contents (Elt F) → (⟨S16384x4, .f32⟩ : BufTy).Contents (Elt F)),
    StableHlo.binary main_v203 main_v200 main_v204 (subf : (⟨S16384x4, .f32⟩ : BufTy).Contents (Elt F) → (⟨S16384x4, .f32⟩ : BufTy).Contents (Elt F) → (⟨S16384x4, .f32⟩ : BufTy).Contents (Elt F)),
    StableHlo.nullary main_cst_80 (constant S_ .f32 0x3DCCCCCD#32),
    StableHlo.unary main_cst_80 main_v205 (broadcastInDim S16384x4 ![] bcast_S_S16384x4 : (⟨S_, .f32⟩ : BufTy).Contents (Elt F) → (⟨S16384x4, .f32⟩ : BufTy).Contents (Elt F)),
    StableHlo.binary main_v204 main_v205 main_v206 (cmpf .olt : (⟨S16384x4, .f32⟩ : BufTy).Contents (Elt F) → (⟨S16384x4, .f32⟩ : BufTy).Contents (Elt F) → (⟨S16384x4, .i1⟩ : BufTy).Contents (Elt F)),
    StableHlo.nullary main_c_81 (constantI S_ 1 0#1),
    StableHlo.binary main_v206 main_c_81 main_v207 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v206 main_v208 ((extui 32 · natLt_1_32) : (⟨S16384x4, .i1⟩ : BufTy).Contents (Elt F) → (⟨S16384x4, .i32⟩ : BufTy).Contents (Elt F)),
    StableHlo.nullary main_c_82 (constantI S_ 32 0#32),
    StableHlo.binary main_v208 main_c_82 main_v209 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_83 (constantI S_ 32 1#32),
    StableHlo.unary main_c_83 main_v210 (broadcastInDim S16384 ![] bcast_S_S16384 : (⟨S_, .i32⟩ : BufTy).Contents (Elt F) → (⟨S16384, .i32⟩ : BufTy).Contents (Elt F)),
    StableHlo.binary main_v209 main_v210 main_v211 (cmpi .sgt : (⟨S16384, .i32⟩ : BufTy).Contents (Elt F) → (⟨S16384, .i32⟩ : BufTy).Contents (Elt F) → (⟨S16384, .i1⟩ : BufTy).Contents (Elt F)),
    StableHlo.binary main_v207 main_v211 main_v212 (andi : (⟨S16384, .i1⟩ : BufTy).Contents (Elt F) → (⟨S16384, .i1⟩ : BufTy).Contents (Elt F) → (⟨S16384, .i1⟩ : BufTy).Contents (Elt F)),
    StableHlo.reshape main_v202 main_v213 rfl shapeCasts_S16384x1_S16384,
    StableHlo.nullary main_cst_84 (constant S_ .f32 0x38D1B717#32),
    StableHlo.unary main_cst_84 main_v214 (broadcastInDim S16384 ![] bcast_S_S16384 : (⟨S_, .f32⟩ : BufTy).Contents (Elt F) → (⟨S16384, .f32⟩ : BufTy).Contents (Elt F)),
    StableHlo.binary main_v213 main_v214 main_v215 (addf : (⟨S16384, .f32⟩ : BufTy).Contents (Elt F) → (⟨S16384, .f32⟩ : BufTy).Contents (Elt F) → (⟨S16384, .f32⟩ : BufTy).Contents (Elt F)),
    StableHlo.unary main_v193 main_v216 ((extractStridedSlice S16384x1 ![0, 28] · slices_S16384x64_S16384x1_0_28) : (⟨S16384x64, .f32⟩ : BufTy).Contents (Elt F) → (⟨S16384x1, .f32⟩ : BufTy).Contents (Elt F)),
    StableHlo.reshape main_v216 main_v217 rfl shapeCasts_S16384x1_S16384,
    StableHlo.TRef.ternary (.of main_v212) (.of main_v215) (.of main_v217) main_call7.v0 select,
    StableHlo.nullary main_c_85 (constantI S_ 32 28#32),
    StableHlo.unary main_c_85 main_v219 (broadcastInDim S1 ![] bcast_S_S1 : (⟨S_, .i32⟩ : BufTy).Contents (Elt F) → (⟨S1, .i32⟩ : BufTy).Contents (Elt F)),
    StableHlo.ternary main_v193 main_v219 main_v218 main_v220 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 8's thirty-six operations (columns 32 to 35). -/
abbrev cls8 : List (HloOp τ sig (Elt F)) :=
  [ StableHlo.nullary main_c_86 (constantI S_ 32 0#32),
    StableHlo.unary main_c_86 main_v221 (broadcastInDim S4 ![] bcast_S_S4 : (⟨S_, .i32⟩ : BufTy).Contents (Elt F) → (⟨S4, .i32⟩ : BufTy).Contents (Elt F)),
    StableHlo.binary main_c_7 main_v221 main_v222 (cmpi .slt : (⟨S4, .i32⟩ : BufTy).Contents (Elt F) → (⟨S4, .i32⟩ : BufTy).Contents (Elt F) → (⟨S4, .i1⟩ : BufTy).Contents (Elt F)),
    StableHlo.nullary main_c_87 (constantI S_ 32 64#32),
    StableHlo.unary main_c_87 main_v223 (broadcastInDim S4 ![] bcast_S_S4 : (⟨S_, .i32⟩ : BufTy).Contents (Elt F) → (⟨S4, .i32⟩ : BufTy).Contents (Elt F)),
    StableHlo.binary main_c_7 main_v223 main_v224 (addi : (⟨S4, .i32⟩ : BufTy).Contents (Elt F) → (⟨S4, .i32⟩ : BufTy).Contents (Elt F) → (⟨S4, .i32⟩ : BufTy).Contents (Elt F)),
    StableHlo.ternary main_v222 main_v224 main_c_7 main_v225 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v225 main_v226 (broadcastInDim S4x1 ![0] bcast_S4_S4x1_0 : (⟨S4, .i32⟩ : BufTy).Contents (Elt F) → (⟨S4x1, .i32⟩ : BufTy).Contents (Elt F)),
    StableHlo.binary main_v220 main_v226 main_v227 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_88 (constant S_ .f32 0xFF800000#32),
    StableHlo.binary main_v227 main_cst_88 main_v228 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v228 main_v229 (broadcastInDim S16384x1 ![0] bcast_S16384_S16384x1_0 : (⟨S16384, .f32⟩ : BufTy).Contents (Elt F) → (⟨S16384x1, .f32⟩ : BufTy).Contents (Elt F)),
    StableHlo.unary main_v229 main_v230 (broadcastInDim S16384x4 ![0, 1] bcast_S16384x1_S16384x4_0_1 : (⟨S16384x1, .f32⟩ : BufTy).Contents (Elt F) → (⟨S16384x4, .f32⟩ : BufTy).Contents (Elt F)),
    StableHlo.binary main_v230 main_v227 main_v231 (subf : (⟨S16384x4, .f32⟩ : BufTy).Contents (Elt F) → (⟨S16384x4, .f32⟩ : BufTy).Contents (Elt F) → (⟨S16384x4, .f32⟩ : BufTy).Contents (Elt F)),
    StableHlo.nullary main_cst_89 (constant S_ .f32 0x3DCCCCCD#32),
    StableHlo.unary main_cst_89 main_v232 (broadcastInDim S16384x4 ![] bcast_S_S16384x4 : (⟨S_, .f32⟩ : BufTy).Contents (Elt F) → (⟨S16384x4, .f32⟩ : BufTy).Contents (Elt F)),
    StableHlo.binary main_v231 main_v232 main_v233 (cmpf .olt : (⟨S16384x4, .f32⟩ : BufTy).Contents (Elt F) → (⟨S16384x4, .f32⟩ : BufTy).Contents (Elt F) → (⟨S16384x4, .i1⟩ : BufTy).Contents (Elt F)),
    StableHlo.nullary main_c_90 (constantI S_ 1 0#1),
    StableHlo.binary main_v233 main_c_90 main_v234 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v233 main_v235 ((extui 32 · natLt_1_32) : (⟨S16384x4, .i1⟩ : BufTy).Contents (Elt F) → (⟨S16384x4, .i32⟩ : BufTy).Contents (Elt F)),
    StableHlo.nullary main_c_91 (constantI S_ 32 0#32),
    StableHlo.binary main_v235 main_c_91 main_v236 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_92 (constantI S_ 32 1#32),
    StableHlo.unary main_c_92 main_v237 (broadcastInDim S16384 ![] bcast_S_S16384 : (⟨S_, .i32⟩ : BufTy).Contents (Elt F) → (⟨S16384, .i32⟩ : BufTy).Contents (Elt F)),
    StableHlo.binary main_v236 main_v237 main_v238 (cmpi .sgt : (⟨S16384, .i32⟩ : BufTy).Contents (Elt F) → (⟨S16384, .i32⟩ : BufTy).Contents (Elt F) → (⟨S16384, .i1⟩ : BufTy).Contents (Elt F)),
    StableHlo.binary main_v234 main_v238 main_v239 (andi : (⟨S16384, .i1⟩ : BufTy).Contents (Elt F) → (⟨S16384, .i1⟩ : BufTy).Contents (Elt F) → (⟨S16384, .i1⟩ : BufTy).Contents (Elt F)),
    StableHlo.reshape main_v229 main_v240 rfl shapeCasts_S16384x1_S16384,
    StableHlo.nullary main_cst_93 (constant S_ .f32 0x38D1B717#32),
    StableHlo.unary main_cst_93 main_v241 (broadcastInDim S16384 ![] bcast_S_S16384 : (⟨S_, .f32⟩ : BufTy).Contents (Elt F) → (⟨S16384, .f32⟩ : BufTy).Contents (Elt F)),
    StableHlo.binary main_v240 main_v241 main_v242 (addf : (⟨S16384, .f32⟩ : BufTy).Contents (Elt F) → (⟨S16384, .f32⟩ : BufTy).Contents (Elt F) → (⟨S16384, .f32⟩ : BufTy).Contents (Elt F)),
    StableHlo.unary main_v220 main_v243 ((extractStridedSlice S16384x1 ![0, 32] · slices_S16384x64_S16384x1_0_32) : (⟨S16384x64, .f32⟩ : BufTy).Contents (Elt F) → (⟨S16384x1, .f32⟩ : BufTy).Contents (Elt F)),
    StableHlo.reshape main_v243 main_v244 rfl shapeCasts_S16384x1_S16384,
    StableHlo.TRef.ternary (.of main_v239) (.of main_v242) (.of main_v244) main_call8.v0 select,
    StableHlo.nullary main_c_94 (constantI S_ 32 32#32),
    StableHlo.unary main_c_94 main_v246 (broadcastInDim S1 ![] bcast_S_S1 : (⟨S_, .i32⟩ : BufTy).Contents (Elt F) → (⟨S1, .i32⟩ : BufTy).Contents (Elt F)),
    StableHlo.ternary main_v220 main_v246 main_v245 main_v247 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 9's thirty-six operations (columns 36 to 39). -/
abbrev cls9 : List (HloOp τ sig (Elt F)) :=
  [ StableHlo.nullary main_c_95 (constantI S_ 32 0#32),
    StableHlo.unary main_c_95 main_v248 (broadcastInDim S4 ![] bcast_S_S4 : (⟨S_, .i32⟩ : BufTy).Contents (Elt F) → (⟨S4, .i32⟩ : BufTy).Contents (Elt F)),
    StableHlo.binary main_c_8 main_v248 main_v249 (cmpi .slt : (⟨S4, .i32⟩ : BufTy).Contents (Elt F) → (⟨S4, .i32⟩ : BufTy).Contents (Elt F) → (⟨S4, .i1⟩ : BufTy).Contents (Elt F)),
    StableHlo.nullary main_c_96 (constantI S_ 32 64#32),
    StableHlo.unary main_c_96 main_v250 (broadcastInDim S4 ![] bcast_S_S4 : (⟨S_, .i32⟩ : BufTy).Contents (Elt F) → (⟨S4, .i32⟩ : BufTy).Contents (Elt F)),
    StableHlo.binary main_c_8 main_v250 main_v251 (addi : (⟨S4, .i32⟩ : BufTy).Contents (Elt F) → (⟨S4, .i32⟩ : BufTy).Contents (Elt F) → (⟨S4, .i32⟩ : BufTy).Contents (Elt F)),
    StableHlo.ternary main_v249 main_v251 main_c_8 main_v252 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v252 main_v253 (broadcastInDim S4x1 ![0] bcast_S4_S4x1_0 : (⟨S4, .i32⟩ : BufTy).Contents (Elt F) → (⟨S4x1, .i32⟩ : BufTy).Contents (Elt F)),
    StableHlo.binary main_v247 main_v253 main_v254 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_97 (constant S_ .f32 0xFF800000#32),
    StableHlo.binary main_v254 main_cst_97 main_v255 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v255 main_v256 (broadcastInDim S16384x1 ![0] bcast_S16384_S16384x1_0 : (⟨S16384, .f32⟩ : BufTy).Contents (Elt F) → (⟨S16384x1, .f32⟩ : BufTy).Contents (Elt F)),
    StableHlo.unary main_v256 main_v257 (broadcastInDim S16384x4 ![0, 1] bcast_S16384x1_S16384x4_0_1 : (⟨S16384x1, .f32⟩ : BufTy).Contents (Elt F) → (⟨S16384x4, .f32⟩ : BufTy).Contents (Elt F)),
    StableHlo.binary main_v257 main_v254 main_v258 (subf : (⟨S16384x4, .f32⟩ : BufTy).Contents (Elt F) → (⟨S16384x4, .f32⟩ : BufTy).Contents (Elt F) → (⟨S16384x4, .f32⟩ : BufTy).Contents (Elt F)),
    StableHlo.nullary main_cst_98 (constant S_ .f32 0x3DCCCCCD#32),
    StableHlo.unary main_cst_98 main_v259 (broadcastInDim S16384x4 ![] bcast_S_S16384x4 : (⟨S_, .f32⟩ : BufTy).Contents (Elt F) → (⟨S16384x4, .f32⟩ : BufTy).Contents (Elt F)),
    StableHlo.binary main_v258 main_v259 main_v260 (cmpf .olt : (⟨S16384x4, .f32⟩ : BufTy).Contents (Elt F) → (⟨S16384x4, .f32⟩ : BufTy).Contents (Elt F) → (⟨S16384x4, .i1⟩ : BufTy).Contents (Elt F)),
    StableHlo.nullary main_c_99 (constantI S_ 1 0#1),
    StableHlo.binary main_v260 main_c_99 main_v261 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v260 main_v262 ((extui 32 · natLt_1_32) : (⟨S16384x4, .i1⟩ : BufTy).Contents (Elt F) → (⟨S16384x4, .i32⟩ : BufTy).Contents (Elt F)),
    StableHlo.nullary main_c_100 (constantI S_ 32 0#32),
    StableHlo.binary main_v262 main_c_100 main_v263 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_101 (constantI S_ 32 1#32),
    StableHlo.unary main_c_101 main_v264 (broadcastInDim S16384 ![] bcast_S_S16384 : (⟨S_, .i32⟩ : BufTy).Contents (Elt F) → (⟨S16384, .i32⟩ : BufTy).Contents (Elt F)),
    StableHlo.binary main_v263 main_v264 main_v265 (cmpi .sgt : (⟨S16384, .i32⟩ : BufTy).Contents (Elt F) → (⟨S16384, .i32⟩ : BufTy).Contents (Elt F) → (⟨S16384, .i1⟩ : BufTy).Contents (Elt F)),
    StableHlo.binary main_v261 main_v265 main_v266 (andi : (⟨S16384, .i1⟩ : BufTy).Contents (Elt F) → (⟨S16384, .i1⟩ : BufTy).Contents (Elt F) → (⟨S16384, .i1⟩ : BufTy).Contents (Elt F)),
    StableHlo.reshape main_v256 main_v267 rfl shapeCasts_S16384x1_S16384,
    StableHlo.nullary main_cst_102 (constant S_ .f32 0x38D1B717#32),
    StableHlo.unary main_cst_102 main_v268 (broadcastInDim S16384 ![] bcast_S_S16384 : (⟨S_, .f32⟩ : BufTy).Contents (Elt F) → (⟨S16384, .f32⟩ : BufTy).Contents (Elt F)),
    StableHlo.binary main_v267 main_v268 main_v269 (addf : (⟨S16384, .f32⟩ : BufTy).Contents (Elt F) → (⟨S16384, .f32⟩ : BufTy).Contents (Elt F) → (⟨S16384, .f32⟩ : BufTy).Contents (Elt F)),
    StableHlo.unary main_v247 main_v270 ((extractStridedSlice S16384x1 ![0, 36] · slices_S16384x64_S16384x1_0_36) : (⟨S16384x64, .f32⟩ : BufTy).Contents (Elt F) → (⟨S16384x1, .f32⟩ : BufTy).Contents (Elt F)),
    StableHlo.reshape main_v270 main_v271 rfl shapeCasts_S16384x1_S16384,
    StableHlo.TRef.ternary (.of main_v266) (.of main_v269) (.of main_v271) main_call9.v0 select,
    StableHlo.nullary main_c_103 (constantI S_ 32 36#32),
    StableHlo.unary main_c_103 main_v273 (broadcastInDim S1 ![] bcast_S_S1 : (⟨S_, .i32⟩ : BufTy).Contents (Elt F) → (⟨S1, .i32⟩ : BufTy).Contents (Elt F)),
    StableHlo.ternary main_v247 main_v273 main_v272 main_v274 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 10's thirty-six operations (columns 40 to 43). -/
abbrev cls10 : List (HloOp τ sig (Elt F)) :=
  [ StableHlo.nullary main_c_104 (constantI S_ 32 0#32),
    StableHlo.unary main_c_104 main_v275 (broadcastInDim S4 ![] bcast_S_S4 : (⟨S_, .i32⟩ : BufTy).Contents (Elt F) → (⟨S4, .i32⟩ : BufTy).Contents (Elt F)),
    StableHlo.binary main_c_9 main_v275 main_v276 (cmpi .slt : (⟨S4, .i32⟩ : BufTy).Contents (Elt F) → (⟨S4, .i32⟩ : BufTy).Contents (Elt F) → (⟨S4, .i1⟩ : BufTy).Contents (Elt F)),
    StableHlo.nullary main_c_105 (constantI S_ 32 64#32),
    StableHlo.unary main_c_105 main_v277 (broadcastInDim S4 ![] bcast_S_S4 : (⟨S_, .i32⟩ : BufTy).Contents (Elt F) → (⟨S4, .i32⟩ : BufTy).Contents (Elt F)),
    StableHlo.binary main_c_9 main_v277 main_v278 (addi : (⟨S4, .i32⟩ : BufTy).Contents (Elt F) → (⟨S4, .i32⟩ : BufTy).Contents (Elt F) → (⟨S4, .i32⟩ : BufTy).Contents (Elt F)),
    StableHlo.ternary main_v276 main_v278 main_c_9 main_v279 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v279 main_v280 (broadcastInDim S4x1 ![0] bcast_S4_S4x1_0 : (⟨S4, .i32⟩ : BufTy).Contents (Elt F) → (⟨S4x1, .i32⟩ : BufTy).Contents (Elt F)),
    StableHlo.binary main_v274 main_v280 main_v281 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_106 (constant S_ .f32 0xFF800000#32),
    StableHlo.binary main_v281 main_cst_106 main_v282 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v282 main_v283 (broadcastInDim S16384x1 ![0] bcast_S16384_S16384x1_0 : (⟨S16384, .f32⟩ : BufTy).Contents (Elt F) → (⟨S16384x1, .f32⟩ : BufTy).Contents (Elt F)),
    StableHlo.unary main_v283 main_v284 (broadcastInDim S16384x4 ![0, 1] bcast_S16384x1_S16384x4_0_1 : (⟨S16384x1, .f32⟩ : BufTy).Contents (Elt F) → (⟨S16384x4, .f32⟩ : BufTy).Contents (Elt F)),
    StableHlo.binary main_v284 main_v281 main_v285 (subf : (⟨S16384x4, .f32⟩ : BufTy).Contents (Elt F) → (⟨S16384x4, .f32⟩ : BufTy).Contents (Elt F) → (⟨S16384x4, .f32⟩ : BufTy).Contents (Elt F)),
    StableHlo.nullary main_cst_107 (constant S_ .f32 0x3DCCCCCD#32),
    StableHlo.unary main_cst_107 main_v286 (broadcastInDim S16384x4 ![] bcast_S_S16384x4 : (⟨S_, .f32⟩ : BufTy).Contents (Elt F) → (⟨S16384x4, .f32⟩ : BufTy).Contents (Elt F)),
    StableHlo.binary main_v285 main_v286 main_v287 (cmpf .olt : (⟨S16384x4, .f32⟩ : BufTy).Contents (Elt F) → (⟨S16384x4, .f32⟩ : BufTy).Contents (Elt F) → (⟨S16384x4, .i1⟩ : BufTy).Contents (Elt F)),
    StableHlo.nullary main_c_108 (constantI S_ 1 0#1),
    StableHlo.binary main_v287 main_c_108 main_v288 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v287 main_v289 ((extui 32 · natLt_1_32) : (⟨S16384x4, .i1⟩ : BufTy).Contents (Elt F) → (⟨S16384x4, .i32⟩ : BufTy).Contents (Elt F)),
    StableHlo.nullary main_c_109 (constantI S_ 32 0#32),
    StableHlo.binary main_v289 main_c_109 main_v290 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_110 (constantI S_ 32 1#32),
    StableHlo.unary main_c_110 main_v291 (broadcastInDim S16384 ![] bcast_S_S16384 : (⟨S_, .i32⟩ : BufTy).Contents (Elt F) → (⟨S16384, .i32⟩ : BufTy).Contents (Elt F)),
    StableHlo.binary main_v290 main_v291 main_v292 (cmpi .sgt : (⟨S16384, .i32⟩ : BufTy).Contents (Elt F) → (⟨S16384, .i32⟩ : BufTy).Contents (Elt F) → (⟨S16384, .i1⟩ : BufTy).Contents (Elt F)),
    StableHlo.binary main_v288 main_v292 main_v293 (andi : (⟨S16384, .i1⟩ : BufTy).Contents (Elt F) → (⟨S16384, .i1⟩ : BufTy).Contents (Elt F) → (⟨S16384, .i1⟩ : BufTy).Contents (Elt F)),
    StableHlo.reshape main_v283 main_v294 rfl shapeCasts_S16384x1_S16384,
    StableHlo.nullary main_cst_111 (constant S_ .f32 0x38D1B717#32),
    StableHlo.unary main_cst_111 main_v295 (broadcastInDim S16384 ![] bcast_S_S16384 : (⟨S_, .f32⟩ : BufTy).Contents (Elt F) → (⟨S16384, .f32⟩ : BufTy).Contents (Elt F)),
    StableHlo.binary main_v294 main_v295 main_v296 (addf : (⟨S16384, .f32⟩ : BufTy).Contents (Elt F) → (⟨S16384, .f32⟩ : BufTy).Contents (Elt F) → (⟨S16384, .f32⟩ : BufTy).Contents (Elt F)),
    StableHlo.unary main_v274 main_v297 ((extractStridedSlice S16384x1 ![0, 40] · slices_S16384x64_S16384x1_0_40) : (⟨S16384x64, .f32⟩ : BufTy).Contents (Elt F) → (⟨S16384x1, .f32⟩ : BufTy).Contents (Elt F)),
    StableHlo.reshape main_v297 main_v298 rfl shapeCasts_S16384x1_S16384,
    StableHlo.TRef.ternary (.of main_v293) (.of main_v296) (.of main_v298) main_call10.v0 select,
    StableHlo.nullary main_c_112 (constantI S_ 32 40#32),
    StableHlo.unary main_c_112 main_v300 (broadcastInDim S1 ![] bcast_S_S1 : (⟨S_, .i32⟩ : BufTy).Contents (Elt F) → (⟨S1, .i32⟩ : BufTy).Contents (Elt F)),
    StableHlo.ternary main_v274 main_v300 main_v299 main_v301 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 11's thirty-six operations (columns 44 to 47). -/
abbrev cls11 : List (HloOp τ sig (Elt F)) :=
  [ StableHlo.nullary main_c_113 (constantI S_ 32 0#32),
    StableHlo.unary main_c_113 main_v302 (broadcastInDim S4 ![] bcast_S_S4 : (⟨S_, .i32⟩ : BufTy).Contents (Elt F) → (⟨S4, .i32⟩ : BufTy).Contents (Elt F)),
    StableHlo.binary main_c_10 main_v302 main_v303 (cmpi .slt : (⟨S4, .i32⟩ : BufTy).Contents (Elt F) → (⟨S4, .i32⟩ : BufTy).Contents (Elt F) → (⟨S4, .i1⟩ : BufTy).Contents (Elt F)),
    StableHlo.nullary main_c_114 (constantI S_ 32 64#32),
    StableHlo.unary main_c_114 main_v304 (broadcastInDim S4 ![] bcast_S_S4 : (⟨S_, .i32⟩ : BufTy).Contents (Elt F) → (⟨S4, .i32⟩ : BufTy).Contents (Elt F)),
    StableHlo.binary main_c_10 main_v304 main_v305 (addi : (⟨S4, .i32⟩ : BufTy).Contents (Elt F) → (⟨S4, .i32⟩ : BufTy).Contents (Elt F) → (⟨S4, .i32⟩ : BufTy).Contents (Elt F)),
    StableHlo.ternary main_v303 main_v305 main_c_10 main_v306 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v306 main_v307 (broadcastInDim S4x1 ![0] bcast_S4_S4x1_0 : (⟨S4, .i32⟩ : BufTy).Contents (Elt F) → (⟨S4x1, .i32⟩ : BufTy).Contents (Elt F)),
    StableHlo.binary main_v301 main_v307 main_v308 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_115 (constant S_ .f32 0xFF800000#32),
    StableHlo.binary main_v308 main_cst_115 main_v309 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v309 main_v310 (broadcastInDim S16384x1 ![0] bcast_S16384_S16384x1_0 : (⟨S16384, .f32⟩ : BufTy).Contents (Elt F) → (⟨S16384x1, .f32⟩ : BufTy).Contents (Elt F)),
    StableHlo.unary main_v310 main_v311 (broadcastInDim S16384x4 ![0, 1] bcast_S16384x1_S16384x4_0_1 : (⟨S16384x1, .f32⟩ : BufTy).Contents (Elt F) → (⟨S16384x4, .f32⟩ : BufTy).Contents (Elt F)),
    StableHlo.binary main_v311 main_v308 main_v312 (subf : (⟨S16384x4, .f32⟩ : BufTy).Contents (Elt F) → (⟨S16384x4, .f32⟩ : BufTy).Contents (Elt F) → (⟨S16384x4, .f32⟩ : BufTy).Contents (Elt F)),
    StableHlo.nullary main_cst_116 (constant S_ .f32 0x3DCCCCCD#32),
    StableHlo.unary main_cst_116 main_v313 (broadcastInDim S16384x4 ![] bcast_S_S16384x4 : (⟨S_, .f32⟩ : BufTy).Contents (Elt F) → (⟨S16384x4, .f32⟩ : BufTy).Contents (Elt F)),
    StableHlo.binary main_v312 main_v313 main_v314 (cmpf .olt : (⟨S16384x4, .f32⟩ : BufTy).Contents (Elt F) → (⟨S16384x4, .f32⟩ : BufTy).Contents (Elt F) → (⟨S16384x4, .i1⟩ : BufTy).Contents (Elt F)),
    StableHlo.nullary main_c_117 (constantI S_ 1 0#1),
    StableHlo.binary main_v314 main_c_117 main_v315 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v314 main_v316 ((extui 32 · natLt_1_32) : (⟨S16384x4, .i1⟩ : BufTy).Contents (Elt F) → (⟨S16384x4, .i32⟩ : BufTy).Contents (Elt F)),
    StableHlo.nullary main_c_118 (constantI S_ 32 0#32),
    StableHlo.binary main_v316 main_c_118 main_v317 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_119 (constantI S_ 32 1#32),
    StableHlo.unary main_c_119 main_v318 (broadcastInDim S16384 ![] bcast_S_S16384 : (⟨S_, .i32⟩ : BufTy).Contents (Elt F) → (⟨S16384, .i32⟩ : BufTy).Contents (Elt F)),
    StableHlo.binary main_v317 main_v318 main_v319 (cmpi .sgt : (⟨S16384, .i32⟩ : BufTy).Contents (Elt F) → (⟨S16384, .i32⟩ : BufTy).Contents (Elt F) → (⟨S16384, .i1⟩ : BufTy).Contents (Elt F)),
    StableHlo.binary main_v315 main_v319 main_v320 (andi : (⟨S16384, .i1⟩ : BufTy).Contents (Elt F) → (⟨S16384, .i1⟩ : BufTy).Contents (Elt F) → (⟨S16384, .i1⟩ : BufTy).Contents (Elt F)),
    StableHlo.reshape main_v310 main_v321 rfl shapeCasts_S16384x1_S16384,
    StableHlo.nullary main_cst_120 (constant S_ .f32 0x38D1B717#32),
    StableHlo.unary main_cst_120 main_v322 (broadcastInDim S16384 ![] bcast_S_S16384 : (⟨S_, .f32⟩ : BufTy).Contents (Elt F) → (⟨S16384, .f32⟩ : BufTy).Contents (Elt F)),
    StableHlo.binary main_v321 main_v322 main_v323 (addf : (⟨S16384, .f32⟩ : BufTy).Contents (Elt F) → (⟨S16384, .f32⟩ : BufTy).Contents (Elt F) → (⟨S16384, .f32⟩ : BufTy).Contents (Elt F)),
    StableHlo.unary main_v301 main_v324 ((extractStridedSlice S16384x1 ![0, 44] · slices_S16384x64_S16384x1_0_44) : (⟨S16384x64, .f32⟩ : BufTy).Contents (Elt F) → (⟨S16384x1, .f32⟩ : BufTy).Contents (Elt F)),
    StableHlo.reshape main_v324 main_v325 rfl shapeCasts_S16384x1_S16384,
    StableHlo.TRef.ternary (.of main_v320) (.of main_v323) (.of main_v325) main_call11.v0 select,
    StableHlo.nullary main_c_121 (constantI S_ 32 44#32),
    StableHlo.unary main_c_121 main_v327 (broadcastInDim S1 ![] bcast_S_S1 : (⟨S_, .i32⟩ : BufTy).Contents (Elt F) → (⟨S1, .i32⟩ : BufTy).Contents (Elt F)),
    StableHlo.ternary main_v301 main_v327 main_v326 main_v328 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 12's thirty-six operations (columns 48 to 51). -/
abbrev cls12 : List (HloOp τ sig (Elt F)) :=
  [ StableHlo.nullary main_c_122 (constantI S_ 32 0#32),
    StableHlo.unary main_c_122 main_v329 (broadcastInDim S4 ![] bcast_S_S4 : (⟨S_, .i32⟩ : BufTy).Contents (Elt F) → (⟨S4, .i32⟩ : BufTy).Contents (Elt F)),
    StableHlo.binary main_c_11 main_v329 main_v330 (cmpi .slt : (⟨S4, .i32⟩ : BufTy).Contents (Elt F) → (⟨S4, .i32⟩ : BufTy).Contents (Elt F) → (⟨S4, .i1⟩ : BufTy).Contents (Elt F)),
    StableHlo.nullary main_c_123 (constantI S_ 32 64#32),
    StableHlo.unary main_c_123 main_v331 (broadcastInDim S4 ![] bcast_S_S4 : (⟨S_, .i32⟩ : BufTy).Contents (Elt F) → (⟨S4, .i32⟩ : BufTy).Contents (Elt F)),
    StableHlo.binary main_c_11 main_v331 main_v332 (addi : (⟨S4, .i32⟩ : BufTy).Contents (Elt F) → (⟨S4, .i32⟩ : BufTy).Contents (Elt F) → (⟨S4, .i32⟩ : BufTy).Contents (Elt F)),
    StableHlo.ternary main_v330 main_v332 main_c_11 main_v333 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v333 main_v334 (broadcastInDim S4x1 ![0] bcast_S4_S4x1_0 : (⟨S4, .i32⟩ : BufTy).Contents (Elt F) → (⟨S4x1, .i32⟩ : BufTy).Contents (Elt F)),
    StableHlo.binary main_v328 main_v334 main_v335 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_124 (constant S_ .f32 0xFF800000#32),
    StableHlo.binary main_v335 main_cst_124 main_v336 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v336 main_v337 (broadcastInDim S16384x1 ![0] bcast_S16384_S16384x1_0 : (⟨S16384, .f32⟩ : BufTy).Contents (Elt F) → (⟨S16384x1, .f32⟩ : BufTy).Contents (Elt F)),
    StableHlo.unary main_v337 main_v338 (broadcastInDim S16384x4 ![0, 1] bcast_S16384x1_S16384x4_0_1 : (⟨S16384x1, .f32⟩ : BufTy).Contents (Elt F) → (⟨S16384x4, .f32⟩ : BufTy).Contents (Elt F)),
    StableHlo.binary main_v338 main_v335 main_v339 (subf : (⟨S16384x4, .f32⟩ : BufTy).Contents (Elt F) → (⟨S16384x4, .f32⟩ : BufTy).Contents (Elt F) → (⟨S16384x4, .f32⟩ : BufTy).Contents (Elt F)),
    StableHlo.nullary main_cst_125 (constant S_ .f32 0x3DCCCCCD#32),
    StableHlo.unary main_cst_125 main_v340 (broadcastInDim S16384x4 ![] bcast_S_S16384x4 : (⟨S_, .f32⟩ : BufTy).Contents (Elt F) → (⟨S16384x4, .f32⟩ : BufTy).Contents (Elt F)),
    StableHlo.binary main_v339 main_v340 main_v341 (cmpf .olt : (⟨S16384x4, .f32⟩ : BufTy).Contents (Elt F) → (⟨S16384x4, .f32⟩ : BufTy).Contents (Elt F) → (⟨S16384x4, .i1⟩ : BufTy).Contents (Elt F)),
    StableHlo.nullary main_c_126 (constantI S_ 1 0#1),
    StableHlo.binary main_v341 main_c_126 main_v342 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v341 main_v343 ((extui 32 · natLt_1_32) : (⟨S16384x4, .i1⟩ : BufTy).Contents (Elt F) → (⟨S16384x4, .i32⟩ : BufTy).Contents (Elt F)),
    StableHlo.nullary main_c_127 (constantI S_ 32 0#32),
    StableHlo.binary main_v343 main_c_127 main_v344 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_128 (constantI S_ 32 1#32),
    StableHlo.unary main_c_128 main_v345 (broadcastInDim S16384 ![] bcast_S_S16384 : (⟨S_, .i32⟩ : BufTy).Contents (Elt F) → (⟨S16384, .i32⟩ : BufTy).Contents (Elt F)),
    StableHlo.binary main_v344 main_v345 main_v346 (cmpi .sgt : (⟨S16384, .i32⟩ : BufTy).Contents (Elt F) → (⟨S16384, .i32⟩ : BufTy).Contents (Elt F) → (⟨S16384, .i1⟩ : BufTy).Contents (Elt F)),
    StableHlo.binary main_v342 main_v346 main_v347 (andi : (⟨S16384, .i1⟩ : BufTy).Contents (Elt F) → (⟨S16384, .i1⟩ : BufTy).Contents (Elt F) → (⟨S16384, .i1⟩ : BufTy).Contents (Elt F)),
    StableHlo.reshape main_v337 main_v348 rfl shapeCasts_S16384x1_S16384,
    StableHlo.nullary main_cst_129 (constant S_ .f32 0x38D1B717#32),
    StableHlo.unary main_cst_129 main_v349 (broadcastInDim S16384 ![] bcast_S_S16384 : (⟨S_, .f32⟩ : BufTy).Contents (Elt F) → (⟨S16384, .f32⟩ : BufTy).Contents (Elt F)),
    StableHlo.binary main_v348 main_v349 main_v350 (addf : (⟨S16384, .f32⟩ : BufTy).Contents (Elt F) → (⟨S16384, .f32⟩ : BufTy).Contents (Elt F) → (⟨S16384, .f32⟩ : BufTy).Contents (Elt F)),
    StableHlo.unary main_v328 main_v351 ((extractStridedSlice S16384x1 ![0, 48] · slices_S16384x64_S16384x1_0_48) : (⟨S16384x64, .f32⟩ : BufTy).Contents (Elt F) → (⟨S16384x1, .f32⟩ : BufTy).Contents (Elt F)),
    StableHlo.reshape main_v351 main_v352 rfl shapeCasts_S16384x1_S16384,
    StableHlo.TRef.ternary (.of main_v347) (.of main_v350) (.of main_v352) main_call12.v0 select,
    StableHlo.nullary main_c_130 (constantI S_ 32 48#32),
    StableHlo.unary main_c_130 main_v354 (broadcastInDim S1 ![] bcast_S_S1 : (⟨S_, .i32⟩ : BufTy).Contents (Elt F) → (⟨S1, .i32⟩ : BufTy).Contents (Elt F)),
    StableHlo.ternary main_v328 main_v354 main_v353 main_v355 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 13's thirty-six operations (columns 52 to 55). -/
abbrev cls13 : List (HloOp τ sig (Elt F)) :=
  [ StableHlo.nullary main_c_131 (constantI S_ 32 0#32),
    StableHlo.unary main_c_131 main_v356 (broadcastInDim S4 ![] bcast_S_S4 : (⟨S_, .i32⟩ : BufTy).Contents (Elt F) → (⟨S4, .i32⟩ : BufTy).Contents (Elt F)),
    StableHlo.binary main_c_12 main_v356 main_v357 (cmpi .slt : (⟨S4, .i32⟩ : BufTy).Contents (Elt F) → (⟨S4, .i32⟩ : BufTy).Contents (Elt F) → (⟨S4, .i1⟩ : BufTy).Contents (Elt F)),
    StableHlo.nullary main_c_132 (constantI S_ 32 64#32),
    StableHlo.unary main_c_132 main_v358 (broadcastInDim S4 ![] bcast_S_S4 : (⟨S_, .i32⟩ : BufTy).Contents (Elt F) → (⟨S4, .i32⟩ : BufTy).Contents (Elt F)),
    StableHlo.binary main_c_12 main_v358 main_v359 (addi : (⟨S4, .i32⟩ : BufTy).Contents (Elt F) → (⟨S4, .i32⟩ : BufTy).Contents (Elt F) → (⟨S4, .i32⟩ : BufTy).Contents (Elt F)),
    StableHlo.ternary main_v357 main_v359 main_c_12 main_v360 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v360 main_v361 (broadcastInDim S4x1 ![0] bcast_S4_S4x1_0 : (⟨S4, .i32⟩ : BufTy).Contents (Elt F) → (⟨S4x1, .i32⟩ : BufTy).Contents (Elt F)),
    StableHlo.binary main_v355 main_v361 main_v362 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_133 (constant S_ .f32 0xFF800000#32),
    StableHlo.binary main_v362 main_cst_133 main_v363 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v363 main_v364 (broadcastInDim S16384x1 ![0] bcast_S16384_S16384x1_0 : (⟨S16384, .f32⟩ : BufTy).Contents (Elt F) → (⟨S16384x1, .f32⟩ : BufTy).Contents (Elt F)),
    StableHlo.unary main_v364 main_v365 (broadcastInDim S16384x4 ![0, 1] bcast_S16384x1_S16384x4_0_1 : (⟨S16384x1, .f32⟩ : BufTy).Contents (Elt F) → (⟨S16384x4, .f32⟩ : BufTy).Contents (Elt F)),
    StableHlo.binary main_v365 main_v362 main_v366 (subf : (⟨S16384x4, .f32⟩ : BufTy).Contents (Elt F) → (⟨S16384x4, .f32⟩ : BufTy).Contents (Elt F) → (⟨S16384x4, .f32⟩ : BufTy).Contents (Elt F)),
    StableHlo.nullary main_cst_134 (constant S_ .f32 0x3DCCCCCD#32),
    StableHlo.unary main_cst_134 main_v367 (broadcastInDim S16384x4 ![] bcast_S_S16384x4 : (⟨S_, .f32⟩ : BufTy).Contents (Elt F) → (⟨S16384x4, .f32⟩ : BufTy).Contents (Elt F)),
    StableHlo.binary main_v366 main_v367 main_v368 (cmpf .olt : (⟨S16384x4, .f32⟩ : BufTy).Contents (Elt F) → (⟨S16384x4, .f32⟩ : BufTy).Contents (Elt F) → (⟨S16384x4, .i1⟩ : BufTy).Contents (Elt F)),
    StableHlo.nullary main_c_135 (constantI S_ 1 0#1),
    StableHlo.binary main_v368 main_c_135 main_v369 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v368 main_v370 ((extui 32 · natLt_1_32) : (⟨S16384x4, .i1⟩ : BufTy).Contents (Elt F) → (⟨S16384x4, .i32⟩ : BufTy).Contents (Elt F)),
    StableHlo.nullary main_c_136 (constantI S_ 32 0#32),
    StableHlo.binary main_v370 main_c_136 main_v371 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_137 (constantI S_ 32 1#32),
    StableHlo.unary main_c_137 main_v372 (broadcastInDim S16384 ![] bcast_S_S16384 : (⟨S_, .i32⟩ : BufTy).Contents (Elt F) → (⟨S16384, .i32⟩ : BufTy).Contents (Elt F)),
    StableHlo.binary main_v371 main_v372 main_v373 (cmpi .sgt : (⟨S16384, .i32⟩ : BufTy).Contents (Elt F) → (⟨S16384, .i32⟩ : BufTy).Contents (Elt F) → (⟨S16384, .i1⟩ : BufTy).Contents (Elt F)),
    StableHlo.binary main_v369 main_v373 main_v374 (andi : (⟨S16384, .i1⟩ : BufTy).Contents (Elt F) → (⟨S16384, .i1⟩ : BufTy).Contents (Elt F) → (⟨S16384, .i1⟩ : BufTy).Contents (Elt F)),
    StableHlo.reshape main_v364 main_v375 rfl shapeCasts_S16384x1_S16384,
    StableHlo.nullary main_cst_138 (constant S_ .f32 0x38D1B717#32),
    StableHlo.unary main_cst_138 main_v376 (broadcastInDim S16384 ![] bcast_S_S16384 : (⟨S_, .f32⟩ : BufTy).Contents (Elt F) → (⟨S16384, .f32⟩ : BufTy).Contents (Elt F)),
    StableHlo.binary main_v375 main_v376 main_v377 (addf : (⟨S16384, .f32⟩ : BufTy).Contents (Elt F) → (⟨S16384, .f32⟩ : BufTy).Contents (Elt F) → (⟨S16384, .f32⟩ : BufTy).Contents (Elt F)),
    StableHlo.unary main_v355 main_v378 ((extractStridedSlice S16384x1 ![0, 52] · slices_S16384x64_S16384x1_0_52) : (⟨S16384x64, .f32⟩ : BufTy).Contents (Elt F) → (⟨S16384x1, .f32⟩ : BufTy).Contents (Elt F)),
    StableHlo.reshape main_v378 main_v379 rfl shapeCasts_S16384x1_S16384,
    StableHlo.TRef.ternary (.of main_v374) (.of main_v377) (.of main_v379) main_call13.v0 select,
    StableHlo.nullary main_c_139 (constantI S_ 32 52#32),
    StableHlo.unary main_c_139 main_v381 (broadcastInDim S1 ![] bcast_S_S1 : (⟨S_, .i32⟩ : BufTy).Contents (Elt F) → (⟨S1, .i32⟩ : BufTy).Contents (Elt F)),
    StableHlo.ternary main_v355 main_v381 main_v380 main_v382 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 14's thirty-six operations (columns 56 to 59). -/
abbrev cls14 : List (HloOp τ sig (Elt F)) :=
  [ StableHlo.nullary main_c_140 (constantI S_ 32 0#32),
    StableHlo.unary main_c_140 main_v383 (broadcastInDim S4 ![] bcast_S_S4 : (⟨S_, .i32⟩ : BufTy).Contents (Elt F) → (⟨S4, .i32⟩ : BufTy).Contents (Elt F)),
    StableHlo.binary main_c_13 main_v383 main_v384 (cmpi .slt : (⟨S4, .i32⟩ : BufTy).Contents (Elt F) → (⟨S4, .i32⟩ : BufTy).Contents (Elt F) → (⟨S4, .i1⟩ : BufTy).Contents (Elt F)),
    StableHlo.nullary main_c_141 (constantI S_ 32 64#32),
    StableHlo.unary main_c_141 main_v385 (broadcastInDim S4 ![] bcast_S_S4 : (⟨S_, .i32⟩ : BufTy).Contents (Elt F) → (⟨S4, .i32⟩ : BufTy).Contents (Elt F)),
    StableHlo.binary main_c_13 main_v385 main_v386 (addi : (⟨S4, .i32⟩ : BufTy).Contents (Elt F) → (⟨S4, .i32⟩ : BufTy).Contents (Elt F) → (⟨S4, .i32⟩ : BufTy).Contents (Elt F)),
    StableHlo.ternary main_v384 main_v386 main_c_13 main_v387 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v387 main_v388 (broadcastInDim S4x1 ![0] bcast_S4_S4x1_0 : (⟨S4, .i32⟩ : BufTy).Contents (Elt F) → (⟨S4x1, .i32⟩ : BufTy).Contents (Elt F)),
    StableHlo.binary main_v382 main_v388 main_v389 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_142 (constant S_ .f32 0xFF800000#32),
    StableHlo.binary main_v389 main_cst_142 main_v390 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v390 main_v391 (broadcastInDim S16384x1 ![0] bcast_S16384_S16384x1_0 : (⟨S16384, .f32⟩ : BufTy).Contents (Elt F) → (⟨S16384x1, .f32⟩ : BufTy).Contents (Elt F)),
    StableHlo.unary main_v391 main_v392 (broadcastInDim S16384x4 ![0, 1] bcast_S16384x1_S16384x4_0_1 : (⟨S16384x1, .f32⟩ : BufTy).Contents (Elt F) → (⟨S16384x4, .f32⟩ : BufTy).Contents (Elt F)),
    StableHlo.binary main_v392 main_v389 main_v393 (subf : (⟨S16384x4, .f32⟩ : BufTy).Contents (Elt F) → (⟨S16384x4, .f32⟩ : BufTy).Contents (Elt F) → (⟨S16384x4, .f32⟩ : BufTy).Contents (Elt F)),
    StableHlo.nullary main_cst_143 (constant S_ .f32 0x3DCCCCCD#32),
    StableHlo.unary main_cst_143 main_v394 (broadcastInDim S16384x4 ![] bcast_S_S16384x4 : (⟨S_, .f32⟩ : BufTy).Contents (Elt F) → (⟨S16384x4, .f32⟩ : BufTy).Contents (Elt F)),
    StableHlo.binary main_v393 main_v394 main_v395 (cmpf .olt : (⟨S16384x4, .f32⟩ : BufTy).Contents (Elt F) → (⟨S16384x4, .f32⟩ : BufTy).Contents (Elt F) → (⟨S16384x4, .i1⟩ : BufTy).Contents (Elt F)),
    StableHlo.nullary main_c_144 (constantI S_ 1 0#1),
    StableHlo.binary main_v395 main_c_144 main_v396 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v395 main_v397 ((extui 32 · natLt_1_32) : (⟨S16384x4, .i1⟩ : BufTy).Contents (Elt F) → (⟨S16384x4, .i32⟩ : BufTy).Contents (Elt F)),
    StableHlo.nullary main_c_145 (constantI S_ 32 0#32),
    StableHlo.binary main_v397 main_c_145 main_v398 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_146 (constantI S_ 32 1#32),
    StableHlo.unary main_c_146 main_v399 (broadcastInDim S16384 ![] bcast_S_S16384 : (⟨S_, .i32⟩ : BufTy).Contents (Elt F) → (⟨S16384, .i32⟩ : BufTy).Contents (Elt F)),
    StableHlo.binary main_v398 main_v399 main_v400 (cmpi .sgt : (⟨S16384, .i32⟩ : BufTy).Contents (Elt F) → (⟨S16384, .i32⟩ : BufTy).Contents (Elt F) → (⟨S16384, .i1⟩ : BufTy).Contents (Elt F)),
    StableHlo.binary main_v396 main_v400 main_v401 (andi : (⟨S16384, .i1⟩ : BufTy).Contents (Elt F) → (⟨S16384, .i1⟩ : BufTy).Contents (Elt F) → (⟨S16384, .i1⟩ : BufTy).Contents (Elt F)),
    StableHlo.reshape main_v391 main_v402 rfl shapeCasts_S16384x1_S16384,
    StableHlo.nullary main_cst_147 (constant S_ .f32 0x38D1B717#32),
    StableHlo.unary main_cst_147 main_v403 (broadcastInDim S16384 ![] bcast_S_S16384 : (⟨S_, .f32⟩ : BufTy).Contents (Elt F) → (⟨S16384, .f32⟩ : BufTy).Contents (Elt F)),
    StableHlo.binary main_v402 main_v403 main_v404 (addf : (⟨S16384, .f32⟩ : BufTy).Contents (Elt F) → (⟨S16384, .f32⟩ : BufTy).Contents (Elt F) → (⟨S16384, .f32⟩ : BufTy).Contents (Elt F)),
    StableHlo.unary main_v382 main_v405 ((extractStridedSlice S16384x1 ![0, 56] · slices_S16384x64_S16384x1_0_56) : (⟨S16384x64, .f32⟩ : BufTy).Contents (Elt F) → (⟨S16384x1, .f32⟩ : BufTy).Contents (Elt F)),
    StableHlo.reshape main_v405 main_v406 rfl shapeCasts_S16384x1_S16384,
    StableHlo.TRef.ternary (.of main_v401) (.of main_v404) (.of main_v406) main_call14.v0 select,
    StableHlo.nullary main_c_148 (constantI S_ 32 56#32),
    StableHlo.unary main_c_148 main_v408 (broadcastInDim S1 ![] bcast_S_S1 : (⟨S_, .i32⟩ : BufTy).Contents (Elt F) → (⟨S1, .i32⟩ : BufTy).Contents (Elt F)),
    StableHlo.ternary main_v382 main_v408 main_v407 main_v409 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- Class 15's thirty-six operations (columns 60 to 63). -/
abbrev cls15 : List (HloOp τ sig (Elt F)) :=
  [ StableHlo.nullary main_c_149 (constantI S_ 32 0#32),
    StableHlo.unary main_c_149 main_v410 (broadcastInDim S4 ![] bcast_S_S4 : (⟨S_, .i32⟩ : BufTy).Contents (Elt F) → (⟨S4, .i32⟩ : BufTy).Contents (Elt F)),
    StableHlo.binary main_c_14 main_v410 main_v411 (cmpi .slt : (⟨S4, .i32⟩ : BufTy).Contents (Elt F) → (⟨S4, .i32⟩ : BufTy).Contents (Elt F) → (⟨S4, .i1⟩ : BufTy).Contents (Elt F)),
    StableHlo.nullary main_c_150 (constantI S_ 32 64#32),
    StableHlo.unary main_c_150 main_v412 (broadcastInDim S4 ![] bcast_S_S4 : (⟨S_, .i32⟩ : BufTy).Contents (Elt F) → (⟨S4, .i32⟩ : BufTy).Contents (Elt F)),
    StableHlo.binary main_c_14 main_v412 main_v413 (addi : (⟨S4, .i32⟩ : BufTy).Contents (Elt F) → (⟨S4, .i32⟩ : BufTy).Contents (Elt F) → (⟨S4, .i32⟩ : BufTy).Contents (Elt F)),
    StableHlo.ternary main_v411 main_v413 main_c_14 main_v414 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v414 main_v415 (broadcastInDim S4x1 ![0] bcast_S4_S4x1_0 : (⟨S4, .i32⟩ : BufTy).Contents (Elt F) → (⟨S4x1, .i32⟩ : BufTy).Contents (Elt F)),
    StableHlo.binary main_v409 main_v415 main_v416 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_151 (constant S_ .f32 0xFF800000#32),
    StableHlo.binary main_v416 main_cst_151 main_v417 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v417 main_v418 (broadcastInDim S16384x1 ![0] bcast_S16384_S16384x1_0 : (⟨S16384, .f32⟩ : BufTy).Contents (Elt F) → (⟨S16384x1, .f32⟩ : BufTy).Contents (Elt F)),
    StableHlo.unary main_v418 main_v419 (broadcastInDim S16384x4 ![0, 1] bcast_S16384x1_S16384x4_0_1 : (⟨S16384x1, .f32⟩ : BufTy).Contents (Elt F) → (⟨S16384x4, .f32⟩ : BufTy).Contents (Elt F)),
    StableHlo.binary main_v419 main_v416 main_v420 (subf : (⟨S16384x4, .f32⟩ : BufTy).Contents (Elt F) → (⟨S16384x4, .f32⟩ : BufTy).Contents (Elt F) → (⟨S16384x4, .f32⟩ : BufTy).Contents (Elt F)),
    StableHlo.nullary main_cst_152 (constant S_ .f32 0x3DCCCCCD#32),
    StableHlo.unary main_cst_152 main_v421 (broadcastInDim S16384x4 ![] bcast_S_S16384x4 : (⟨S_, .f32⟩ : BufTy).Contents (Elt F) → (⟨S16384x4, .f32⟩ : BufTy).Contents (Elt F)),
    StableHlo.binary main_v420 main_v421 main_v422 (cmpf .olt : (⟨S16384x4, .f32⟩ : BufTy).Contents (Elt F) → (⟨S16384x4, .f32⟩ : BufTy).Contents (Elt F) → (⟨S16384x4, .i1⟩ : BufTy).Contents (Elt F)),
    StableHlo.nullary main_c_153 (constantI S_ 1 0#1),
    StableHlo.binary main_v422 main_c_153 main_v423 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v422 main_v424 ((extui 32 · natLt_1_32) : (⟨S16384x4, .i1⟩ : BufTy).Contents (Elt F) → (⟨S16384x4, .i32⟩ : BufTy).Contents (Elt F)),
    StableHlo.nullary main_c_154 (constantI S_ 32 0#32),
    StableHlo.binary main_v424 main_c_154 main_v425 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_155 (constantI S_ 32 1#32),
    StableHlo.unary main_c_155 main_v426 (broadcastInDim S16384 ![] bcast_S_S16384 : (⟨S_, .i32⟩ : BufTy).Contents (Elt F) → (⟨S16384, .i32⟩ : BufTy).Contents (Elt F)),
    StableHlo.binary main_v425 main_v426 main_v427 (cmpi .sgt : (⟨S16384, .i32⟩ : BufTy).Contents (Elt F) → (⟨S16384, .i32⟩ : BufTy).Contents (Elt F) → (⟨S16384, .i1⟩ : BufTy).Contents (Elt F)),
    StableHlo.binary main_v423 main_v427 main_v428 (andi : (⟨S16384, .i1⟩ : BufTy).Contents (Elt F) → (⟨S16384, .i1⟩ : BufTy).Contents (Elt F) → (⟨S16384, .i1⟩ : BufTy).Contents (Elt F)),
    StableHlo.reshape main_v418 main_v429 rfl shapeCasts_S16384x1_S16384,
    StableHlo.nullary main_cst_156 (constant S_ .f32 0x38D1B717#32),
    StableHlo.unary main_cst_156 main_v430 (broadcastInDim S16384 ![] bcast_S_S16384 : (⟨S_, .f32⟩ : BufTy).Contents (Elt F) → (⟨S16384, .f32⟩ : BufTy).Contents (Elt F)),
    StableHlo.binary main_v429 main_v430 main_v431 (addf : (⟨S16384, .f32⟩ : BufTy).Contents (Elt F) → (⟨S16384, .f32⟩ : BufTy).Contents (Elt F) → (⟨S16384, .f32⟩ : BufTy).Contents (Elt F)),
    StableHlo.unary main_v409 main_v432 ((extractStridedSlice S16384x1 ![0, 60] · slices_S16384x64_S16384x1_0_60) : (⟨S16384x64, .f32⟩ : BufTy).Contents (Elt F) → (⟨S16384x1, .f32⟩ : BufTy).Contents (Elt F)),
    StableHlo.reshape main_v432 main_v433 rfl shapeCasts_S16384x1_S16384,
    StableHlo.TRef.ternary (.of main_v428) (.of main_v431) (.of main_v433) main_call15.v0 select,
    StableHlo.nullary main_c_157 (constantI S_ 32 60#32),
    StableHlo.unary main_c_157 main_v435 (broadcastInDim S1 ![] bcast_S_S1 : (⟨S_, .i32⟩ : BufTy).Contents (Elt F) → (⟨S1, .i32⟩ : BufTy).Contents (Elt F)),
    StableHlo.ternary main_v409 main_v435 main_v434 main_v436 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

/-- @main's 597 operations, in order. -/
abbrev ops : List (HloOp τ sig (Elt F)) :=
  pre ++ (cls0 ++ (cls1 ++ (cls2 ++ (cls3 ++ (cls4 ++ (cls5 ++ (cls6 ++ (cls7 ++ (cls8 ++ (cls9 ++ (cls10 ++ (cls11 ++ (cls12 ++ (cls13 ++ (cls14 ++ (cls15))))))))))))))))

end Cert.ReferenceIdeal.RefRun

end
-- ==== Proof.RefParts.lean ====
/-
  The same 597 operations cut as the printed program cuts its @main: ten consecutive windows of sixty (the last
  of fifty-seven), each the list of one printed window of @main.
-/
import proofs.«144457_g41274635714715_cont_8to1_b_145_24_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The operations of the printed window 0. -/
abbrev part0 : List (HloOp τ sig (Elt F)) :=
  [ StableHlo.nullary main_c (fun i => lit0 (S4.rowMajor i)),
    StableHlo.nullary main_c_0 (fun i => lit1 (S4.rowMajor i)),
    StableHlo.nullary main_c_1 (fun i => lit2 (S4.rowMajor i)),
    StableHlo.nullary main_c_2 (fun i => lit3 (S4.rowMajor i)),
    StableHlo.nullary main_c_3 (fun i => lit4 (S4.rowMajor i)),
    StableHlo.nullary main_c_4 (fun i => lit5 (S4.rowMajor i)),
    StableHlo.nullary main_c_5 (fun i => lit6 (S4.rowMajor i)),
    StableHlo.nullary main_c_6 (fun i => lit7 (S4.rowMajor i)),
    StableHlo.nullary main_c_7 (fun i => lit8 (S4.rowMajor i)),
    StableHlo.nullary main_c_8 (fun i => lit9 (S4.rowMajor i)),
    StableHlo.nullary main_c_9 (fun i => lit10 (S4.rowMajor i)),
    StableHlo.nullary main_c_10 (fun i => lit11 (S4.rowMajor i)),
    StableHlo.nullary main_c_11 (fun i => lit12 (S4.rowMajor i)),
    StableHlo.nullary main_c_12 (fun i => lit13 (S4.rowMajor i)),
    StableHlo.nullary main_c_13 (fun i => lit14 (S4.rowMajor i)),
    StableHlo.nullary main_c_14 (fun i => lit15 (S4.rowMajor i)),
    StableHlo.unary main_arg1 main_v0 ((transpose S4096x64 [1, 0] · transposes_S64x4096_S4096x64_1_0) : (⟨S64x4096, .f32⟩ : BufTy).Contents (Elt F) → (⟨S4096x64, .f32⟩ : BufTy).Contents (Elt F)),
    StableHlo.binary main_arg0 main_v0 main_v1 ((fun l r => Host.dotGeneral dot_S16384x4096_S4096x64_S16384x64_1_0_0_1_n_n none l r) : (⟨S16384x4096, .f32⟩ : BufTy).Contents (Elt F) → (⟨S4096x64, .f32⟩ : BufTy).Contents (Elt F) → (⟨S16384x64, .f32⟩ : BufTy).Contents (Elt F)),
    StableHlo.unary main_arg2 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S16384x64 ![0, 1] bcast_S1x64_S16384x64_0_1 : (⟨S1x64, .f32⟩ : BufTy).Contents (Elt F) → (⟨S16384x64, .f32⟩ : BufTy).Contents (Elt F)),
    StableHlo.binary main_v1 main_v3 main_v4 (addf : (⟨S16384x64, .f32⟩ : BufTy).Contents (Elt F) → (⟨S16384x64, .f32⟩ : BufTy).Contents (Elt F) → (⟨S16384x64, .f32⟩ : BufTy).Contents (Elt F)),
    StableHlo.nullary main_c_15 (constantI S_ 32 0#32),
    StableHlo.unary main_c_15 main_v5 (broadcastInDim S4 ![] bcast_S_S4 : (⟨S_, .i32⟩ : BufTy).Contents (Elt F) → (⟨S4, .i32⟩ : BufTy).Contents (Elt F)),
    StableHlo.binary main_c main_v5 main_v6 (cmpi .slt : (⟨S4, .i32⟩ : BufTy).Contents (Elt F) → (⟨S4, .i32⟩ : BufTy).Contents (Elt F) → (⟨S4, .i1⟩ : BufTy).Contents (Elt F)),
    StableHlo.nullary main_c_16 (constantI S_ 32 64#32),
    StableHlo.unary main_c_16 main_v7 (broadcastInDim S4 ![] bcast_S_S4 : (⟨S_, .i32⟩ : BufTy).Contents (Elt F) → (⟨S4, .i32⟩ : BufTy).Contents (Elt F)),
    StableHlo.binary main_c main_v7 main_v8 (addi : (⟨S4, .i32⟩ : BufTy).Contents (Elt F) → (⟨S4, .i32⟩ : BufTy).Contents (Elt F) → (⟨S4, .i32⟩ : BufTy).Contents (Elt F)),
    StableHlo.ternary main_v6 main_v8 main_c main_v9 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v9 main_v10 (broadcastInDim S4x1 ![0] bcast_S4_S4x1_0 : (⟨S4, .i32⟩ : BufTy).Contents (Elt F) → (⟨S4x1, .i32⟩ : BufTy).Contents (Elt F)),
    StableHlo.binary main_v4 main_v10 main_v11 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst (constant S_ .f32 0xFF800000#32),
    StableHlo.binary main_v11 main_cst main_v12 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v12 main_v13 (broadcastInDim S16384x1 ![0] bcast_S16384_S16384x1_0 : (⟨S16384, .f32⟩ : BufTy).Contents (Elt F) → (⟨S16384x1, .f32⟩ : BufTy).Contents (Elt F)),
    StableHlo.unary main_v13 main_v14 (broadcastInDim S16384x4 ![0, 1] bcast_S16384x1_S16384x4_0_1 : (⟨S16384x1, .f32⟩ : BufTy).Contents (Elt F) → (⟨S16384x4, .f32⟩ : BufTy).Contents (Elt F)),
    StableHlo.binary main_v14 main_v11 main_v15 (subf : (⟨S16384x4, .f32⟩ : BufTy).Contents (Elt F) → (⟨S16384x4, .f32⟩ : BufTy).Contents (Elt F) → (⟨S16384x4, .f32⟩ : BufTy).Contents (Elt F)),
    StableHlo.nullary main_cst_17 (constant S_ .f32 0x3DCCCCCD#32),
    StableHlo.unary main_cst_17 main_v16 (broadcastInDim S16384x4 ![] bcast_S_S16384x4 : (⟨S_, .f32⟩ : BufTy).Contents (Elt F) → (⟨S16384x4, .f32⟩ : BufTy).Contents (Elt F)),
    StableHlo.binary main_v15 main_v16 main_v17 (cmpf .olt : (⟨S16384x4, .f32⟩ : BufTy).Contents (Elt F) → (⟨S16384x4, .f32⟩ : BufTy).Contents (Elt F) → (⟨S16384x4, .i1⟩ : BufTy).Contents (Elt F)),
    StableHlo.nullary main_c_18 (constantI S_ 1 0#1),
    StableHlo.binary main_v17 main_c_18 main_v18 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v17 main_v19 ((extui 32 · natLt_1_32) : (⟨S16384x4, .i1⟩ : BufTy).Contents (Elt F) → (⟨S16384x4, .i32⟩ : BufTy).Contents (Elt F)),
    StableHlo.nullary main_c_19 (constantI S_ 32 0#32),
    StableHlo.binary main_v19 main_c_19 main_v20 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_20 (constantI S_ 32 1#32),
    StableHlo.unary main_c_20 main_v21 (broadcastInDim S16384 ![] bcast_S_S16384 : (⟨S_, .i32⟩ : BufTy).Contents (Elt F) → (⟨S16384, .i32⟩ : BufTy).Contents (Elt F)),
    StableHlo.binary main_v20 main_v21 main_v22 (cmpi .sgt : (⟨S16384, .i32⟩ : BufTy).Contents (Elt F) → (⟨S16384, .i32⟩ : BufTy).Contents (Elt F) → (⟨S16384, .i1⟩ : BufTy).Contents (Elt F)),
    StableHlo.binary main_v18 main_v22 main_v23 (andi : (⟨S16384, .i1⟩ : BufTy).Contents (Elt F) → (⟨S16384, .i1⟩ : BufTy).Contents (Elt F) → (⟨S16384, .i1⟩ : BufTy).Contents (Elt F)),
    StableHlo.reshape main_v13 main_v24 rfl shapeCasts_S16384x1_S16384,
    StableHlo.nullary main_cst_21 (constant S_ .f32 0x38D1B717#32),
    StableHlo.unary main_cst_21 main_v25 (broadcastInDim S16384 ![] bcast_S_S16384 : (⟨S_, .f32⟩ : BufTy).Contents (Elt F) → (⟨S16384, .f32⟩ : BufTy).Contents (Elt F)),
    StableHlo.binary main_v24 main_v25 main_v26 (addf : (⟨S16384, .f32⟩ : BufTy).Contents (Elt F) → (⟨S16384, .f32⟩ : BufTy).Contents (Elt F) → (⟨S16384, .f32⟩ : BufTy).Contents (Elt F)),
    StableHlo.unary main_v4 main_v27 ((extractStridedSlice S16384x1 ![0, 0] · slices_S16384x64_S16384x1_0_0) : (⟨S16384x64, .f32⟩ : BufTy).Contents (Elt F) → (⟨S16384x1, .f32⟩ : BufTy).Contents (Elt F)),
    StableHlo.reshape main_v27 main_v28 rfl shapeCasts_S16384x1_S16384,
    StableHlo.TRef.ternary (.of main_v23) (.of main_v26) (.of main_v28) main_call0.v0 select,
    StableHlo.nullary main_c_22 (constantI S_ 32 0#32),
    StableHlo.unary main_c_22 main_v30 (broadcastInDim S1 ![] bcast_S_S1 : (⟨S_, .i32⟩ : BufTy).Contents (Elt F) → (⟨S1, .i32⟩ : BufTy).Contents (Elt F)),
    StableHlo.ternary main_v4 main_v30 main_v29 main_v31 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_23 (constantI S_ 32 0#32),
    StableHlo.unary main_c_23 main_v32 (broadcastInDim S4 ![] bcast_S_S4 : (⟨S_, .i32⟩ : BufTy).Contents (Elt F) → (⟨S4, .i32⟩ : BufTy).Contents (Elt F)),
    StableHlo.binary main_c_0 main_v32 main_v33 (cmpi .slt : (⟨S4, .i32⟩ : BufTy).Contents (Elt F) → (⟨S4, .i32⟩ : BufTy).Contents (Elt F) → (⟨S4, .i1⟩ : BufTy).Contents (Elt F)) ]

/-- The operations of the printed window 1. -/
abbrev part1 : List (HloOp τ sig (Elt F)) :=
  [ StableHlo.nullary main_c_24 (constantI S_ 32 64#32),
    StableHlo.unary main_c_24 main_v34 (broadcastInDim S4 ![] bcast_S_S4 : (⟨S_, .i32⟩ : BufTy).Contents (Elt F) → (⟨S4, .i32⟩ : BufTy).Contents (Elt F)),
    StableHlo.binary main_c_0 main_v34 main_v35 (addi : (⟨S4, .i32⟩ : BufTy).Contents (Elt F) → (⟨S4, .i32⟩ : BufTy).Contents (Elt F) → (⟨S4, .i32⟩ : BufTy).Contents (Elt F)),
    StableHlo.ternary main_v33 main_v35 main_c_0 main_v36 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v36 main_v37 (broadcastInDim S4x1 ![0] bcast_S4_S4x1_0 : (⟨S4, .i32⟩ : BufTy).Contents (Elt F) → (⟨S4x1, .i32⟩ : BufTy).Contents (Elt F)),
    StableHlo.binary main_v31 main_v37 main_v38 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_25 (constant S_ .f32 0xFF800000#32),
    StableHlo.binary main_v38 main_cst_25 main_v39 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v39 main_v40 (broadcastInDim S16384x1 ![0] bcast_S16384_S16384x1_0 : (⟨S16384, .f32⟩ : BufTy).Contents (Elt F) → (⟨S16384x1, .f32⟩ : BufTy).Contents (Elt F)),
    StableHlo.unary main_v40 main_v41 (broadcastInDim S16384x4 ![0, 1] bcast_S16384x1_S16384x4_0_1 : (⟨S16384x1, .f32⟩ : BufTy).Contents (Elt F) → (⟨S16384x4, .f32⟩ : BufTy).Contents (Elt F)),
    StableHlo.binary main_v41 main_v38 main_v42 (subf : (⟨S16384x4, .f32⟩ : BufTy).Contents (Elt F) → (⟨S16384x4, .f32⟩ : BufTy).Contents (Elt F) → (⟨S16384x4, .f32⟩ : BufTy).Contents (Elt F)),
    StableHlo.nullary main_cst_26 (constant S_ .f32 0x3DCCCCCD#32),
    StableHlo.unary main_cst_26 main_v43 (broadcastInDim S16384x4 ![] bcast_S_S16384x4 : (⟨S_, .f32⟩ : BufTy).Contents (Elt F) → (⟨S16384x4, .f32⟩ : BufTy).Contents (Elt F)),
    StableHlo.binary main_v42 main_v43 main_v44 (cmpf .olt : (⟨S16384x4, .f32⟩ : BufTy).Contents (Elt F) → (⟨S16384x4, .f32⟩ : BufTy).Contents (Elt F) → (⟨S16384x4, .i1⟩ : BufTy).Contents (Elt F)),
    StableHlo.nullary main_c_27 (constantI S_ 1 0#1),
    StableHlo.binary main_v44 main_c_27 main_v45 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v44 main_v46 ((extui 32 · natLt_1_32) : (⟨S16384x4, .i1⟩ : BufTy).Contents (Elt F) → (⟨S16384x4, .i32⟩ : BufTy).Contents (Elt F)),
    StableHlo.nullary main_c_28 (constantI S_ 32 0#32),
    StableHlo.binary main_v46 main_c_28 main_v47 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_29 (constantI S_ 32 1#32),
    StableHlo.unary main_c_29 main_v48 (broadcastInDim S16384 ![] bcast_S_S16384 : (⟨S_, .i32⟩ : BufTy).Contents (Elt F) → (⟨S16384, .i32⟩ : BufTy).Contents (Elt F)),
    StableHlo.binary main_v47 main_v48 main_v49 (cmpi .sgt : (⟨S16384, .i32⟩ : BufTy).Contents (Elt F) → (⟨S16384, .i32⟩ : BufTy).Contents (Elt F) → (⟨S16384, .i1⟩ : BufTy).Contents (Elt F)),
    StableHlo.binary main_v45 main_v49 main_v50 (andi : (⟨S16384, .i1⟩ : BufTy).Contents (Elt F) → (⟨S16384, .i1⟩ : BufTy).Contents (Elt F) → (⟨S16384, .i1⟩ : BufTy).Contents (Elt F)),
    StableHlo.reshape main_v40 main_v51 rfl shapeCasts_S16384x1_S16384,
    StableHlo.nullary main_cst_30 (constant S_ .f32 0x38D1B717#32),
    StableHlo.unary main_cst_30 main_v52 (broadcastInDim S16384 ![] bcast_S_S16384 : (⟨S_, .f32⟩ : BufTy).Contents (Elt F) → (⟨S16384, .f32⟩ : BufTy).Contents (Elt F)),
    StableHlo.binary main_v51 main_v52 main_v53 (addf : (⟨S16384, .f32⟩ : BufTy).Contents (Elt F) → (⟨S16384, .f32⟩ : BufTy).Contents (Elt F) → (⟨S16384, .f32⟩ : BufTy).Contents (Elt F)),
    StableHlo.unary main_v31 main_v54 ((extractStridedSlice S16384x1 ![0, 4] · slices_S16384x64_S16384x1_0_4) : (⟨S16384x64, .f32⟩ : BufTy).Contents (Elt F) → (⟨S16384x1, .f32⟩ : BufTy).Contents (Elt F)),
    StableHlo.reshape main_v54 main_v55 rfl shapeCasts_S16384x1_S16384,
    StableHlo.TRef.ternary (.of main_v50) (.of main_v53) (.of main_v55) main_call1.v0 select,
    StableHlo.nullary main_c_31 (constantI S_ 32 4#32),
    StableHlo.unary main_c_31 main_v57 (broadcastInDim S1 ![] bcast_S_S1 : (⟨S_, .i32⟩ : BufTy).Contents (Elt F) → (⟨S1, .i32⟩ : BufTy).Contents (Elt F)),
    StableHlo.ternary main_v31 main_v57 main_v56 main_v58 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_32 (constantI S_ 32 0#32),
    StableHlo.unary main_c_32 main_v59 (broadcastInDim S4 ![] bcast_S_S4 : (⟨S_, .i32⟩ : BufTy).Contents (Elt F) → (⟨S4, .i32⟩ : BufTy).Contents (Elt F)),
    StableHlo.binary main_c_1 main_v59 main_v60 (cmpi .slt : (⟨S4, .i32⟩ : BufTy).Contents (Elt F) → (⟨S4, .i32⟩ : BufTy).Contents (Elt F) → (⟨S4, .i1⟩ : BufTy).Contents (Elt F)),
    StableHlo.nullary main_c_33 (constantI S_ 32 64#32),
    StableHlo.unary main_c_33 main_v61 (broadcastInDim S4 ![] bcast_S_S4 : (⟨S_, .i32⟩ : BufTy).Contents (Elt F) → (⟨S4, .i32⟩ : BufTy).Contents (Elt F)),
    StableHlo.binary main_c_1 main_v61 main_v62 (addi : (⟨S4, .i32⟩ : BufTy).Contents (Elt F) → (⟨S4, .i32⟩ : BufTy).Contents (Elt F) → (⟨S4, .i32⟩ : BufTy).Contents (Elt F)),
    StableHlo.ternary main_v60 main_v62 main_c_1 main_v63 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v63 main_v64 (broadcastInDim S4x1 ![0] bcast_S4_S4x1_0 : (⟨S4, .i32⟩ : BufTy).Contents (Elt F) → (⟨S4x1, .i32⟩ : BufTy).Contents (Elt F)),
    StableHlo.binary main_v58 main_v64 main_v65 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_34 (constant S_ .f32 0xFF800000#32),
    StableHlo.binary main_v65 main_cst_34 main_v66 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v66 main_v67 (broadcastInDim S16384x1 ![0] bcast_S16384_S16384x1_0 : (⟨S16384, .f32⟩ : BufTy).Contents (Elt F) → (⟨S16384x1, .f32⟩ : BufTy).Contents (Elt F)),
    StableHlo.unary main_v67 main_v68 (broadcastInDim S16384x4 ![0, 1] bcast_S16384x1_S16384x4_0_1 : (⟨S16384x1, .f32⟩ : BufTy).Contents (Elt F) → (⟨S16384x4, .f32⟩ : BufTy).Contents (Elt F)),
    StableHlo.binary main_v68 main_v65 main_v69 (subf : (⟨S16384x4, .f32⟩ : BufTy).Contents (Elt F) → (⟨S16384x4, .f32⟩ : BufTy).Contents (Elt F) → (⟨S16384x4, .f32⟩ : BufTy).Contents (Elt F)),
    StableHlo.nullary main_cst_35 (constant S_ .f32 0x3DCCCCCD#32),
    StableHlo.unary main_cst_35 main_v70 (broadcastInDim S16384x4 ![] bcast_S_S16384x4 : (⟨S_, .f32⟩ : BufTy).Contents (Elt F) → (⟨S16384x4, .f32⟩ : BufTy).Contents (Elt F)),
    StableHlo.binary main_v69 main_v70 main_v71 (cmpf .olt : (⟨S16384x4, .f32⟩ : BufTy).Contents (Elt F) → (⟨S16384x4, .f32⟩ : BufTy).Contents (Elt F) → (⟨S16384x4, .i1⟩ : BufTy).Contents (Elt F)),
    StableHlo.nullary main_c_36 (constantI S_ 1 0#1),
    StableHlo.binary main_v71 main_c_36 main_v72 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v71 main_v73 ((extui 32 · natLt_1_32) : (⟨S16384x4, .i1⟩ : BufTy).Contents (Elt F) → (⟨S16384x4, .i32⟩ : BufTy).Contents (Elt F)),
    StableHlo.nullary main_c_37 (constantI S_ 32 0#32),
    StableHlo.binary main_v73 main_c_37 main_v74 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_38 (constantI S_ 32 1#32),
    StableHlo.unary main_c_38 main_v75 (broadcastInDim S16384 ![] bcast_S_S16384 : (⟨S_, .i32⟩ : BufTy).Contents (Elt F) → (⟨S16384, .i32⟩ : BufTy).Contents (Elt F)),
    StableHlo.binary main_v74 main_v75 main_v76 (cmpi .sgt : (⟨S16384, .i32⟩ : BufTy).Contents (Elt F) → (⟨S16384, .i32⟩ : BufTy).Contents (Elt F) → (⟨S16384, .i1⟩ : BufTy).Contents (Elt F)),
    StableHlo.binary main_v72 main_v76 main_v77 (andi : (⟨S16384, .i1⟩ : BufTy).Contents (Elt F) → (⟨S16384, .i1⟩ : BufTy).Contents (Elt F) → (⟨S16384, .i1⟩ : BufTy).Contents (Elt F)),
    StableHlo.reshape main_v67 main_v78 rfl shapeCasts_S16384x1_S16384 ]

/-- The operations of the printed window 2. -/
abbrev part2 : List (HloOp τ sig (Elt F)) :=
  [ StableHlo.nullary main_cst_39 (constant S_ .f32 0x38D1B717#32),
    StableHlo.unary main_cst_39 main_v79 (broadcastInDim S16384 ![] bcast_S_S16384 : (⟨S_, .f32⟩ : BufTy).Contents (Elt F) → (⟨S16384, .f32⟩ : BufTy).Contents (Elt F)),
    StableHlo.binary main_v78 main_v79 main_v80 (addf : (⟨S16384, .f32⟩ : BufTy).Contents (Elt F) → (⟨S16384, .f32⟩ : BufTy).Contents (Elt F) → (⟨S16384, .f32⟩ : BufTy).Contents (Elt F)),
    StableHlo.unary main_v58 main_v81 ((extractStridedSlice S16384x1 ![0, 8] · slices_S16384x64_S16384x1_0_8) : (⟨S16384x64, .f32⟩ : BufTy).Contents (Elt F) → (⟨S16384x1, .f32⟩ : BufTy).Contents (Elt F)),
    StableHlo.reshape main_v81 main_v82 rfl shapeCasts_S16384x1_S16384,
    StableHlo.TRef.ternary (.of main_v77) (.of main_v80) (.of main_v82) main_call2.v0 select,
    StableHlo.nullary main_c_40 (constantI S_ 32 8#32),
    StableHlo.unary main_c_40 main_v84 (broadcastInDim S1 ![] bcast_S_S1 : (⟨S_, .i32⟩ : BufTy).Contents (Elt F) → (⟨S1, .i32⟩ : BufTy).Contents (Elt F)),
    StableHlo.ternary main_v58 main_v84 main_v83 main_v85 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_41 (constantI S_ 32 0#32),
    StableHlo.unary main_c_41 main_v86 (broadcastInDim S4 ![] bcast_S_S4 : (⟨S_, .i32⟩ : BufTy).Contents (Elt F) → (⟨S4, .i32⟩ : BufTy).Contents (Elt F)),
    StableHlo.binary main_c_2 main_v86 main_v87 (cmpi .slt : (⟨S4, .i32⟩ : BufTy).Contents (Elt F) → (⟨S4, .i32⟩ : BufTy).Contents (Elt F) → (⟨S4, .i1⟩ : BufTy).Contents (Elt F)),
    StableHlo.nullary main_c_42 (constantI S_ 32 64#32),
    StableHlo.unary main_c_42 main_v88 (broadcastInDim S4 ![] bcast_S_S4 : (⟨S_, .i32⟩ : BufTy).Contents (Elt F) → (⟨S4, .i32⟩ : BufTy).Contents (Elt F)),
    StableHlo.binary main_c_2 main_v88 main_v89 (addi : (⟨S4, .i32⟩ : BufTy).Contents (Elt F) → (⟨S4, .i32⟩ : BufTy).Contents (Elt F) → (⟨S4, .i32⟩ : BufTy).Contents (Elt F)),
    StableHlo.ternary main_v87 main_v89 main_c_2 main_v90 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v90 main_v91 (broadcastInDim S4x1 ![0] bcast_S4_S4x1_0 : (⟨S4, .i32⟩ : BufTy).Contents (Elt F) → (⟨S4x1, .i32⟩ : BufTy).Contents (Elt F)),
    StableHlo.binary main_v85 main_v91 main_v92 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_43 (constant S_ .f32 0xFF800000#32),
    StableHlo.binary main_v92 main_cst_43 main_v93 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v93 main_v94 (broadcastInDim S16384x1 ![0] bcast_S16384_S16384x1_0 : (⟨S16384, .f32⟩ : BufTy).Contents (Elt F) → (⟨S16384x1, .f32⟩ : BufTy).Contents (Elt F)),
    StableHlo.unary main_v94 main_v95 (broadcastInDim S16384x4 ![0, 1] bcast_S16384x1_S16384x4_0_1 : (⟨S16384x1, .f32⟩ : BufTy).Contents (Elt F) → (⟨S16384x4, .f32⟩ : BufTy).Contents (Elt F)),
    StableHlo.binary main_v95 main_v92 main_v96 (subf : (⟨S16384x4, .f32⟩ : BufTy).Contents (Elt F) → (⟨S16384x4, .f32⟩ : BufTy).Contents (Elt F) → (⟨S16384x4, .f32⟩ : BufTy).Contents (Elt F)),
    StableHlo.nullary main_cst_44 (constant S_ .f32 0x3DCCCCCD#32),
    StableHlo.unary main_cst_44 main_v97 (broadcastInDim S16384x4 ![] bcast_S_S16384x4 : (⟨S_, .f32⟩ : BufTy).Contents (Elt F) → (⟨S16384x4, .f32⟩ : BufTy).Contents (Elt F)),
    StableHlo.binary main_v96 main_v97 main_v98 (cmpf .olt : (⟨S16384x4, .f32⟩ : BufTy).Contents (Elt F) → (⟨S16384x4, .f32⟩ : BufTy).Contents (Elt F) → (⟨S16384x4, .i1⟩ : BufTy).Contents (Elt F)),
    StableHlo.nullary main_c_45 (constantI S_ 1 0#1),
    StableHlo.binary main_v98 main_c_45 main_v99 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v98 main_v100 ((extui 32 · natLt_1_32) : (⟨S16384x4, .i1⟩ : BufTy).Contents (Elt F) → (⟨S16384x4, .i32⟩ : BufTy).Contents (Elt F)),
    StableHlo.nullary main_c_46 (constantI S_ 32 0#32),
    StableHlo.binary main_v100 main_c_46 main_v101 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_47 (constantI S_ 32 1#32),
    StableHlo.unary main_c_47 main_v102 (broadcastInDim S16384 ![] bcast_S_S16384 : (⟨S_, .i32⟩ : BufTy).Contents (Elt F) → (⟨S16384, .i32⟩ : BufTy).Contents (Elt F)),
    StableHlo.binary main_v101 main_v102 main_v103 (cmpi .sgt : (⟨S16384, .i32⟩ : BufTy).Contents (Elt F) → (⟨S16384, .i32⟩ : BufTy).Contents (Elt F) → (⟨S16384, .i1⟩ : BufTy).Contents (Elt F)),
    StableHlo.binary main_v99 main_v103 main_v104 (andi : (⟨S16384, .i1⟩ : BufTy).Contents (Elt F) → (⟨S16384, .i1⟩ : BufTy).Contents (Elt F) → (⟨S16384, .i1⟩ : BufTy).Contents (Elt F)),
    StableHlo.reshape main_v94 main_v105 rfl shapeCasts_S16384x1_S16384,
    StableHlo.nullary main_cst_48 (constant S_ .f32 0x38D1B717#32),
    StableHlo.unary main_cst_48 main_v106 (broadcastInDim S16384 ![] bcast_S_S16384 : (⟨S_, .f32⟩ : BufTy).Contents (Elt F) → (⟨S16384, .f32⟩ : BufTy).Contents (Elt F)),
    StableHlo.binary main_v105 main_v106 main_v107 (addf : (⟨S16384, .f32⟩ : BufTy).Contents (Elt F) → (⟨S16384, .f32⟩ : BufTy).Contents (Elt F) → (⟨S16384, .f32⟩ : BufTy).Contents (Elt F)),
    StableHlo.unary main_v85 main_v108 ((extractStridedSlice S16384x1 ![0, 12] · slices_S16384x64_S16384x1_0_12) : (⟨S16384x64, .f32⟩ : BufTy).Contents (Elt F) → (⟨S16384x1, .f32⟩ : BufTy).Contents (Elt F)),
    StableHlo.reshape main_v108 main_v109 rfl shapeCasts_S16384x1_S16384,
    StableHlo.TRef.ternary (.of main_v104) (.of main_v107) (.of main_v109) main_call3.v0 select,
    StableHlo.nullary main_c_49 (constantI S_ 32 12#32),
    StableHlo.unary main_c_49 main_v111 (broadcastInDim S1 ![] bcast_S_S1 : (⟨S_, .i32⟩ : BufTy).Contents (Elt F) → (⟨S1, .i32⟩ : BufTy).Contents (Elt F)),
    StableHlo.ternary main_v85 main_v111 main_v110 main_v112 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_50 (constantI S_ 32 0#32),
    StableHlo.unary main_c_50 main_v113 (broadcastInDim S4 ![] bcast_S_S4 : (⟨S_, .i32⟩ : BufTy).Contents (Elt F) → (⟨S4, .i32⟩ : BufTy).Contents (Elt F)),
    StableHlo.binary main_c_3 main_v113 main_v114 (cmpi .slt : (⟨S4, .i32⟩ : BufTy).Contents (Elt F) → (⟨S4, .i32⟩ : BufTy).Contents (Elt F) → (⟨S4, .i1⟩ : BufTy).Contents (Elt F)),
    StableHlo.nullary main_c_51 (constantI S_ 32 64#32),
    StableHlo.unary main_c_51 main_v115 (broadcastInDim S4 ![] bcast_S_S4 : (⟨S_, .i32⟩ : BufTy).Contents (Elt F) → (⟨S4, .i32⟩ : BufTy).Contents (Elt F)),
    StableHlo.binary main_c_3 main_v115 main_v116 (addi : (⟨S4, .i32⟩ : BufTy).Contents (Elt F) → (⟨S4, .i32⟩ : BufTy).Contents (Elt F) → (⟨S4, .i32⟩ : BufTy).Contents (Elt F)),
    StableHlo.ternary main_v114 main_v116 main_c_3 main_v117 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v117 main_v118 (broadcastInDim S4x1 ![0] bcast_S4_S4x1_0 : (⟨S4, .i32⟩ : BufTy).Contents (Elt F) → (⟨S4x1, .i32⟩ : BufTy).Contents (Elt F)),
    StableHlo.binary main_v112 main_v118 main_v119 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_52 (constant S_ .f32 0xFF800000#32),
    StableHlo.binary main_v119 main_cst_52 main_v120 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v120 main_v121 (broadcastInDim S16384x1 ![0] bcast_S16384_S16384x1_0 : (⟨S16384, .f32⟩ : BufTy).Contents (Elt F) → (⟨S16384x1, .f32⟩ : BufTy).Contents (Elt F)),
    StableHlo.unary main_v121 main_v122 (broadcastInDim S16384x4 ![0, 1] bcast_S16384x1_S16384x4_0_1 : (⟨S16384x1, .f32⟩ : BufTy).Contents (Elt F) → (⟨S16384x4, .f32⟩ : BufTy).Contents (Elt F)),
    StableHlo.binary main_v122 main_v119 main_v123 (subf : (⟨S16384x4, .f32⟩ : BufTy).Contents (Elt F) → (⟨S16384x4, .f32⟩ : BufTy).Contents (Elt F) → (⟨S16384x4, .f32⟩ : BufTy).Contents (Elt F)),
    StableHlo.nullary main_cst_53 (constant S_ .f32 0x3DCCCCCD#32) ]

/-- The operations of the printed window 3. -/
abbrev part3 : List (HloOp τ sig (Elt F)) :=
  [ StableHlo.unary main_cst_53 main_v124 (broadcastInDim S16384x4 ![] bcast_S_S16384x4 : (⟨S_, .f32⟩ : BufTy).Contents (Elt F) → (⟨S16384x4, .f32⟩ : BufTy).Contents (Elt F)),
    StableHlo.binary main_v123 main_v124 main_v125 (cmpf .olt : (⟨S16384x4, .f32⟩ : BufTy).Contents (Elt F) → (⟨S16384x4, .f32⟩ : BufTy).Contents (Elt F) → (⟨S16384x4, .i1⟩ : BufTy).Contents (Elt F)),
    StableHlo.nullary main_c_54 (constantI S_ 1 0#1),
    StableHlo.binary main_v125 main_c_54 main_v126 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v125 main_v127 ((extui 32 · natLt_1_32) : (⟨S16384x4, .i1⟩ : BufTy).Contents (Elt F) → (⟨S16384x4, .i32⟩ : BufTy).Contents (Elt F)),
    StableHlo.nullary main_c_55 (constantI S_ 32 0#32),
    StableHlo.binary main_v127 main_c_55 main_v128 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_56 (constantI S_ 32 1#32),
    StableHlo.unary main_c_56 main_v129 (broadcastInDim S16384 ![] bcast_S_S16384 : (⟨S_, .i32⟩ : BufTy).Contents (Elt F) → (⟨S16384, .i32⟩ : BufTy).Contents (Elt F)),
    StableHlo.binary main_v128 main_v129 main_v130 (cmpi .sgt : (⟨S16384, .i32⟩ : BufTy).Contents (Elt F) → (⟨S16384, .i32⟩ : BufTy).Contents (Elt F) → (⟨S16384, .i1⟩ : BufTy).Contents (Elt F)),
    StableHlo.binary main_v126 main_v130 main_v131 (andi : (⟨S16384, .i1⟩ : BufTy).Contents (Elt F) → (⟨S16384, .i1⟩ : BufTy).Contents (Elt F) → (⟨S16384, .i1⟩ : BufTy).Contents (Elt F)),
    StableHlo.reshape main_v121 main_v132 rfl shapeCasts_S16384x1_S16384,
    StableHlo.nullary main_cst_57 (constant S_ .f32 0x38D1B717#32),
    StableHlo.unary main_cst_57 main_v133 (broadcastInDim S16384 ![] bcast_S_S16384 : (⟨S_, .f32⟩ : BufTy).Contents (Elt F) → (⟨S16384, .f32⟩ : BufTy).Contents (Elt F)),
    StableHlo.binary main_v132 main_v133 main_v134 (addf : (⟨S16384, .f32⟩ : BufTy).Contents (Elt F) → (⟨S16384, .f32⟩ : BufTy).Contents (Elt F) → (⟨S16384, .f32⟩ : BufTy).Contents (Elt F)),
    StableHlo.unary main_v112 main_v135 ((extractStridedSlice S16384x1 ![0, 16] · slices_S16384x64_S16384x1_0_16) : (⟨S16384x64, .f32⟩ : BufTy).Contents (Elt F) → (⟨S16384x1, .f32⟩ : BufTy).Contents (Elt F)),
    StableHlo.reshape main_v135 main_v136 rfl shapeCasts_S16384x1_S16384,
    StableHlo.TRef.ternary (.of main_v131) (.of main_v134) (.of main_v136) main_call4.v0 select,
    StableHlo.nullary main_c_58 (constantI S_ 32 16#32),
    StableHlo.unary main_c_58 main_v138 (broadcastInDim S1 ![] bcast_S_S1 : (⟨S_, .i32⟩ : BufTy).Contents (Elt F) → (⟨S1, .i32⟩ : BufTy).Contents (Elt F)),
    StableHlo.ternary main_v112 main_v138 main_v137 main_v139 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_59 (constantI S_ 32 0#32),
    StableHlo.unary main_c_59 main_v140 (broadcastInDim S4 ![] bcast_S_S4 : (⟨S_, .i32⟩ : BufTy).Contents (Elt F) → (⟨S4, .i32⟩ : BufTy).Contents (Elt F)),
    StableHlo.binary main_c_4 main_v140 main_v141 (cmpi .slt : (⟨S4, .i32⟩ : BufTy).Contents (Elt F) → (⟨S4, .i32⟩ : BufTy).Contents (Elt F) → (⟨S4, .i1⟩ : BufTy).Contents (Elt F)),
    StableHlo.nullary main_c_60 (constantI S_ 32 64#32),
    StableHlo.unary main_c_60 main_v142 (broadcastInDim S4 ![] bcast_S_S4 : (⟨S_, .i32⟩ : BufTy).Contents (Elt F) → (⟨S4, .i32⟩ : BufTy).Contents (Elt F)),
    StableHlo.binary main_c_4 main_v142 main_v143 (addi : (⟨S4, .i32⟩ : BufTy).Contents (Elt F) → (⟨S4, .i32⟩ : BufTy).Contents (Elt F) → (⟨S4, .i32⟩ : BufTy).Contents (Elt F)),
    StableHlo.ternary main_v141 main_v143 main_c_4 main_v144 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v144 main_v145 (broadcastInDim S4x1 ![0] bcast_S4_S4x1_0 : (⟨S4, .i32⟩ : BufTy).Contents (Elt F) → (⟨S4x1, .i32⟩ : BufTy).Contents (Elt F)),
    StableHlo.binary main_v139 main_v145 main_v146 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_61 (constant S_ .f32 0xFF800000#32),
    StableHlo.binary main_v146 main_cst_61 main_v147 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v147 main_v148 (broadcastInDim S16384x1 ![0] bcast_S16384_S16384x1_0 : (⟨S16384, .f32⟩ : BufTy).Contents (Elt F) → (⟨S16384x1, .f32⟩ : BufTy).Contents (Elt F)),
    StableHlo.unary main_v148 main_v149 (broadcastInDim S16384x4 ![0, 1] bcast_S16384x1_S16384x4_0_1 : (⟨S16384x1, .f32⟩ : BufTy).Contents (Elt F) → (⟨S16384x4, .f32⟩ : BufTy).Contents (Elt F)),
    StableHlo.binary main_v149 main_v146 main_v150 (subf : (⟨S16384x4, .f32⟩ : BufTy).Contents (Elt F) → (⟨S16384x4, .f32⟩ : BufTy).Contents (Elt F) → (⟨S16384x4, .f32⟩ : BufTy).Contents (Elt F)),
    StableHlo.nullary main_cst_62 (constant S_ .f32 0x3DCCCCCD#32),
    StableHlo.unary main_cst_62 main_v151 (broadcastInDim S16384x4 ![] bcast_S_S16384x4 : (⟨S_, .f32⟩ : BufTy).Contents (Elt F) → (⟨S16384x4, .f32⟩ : BufTy).Contents (Elt F)),
    StableHlo.binary main_v150 main_v151 main_v152 (cmpf .olt : (⟨S16384x4, .f32⟩ : BufTy).Contents (Elt F) → (⟨S16384x4, .f32⟩ : BufTy).Contents (Elt F) → (⟨S16384x4, .i1⟩ : BufTy).Contents (Elt F)),
    StableHlo.nullary main_c_63 (constantI S_ 1 0#1),
    StableHlo.binary main_v152 main_c_63 main_v153 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v152 main_v154 ((extui 32 · natLt_1_32) : (⟨S16384x4, .i1⟩ : BufTy).Contents (Elt F) → (⟨S16384x4, .i32⟩ : BufTy).Contents (Elt F)),
    StableHlo.nullary main_c_64 (constantI S_ 32 0#32),
    StableHlo.binary main_v154 main_c_64 main_v155 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_65 (constantI S_ 32 1#32),
    StableHlo.unary main_c_65 main_v156 (broadcastInDim S16384 ![] bcast_S_S16384 : (⟨S_, .i32⟩ : BufTy).Contents (Elt F) → (⟨S16384, .i32⟩ : BufTy).Contents (Elt F)),
    StableHlo.binary main_v155 main_v156 main_v157 (cmpi .sgt : (⟨S16384, .i32⟩ : BufTy).Contents (Elt F) → (⟨S16384, .i32⟩ : BufTy).Contents (Elt F) → (⟨S16384, .i1⟩ : BufTy).Contents (Elt F)),
    StableHlo.binary main_v153 main_v157 main_v158 (andi : (⟨S16384, .i1⟩ : BufTy).Contents (Elt F) → (⟨S16384, .i1⟩ : BufTy).Contents (Elt F) → (⟨S16384, .i1⟩ : BufTy).Contents (Elt F)),
    StableHlo.reshape main_v148 main_v159 rfl shapeCasts_S16384x1_S16384,
    StableHlo.nullary main_cst_66 (constant S_ .f32 0x38D1B717#32),
    StableHlo.unary main_cst_66 main_v160 (broadcastInDim S16384 ![] bcast_S_S16384 : (⟨S_, .f32⟩ : BufTy).Contents (Elt F) → (⟨S16384, .f32⟩ : BufTy).Contents (Elt F)),
    StableHlo.binary main_v159 main_v160 main_v161 (addf : (⟨S16384, .f32⟩ : BufTy).Contents (Elt F) → (⟨S16384, .f32⟩ : BufTy).Contents (Elt F) → (⟨S16384, .f32⟩ : BufTy).Contents (Elt F)),
    StableHlo.unary main_v139 main_v162 ((extractStridedSlice S16384x1 ![0, 20] · slices_S16384x64_S16384x1_0_20) : (⟨S16384x64, .f32⟩ : BufTy).Contents (Elt F) → (⟨S16384x1, .f32⟩ : BufTy).Contents (Elt F)),
    StableHlo.reshape main_v162 main_v163 rfl shapeCasts_S16384x1_S16384,
    StableHlo.TRef.ternary (.of main_v158) (.of main_v161) (.of main_v163) main_call5.v0 select,
    StableHlo.nullary main_c_67 (constantI S_ 32 20#32),
    StableHlo.unary main_c_67 main_v165 (broadcastInDim S1 ![] bcast_S_S1 : (⟨S_, .i32⟩ : BufTy).Contents (Elt F) → (⟨S1, .i32⟩ : BufTy).Contents (Elt F)),
    StableHlo.ternary main_v139 main_v165 main_v164 main_v166 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_68 (constantI S_ 32 0#32),
    StableHlo.unary main_c_68 main_v167 (broadcastInDim S4 ![] bcast_S_S4 : (⟨S_, .i32⟩ : BufTy).Contents (Elt F) → (⟨S4, .i32⟩ : BufTy).Contents (Elt F)),
    StableHlo.binary main_c_5 main_v167 main_v168 (cmpi .slt : (⟨S4, .i32⟩ : BufTy).Contents (Elt F) → (⟨S4, .i32⟩ : BufTy).Contents (Elt F) → (⟨S4, .i1⟩ : BufTy).Contents (Elt F)) ]

/-- The operations of the printed window 4. -/
abbrev part4 : List (HloOp τ sig (Elt F)) :=
  [ StableHlo.nullary main_c_69 (constantI S_ 32 64#32),
    StableHlo.unary main_c_69 main_v169 (broadcastInDim S4 ![] bcast_S_S4 : (⟨S_, .i32⟩ : BufTy).Contents (Elt F) → (⟨S4, .i32⟩ : BufTy).Contents (Elt F)),
    StableHlo.binary main_c_5 main_v169 main_v170 (addi : (⟨S4, .i32⟩ : BufTy).Contents (Elt F) → (⟨S4, .i32⟩ : BufTy).Contents (Elt F) → (⟨S4, .i32⟩ : BufTy).Contents (Elt F)),
    StableHlo.ternary main_v168 main_v170 main_c_5 main_v171 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v171 main_v172 (broadcastInDim S4x1 ![0] bcast_S4_S4x1_0 : (⟨S4, .i32⟩ : BufTy).Contents (Elt F) → (⟨S4x1, .i32⟩ : BufTy).Contents (Elt F)),
    StableHlo.binary main_v166 main_v172 main_v173 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_70 (constant S_ .f32 0xFF800000#32),
    StableHlo.binary main_v173 main_cst_70 main_v174 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v174 main_v175 (broadcastInDim S16384x1 ![0] bcast_S16384_S16384x1_0 : (⟨S16384, .f32⟩ : BufTy).Contents (Elt F) → (⟨S16384x1, .f32⟩ : BufTy).Contents (Elt F)),
    StableHlo.unary main_v175 main_v176 (broadcastInDim S16384x4 ![0, 1] bcast_S16384x1_S16384x4_0_1 : (⟨S16384x1, .f32⟩ : BufTy).Contents (Elt F) → (⟨S16384x4, .f32⟩ : BufTy).Contents (Elt F)),
    StableHlo.binary main_v176 main_v173 main_v177 (subf : (⟨S16384x4, .f32⟩ : BufTy).Contents (Elt F) → (⟨S16384x4, .f32⟩ : BufTy).Contents (Elt F) → (⟨S16384x4, .f32⟩ : BufTy).Contents (Elt F)),
    StableHlo.nullary main_cst_71 (constant S_ .f32 0x3DCCCCCD#32),
    StableHlo.unary main_cst_71 main_v178 (broadcastInDim S16384x4 ![] bcast_S_S16384x4 : (⟨S_, .f32⟩ : BufTy).Contents (Elt F) → (⟨S16384x4, .f32⟩ : BufTy).Contents (Elt F)),
    StableHlo.binary main_v177 main_v178 main_v179 (cmpf .olt : (⟨S16384x4, .f32⟩ : BufTy).Contents (Elt F) → (⟨S16384x4, .f32⟩ : BufTy).Contents (Elt F) → (⟨S16384x4, .i1⟩ : BufTy).Contents (Elt F)),
    StableHlo.nullary main_c_72 (constantI S_ 1 0#1),
    StableHlo.binary main_v179 main_c_72 main_v180 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v179 main_v181 ((extui 32 · natLt_1_32) : (⟨S16384x4, .i1⟩ : BufTy).Contents (Elt F) → (⟨S16384x4, .i32⟩ : BufTy).Contents (Elt F)),
    StableHlo.nullary main_c_73 (constantI S_ 32 0#32),
    StableHlo.binary main_v181 main_c_73 main_v182 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_74 (constantI S_ 32 1#32),
    StableHlo.unary main_c_74 main_v183 (broadcastInDim S16384 ![] bcast_S_S16384 : (⟨S_, .i32⟩ : BufTy).Contents (Elt F) → (⟨S16384, .i32⟩ : BufTy).Contents (Elt F)),
    StableHlo.binary main_v182 main_v183 main_v184 (cmpi .sgt : (⟨S16384, .i32⟩ : BufTy).Contents (Elt F) → (⟨S16384, .i32⟩ : BufTy).Contents (Elt F) → (⟨S16384, .i1⟩ : BufTy).Contents (Elt F)),
    StableHlo.binary main_v180 main_v184 main_v185 (andi : (⟨S16384, .i1⟩ : BufTy).Contents (Elt F) → (⟨S16384, .i1⟩ : BufTy).Contents (Elt F) → (⟨S16384, .i1⟩ : BufTy).Contents (Elt F)),
    StableHlo.reshape main_v175 main_v186 rfl shapeCasts_S16384x1_S16384,
    StableHlo.nullary main_cst_75 (constant S_ .f32 0x38D1B717#32),
    StableHlo.unary main_cst_75 main_v187 (broadcastInDim S16384 ![] bcast_S_S16384 : (⟨S_, .f32⟩ : BufTy).Contents (Elt F) → (⟨S16384, .f32⟩ : BufTy).Contents (Elt F)),
    StableHlo.binary main_v186 main_v187 main_v188 (addf : (⟨S16384, .f32⟩ : BufTy).Contents (Elt F) → (⟨S16384, .f32⟩ : BufTy).Contents (Elt F) → (⟨S16384, .f32⟩ : BufTy).Contents (Elt F)),
    StableHlo.unary main_v166 main_v189 ((extractStridedSlice S16384x1 ![0, 24] · slices_S16384x64_S16384x1_0_24) : (⟨S16384x64, .f32⟩ : BufTy).Contents (Elt F) → (⟨S16384x1, .f32⟩ : BufTy).Contents (Elt F)),
    StableHlo.reshape main_v189 main_v190 rfl shapeCasts_S16384x1_S16384,
    StableHlo.TRef.ternary (.of main_v185) (.of main_v188) (.of main_v190) main_call6.v0 select,
    StableHlo.nullary main_c_76 (constantI S_ 32 24#32),
    StableHlo.unary main_c_76 main_v192 (broadcastInDim S1 ![] bcast_S_S1 : (⟨S_, .i32⟩ : BufTy).Contents (Elt F) → (⟨S1, .i32⟩ : BufTy).Contents (Elt F)),
    StableHlo.ternary main_v166 main_v192 main_v191 main_v193 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_77 (constantI S_ 32 0#32),
    StableHlo.unary main_c_77 main_v194 (broadcastInDim S4 ![] bcast_S_S4 : (⟨S_, .i32⟩ : BufTy).Contents (Elt F) → (⟨S4, .i32⟩ : BufTy).Contents (Elt F)),
    StableHlo.binary main_c_6 main_v194 main_v195 (cmpi .slt : (⟨S4, .i32⟩ : BufTy).Contents (Elt F) → (⟨S4, .i32⟩ : BufTy).Contents (Elt F) → (⟨S4, .i1⟩ : BufTy).Contents (Elt F)),
    StableHlo.nullary main_c_78 (constantI S_ 32 64#32),
    StableHlo.unary main_c_78 main_v196 (broadcastInDim S4 ![] bcast_S_S4 : (⟨S_, .i32⟩ : BufTy).Contents (Elt F) → (⟨S4, .i32⟩ : BufTy).Contents (Elt F)),
    StableHlo.binary main_c_6 main_v196 main_v197 (addi : (⟨S4, .i32⟩ : BufTy).Contents (Elt F) → (⟨S4, .i32⟩ : BufTy).Contents (Elt F) → (⟨S4, .i32⟩ : BufTy).Contents (Elt F)),
    StableHlo.ternary main_v195 main_v197 main_c_6 main_v198 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v198 main_v199 (broadcastInDim S4x1 ![0] bcast_S4_S4x1_0 : (⟨S4, .i32⟩ : BufTy).Contents (Elt F) → (⟨S4x1, .i32⟩ : BufTy).Contents (Elt F)),
    StableHlo.binary main_v193 main_v199 main_v200 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_79 (constant S_ .f32 0xFF800000#32),
    StableHlo.binary main_v200 main_cst_79 main_v201 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v201 main_v202 (broadcastInDim S16384x1 ![0] bcast_S16384_S16384x1_0 : (⟨S16384, .f32⟩ : BufTy).Contents (Elt F) → (⟨S16384x1, .f32⟩ : BufTy).Contents (Elt F)),
    StableHlo.unary main_v202 main_v203 (broadcastInDim S16384x4 ![0, 1] bcast_S16384x1_S16384x4_0_1 : (⟨S16384x1, .f32⟩ : BufTy).Contents (Elt F) → (⟨S16384x4, .f32⟩ : BufTy).Contents (Elt F)),
    StableHlo.binary main_v203 main_v200 main_v204 (subf : (⟨S16384x4, .f32⟩ : BufTy).Contents (Elt F) → (⟨S16384x4, .f32⟩ : BufTy).Contents (Elt F) → (⟨S16384x4, .f32⟩ : BufTy).Contents (Elt F)),
    StableHlo.nullary main_cst_80 (constant S_ .f32 0x3DCCCCCD#32),
    StableHlo.unary main_cst_80 main_v205 (broadcastInDim S16384x4 ![] bcast_S_S16384x4 : (⟨S_, .f32⟩ : BufTy).Contents (Elt F) → (⟨S16384x4, .f32⟩ : BufTy).Contents (Elt F)),
    StableHlo.binary main_v204 main_v205 main_v206 (cmpf .olt : (⟨S16384x4, .f32⟩ : BufTy).Contents (Elt F) → (⟨S16384x4, .f32⟩ : BufTy).Contents (Elt F) → (⟨S16384x4, .i1⟩ : BufTy).Contents (Elt F)),
    StableHlo.nullary main_c_81 (constantI S_ 1 0#1),
    StableHlo.binary main_v206 main_c_81 main_v207 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v206 main_v208 ((extui 32 · natLt_1_32) : (⟨S16384x4, .i1⟩ : BufTy).Contents (Elt F) → (⟨S16384x4, .i32⟩ : BufTy).Contents (Elt F)),
    StableHlo.nullary main_c_82 (constantI S_ 32 0#32),
    StableHlo.binary main_v208 main_c_82 main_v209 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_83 (constantI S_ 32 1#32),
    StableHlo.unary main_c_83 main_v210 (broadcastInDim S16384 ![] bcast_S_S16384 : (⟨S_, .i32⟩ : BufTy).Contents (Elt F) → (⟨S16384, .i32⟩ : BufTy).Contents (Elt F)),
    StableHlo.binary main_v209 main_v210 main_v211 (cmpi .sgt : (⟨S16384, .i32⟩ : BufTy).Contents (Elt F) → (⟨S16384, .i32⟩ : BufTy).Contents (Elt F) → (⟨S16384, .i1⟩ : BufTy).Contents (Elt F)),
    StableHlo.binary main_v207 main_v211 main_v212 (andi : (⟨S16384, .i1⟩ : BufTy).Contents (Elt F) → (⟨S16384, .i1⟩ : BufTy).Contents (Elt F) → (⟨S16384, .i1⟩ : BufTy).Contents (Elt F)),
    StableHlo.reshape main_v202 main_v213 rfl shapeCasts_S16384x1_S16384 ]

/-- The operations of the printed window 5. -/
abbrev part5 : List (HloOp τ sig (Elt F)) :=
  [ StableHlo.nullary main_cst_84 (constant S_ .f32 0x38D1B717#32),
    StableHlo.unary main_cst_84 main_v214 (broadcastInDim S16384 ![] bcast_S_S16384 : (⟨S_, .f32⟩ : BufTy).Contents (Elt F) → (⟨S16384, .f32⟩ : BufTy).Contents (Elt F)),
    StableHlo.binary main_v213 main_v214 main_v215 (addf : (⟨S16384, .f32⟩ : BufTy).Contents (Elt F) → (⟨S16384, .f32⟩ : BufTy).Contents (Elt F) → (⟨S16384, .f32⟩ : BufTy).Contents (Elt F)),
    StableHlo.unary main_v193 main_v216 ((extractStridedSlice S16384x1 ![0, 28] · slices_S16384x64_S16384x1_0_28) : (⟨S16384x64, .f32⟩ : BufTy).Contents (Elt F) → (⟨S16384x1, .f32⟩ : BufTy).Contents (Elt F)),
    StableHlo.reshape main_v216 main_v217 rfl shapeCasts_S16384x1_S16384,
    StableHlo.TRef.ternary (.of main_v212) (.of main_v215) (.of main_v217) main_call7.v0 select,
    StableHlo.nullary main_c_85 (constantI S_ 32 28#32),
    StableHlo.unary main_c_85 main_v219 (broadcastInDim S1 ![] bcast_S_S1 : (⟨S_, .i32⟩ : BufTy).Contents (Elt F) → (⟨S1, .i32⟩ : BufTy).Contents (Elt F)),
    StableHlo.ternary main_v193 main_v219 main_v218 main_v220 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_86 (constantI S_ 32 0#32),
    StableHlo.unary main_c_86 main_v221 (broadcastInDim S4 ![] bcast_S_S4 : (⟨S_, .i32⟩ : BufTy).Contents (Elt F) → (⟨S4, .i32⟩ : BufTy).Contents (Elt F)),
    StableHlo.binary main_c_7 main_v221 main_v222 (cmpi .slt : (⟨S4, .i32⟩ : BufTy).Contents (Elt F) → (⟨S4, .i32⟩ : BufTy).Contents (Elt F) → (⟨S4, .i1⟩ : BufTy).Contents (Elt F)),
    StableHlo.nullary main_c_87 (constantI S_ 32 64#32),
    StableHlo.unary main_c_87 main_v223 (broadcastInDim S4 ![] bcast_S_S4 : (⟨S_, .i32⟩ : BufTy).Contents (Elt F) → (⟨S4, .i32⟩ : BufTy).Contents (Elt F)),
    StableHlo.binary main_c_7 main_v223 main_v224 (addi : (⟨S4, .i32⟩ : BufTy).Contents (Elt F) → (⟨S4, .i32⟩ : BufTy).Contents (Elt F) → (⟨S4, .i32⟩ : BufTy).Contents (Elt F)),
    StableHlo.ternary main_v222 main_v224 main_c_7 main_v225 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v225 main_v226 (broadcastInDim S4x1 ![0] bcast_S4_S4x1_0 : (⟨S4, .i32⟩ : BufTy).Contents (Elt F) → (⟨S4x1, .i32⟩ : BufTy).Contents (Elt F)),
    StableHlo.binary main_v220 main_v226 main_v227 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_88 (constant S_ .f32 0xFF800000#32),
    StableHlo.binary main_v227 main_cst_88 main_v228 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v228 main_v229 (broadcastInDim S16384x1 ![0] bcast_S16384_S16384x1_0 : (⟨S16384, .f32⟩ : BufTy).Contents (Elt F) → (⟨S16384x1, .f32⟩ : BufTy).Contents (Elt F)),
    StableHlo.unary main_v229 main_v230 (broadcastInDim S16384x4 ![0, 1] bcast_S16384x1_S16384x4_0_1 : (⟨S16384x1, .f32⟩ : BufTy).Contents (Elt F) → (⟨S16384x4, .f32⟩ : BufTy).Contents (Elt F)),
    StableHlo.binary main_v230 main_v227 main_v231 (subf : (⟨S16384x4, .f32⟩ : BufTy).Contents (Elt F) → (⟨S16384x4, .f32⟩ : BufTy).Contents (Elt F) → (⟨S16384x4, .f32⟩ : BufTy).Contents (Elt F)),
    StableHlo.nullary main_cst_89 (constant S_ .f32 0x3DCCCCCD#32),
    StableHlo.unary main_cst_89 main_v232 (broadcastInDim S16384x4 ![] bcast_S_S16384x4 : (⟨S_, .f32⟩ : BufTy).Contents (Elt F) → (⟨S16384x4, .f32⟩ : BufTy).Contents (Elt F)),
    StableHlo.binary main_v231 main_v232 main_v233 (cmpf .olt : (⟨S16384x4, .f32⟩ : BufTy).Contents (Elt F) → (⟨S16384x4, .f32⟩ : BufTy).Contents (Elt F) → (⟨S16384x4, .i1⟩ : BufTy).Contents (Elt F)),
    StableHlo.nullary main_c_90 (constantI S_ 1 0#1),
    StableHlo.binary main_v233 main_c_90 main_v234 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v233 main_v235 ((extui 32 · natLt_1_32) : (⟨S16384x4, .i1⟩ : BufTy).Contents (Elt F) → (⟨S16384x4, .i32⟩ : BufTy).Contents (Elt F)),
    StableHlo.nullary main_c_91 (constantI S_ 32 0#32),
    StableHlo.binary main_v235 main_c_91 main_v236 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_92 (constantI S_ 32 1#32),
    StableHlo.unary main_c_92 main_v237 (broadcastInDim S16384 ![] bcast_S_S16384 : (⟨S_, .i32⟩ : BufTy).Contents (Elt F) → (⟨S16384, .i32⟩ : BufTy).Contents (Elt F)),
    StableHlo.binary main_v236 main_v237 main_v238 (cmpi .sgt : (⟨S16384, .i32⟩ : BufTy).Contents (Elt F) → (⟨S16384, .i32⟩ : BufTy).Contents (Elt F) → (⟨S16384, .i1⟩ : BufTy).Contents (Elt F)),
    StableHlo.binary main_v234 main_v238 main_v239 (andi : (⟨S16384, .i1⟩ : BufTy).Contents (Elt F) → (⟨S16384, .i1⟩ : BufTy).Contents (Elt F) → (⟨S16384, .i1⟩ : BufTy).Contents (Elt F)),
    StableHlo.reshape main_v229 main_v240 rfl shapeCasts_S16384x1_S16384,
    StableHlo.nullary main_cst_93 (constant S_ .f32 0x38D1B717#32),
    StableHlo.unary main_cst_93 main_v241 (broadcastInDim S16384 ![] bcast_S_S16384 : (⟨S_, .f32⟩ : BufTy).Contents (Elt F) → (⟨S16384, .f32⟩ : BufTy).Contents (Elt F)),
    StableHlo.binary main_v240 main_v241 main_v242 (addf : (⟨S16384, .f32⟩ : BufTy).Contents (Elt F) → (⟨S16384, .f32⟩ : BufTy).Contents (Elt F) → (⟨S16384, .f32⟩ : BufTy).Contents (Elt F)),
    StableHlo.unary main_v220 main_v243 ((extractStridedSlice S16384x1 ![0, 32] · slices_S16384x64_S16384x1_0_32) : (⟨S16384x64, .f32⟩ : BufTy).Contents (Elt F) → (⟨S16384x1, .f32⟩ : BufTy).Contents (Elt F)),
    StableHlo.reshape main_v243 main_v244 rfl shapeCasts_S16384x1_S16384,
    StableHlo.TRef.ternary (.of main_v239) (.of main_v242) (.of main_v244) main_call8.v0 select,
    StableHlo.nullary main_c_94 (constantI S_ 32 32#32),
    StableHlo.unary main_c_94 main_v246 (broadcastInDim S1 ![] bcast_S_S1 : (⟨S_, .i32⟩ : BufTy).Contents (Elt F) → (⟨S1, .i32⟩ : BufTy).Contents (Elt F)),
    StableHlo.ternary main_v220 main_v246 main_v245 main_v247 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_95 (constantI S_ 32 0#32),
    StableHlo.unary main_c_95 main_v248 (broadcastInDim S4 ![] bcast_S_S4 : (⟨S_, .i32⟩ : BufTy).Contents (Elt F) → (⟨S4, .i32⟩ : BufTy).Contents (Elt F)),
    StableHlo.binary main_c_8 main_v248 main_v249 (cmpi .slt : (⟨S4, .i32⟩ : BufTy).Contents (Elt F) → (⟨S4, .i32⟩ : BufTy).Contents (Elt F) → (⟨S4, .i1⟩ : BufTy).Contents (Elt F)),
    StableHlo.nullary main_c_96 (constantI S_ 32 64#32),
    StableHlo.unary main_c_96 main_v250 (broadcastInDim S4 ![] bcast_S_S4 : (⟨S_, .i32⟩ : BufTy).Contents (Elt F) → (⟨S4, .i32⟩ : BufTy).Contents (Elt F)),
    StableHlo.binary main_c_8 main_v250 main_v251 (addi : (⟨S4, .i32⟩ : BufTy).Contents (Elt F) → (⟨S4, .i32⟩ : BufTy).Contents (Elt F) → (⟨S4, .i32⟩ : BufTy).Contents (Elt F)),
    StableHlo.ternary main_v249 main_v251 main_c_8 main_v252 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v252 main_v253 (broadcastInDim S4x1 ![0] bcast_S4_S4x1_0 : (⟨S4, .i32⟩ : BufTy).Contents (Elt F) → (⟨S4x1, .i32⟩ : BufTy).Contents (Elt F)),
    StableHlo.binary main_v247 main_v253 main_v254 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_97 (constant S_ .f32 0xFF800000#32),
    StableHlo.binary main_v254 main_cst_97 main_v255 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v255 main_v256 (broadcastInDim S16384x1 ![0] bcast_S16384_S16384x1_0 : (⟨S16384, .f32⟩ : BufTy).Contents (Elt F) → (⟨S16384x1, .f32⟩ : BufTy).Contents (Elt F)),
    StableHlo.unary main_v256 main_v257 (broadcastInDim S16384x4 ![0, 1] bcast_S16384x1_S16384x4_0_1 : (⟨S16384x1, .f32⟩ : BufTy).Contents (Elt F) → (⟨S16384x4, .f32⟩ : BufTy).Contents (Elt F)),
    StableHlo.binary main_v257 main_v254 main_v258 (subf : (⟨S16384x4, .f32⟩ : BufTy).Contents (Elt F) → (⟨S16384x4, .f32⟩ : BufTy).Contents (Elt F) → (⟨S16384x4, .f32⟩ : BufTy).Contents (Elt F)),
    StableHlo.nullary main_cst_98 (constant S_ .f32 0x3DCCCCCD#32) ]

/-- The operations of the printed window 6. -/
abbrev part6 : List (HloOp τ sig (Elt F)) :=
  [ StableHlo.unary main_cst_98 main_v259 (broadcastInDim S16384x4 ![] bcast_S_S16384x4 : (⟨S_, .f32⟩ : BufTy).Contents (Elt F) → (⟨S16384x4, .f32⟩ : BufTy).Contents (Elt F)),
    StableHlo.binary main_v258 main_v259 main_v260 (cmpf .olt : (⟨S16384x4, .f32⟩ : BufTy).Contents (Elt F) → (⟨S16384x4, .f32⟩ : BufTy).Contents (Elt F) → (⟨S16384x4, .i1⟩ : BufTy).Contents (Elt F)),
    StableHlo.nullary main_c_99 (constantI S_ 1 0#1),
    StableHlo.binary main_v260 main_c_99 main_v261 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v260 main_v262 ((extui 32 · natLt_1_32) : (⟨S16384x4, .i1⟩ : BufTy).Contents (Elt F) → (⟨S16384x4, .i32⟩ : BufTy).Contents (Elt F)),
    StableHlo.nullary main_c_100 (constantI S_ 32 0#32),
    StableHlo.binary main_v262 main_c_100 main_v263 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_101 (constantI S_ 32 1#32),
    StableHlo.unary main_c_101 main_v264 (broadcastInDim S16384 ![] bcast_S_S16384 : (⟨S_, .i32⟩ : BufTy).Contents (Elt F) → (⟨S16384, .i32⟩ : BufTy).Contents (Elt F)),
    StableHlo.binary main_v263 main_v264 main_v265 (cmpi .sgt : (⟨S16384, .i32⟩ : BufTy).Contents (Elt F) → (⟨S16384, .i32⟩ : BufTy).Contents (Elt F) → (⟨S16384, .i1⟩ : BufTy).Contents (Elt F)),
    StableHlo.binary main_v261 main_v265 main_v266 (andi : (⟨S16384, .i1⟩ : BufTy).Contents (Elt F) → (⟨S16384, .i1⟩ : BufTy).Contents (Elt F) → (⟨S16384, .i1⟩ : BufTy).Contents (Elt F)),
    StableHlo.reshape main_v256 main_v267 rfl shapeCasts_S16384x1_S16384,
    StableHlo.nullary main_cst_102 (constant S_ .f32 0x38D1B717#32),
    StableHlo.unary main_cst_102 main_v268 (broadcastInDim S16384 ![] bcast_S_S16384 : (⟨S_, .f32⟩ : BufTy).Contents (Elt F) → (⟨S16384, .f32⟩ : BufTy).Contents (Elt F)),
    StableHlo.binary main_v267 main_v268 main_v269 (addf : (⟨S16384, .f32⟩ : BufTy).Contents (Elt F) → (⟨S16384, .f32⟩ : BufTy).Contents (Elt F) → (⟨S16384, .f32⟩ : BufTy).Contents (Elt F)),
    StableHlo.unary main_v247 main_v270 ((extractStridedSlice S16384x1 ![0, 36] · slices_S16384x64_S16384x1_0_36) : (⟨S16384x64, .f32⟩ : BufTy).Contents (Elt F) → (⟨S16384x1, .f32⟩ : BufTy).Contents (Elt F)),
    StableHlo.reshape main_v270 main_v271 rfl shapeCasts_S16384x1_S16384,
    StableHlo.TRef.ternary (.of main_v266) (.of main_v269) (.of main_v271) main_call9.v0 select,
    StableHlo.nullary main_c_103 (constantI S_ 32 36#32),
    StableHlo.unary main_c_103 main_v273 (broadcastInDim S1 ![] bcast_S_S1 : (⟨S_, .i32⟩ : BufTy).Contents (Elt F) → (⟨S1, .i32⟩ : BufTy).Contents (Elt F)),
    StableHlo.ternary main_v247 main_v273 main_v272 main_v274 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_104 (constantI S_ 32 0#32),
    StableHlo.unary main_c_104 main_v275 (broadcastInDim S4 ![] bcast_S_S4 : (⟨S_, .i32⟩ : BufTy).Contents (Elt F) → (⟨S4, .i32⟩ : BufTy).Contents (Elt F)),
    StableHlo.binary main_c_9 main_v275 main_v276 (cmpi .slt : (⟨S4, .i32⟩ : BufTy).Contents (Elt F) → (⟨S4, .i32⟩ : BufTy).Contents (Elt F) → (⟨S4, .i1⟩ : BufTy).Contents (Elt F)),
    StableHlo.nullary main_c_105 (constantI S_ 32 64#32),
    StableHlo.unary main_c_105 main_v277 (broadcastInDim S4 ![] bcast_S_S4 : (⟨S_, .i32⟩ : BufTy).Contents (Elt F) → (⟨S4, .i32⟩ : BufTy).Contents (Elt F)),
    StableHlo.binary main_c_9 main_v277 main_v278 (addi : (⟨S4, .i32⟩ : BufTy).Contents (Elt F) → (⟨S4, .i32⟩ : BufTy).Contents (Elt F) → (⟨S4, .i32⟩ : BufTy).Contents (Elt F)),
    StableHlo.ternary main_v276 main_v278 main_c_9 main_v279 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v279 main_v280 (broadcastInDim S4x1 ![0] bcast_S4_S4x1_0 : (⟨S4, .i32⟩ : BufTy).Contents (Elt F) → (⟨S4x1, .i32⟩ : BufTy).Contents (Elt F)),
    StableHlo.binary main_v274 main_v280 main_v281 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_106 (constant S_ .f32 0xFF800000#32),
    StableHlo.binary main_v281 main_cst_106 main_v282 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v282 main_v283 (broadcastInDim S16384x1 ![0] bcast_S16384_S16384x1_0 : (⟨S16384, .f32⟩ : BufTy).Contents (Elt F) → (⟨S16384x1, .f32⟩ : BufTy).Contents (Elt F)),
    StableHlo.unary main_v283 main_v284 (broadcastInDim S16384x4 ![0, 1] bcast_S16384x1_S16384x4_0_1 : (⟨S16384x1, .f32⟩ : BufTy).Contents (Elt F) → (⟨S16384x4, .f32⟩ : BufTy).Contents (Elt F)),
    StableHlo.binary main_v284 main_v281 main_v285 (subf : (⟨S16384x4, .f32⟩ : BufTy).Contents (Elt F) → (⟨S16384x4, .f32⟩ : BufTy).Contents (Elt F) → (⟨S16384x4, .f32⟩ : BufTy).Contents (Elt F)),
    StableHlo.nullary main_cst_107 (constant S_ .f32 0x3DCCCCCD#32),
    StableHlo.unary main_cst_107 main_v286 (broadcastInDim S16384x4 ![] bcast_S_S16384x4 : (⟨S_, .f32⟩ : BufTy).Contents (Elt F) → (⟨S16384x4, .f32⟩ : BufTy).Contents (Elt F)),
    StableHlo.binary main_v285 main_v286 main_v287 (cmpf .olt : (⟨S16384x4, .f32⟩ : BufTy).Contents (Elt F) → (⟨S16384x4, .f32⟩ : BufTy).Contents (Elt F) → (⟨S16384x4, .i1⟩ : BufTy).Contents (Elt F)),
    StableHlo.nullary main_c_108 (constantI S_ 1 0#1),
    StableHlo.binary main_v287 main_c_108 main_v288 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v287 main_v289 ((extui 32 · natLt_1_32) : (⟨S16384x4, .i1⟩ : BufTy).Contents (Elt F) → (⟨S16384x4, .i32⟩ : BufTy).Contents (Elt F)),
    StableHlo.nullary main_c_109 (constantI S_ 32 0#32),
    StableHlo.binary main_v289 main_c_109 main_v290 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_110 (constantI S_ 32 1#32),
    StableHlo.unary main_c_110 main_v291 (broadcastInDim S16384 ![] bcast_S_S16384 : (⟨S_, .i32⟩ : BufTy).Contents (Elt F) → (⟨S16384, .i32⟩ : BufTy).Contents (Elt F)),
    StableHlo.binary main_v290 main_v291 main_v292 (cmpi .sgt : (⟨S16384, .i32⟩ : BufTy).Contents (Elt F) → (⟨S16384, .i32⟩ : BufTy).Contents (Elt F) → (⟨S16384, .i1⟩ : BufTy).Contents (Elt F)),
    StableHlo.binary main_v288 main_v292 main_v293 (andi : (⟨S16384, .i1⟩ : BufTy).Contents (Elt F) → (⟨S16384, .i1⟩ : BufTy).Contents (Elt F) → (⟨S16384, .i1⟩ : BufTy).Contents (Elt F)),
    StableHlo.reshape main_v283 main_v294 rfl shapeCasts_S16384x1_S16384,
    StableHlo.nullary main_cst_111 (constant S_ .f32 0x38D1B717#32),
    StableHlo.unary main_cst_111 main_v295 (broadcastInDim S16384 ![] bcast_S_S16384 : (⟨S_, .f32⟩ : BufTy).Contents (Elt F) → (⟨S16384, .f32⟩ : BufTy).Contents (Elt F)),
    StableHlo.binary main_v294 main_v295 main_v296 (addf : (⟨S16384, .f32⟩ : BufTy).Contents (Elt F) → (⟨S16384, .f32⟩ : BufTy).Contents (Elt F) → (⟨S16384, .f32⟩ : BufTy).Contents (Elt F)),
    StableHlo.unary main_v274 main_v297 ((extractStridedSlice S16384x1 ![0, 40] · slices_S16384x64_S16384x1_0_40) : (⟨S16384x64, .f32⟩ : BufTy).Contents (Elt F) → (⟨S16384x1, .f32⟩ : BufTy).Contents (Elt F)),
    StableHlo.reshape main_v297 main_v298 rfl shapeCasts_S16384x1_S16384,
    StableHlo.TRef.ternary (.of main_v293) (.of main_v296) (.of main_v298) main_call10.v0 select,
    StableHlo.nullary main_c_112 (constantI S_ 32 40#32),
    StableHlo.unary main_c_112 main_v300 (broadcastInDim S1 ![] bcast_S_S1 : (⟨S_, .i32⟩ : BufTy).Contents (Elt F) → (⟨S1, .i32⟩ : BufTy).Contents (Elt F)),
    StableHlo.ternary main_v274 main_v300 main_v299 main_v301 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_113 (constantI S_ 32 0#32),
    StableHlo.unary main_c_113 main_v302 (broadcastInDim S4 ![] bcast_S_S4 : (⟨S_, .i32⟩ : BufTy).Contents (Elt F) → (⟨S4, .i32⟩ : BufTy).Contents (Elt F)),
    StableHlo.binary main_c_10 main_v302 main_v303 (cmpi .slt : (⟨S4, .i32⟩ : BufTy).Contents (Elt F) → (⟨S4, .i32⟩ : BufTy).Contents (Elt F) → (⟨S4, .i1⟩ : BufTy).Contents (Elt F)) ]

/-- The operations of the printed window 7. -/
abbrev part7 : List (HloOp τ sig (Elt F)) :=
  [ StableHlo.nullary main_c_114 (constantI S_ 32 64#32),
    StableHlo.unary main_c_114 main_v304 (broadcastInDim S4 ![] bcast_S_S4 : (⟨S_, .i32⟩ : BufTy).Contents (Elt F) → (⟨S4, .i32⟩ : BufTy).Contents (Elt F)),
    StableHlo.binary main_c_10 main_v304 main_v305 (addi : (⟨S4, .i32⟩ : BufTy).Contents (Elt F) → (⟨S4, .i32⟩ : BufTy).Contents (Elt F) → (⟨S4, .i32⟩ : BufTy).Contents (Elt F)),
    StableHlo.ternary main_v303 main_v305 main_c_10 main_v306 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v306 main_v307 (broadcastInDim S4x1 ![0] bcast_S4_S4x1_0 : (⟨S4, .i32⟩ : BufTy).Contents (Elt F) → (⟨S4x1, .i32⟩ : BufTy).Contents (Elt F)),
    StableHlo.binary main_v301 main_v307 main_v308 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_115 (constant S_ .f32 0xFF800000#32),
    StableHlo.binary main_v308 main_cst_115 main_v309 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v309 main_v310 (broadcastInDim S16384x1 ![0] bcast_S16384_S16384x1_0 : (⟨S16384, .f32⟩ : BufTy).Contents (Elt F) → (⟨S16384x1, .f32⟩ : BufTy).Contents (Elt F)),
    StableHlo.unary main_v310 main_v311 (broadcastInDim S16384x4 ![0, 1] bcast_S16384x1_S16384x4_0_1 : (⟨S16384x1, .f32⟩ : BufTy).Contents (Elt F) → (⟨S16384x4, .f32⟩ : BufTy).Contents (Elt F)),
    StableHlo.binary main_v311 main_v308 main_v312 (subf : (⟨S16384x4, .f32⟩ : BufTy).Contents (Elt F) → (⟨S16384x4, .f32⟩ : BufTy).Contents (Elt F) → (⟨S16384x4, .f32⟩ : BufTy).Contents (Elt F)),
    StableHlo.nullary main_cst_116 (constant S_ .f32 0x3DCCCCCD#32),
    StableHlo.unary main_cst_116 main_v313 (broadcastInDim S16384x4 ![] bcast_S_S16384x4 : (⟨S_, .f32⟩ : BufTy).Contents (Elt F) → (⟨S16384x4, .f32⟩ : BufTy).Contents (Elt F)),
    StableHlo.binary main_v312 main_v313 main_v314 (cmpf .olt : (⟨S16384x4, .f32⟩ : BufTy).Contents (Elt F) → (⟨S16384x4, .f32⟩ : BufTy).Contents (Elt F) → (⟨S16384x4, .i1⟩ : BufTy).Contents (Elt F)),
    StableHlo.nullary main_c_117 (constantI S_ 1 0#1),
    StableHlo.binary main_v314 main_c_117 main_v315 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v314 main_v316 ((extui 32 · natLt_1_32) : (⟨S16384x4, .i1⟩ : BufTy).Contents (Elt F) → (⟨S16384x4, .i32⟩ : BufTy).Contents (Elt F)),
    StableHlo.nullary main_c_118 (constantI S_ 32 0#32),
    StableHlo.binary main_v316 main_c_118 main_v317 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_119 (constantI S_ 32 1#32),
    StableHlo.unary main_c_119 main_v318 (broadcastInDim S16384 ![] bcast_S_S16384 : (⟨S_, .i32⟩ : BufTy).Contents (Elt F) → (⟨S16384, .i32⟩ : BufTy).Contents (Elt F)),
    StableHlo.binary main_v317 main_v318 main_v319 (cmpi .sgt : (⟨S16384, .i32⟩ : BufTy).Contents (Elt F) → (⟨S16384, .i32⟩ : BufTy).Contents (Elt F) → (⟨S16384, .i1⟩ : BufTy).Contents (Elt F)),
    StableHlo.binary main_v315 main_v319 main_v320 (andi : (⟨S16384, .i1⟩ : BufTy).Contents (Elt F) → (⟨S16384, .i1⟩ : BufTy).Contents (Elt F) → (⟨S16384, .i1⟩ : BufTy).Contents (Elt F)),
    StableHlo.reshape main_v310 main_v321 rfl shapeCasts_S16384x1_S16384,
    StableHlo.nullary main_cst_120 (constant S_ .f32 0x38D1B717#32),
    StableHlo.unary main_cst_120 main_v322 (broadcastInDim S16384 ![] bcast_S_S16384 : (⟨S_, .f32⟩ : BufTy).Contents (Elt F) → (⟨S16384, .f32⟩ : BufTy).Contents (Elt F)),
    StableHlo.binary main_v321 main_v322 main_v323 (addf : (⟨S16384, .f32⟩ : BufTy).Contents (Elt F) → (⟨S16384, .f32⟩ : BufTy).Contents (Elt F) → (⟨S16384, .f32⟩ : BufTy).Contents (Elt F)),
    StableHlo.unary main_v301 main_v324 ((extractStridedSlice S16384x1 ![0, 44] · slices_S16384x64_S16384x1_0_44) : (⟨S16384x64, .f32⟩ : BufTy).Contents (Elt F) → (⟨S16384x1, .f32⟩ : BufTy).Contents (Elt F)),
    StableHlo.reshape main_v324 main_v325 rfl shapeCasts_S16384x1_S16384,
    StableHlo.TRef.ternary (.of main_v320) (.of main_v323) (.of main_v325) main_call11.v0 select,
    StableHlo.nullary main_c_121 (constantI S_ 32 44#32),
    StableHlo.unary main_c_121 main_v327 (broadcastInDim S1 ![] bcast_S_S1 : (⟨S_, .i32⟩ : BufTy).Contents (Elt F) → (⟨S1, .i32⟩ : BufTy).Contents (Elt F)),
    StableHlo.ternary main_v301 main_v327 main_v326 main_v328 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_122 (constantI S_ 32 0#32),
    StableHlo.unary main_c_122 main_v329 (broadcastInDim S4 ![] bcast_S_S4 : (⟨S_, .i32⟩ : BufTy).Contents (Elt F) → (⟨S4, .i32⟩ : BufTy).Contents (Elt F)),
    StableHlo.binary main_c_11 main_v329 main_v330 (cmpi .slt : (⟨S4, .i32⟩ : BufTy).Contents (Elt F) → (⟨S4, .i32⟩ : BufTy).Contents (Elt F) → (⟨S4, .i1⟩ : BufTy).Contents (Elt F)),
    StableHlo.nullary main_c_123 (constantI S_ 32 64#32),
    StableHlo.unary main_c_123 main_v331 (broadcastInDim S4 ![] bcast_S_S4 : (⟨S_, .i32⟩ : BufTy).Contents (Elt F) → (⟨S4, .i32⟩ : BufTy).Contents (Elt F)),
    StableHlo.binary main_c_11 main_v331 main_v332 (addi : (⟨S4, .i32⟩ : BufTy).Contents (Elt F) → (⟨S4, .i32⟩ : BufTy).Contents (Elt F) → (⟨S4, .i32⟩ : BufTy).Contents (Elt F)),
    StableHlo.ternary main_v330 main_v332 main_c_11 main_v333 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v333 main_v334 (broadcastInDim S4x1 ![0] bcast_S4_S4x1_0 : (⟨S4, .i32⟩ : BufTy).Contents (Elt F) → (⟨S4x1, .i32⟩ : BufTy).Contents (Elt F)),
    StableHlo.binary main_v328 main_v334 main_v335 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_124 (constant S_ .f32 0xFF800000#32),
    StableHlo.binary main_v335 main_cst_124 main_v336 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v336 main_v337 (broadcastInDim S16384x1 ![0] bcast_S16384_S16384x1_0 : (⟨S16384, .f32⟩ : BufTy).Contents (Elt F) → (⟨S16384x1, .f32⟩ : BufTy).Contents (Elt F)),
    StableHlo.unary main_v337 main_v338 (broadcastInDim S16384x4 ![0, 1] bcast_S16384x1_S16384x4_0_1 : (⟨S16384x1, .f32⟩ : BufTy).Contents (Elt F) → (⟨S16384x4, .f32⟩ : BufTy).Contents (Elt F)),
    StableHlo.binary main_v338 main_v335 main_v339 (subf : (⟨S16384x4, .f32⟩ : BufTy).Contents (Elt F) → (⟨S16384x4, .f32⟩ : BufTy).Contents (Elt F) → (⟨S16384x4, .f32⟩ : BufTy).Contents (Elt F)),
    StableHlo.nullary main_cst_125 (constant S_ .f32 0x3DCCCCCD#32),
    StableHlo.unary main_cst_125 main_v340 (broadcastInDim S16384x4 ![] bcast_S_S16384x4 : (⟨S_, .f32⟩ : BufTy).Contents (Elt F) → (⟨S16384x4, .f32⟩ : BufTy).Contents (Elt F)),
    StableHlo.binary main_v339 main_v340 main_v341 (cmpf .olt : (⟨S16384x4, .f32⟩ : BufTy).Contents (Elt F) → (⟨S16384x4, .f32⟩ : BufTy).Contents (Elt F) → (⟨S16384x4, .i1⟩ : BufTy).Contents (Elt F)),
    StableHlo.nullary main_c_126 (constantI S_ 1 0#1),
    StableHlo.binary main_v341 main_c_126 main_v342 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v341 main_v343 ((extui 32 · natLt_1_32) : (⟨S16384x4, .i1⟩ : BufTy).Contents (Elt F) → (⟨S16384x4, .i32⟩ : BufTy).Contents (Elt F)),
    StableHlo.nullary main_c_127 (constantI S_ 32 0#32),
    StableHlo.binary main_v343 main_c_127 main_v344 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_128 (constantI S_ 32 1#32),
    StableHlo.unary main_c_128 main_v345 (broadcastInDim S16384 ![] bcast_S_S16384 : (⟨S_, .i32⟩ : BufTy).Contents (Elt F) → (⟨S16384, .i32⟩ : BufTy).Contents (Elt F)),
    StableHlo.binary main_v344 main_v345 main_v346 (cmpi .sgt : (⟨S16384, .i32⟩ : BufTy).Contents (Elt F) → (⟨S16384, .i32⟩ : BufTy).Contents (Elt F) → (⟨S16384, .i1⟩ : BufTy).Contents (Elt F)),
    StableHlo.binary main_v342 main_v346 main_v347 (andi : (⟨S16384, .i1⟩ : BufTy).Contents (Elt F) → (⟨S16384, .i1⟩ : BufTy).Contents (Elt F) → (⟨S16384, .i1⟩ : BufTy).Contents (Elt F)),
    StableHlo.reshape main_v337 main_v348 rfl shapeCasts_S16384x1_S16384 ]

/-- The operations of the printed window 8. -/
abbrev part8 : List (HloOp τ sig (Elt F)) :=
  [ StableHlo.nullary main_cst_129 (constant S_ .f32 0x38D1B717#32),
    StableHlo.unary main_cst_129 main_v349 (broadcastInDim S16384 ![] bcast_S_S16384 : (⟨S_, .f32⟩ : BufTy).Contents (Elt F) → (⟨S16384, .f32⟩ : BufTy).Contents (Elt F)),
    StableHlo.binary main_v348 main_v349 main_v350 (addf : (⟨S16384, .f32⟩ : BufTy).Contents (Elt F) → (⟨S16384, .f32⟩ : BufTy).Contents (Elt F) → (⟨S16384, .f32⟩ : BufTy).Contents (Elt F)),
    StableHlo.unary main_v328 main_v351 ((extractStridedSlice S16384x1 ![0, 48] · slices_S16384x64_S16384x1_0_48) : (⟨S16384x64, .f32⟩ : BufTy).Contents (Elt F) → (⟨S16384x1, .f32⟩ : BufTy).Contents (Elt F)),
    StableHlo.reshape main_v351 main_v352 rfl shapeCasts_S16384x1_S16384,
    StableHlo.TRef.ternary (.of main_v347) (.of main_v350) (.of main_v352) main_call12.v0 select,
    StableHlo.nullary main_c_130 (constantI S_ 32 48#32),
    StableHlo.unary main_c_130 main_v354 (broadcastInDim S1 ![] bcast_S_S1 : (⟨S_, .i32⟩ : BufTy).Contents (Elt F) → (⟨S1, .i32⟩ : BufTy).Contents (Elt F)),
    StableHlo.ternary main_v328 main_v354 main_v353 main_v355 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_131 (constantI S_ 32 0#32),
    StableHlo.unary main_c_131 main_v356 (broadcastInDim S4 ![] bcast_S_S4 : (⟨S_, .i32⟩ : BufTy).Contents (Elt F) → (⟨S4, .i32⟩ : BufTy).Contents (Elt F)),
    StableHlo.binary main_c_12 main_v356 main_v357 (cmpi .slt : (⟨S4, .i32⟩ : BufTy).Contents (Elt F) → (⟨S4, .i32⟩ : BufTy).Contents (Elt F) → (⟨S4, .i1⟩ : BufTy).Contents (Elt F)),
    StableHlo.nullary main_c_132 (constantI S_ 32 64#32),
    StableHlo.unary main_c_132 main_v358 (broadcastInDim S4 ![] bcast_S_S4 : (⟨S_, .i32⟩ : BufTy).Contents (Elt F) → (⟨S4, .i32⟩ : BufTy).Contents (Elt F)),
    StableHlo.binary main_c_12 main_v358 main_v359 (addi : (⟨S4, .i32⟩ : BufTy).Contents (Elt F) → (⟨S4, .i32⟩ : BufTy).Contents (Elt F) → (⟨S4, .i32⟩ : BufTy).Contents (Elt F)),
    StableHlo.ternary main_v357 main_v359 main_c_12 main_v360 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v360 main_v361 (broadcastInDim S4x1 ![0] bcast_S4_S4x1_0 : (⟨S4, .i32⟩ : BufTy).Contents (Elt F) → (⟨S4x1, .i32⟩ : BufTy).Contents (Elt F)),
    StableHlo.binary main_v355 main_v361 main_v362 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_133 (constant S_ .f32 0xFF800000#32),
    StableHlo.binary main_v362 main_cst_133 main_v363 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v363 main_v364 (broadcastInDim S16384x1 ![0] bcast_S16384_S16384x1_0 : (⟨S16384, .f32⟩ : BufTy).Contents (Elt F) → (⟨S16384x1, .f32⟩ : BufTy).Contents (Elt F)),
    StableHlo.unary main_v364 main_v365 (broadcastInDim S16384x4 ![0, 1] bcast_S16384x1_S16384x4_0_1 : (⟨S16384x1, .f32⟩ : BufTy).Contents (Elt F) → (⟨S16384x4, .f32⟩ : BufTy).Contents (Elt F)),
    StableHlo.binary main_v365 main_v362 main_v366 (subf : (⟨S16384x4, .f32⟩ : BufTy).Contents (Elt F) → (⟨S16384x4, .f32⟩ : BufTy).Contents (Elt F) → (⟨S16384x4, .f32⟩ : BufTy).Contents (Elt F)),
    StableHlo.nullary main_cst_134 (constant S_ .f32 0x3DCCCCCD#32),
    StableHlo.unary main_cst_134 main_v367 (broadcastInDim S16384x4 ![] bcast_S_S16384x4 : (⟨S_, .f32⟩ : BufTy).Contents (Elt F) → (⟨S16384x4, .f32⟩ : BufTy).Contents (Elt F)),
    StableHlo.binary main_v366 main_v367 main_v368 (cmpf .olt : (⟨S16384x4, .f32⟩ : BufTy).Contents (Elt F) → (⟨S16384x4, .f32⟩ : BufTy).Contents (Elt F) → (⟨S16384x4, .i1⟩ : BufTy).Contents (Elt F)),
    StableHlo.nullary main_c_135 (constantI S_ 1 0#1),
    StableHlo.binary main_v368 main_c_135 main_v369 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v368 main_v370 ((extui 32 · natLt_1_32) : (⟨S16384x4, .i1⟩ : BufTy).Contents (Elt F) → (⟨S16384x4, .i32⟩ : BufTy).Contents (Elt F)),
    StableHlo.nullary main_c_136 (constantI S_ 32 0#32),
    StableHlo.binary main_v370 main_c_136 main_v371 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_137 (constantI S_ 32 1#32),
    StableHlo.unary main_c_137 main_v372 (broadcastInDim S16384 ![] bcast_S_S16384 : (⟨S_, .i32⟩ : BufTy).Contents (Elt F) → (⟨S16384, .i32⟩ : BufTy).Contents (Elt F)),
    StableHlo.binary main_v371 main_v372 main_v373 (cmpi .sgt : (⟨S16384, .i32⟩ : BufTy).Contents (Elt F) → (⟨S16384, .i32⟩ : BufTy).Contents (Elt F) → (⟨S16384, .i1⟩ : BufTy).Contents (Elt F)),
    StableHlo.binary main_v369 main_v373 main_v374 (andi : (⟨S16384, .i1⟩ : BufTy).Contents (Elt F) → (⟨S16384, .i1⟩ : BufTy).Contents (Elt F) → (⟨S16384, .i1⟩ : BufTy).Contents (Elt F)),
    StableHlo.reshape main_v364 main_v375 rfl shapeCasts_S16384x1_S16384,
    StableHlo.nullary main_cst_138 (constant S_ .f32 0x38D1B717#32),
    StableHlo.unary main_cst_138 main_v376 (broadcastInDim S16384 ![] bcast_S_S16384 : (⟨S_, .f32⟩ : BufTy).Contents (Elt F) → (⟨S16384, .f32⟩ : BufTy).Contents (Elt F)),
    StableHlo.binary main_v375 main_v376 main_v377 (addf : (⟨S16384, .f32⟩ : BufTy).Contents (Elt F) → (⟨S16384, .f32⟩ : BufTy).Contents (Elt F) → (⟨S16384, .f32⟩ : BufTy).Contents (Elt F)),
    StableHlo.unary main_v355 main_v378 ((extractStridedSlice S16384x1 ![0, 52] · slices_S16384x64_S16384x1_0_52) : (⟨S16384x64, .f32⟩ : BufTy).Contents (Elt F) → (⟨S16384x1, .f32⟩ : BufTy).Contents (Elt F)),
    StableHlo.reshape main_v378 main_v379 rfl shapeCasts_S16384x1_S16384,
    StableHlo.TRef.ternary (.of main_v374) (.of main_v377) (.of main_v379) main_call13.v0 select,
    StableHlo.nullary main_c_139 (constantI S_ 32 52#32),
    StableHlo.unary main_c_139 main_v381 (broadcastInDim S1 ![] bcast_S_S1 : (⟨S_, .i32⟩ : BufTy).Contents (Elt F) → (⟨S1, .i32⟩ : BufTy).Contents (Elt F)),
    StableHlo.ternary main_v355 main_v381 main_v380 main_v382 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_140 (constantI S_ 32 0#32),
    StableHlo.unary main_c_140 main_v383 (broadcastInDim S4 ![] bcast_S_S4 : (⟨S_, .i32⟩ : BufTy).Contents (Elt F) → (⟨S4, .i32⟩ : BufTy).Contents (Elt F)),
    StableHlo.binary main_c_13 main_v383 main_v384 (cmpi .slt : (⟨S4, .i32⟩ : BufTy).Contents (Elt F) → (⟨S4, .i32⟩ : BufTy).Contents (Elt F) → (⟨S4, .i1⟩ : BufTy).Contents (Elt F)),
    StableHlo.nullary main_c_141 (constantI S_ 32 64#32),
    StableHlo.unary main_c_141 main_v385 (broadcastInDim S4 ![] bcast_S_S4 : (⟨S_, .i32⟩ : BufTy).Contents (Elt F) → (⟨S4, .i32⟩ : BufTy).Contents (Elt F)),
    StableHlo.binary main_c_13 main_v385 main_v386 (addi : (⟨S4, .i32⟩ : BufTy).Contents (Elt F) → (⟨S4, .i32⟩ : BufTy).Contents (Elt F) → (⟨S4, .i32⟩ : BufTy).Contents (Elt F)),
    StableHlo.ternary main_v384 main_v386 main_c_13 main_v387 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v387 main_v388 (broadcastInDim S4x1 ![0] bcast_S4_S4x1_0 : (⟨S4, .i32⟩ : BufTy).Contents (Elt F) → (⟨S4x1, .i32⟩ : BufTy).Contents (Elt F)),
    StableHlo.binary main_v382 main_v388 main_v389 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_142 (constant S_ .f32 0xFF800000#32),
    StableHlo.binary main_v389 main_cst_142 main_v390 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v390 main_v391 (broadcastInDim S16384x1 ![0] bcast_S16384_S16384x1_0 : (⟨S16384, .f32⟩ : BufTy).Contents (Elt F) → (⟨S16384x1, .f32⟩ : BufTy).Contents (Elt F)),
    StableHlo.unary main_v391 main_v392 (broadcastInDim S16384x4 ![0, 1] bcast_S16384x1_S16384x4_0_1 : (⟨S16384x1, .f32⟩ : BufTy).Contents (Elt F) → (⟨S16384x4, .f32⟩ : BufTy).Contents (Elt F)),
    StableHlo.binary main_v392 main_v389 main_v393 (subf : (⟨S16384x4, .f32⟩ : BufTy).Contents (Elt F) → (⟨S16384x4, .f32⟩ : BufTy).Contents (Elt F) → (⟨S16384x4, .f32⟩ : BufTy).Contents (Elt F)),
    StableHlo.nullary main_cst_143 (constant S_ .f32 0x3DCCCCCD#32) ]

/-- The operations of the printed window 9. -/
abbrev part9 : List (HloOp τ sig (Elt F)) :=
  [ StableHlo.unary main_cst_143 main_v394 (broadcastInDim S16384x4 ![] bcast_S_S16384x4 : (⟨S_, .f32⟩ : BufTy).Contents (Elt F) → (⟨S16384x4, .f32⟩ : BufTy).Contents (Elt F)),
    StableHlo.binary main_v393 main_v394 main_v395 (cmpf .olt : (⟨S16384x4, .f32⟩ : BufTy).Contents (Elt F) → (⟨S16384x4, .f32⟩ : BufTy).Contents (Elt F) → (⟨S16384x4, .i1⟩ : BufTy).Contents (Elt F)),
    StableHlo.nullary main_c_144 (constantI S_ 1 0#1),
    StableHlo.binary main_v395 main_c_144 main_v396 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v395 main_v397 ((extui 32 · natLt_1_32) : (⟨S16384x4, .i1⟩ : BufTy).Contents (Elt F) → (⟨S16384x4, .i32⟩ : BufTy).Contents (Elt F)),
    StableHlo.nullary main_c_145 (constantI S_ 32 0#32),
    StableHlo.binary main_v397 main_c_145 main_v398 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_146 (constantI S_ 32 1#32),
    StableHlo.unary main_c_146 main_v399 (broadcastInDim S16384 ![] bcast_S_S16384 : (⟨S_, .i32⟩ : BufTy).Contents (Elt F) → (⟨S16384, .i32⟩ : BufTy).Contents (Elt F)),
    StableHlo.binary main_v398 main_v399 main_v400 (cmpi .sgt : (⟨S16384, .i32⟩ : BufTy).Contents (Elt F) → (⟨S16384, .i32⟩ : BufTy).Contents (Elt F) → (⟨S16384, .i1⟩ : BufTy).Contents (Elt F)),
    StableHlo.binary main_v396 main_v400 main_v401 (andi : (⟨S16384, .i1⟩ : BufTy).Contents (Elt F) → (⟨S16384, .i1⟩ : BufTy).Contents (Elt F) → (⟨S16384, .i1⟩ : BufTy).Contents (Elt F)),
    StableHlo.reshape main_v391 main_v402 rfl shapeCasts_S16384x1_S16384,
    StableHlo.nullary main_cst_147 (constant S_ .f32 0x38D1B717#32),
    StableHlo.unary main_cst_147 main_v403 (broadcastInDim S16384 ![] bcast_S_S16384 : (⟨S_, .f32⟩ : BufTy).Contents (Elt F) → (⟨S16384, .f32⟩ : BufTy).Contents (Elt F)),
    StableHlo.binary main_v402 main_v403 main_v404 (addf : (⟨S16384, .f32⟩ : BufTy).Contents (Elt F) → (⟨S16384, .f32⟩ : BufTy).Contents (Elt F) → (⟨S16384, .f32⟩ : BufTy).Contents (Elt F)),
    StableHlo.unary main_v382 main_v405 ((extractStridedSlice S16384x1 ![0, 56] · slices_S16384x64_S16384x1_0_56) : (⟨S16384x64, .f32⟩ : BufTy).Contents (Elt F) → (⟨S16384x1, .f32⟩ : BufTy).Contents (Elt F)),
    StableHlo.reshape main_v405 main_v406 rfl shapeCasts_S16384x1_S16384,
    StableHlo.TRef.ternary (.of main_v401) (.of main_v404) (.of main_v406) main_call14.v0 select,
    StableHlo.nullary main_c_148 (constantI S_ 32 56#32),
    StableHlo.unary main_c_148 main_v408 (broadcastInDim S1 ![] bcast_S_S1 : (⟨S_, .i32⟩ : BufTy).Contents (Elt F) → (⟨S1, .i32⟩ : BufTy).Contents (Elt F)),
    StableHlo.ternary main_v382 main_v408 main_v407 main_v409 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)),
    StableHlo.nullary main_c_149 (constantI S_ 32 0#32),
    StableHlo.unary main_c_149 main_v410 (broadcastInDim S4 ![] bcast_S_S4 : (⟨S_, .i32⟩ : BufTy).Contents (Elt F) → (⟨S4, .i32⟩ : BufTy).Contents (Elt F)),
    StableHlo.binary main_c_14 main_v410 main_v411 (cmpi .slt : (⟨S4, .i32⟩ : BufTy).Contents (Elt F) → (⟨S4, .i32⟩ : BufTy).Contents (Elt F) → (⟨S4, .i1⟩ : BufTy).Contents (Elt F)),
    StableHlo.nullary main_c_150 (constantI S_ 32 64#32),
    StableHlo.unary main_c_150 main_v412 (broadcastInDim S4 ![] bcast_S_S4 : (⟨S_, .i32⟩ : BufTy).Contents (Elt F) → (⟨S4, .i32⟩ : BufTy).Contents (Elt F)),
    StableHlo.binary main_c_14 main_v412 main_v413 (addi : (⟨S4, .i32⟩ : BufTy).Contents (Elt F) → (⟨S4, .i32⟩ : BufTy).Contents (Elt F) → (⟨S4, .i32⟩ : BufTy).Contents (Elt F)),
    StableHlo.ternary main_v411 main_v413 main_c_14 main_v414 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v414 main_v415 (broadcastInDim S4x1 ![0] bcast_S4_S4x1_0 : (⟨S4, .i32⟩ : BufTy).Contents (Elt F) → (⟨S4x1, .i32⟩ : BufTy).Contents (Elt F)),
    StableHlo.binary main_v409 main_v415 main_v416 ((fun x i => Host.gather gather_S16384x64_S4x1_S16384x4_0_1_n_n_1_1_163841 x i) : (⟨S16384x64, .f32⟩ : BufTy).Contents (Elt F) → (⟨S4x1, .i32⟩ : BufTy).Contents (Elt F) → (⟨S16384x4, .f32⟩ : BufTy).Contents (Elt F)),
    StableHlo.nullary main_cst_151 (constant S_ .f32 0xFF800000#32),
    StableHlo.binary main_v416 main_cst_151 main_v417 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v417 main_v418 (broadcastInDim S16384x1 ![0] bcast_S16384_S16384x1_0 : (⟨S16384, .f32⟩ : BufTy).Contents (Elt F) → (⟨S16384x1, .f32⟩ : BufTy).Contents (Elt F)),
    StableHlo.unary main_v418 main_v419 (broadcastInDim S16384x4 ![0, 1] bcast_S16384x1_S16384x4_0_1 : (⟨S16384x1, .f32⟩ : BufTy).Contents (Elt F) → (⟨S16384x4, .f32⟩ : BufTy).Contents (Elt F)),
    StableHlo.binary main_v419 main_v416 main_v420 (subf : (⟨S16384x4, .f32⟩ : BufTy).Contents (Elt F) → (⟨S16384x4, .f32⟩ : BufTy).Contents (Elt F) → (⟨S16384x4, .f32⟩ : BufTy).Contents (Elt F)),
    StableHlo.nullary main_cst_152 (constant S_ .f32 0x3DCCCCCD#32),
    StableHlo.unary main_cst_152 main_v421 (broadcastInDim S16384x4 ![] bcast_S_S16384x4 : (⟨S_, .f32⟩ : BufTy).Contents (Elt F) → (⟨S16384x4, .f32⟩ : BufTy).Contents (Elt F)),
    StableHlo.binary main_v420 main_v421 main_v422 (cmpf .olt : (⟨S16384x4, .f32⟩ : BufTy).Contents (Elt F) → (⟨S16384x4, .f32⟩ : BufTy).Contents (Elt F) → (⟨S16384x4, .i1⟩ : BufTy).Contents (Elt F)),
    StableHlo.nullary main_c_153 (constantI S_ 1 0#1),
    StableHlo.binary main_v422 main_c_153 main_v423 ((fun x v => Host.reduce IntOp.ori x v reducesTo_S16384x4_S16384_d1 h_S_) : (⟨S16384x4, .i1⟩ : BufTy).Contents (Elt F) → (⟨S_, .i1⟩ : BufTy).Contents (Elt F) → (⟨S16384, .i1⟩ : BufTy).Contents (Elt F)),
    StableHlo.unary main_v422 main_v424 ((extui 32 · natLt_1_32) : (⟨S16384x4, .i1⟩ : BufTy).Contents (Elt F) → (⟨S16384x4, .i32⟩ : BufTy).Contents (Elt F)),
    StableHlo.nullary main_c_154 (constantI S_ 32 0#32),
    StableHlo.binary main_v424 main_c_154 main_v425 ((fun x v => Host.reduce IntOp.addi x v reducesTo_S16384x4_S16384_d1 h_S_) : (⟨S16384x4, .i32⟩ : BufTy).Contents (Elt F) → (⟨S_, .i32⟩ : BufTy).Contents (Elt F) → (⟨S16384, .i32⟩ : BufTy).Contents (Elt F)),
    StableHlo.nullary main_c_155 (constantI S_ 32 1#32),
    StableHlo.unary main_c_155 main_v426 (broadcastInDim S16384 ![] bcast_S_S16384 : (⟨S_, .i32⟩ : BufTy).Contents (Elt F) → (⟨S16384, .i32⟩ : BufTy).Contents (Elt F)),
    StableHlo.binary main_v425 main_v426 main_v427 (cmpi .sgt : (⟨S16384, .i32⟩ : BufTy).Contents (Elt F) → (⟨S16384, .i32⟩ : BufTy).Contents (Elt F) → (⟨S16384, .i1⟩ : BufTy).Contents (Elt F)),
    StableHlo.binary main_v423 main_v427 main_v428 (andi : (⟨S16384, .i1⟩ : BufTy).Contents (Elt F) → (⟨S16384, .i1⟩ : BufTy).Contents (Elt F) → (⟨S16384, .i1⟩ : BufTy).Contents (Elt F)),
    StableHlo.reshape main_v418 main_v429 rfl shapeCasts_S16384x1_S16384,
    StableHlo.nullary main_cst_156 (constant S_ .f32 0x38D1B717#32),
    StableHlo.unary main_cst_156 main_v430 (broadcastInDim S16384 ![] bcast_S_S16384 : (⟨S_, .f32⟩ : BufTy).Contents (Elt F) → (⟨S16384, .f32⟩ : BufTy).Contents (Elt F)),
    StableHlo.binary main_v429 main_v430 main_v431 (addf : (⟨S16384, .f32⟩ : BufTy).Contents (Elt F) → (⟨S16384, .f32⟩ : BufTy).Contents (Elt F) → (⟨S16384, .f32⟩ : BufTy).Contents (Elt F)),
    StableHlo.unary main_v409 main_v432 ((extractStridedSlice S16384x1 ![0, 60] · slices_S16384x64_S16384x1_0_60) : (⟨S16384x64, .f32⟩ : BufTy).Contents (Elt F) → (⟨S16384x1, .f32⟩ : BufTy).Contents (Elt F)),
    StableHlo.reshape main_v432 main_v433 rfl shapeCasts_S16384x1_S16384,
    StableHlo.TRef.ternary (.of main_v428) (.of main_v431) (.of main_v433) main_call15.v0 select,
    StableHlo.nullary main_c_157 (constantI S_ 32 60#32),
    StableHlo.unary main_c_157 main_v435 (broadcastInDim S1 ![] bcast_S_S1 : (⟨S_, .i32⟩ : BufTy).Contents (Elt F) → (⟨S1, .i32⟩ : BufTy).Contents (Elt F)),
    StableHlo.ternary main_v409 main_v435 main_v434 main_v436 ((fun x i u => Host.scatter scatter_S16384x64_S1_S16384_0_1_1_0 (fun _ b => b) x i u) : (⟨S16384x64, .f32⟩ : BufTy).Contents (Elt F) → (⟨S1, .i32⟩ : BufTy).Contents (Elt F) → (⟨S16384, .f32⟩ : BufTy).Contents (Elt F) → (⟨S16384x64, .f32⟩ : BufTy).Contents (Elt F)) ]

end Cert.ReferenceIdeal.RefRun

end
-- ==== Proof.RefMain.lean ====
/-
  The reference's @main as one straight line of its 597 host operations, and its run: each of the ten printed
  windows is the line of its own operations (the outlined select unfolded at each call, sequencing reassociated);
  the ten lines concatenated are the list `ops`; every operation touches only TensorCore references and
  allocates nothing, so every weakly fair execution terminates with each buffer at the fold of the operations'
  results over the launch contents.
-/
import proofs.«144457_g41274635714715_cont_8to1_b_145_24_alg».proof.Proof.RefOps
import proofs.«144457_g41274635714715_cont_8to1_b_145_24_alg».proof.Proof.RefParts
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The printed window 0 is the straight line of its operations: the outlined select's body unfolded at its call,
    the sequencing reassociated. -/
theorem part0_eq (c : Dev nD) : main_part0 (F := F) c = seq part0 := by
  simp only [main_part0, fn_where.body, seq, bind_assoc, pure_bind]
  rfl

/-- The printed window 1 is the straight line of its operations: the outlined select's body unfolded at its call,
    the sequencing reassociated. -/
theorem part1_eq (c : Dev nD) : main_part1 (F := F) c = seq part1 := by
  simp only [main_part1, fn_where.body, seq, bind_assoc, pure_bind]
  rfl

/-- The printed window 2 is the straight line of its operations: the outlined select's body unfolded at its call,
    the sequencing reassociated. -/
theorem part2_eq (c : Dev nD) : main_part2 (F := F) c = seq part2 := by
  simp only [main_part2, fn_where.body, seq, bind_assoc, pure_bind]
  rfl

/-- The printed window 3 is the straight line of its operations: the outlined select's body unfolded at its call,
    the sequencing reassociated. -/
theorem part3_eq (c : Dev nD) : main_part3 (F := F) c = seq part3 := by
  simp only [main_part3, fn_where.body, seq, bind_assoc, pure_bind]
  rfl

/-- The printed window 4 is the straight line of its operations: the outlined select's body unfolded at its call,
    the sequencing reassociated. -/
theorem part4_eq (c : Dev nD) : main_part4 (F := F) c = seq part4 := by
  simp only [main_part4, fn_where.body, seq, bind_assoc, pure_bind]
  rfl

/-- The printed window 5 is the straight line of its operations: the outlined select's body unfolded at its call,
    the sequencing reassociated. -/
theorem part5_eq (c : Dev nD) : main_part5 (F := F) c = seq part5 := by
  simp only [main_part5, fn_where.body, seq, bind_assoc, pure_bind]
  rfl

/-- The printed window 6 is the straight line of its operations: the outlined select's body unfolded at its call,
    the sequencing reassociated. -/
theorem part6_eq (c : Dev nD) : main_part6 (F := F) c = seq part6 := by
  simp only [main_part6, fn_where.body, seq, bind_assoc, pure_bind]
  rfl

/-- The printed window 7 is the straight line of its operations: the outlined select's body unfolded at its call,
    the sequencing reassociated. -/
theorem part7_eq (c : Dev nD) : main_part7 (F := F) c = seq part7 := by
  simp only [main_part7, fn_where.body, seq, bind_assoc, pure_bind]
  rfl

/-- The printed window 8 is the straight line of its operations: the outlined select's body unfolded at its call,
    the sequencing reassociated. -/
theorem part8_eq (c : Dev nD) : main_part8 (F := F) c = seq part8 := by
  simp only [main_part8, fn_where.body, seq, bind_assoc, pure_bind]
  rfl

/-- The printed window 9 is the straight line of its operations: the outlined select's body unfolded at its call,
    the sequencing reassociated. -/
theorem part9_eq (c : Dev nD) : main_part9 (F := F) c = seq part9 := by
  simp only [main_part9, fn_where.body, seq, bind_assoc, pure_bind]

/-- The ten windows, concatenated, are the 597 operations cut by class: the same literal list. -/
theorem parts_eq : part0 ++ (part1 ++ (part2 ++ (part3 ++ (part4 ++ (part5 ++ (part6 ++ (part7 ++ (part8 ++ part9)))))))) = (ops : List (HloOp τ sig (Elt F))) := rfl

/-- @main runs its ten windows in order, so it is the line of all the operations. -/
theorem main_eq (c : Dev nD) : main (F := F) c = seq ops := by
  rw [← parts_eq]
  simp only [main, part0_eq, part1_eq, part2_eq, part3_eq, part4_eq, part5_eq, part6_eq, part7_eq, part8_eq, part9_eq,
    seq_append]

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
theorem forall_append' {p : HloOp τ sig (Elt F) → Prop} {l₁ l₂ : List (HloOp τ sig (Elt F))} (h₁ : l₁.Forall p) (h₂ : l₂.Forall p) :
    (l₁ ++ l₂).Forall p :=
  List.forall_append.mpr ⟨h₁, h₂⟩

/-- Likewise for a property stated over membership. -/
theorem mem_append' {p : HloOp τ sig (Elt F) → Prop} {l₁ l₂ : List (HloOp τ sig (Elt F))} (h₁ : ∀ op ∈ l₁, p op) (h₂ : ∀ op ∈ l₂, p op) :
    ∀ op ∈ l₁ ++ l₂, p op :=
  fun op h => (List.mem_append.mp h).elim (h₁ op) (h₂ op)

/-! Every operation touches only TensorCore references: per literal list, the builders' lemmas in order. -/

theorem pre_sub : (pre : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    nullary_bufs_sub .., nullary_bufs_sub .., nullary_bufs_sub .., nullary_bufs_sub .., nullary_bufs_sub .., nullary_bufs_sub ..,
    nullary_bufs_sub .., nullary_bufs_sub .., nullary_bufs_sub .., nullary_bufs_sub .., unary_bufs_sub .., binary_bufs_sub ..,
    unary_bufs_sub .., unary_bufs_sub .., binary_bufs_sub ..⟩

theorem cls0_sub : (cls0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls1_sub : (cls1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls2_sub : (cls2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls3_sub : (cls3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls4_sub : (cls4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls5_sub : (cls5 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls6_sub : (cls6 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls7_sub : (cls7 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls8_sub : (cls8 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls9_sub : (cls9 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls10_sub : (cls10 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls11_sub : (cls11 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls12_sub : (cls12 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls13_sub : (cls13 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls14_sub : (cls14 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem cls15_sub : (cls15 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., binary_bufs_sub .., nullary_bufs_sub .., unary_bufs_sub ..,
    binary_bufs_sub .., binary_bufs_sub .., reshape_bufs_sub .., nullary_bufs_sub .., unary_bufs_sub .., binary_bufs_sub ..,
    unary_bufs_sub .., reshape_bufs_sub .., ternary_bufs_sub .., nullary_bufs_sub .., unary_bufs_sub .., ternary_bufs_sub ..⟩

theorem ops_sub : (ops : List (HloOp τ sig (Elt F))).Forall fun op => op.bufs ⊆ tcRefs τ sig :=
  forall_append' pre_sub (forall_append' cls0_sub (forall_append' cls1_sub (forall_append' cls2_sub (forall_append' cls3_sub (forall_append' cls4_sub (forall_append' cls5_sub (forall_append' cls6_sub (forall_append' cls7_sub (forall_append' cls8_sub (forall_append' cls9_sub (forall_append' cls10_sub (forall_append' cls11_sub (forall_append' cls12_sub (forall_append' cls13_sub (forall_append' cls14_sub (cls15_sub))))))))))))))))

/-! No operation allocates: per literal list, by computation on each operation. -/

theorem pre_fresh : ∀ op ∈ (pre : List (HloOp τ sig (Elt F))), op.fresh = ∅ := by
  intro _ h; (repeat (cases h with | head => rfl | tail _ h => ?_)); exact nomatch h

theorem cls0_fresh : ∀ op ∈ (cls0 : List (HloOp τ sig (Elt F))), op.fresh = ∅ := by
  intro _ h; (repeat (cases h with | head => rfl | tail _ h => ?_)); exact nomatch h

theorem cls1_fresh : ∀ op ∈ (cls1 : List (HloOp τ sig (Elt F))), op.fresh = ∅ := by
  intro _ h; (repeat (cases h with | head => rfl | tail _ h => ?_)); exact nomatch h

theorem cls2_fresh : ∀ op ∈ (cls2 : List (HloOp τ sig (Elt F))), op.fresh = ∅ := by
  intro _ h; (repeat (cases h with | head => rfl | tail _ h => ?_)); exact nomatch h

theorem cls3_fresh : ∀ op ∈ (cls3 : List (HloOp τ sig (Elt F))), op.fresh = ∅ := by
  intro _ h; (repeat (cases h with | head => rfl | tail _ h => ?_)); exact nomatch h

theorem cls4_fresh : ∀ op ∈ (cls4 : List (HloOp τ sig (Elt F))), op.fresh = ∅ := by
  intro _ h; (repeat (cases h with | head => rfl | tail _ h => ?_)); exact nomatch h

theorem cls5_fresh : ∀ op ∈ (cls5 : List (HloOp τ sig (Elt F))), op.fresh = ∅ := by
  intro _ h; (repeat (cases h with | head => rfl | tail _ h => ?_)); exact nomatch h

theorem cls6_fresh : ∀ op ∈ (cls6 : List (HloOp τ sig (Elt F))), op.fresh = ∅ := by
  intro _ h; (repeat (cases h with | head => rfl | tail _ h => ?_)); exact nomatch h

theorem cls7_fresh : ∀ op ∈ (cls7 : List (HloOp τ sig (Elt F))), op.fresh = ∅ := by
  intro _ h; (repeat (cases h with | head => rfl | tail _ h => ?_)); exact nomatch h

theorem cls8_fresh : ∀ op ∈ (cls8 : List (HloOp τ sig (Elt F))), op.fresh = ∅ := by
  intro _ h; (repeat (cases h with | head => rfl | tail _ h => ?_)); exact nomatch h

theorem cls9_fresh : ∀ op ∈ (cls9 : List (HloOp τ sig (Elt F))), op.fresh = ∅ := by
  intro _ h; (repeat (cases h with | head => rfl | tail _ h => ?_)); exact nomatch h

theorem cls10_fresh : ∀ op ∈ (cls10 : List (HloOp τ sig (Elt F))), op.fresh = ∅ := by
  intro _ h; (repeat (cases h with | head => rfl | tail _ h => ?_)); exact nomatch h

theorem cls11_fresh : ∀ op ∈ (cls11 : List (HloOp τ sig (Elt F))), op.fresh = ∅ := by
  intro _ h; (repeat (cases h with | head => rfl | tail _ h => ?_)); exact nomatch h

theorem cls12_fresh : ∀ op ∈ (cls12 : List (HloOp τ sig (Elt F))), op.fresh = ∅ := by
  intro _ h; (repeat (cases h with | head => rfl | tail _ h => ?_)); exact nomatch h

theorem cls13_fresh : ∀ op ∈ (cls13 : List (HloOp τ sig (Elt F))), op.fresh = ∅ := by
  intro _ h; (repeat (cases h with | head => rfl | tail _ h => ?_)); exact nomatch h

theorem cls14_fresh : ∀ op ∈ (cls14 : List (HloOp τ sig (Elt F))), op.fresh = ∅ := by
  intro _ h; (repeat (cases h with | head => rfl | tail _ h => ?_)); exact nomatch h

theorem cls15_fresh : ∀ op ∈ (cls15 : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  mem_append' pre_fresh (mem_append' cls0_fresh (mem_append' cls1_fresh (mem_append' cls2_fresh (mem_append' cls3_fresh (mem_append' cls4_fresh (mem_append' cls5_fresh (mem_append' cls6_fresh (mem_append' cls7_fresh (mem_append' cls8_fresh (mem_append' cls9_fresh (mem_append' cls10_fresh (mem_append' cls11_fresh (mem_append' cls12_fresh (mem_append' cls13_fresh (mem_append' cls14_fresh (cls15_fresh))))))))))))))))

/-- At the compiled mesh, for any float values, from any memory with zero counters: every weakly fair execution of
    @main on the TensorCores terminates, and every final state has each TensorCore buffer at the operations' fold
    over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefReadA.lean ====
/-
  What each stretch of the reference's operations writes, and so what it leaves alone: per literal list the
  references its operations write, in order; a reference outside that list keeps its contents through the stretch.
  Also: the fold over a concatenation is the fold over the second list from the fold over the first.
-/
import proofs.«144457_g41274635714715_cont_8to1_b_145_24_alg».proof.Proof.RefOps
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A listed reference's buffer is among the listed references' buffers. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references `pre`'s operations write, in order. -/
abbrev pre_W : List (Ref sig .tc) :=
  [main_c, main_c_0, main_c_1, main_c_2, main_c_3, main_c_4, main_c_5, main_c_6, main_c_7, main_c_8, main_c_9, main_c_10,
   main_c_11, main_c_12, main_c_13, main_c_14, main_v0, main_v1, main_v2, main_v3, main_v4]
theorem pre_writes : (pre : List (HloOp τ sig (Elt F))).Forall fun op => op.writes ⊆ (pre_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide)⟩
/-- A reference `pre` does not write keeps its contents through it. -/
theorem pre_keep (V : Valuation τ sig (Elt F)) {r : Ref sig .tc} (h : r ∉ pre_W) :
    after pre V (Proc.devRef .tc r) = V (Proc.devRef .tc r) :=
  after_of_writes_sub pre V pre_writes h

/-- The references `cls0`'s operations write, in order. -/
abbrev cls0_W : List (Ref sig .tc) :=
  [main_c_15, main_v5, main_v6, main_c_16, main_v7, main_v8, main_v9, main_v10, main_v11, main_cst, main_v12, main_v13,
   main_v14, main_v15, main_cst_17, main_v16, main_v17, main_c_18, main_v18, main_v19, main_c_19, main_v20, main_c_20, main_v21,
   main_v22, main_v23, main_v24, main_cst_21, main_v25, main_v26, main_v27, main_v28, main_v29, main_c_22, main_v30, main_v31]
theorem cls0_writes : (cls0 : List (HloOp τ sig (Elt F))).Forall fun op => op.writes ⊆ (cls0_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls0` does not write keeps its contents through it. -/
theorem cls0_keep (V : Valuation τ sig (Elt F)) {r : Ref sig .tc} (h : r ∉ cls0_W) :
    after cls0 V (Proc.devRef .tc r) = V (Proc.devRef .tc r) :=
  after_of_writes_sub cls0 V cls0_writes h

/-- The references `cls1`'s operations write, in order. -/
abbrev cls1_W : List (Ref sig .tc) :=
  [main_c_23, main_v32, main_v33, main_c_24, main_v34, main_v35, main_v36, main_v37, main_v38, main_cst_25, main_v39, main_v40,
   main_v41, main_v42, main_cst_26, main_v43, main_v44, main_c_27, main_v45, main_v46, main_c_28, main_v47, main_c_29, main_v48,
   main_v49, main_v50, main_v51, main_cst_30, main_v52, main_v53, main_v54, main_v55, main_v56, main_c_31, main_v57, main_v58]
theorem cls1_writes : (cls1 : List (HloOp τ sig (Elt F))).Forall fun op => op.writes ⊆ (cls1_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls1` does not write keeps its contents through it. -/
theorem cls1_keep (V : Valuation τ sig (Elt F)) {r : Ref sig .tc} (h : r ∉ cls1_W) :
    after cls1 V (Proc.devRef .tc r) = V (Proc.devRef .tc r) :=
  after_of_writes_sub cls1 V cls1_writes h

/-- The references `cls2`'s operations write, in order. -/
abbrev cls2_W : List (Ref sig .tc) :=
  [main_c_32, main_v59, main_v60, main_c_33, main_v61, main_v62, main_v63, main_v64, main_v65, main_cst_34, main_v66, main_v67,
   main_v68, main_v69, main_cst_35, main_v70, main_v71, main_c_36, main_v72, main_v73, main_c_37, main_v74, main_c_38, main_v75,
   main_v76, main_v77, main_v78, main_cst_39, main_v79, main_v80, main_v81, main_v82, main_v83, main_c_40, main_v84, main_v85]
theorem cls2_writes : (cls2 : List (HloOp τ sig (Elt F))).Forall fun op => op.writes ⊆ (cls2_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls2` does not write keeps its contents through it. -/
theorem cls2_keep (V : Valuation τ sig (Elt F)) {r : Ref sig .tc} (h : r ∉ cls2_W) :
    after cls2 V (Proc.devRef .tc r) = V (Proc.devRef .tc r) :=
  after_of_writes_sub cls2 V cls2_writes h

/-- The references `cls3`'s operations write, in order. -/
abbrev cls3_W : List (Ref sig .tc) :=
  [main_c_41, main_v86, main_v87, main_c_42, main_v88, main_v89, main_v90, main_v91, main_v92, main_cst_43, main_v93, main_v94,
   main_v95, main_v96, main_cst_44, main_v97, main_v98, main_c_45, main_v99, main_v100, main_c_46, main_v101, main_c_47, main_v102,
   main_v103, main_v104, main_v105, main_cst_48, main_v106, main_v107, main_v108, main_v109, main_v110, main_c_49, main_v111, main_v112]
theorem cls3_writes : (cls3 : List (HloOp τ sig (Elt F))).Forall fun op => op.writes ⊆ (cls3_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls3` does not write keeps its contents through it. -/
theorem cls3_keep (V : Valuation τ sig (Elt F)) {r : Ref sig .tc} (h : r ∉ cls3_W) :
    after cls3 V (Proc.devRef .tc r) = V (Proc.devRef .tc r) :=
  after_of_writes_sub cls3 V cls3_writes h

/-- The references `cls4`'s operations write, in order. -/
abbrev cls4_W : List (Ref sig .tc) :=
  [main_c_50, main_v113, main_v114, main_c_51, main_v115, main_v116, main_v117, main_v118, main_v119, main_cst_52, main_v120, main_v121,
   main_v122, main_v123, main_cst_53, main_v124, main_v125, main_c_54, main_v126, main_v127, main_c_55, main_v128, main_c_56, main_v129,
   main_v130, main_v131, main_v132, main_cst_57, main_v133, main_v134, main_v135, main_v136, main_v137, main_c_58, main_v138, main_v139]
theorem cls4_writes : (cls4 : List (HloOp τ sig (Elt F))).Forall fun op => op.writes ⊆ (cls4_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls4` does not write keeps its contents through it. -/
theorem cls4_keep (V : Valuation τ sig (Elt F)) {r : Ref sig .tc} (h : r ∉ cls4_W) :
    after cls4 V (Proc.devRef .tc r) = V (Proc.devRef .tc r) :=
  after_of_writes_sub cls4 V cls4_writes h

/-- The references `cls5`'s operations write, in order. -/
abbrev cls5_W : List (Ref sig .tc) :=
  [main_c_59, main_v140, main_v141, main_c_60, main_v142, main_v143, main_v144, main_v145, main_v146, main_cst_61, main_v147, main_v148,
   main_v149, main_v150, main_cst_62, main_v151, main_v152, main_c_63, main_v153, main_v154, main_c_64, main_v155, main_c_65, main_v156,
   main_v157, main_v158, main_v159, main_cst_66, main_v160, main_v161, main_v162, main_v163, main_v164, main_c_67, main_v165, main_v166]
theorem cls5_writes : (cls5 : List (HloOp τ sig (Elt F))).Forall fun op => op.writes ⊆ (cls5_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls5` does not write keeps its contents through it. -/
theorem cls5_keep (V : Valuation τ sig (Elt F)) {r : Ref sig .tc} (h : r ∉ cls5_W) :
    after cls5 V (Proc.devRef .tc r) = V (Proc.devRef .tc r) :=
  after_of_writes_sub cls5 V cls5_writes h

/-- The references `cls6`'s operations write, in order. -/
abbrev cls6_W : List (Ref sig .tc) :=
  [main_c_68, main_v167, main_v168, main_c_69, main_v169, main_v170, main_v171, main_v172, main_v173, main_cst_70, main_v174, main_v175,
   main_v176, main_v177, main_cst_71, main_v178, main_v179, main_c_72, main_v180, main_v181, main_c_73, main_v182, main_c_74, main_v183,
   main_v184, main_v185, main_v186, main_cst_75, main_v187, main_v188, main_v189, main_v190, main_v191, main_c_76, main_v192, main_v193]
theorem cls6_writes : (cls6 : List (HloOp τ sig (Elt F))).Forall fun op => op.writes ⊆ (cls6_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls6` does not write keeps its contents through it. -/
theorem cls6_keep (V : Valuation τ sig (Elt F)) {r : Ref sig .tc} (h : r ∉ cls6_W) :
    after cls6 V (Proc.devRef .tc r) = V (Proc.devRef .tc r) :=
  after_of_writes_sub cls6 V cls6_writes h

/-- The references `cls7`'s operations write, in order. -/
abbrev cls7_W : List (Ref sig .tc) :=
  [main_c_77, main_v194, main_v195, main_c_78, main_v196, main_v197, main_v198, main_v199, main_v200, main_cst_79, main_v201, main_v202,
   main_v203, main_v204, main_cst_80, main_v205, main_v206, main_c_81, main_v207, main_v208, main_c_82, main_v209, main_c_83, main_v210,
   main_v211, main_v212, main_v213, main_cst_84, main_v214, main_v215, main_v216, main_v217, main_v218, main_c_85, main_v219, main_v220]
theorem cls7_writes : (cls7 : List (HloOp τ sig (Elt F))).Forall fun op => op.writes ⊆ (cls7_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls7` does not write keeps its contents through it. -/
theorem cls7_keep (V : Valuation τ sig (Elt F)) {r : Ref sig .tc} (h : r ∉ cls7_W) :
    after cls7 V (Proc.devRef .tc r) = V (Proc.devRef .tc r) :=
  after_of_writes_sub cls7 V cls7_writes h

/-- The references `cls8`'s operations write, in order. -/
abbrev cls8_W : List (Ref sig .tc) :=
  [main_c_86, main_v221, main_v222, main_c_87, main_v223, main_v224, main_v225, main_v226, main_v227, main_cst_88, main_v228, main_v229,
   main_v230, main_v231, main_cst_89, main_v232, main_v233, main_c_90, main_v234, main_v235, main_c_91, main_v236, main_c_92, main_v237,
   main_v238, main_v239, main_v240, main_cst_93, main_v241, main_v242, main_v243, main_v244, main_v245, main_c_94, main_v246, main_v247]
theorem cls8_writes : (cls8 : List (HloOp τ sig (Elt F))).Forall fun op => op.writes ⊆ (cls8_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls8` does not write keeps its contents through it. -/
theorem cls8_keep (V : Valuation τ sig (Elt F)) {r : Ref sig .tc} (h : r ∉ cls8_W) :
    after cls8 V (Proc.devRef .tc r) = V (Proc.devRef .tc r) :=
  after_of_writes_sub cls8 V cls8_writes h

/-- The references `cls9`'s operations write, in order. -/
abbrev cls9_W : List (Ref sig .tc) :=
  [main_c_95, main_v248, main_v249, main_c_96, main_v250, main_v251, main_v252, main_v253, main_v254, main_cst_97, main_v255, main_v256,
   main_v257, main_v258, main_cst_98, main_v259, main_v260, main_c_99, main_v261, main_v262, main_c_100, main_v263, main_c_101, main_v264,
   main_v265, main_v266, main_v267, main_cst_102, main_v268, main_v269, main_v270, main_v271, main_v272, main_c_103, main_v273, main_v274]
theorem cls9_writes : (cls9 : List (HloOp τ sig (Elt F))).Forall fun op => op.writes ⊆ (cls9_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls9` does not write keeps its contents through it. -/
theorem cls9_keep (V : Valuation τ sig (Elt F)) {r : Ref sig .tc} (h : r ∉ cls9_W) :
    after cls9 V (Proc.devRef .tc r) = V (Proc.devRef .tc r) :=
  after_of_writes_sub cls9 V cls9_writes h

/-- The references `cls10`'s operations write, in order. -/
abbrev cls10_W : List (Ref sig .tc) :=
  [main_c_104, main_v275, main_v276, main_c_105, main_v277, main_v278, main_v279, main_v280, main_v281, main_cst_106, main_v282, main_v283,
   main_v284, main_v285, main_cst_107, main_v286, main_v287, main_c_108, main_v288, main_v289, main_c_109, main_v290, main_c_110, main_v291,
   main_v292, main_v293, main_v294, main_cst_111, main_v295, main_v296, main_v297, main_v298, main_v299, main_c_112, main_v300, main_v301]
theorem cls10_writes : (cls10 : List (HloOp τ sig (Elt F))).Forall fun op => op.writes ⊆ (cls10_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls10` does not write keeps its contents through it. -/
theorem cls10_keep (V : Valuation τ sig (Elt F)) {r : Ref sig .tc} (h : r ∉ cls10_W) :
    after cls10 V (Proc.devRef .tc r) = V (Proc.devRef .tc r) :=
  after_of_writes_sub cls10 V cls10_writes h

/-- The references `cls11`'s operations write, in order. -/
abbrev cls11_W : List (Ref sig .tc) :=
  [main_c_113, main_v302, main_v303, main_c_114, main_v304, main_v305, main_v306, main_v307, main_v308, main_cst_115, main_v309, main_v310,
   main_v311, main_v312, main_cst_116, main_v313, main_v314, main_c_117, main_v315, main_v316, main_c_118, main_v317, main_c_119, main_v318,
   main_v319, main_v320, main_v321, main_cst_120, main_v322, main_v323, main_v324, main_v325, main_v326, main_c_121, main_v327, main_v328]
theorem cls11_writes : (cls11 : List (HloOp τ sig (Elt F))).Forall fun op => op.writes ⊆ (cls11_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls11` does not write keeps its contents through it. -/
theorem cls11_keep (V : Valuation τ sig (Elt F)) {r : Ref sig .tc} (h : r ∉ cls11_W) :
    after cls11 V (Proc.devRef .tc r) = V (Proc.devRef .tc r) :=
  after_of_writes_sub cls11 V cls11_writes h

/-- The references `cls12`'s operations write, in order. -/
abbrev cls12_W : List (Ref sig .tc) :=
  [main_c_122, main_v329, main_v330, main_c_123, main_v331, main_v332, main_v333, main_v334, main_v335, main_cst_124, main_v336, main_v337,
   main_v338, main_v339, main_cst_125, main_v340, main_v341, main_c_126, main_v342, main_v343, main_c_127, main_v344, main_c_128, main_v345,
   main_v346, main_v347, main_v348, main_cst_129, main_v349, main_v350, main_v351, main_v352, main_v353, main_c_130, main_v354, main_v355]
theorem cls12_writes : (cls12 : List (HloOp τ sig (Elt F))).Forall fun op => op.writes ⊆ (cls12_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls12` does not write keeps its contents through it. -/
theorem cls12_keep (V : Valuation τ sig (Elt F)) {r : Ref sig .tc} (h : r ∉ cls12_W) :
    after cls12 V (Proc.devRef .tc r) = V (Proc.devRef .tc r) :=
  after_of_writes_sub cls12 V cls12_writes h

/-- The references `cls13`'s operations write, in order. -/
abbrev cls13_W : List (Ref sig .tc) :=
  [main_c_131, main_v356, main_v357, main_c_132, main_v358, main_v359, main_v360, main_v361, main_v362, main_cst_133, main_v363, main_v364,
   main_v365, main_v366, main_cst_134, main_v367, main_v368, main_c_135, main_v369, main_v370, main_c_136, main_v371, main_c_137, main_v372,
   main_v373, main_v374, main_v375, main_cst_138, main_v376, main_v377, main_v378, main_v379, main_v380, main_c_139, main_v381, main_v382]
theorem cls13_writes : (cls13 : List (HloOp τ sig (Elt F))).Forall fun op => op.writes ⊆ (cls13_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls13` does not write keeps its contents through it. -/
theorem cls13_keep (V : Valuation τ sig (Elt F)) {r : Ref sig .tc} (h : r ∉ cls13_W) :
    after cls13 V (Proc.devRef .tc r) = V (Proc.devRef .tc r) :=
  after_of_writes_sub cls13 V cls13_writes h

/-- The references `cls14`'s operations write, in order. -/
abbrev cls14_W : List (Ref sig .tc) :=
  [main_c_140, main_v383, main_v384, main_c_141, main_v385, main_v386, main_v387, main_v388, main_v389, main_cst_142, main_v390, main_v391,
   main_v392, main_v393, main_cst_143, main_v394, main_v395, main_c_144, main_v396, main_v397, main_c_145, main_v398, main_c_146, main_v399,
   main_v400, main_v401, main_v402, main_cst_147, main_v403, main_v404, main_v405, main_v406, main_v407, main_c_148, main_v408, main_v409]
theorem cls14_writes : (cls14 : List (HloOp τ sig (Elt F))).Forall fun op => op.writes ⊆ (cls14_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls14` does not write keeps its contents through it. -/
theorem cls14_keep (V : Valuation τ sig (Elt F)) {r : Ref sig .tc} (h : r ∉ cls14_W) :
    after cls14 V (Proc.devRef .tc r) = V (Proc.devRef .tc r) :=
  after_of_writes_sub cls14 V cls14_writes h

/-- The references `cls15`'s operations write, in order. -/
abbrev cls15_W : List (Ref sig .tc) :=
  [main_c_149, main_v410, main_v411, main_c_150, main_v412, main_v413, main_v414, main_v415, main_v416, main_cst_151, main_v417, main_v418,
   main_v419, main_v420, main_cst_152, main_v421, main_v422, main_c_153, main_v423, main_v424, main_c_154, main_v425, main_c_155, main_v426,
   main_v427, main_v428, main_v429, main_cst_156, main_v430, main_v431, main_v432, main_v433, main_v434, main_c_157, main_v435, main_v436]
theorem cls15_writes : (cls15 : List (HloOp τ sig (Elt F))).Forall fun op => op.writes ⊆ (cls15_W.map (Proc.devRef (τ := τ) .tc)).toFinset := by
  simp only [List.Forall, nullary_writes, unary_writes, binary_writes, ternary_writes, reshape_writes]
  exact ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A reference `cls15` does not write keeps its contents through it. -/
theorem cls15_keep (V : Valuation τ sig (Elt F)) {r : Ref sig .tc} (h : r ∉ cls15_W) :
    after cls15 V (Proc.devRef .tc r) = V (Proc.devRef .tc r) :=
  after_of_writes_sub cls15 V cls15_writes h

end Cert.ReferenceIdeal.RefRun

end
-- ==== Proof.RefStep.lean ====
/-
  The reference program's host operations, composed as pure terms: the logits `x · Wᵀ + b` (a transpose, a
  dot_general, the bias broadcast along the rows, a sum), and ONE class's thirty-six operations as one function
  `step` of the class's table of four column numbers, the offset of its first column, that offset as the
  scatter's index constant, and the current array: gather the four columns, take each row's maximum over them,
  compare the maximum minus each member with the margin, reduce the comparisons by `or` and (as integers) by
  `+`, and where some member passes and more than one does, write the maximum plus the boost into the class's
  first column by a scatter. The reference runs the sixteen classes one after the other: `refOut`.
-/
import proofs.«144457_g41274635714715_cont_8to1_b_145_24_alg».proof.ReferenceIdeal
import Idealize.ShloMosaic.PureOps.Ideal

noncomputable section

namespace Cert.ReferenceIdeal.RefStep

open Cert.ReferenceIdeal Idealize.ShloMosaic Idealize.SL.Sem

variable {F : FTy → Type} [FloatOps F] [Facts]
open Facts₀ Facts

/-- The logits: `x` against the transposed `W`, plus the bias broadcast along the rows. -/
def logits (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  addf (Host.dotGeneral dot_S16384x4096_S4096x64_S16384x64_1_0_0_1_n_n none A
      (transpose S4096x64 [1, 0] B transposes_S64x4096_S4096x64_1_0))
    (broadcastInDim S16384x64 ![0, 1] bcast_S1x64_S16384x64_0_1 (broadcastInDim S1x64 ![1] bcast_S64_S1x64_1 C))

/-- The four gathered columns of a class: the table of column numbers, a negative one wrapped by 64, as a column of
    start indices; the gather. -/
def members (T : (⟨S4, .i32⟩ : BufTy).Contents (Elt F)) (X : (⟨S16384x64, .f32⟩ : BufTy).Contents (Elt F)) :
    (⟨S16384x4, .f32⟩ : BufTy).Contents (Elt F) :=
  Host.gather gather_S16384x64_S4x1_S16384x4_0_1_n_n_1_1_163841 X
    (broadcastInDim S4x1 ![0] bcast_S4_S4x1_0
      (select (cmpi .slt T (broadcastInDim S4 ![] bcast_S_S4 (constantI S_ 32 0#32)))
        (addi T (broadcastInDim S4 ![] bcast_S_S4 (constantI S_ 32 64#32))) T))

/-- Each row's maximum over the gathered members, kept as a column. -/
def rowMax (g : (⟨S16384x4, .f32⟩ : BufTy).Contents (Elt F)) : (⟨S16384x1, .f32⟩ : BufTy).Contents (Elt F) :=
  broadcastInDim S16384x1 ![0] bcast_S16384_S16384x1_0
    (Host.reduce FloatOps.maximumf g (constant S_ .f32 0xFF800000#32) reducesTo_S16384x4_S16384_d1 h_S_)

/-- Which members are within the margin of their row's maximum. -/
def close (g : (⟨S16384x4, .f32⟩ : BufTy).Contents (Elt F)) : (⟨S16384x4, .i1⟩ : BufTy).Contents (Elt F) :=
  cmpf .olt (subf (broadcastInDim S16384x4 ![0, 1] bcast_S16384x1_S16384x4_0_1 (rowMax g)) g)
    (broadcastInDim S16384x4 ![] bcast_S_S16384x4 (constant S_ .f32 0x3DCCCCCD#32))

/-- Per row: some member is within the margin, and more than one is. -/
def should (w : (⟨S16384x4, .i1⟩ : BufTy).Contents (Elt F)) : (⟨S16384, .i1⟩ : BufTy).Contents (Elt F) :=
  andi (Host.reduce IntOp.ori w (constantI S_ 1 0#1) reducesTo_S16384x4_S16384_d1 h_S_)
    (cmpi .sgt (Host.reduce IntOp.addi (extui 32 w natLt_1_32) (constantI S_ 32 0#32) reducesTo_S16384x4_S16384_d1 h_S_)
      (broadcastInDim S16384 ![] bcast_S_S16384 (constantI S_ 32 1#32)))

/-- One class: its first column becomes, row by row, the maximum plus the boost where `should` holds and stays
    otherwise; the scatter writes that column back at the class's offset. -/
def step (T : (⟨S4, .i32⟩ : BufTy).Contents (Elt F)) (off : Nat) (hs : S16384x64.Slices ![0, off] S16384x1) (c : BitVec 32)
    (X : (⟨S16384x64, .f32⟩ : BufTy).Contents (Elt F)) : (⟨S16384x64, .f32⟩ : BufTy).Contents (Elt F) :=
  Host.scatter scatter_S16384x64_S1_S16384_0_1_1_0 (fun _ b => b) X
    (broadcastInDim S1 ![] bcast_S_S1 (constantI S_ 32 c))
    (select (should (close (members T X)))
      (addf (shapeCast S16384 (rowMax (members T X)) shapeCasts_S16384x1_S16384)
        (broadcastInDim S16384 ![] bcast_S_S16384 (constant S_ .f32 0x38D1B717#32)))
      (shapeCast S16384 (extractStridedSlice S16384x1 ![0, off] X hs) shapeCasts_S16384x1_S16384))

/-- The reference's result: the sixteen classes applied in order to the logits. -/
def refOut (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  step (fun i => lit15 (S4.rowMajor i)) 60 slices_S16384x64_S16384x1_0_60 60#32
    (step (fun i => lit14 (S4.rowMajor i)) 56 slices_S16384x64_S16384x1_0_56 56#32
    (step (fun i => lit13 (S4.rowMajor i)) 52 slices_S16384x64_S16384x1_0_52 52#32
    (step (fun i => lit12 (S4.rowMajor i)) 48 slices_S16384x64_S16384x1_0_48 48#32
    (step (fun i => lit11 (S4.rowMajor i)) 44 slices_S16384x64_S16384x1_0_44 44#32
    (step (fun i => lit10 (S4.rowMajor i)) 40 slices_S16384x64_S16384x1_0_40 40#32
    (step (fun i => lit9 (S4.rowMajor i)) 36 slices_S16384x64_S16384x1_0_36 36#32
    (step (fun i => lit8 (S4.rowMajor i)) 32 slices_S16384x64_S16384x1_0_32 32#32
    (step (fun i => lit7 (S4.rowMajor i)) 28 slices_S16384x64_S16384x1_0_28 28#32
    (step (fun i => lit6 (S4.rowMajor i)) 24 slices_S16384x64_S16384x1_0_24 24#32
    (step (fun i => lit5 (S4.rowMajor i)) 20 slices_S16384x64_S16384x1_0_20 20#32
    (step (fun i => lit4 (S4.rowMajor i)) 16 slices_S16384x64_S16384x1_0_16 16#32
    (step (fun i => lit3 (S4.rowMajor i)) 12 slices_S16384x64_S16384x1_0_12 12#32
    (step (fun i => lit2 (S4.rowMajor i)) 8 slices_S16384x64_S16384x1_0_8 8#32
    (step (fun i => lit1 (S4.rowMajor i)) 4 slices_S16384x64_S16384x1_0_4 4#32
    (step (fun i => lit0 (S4.rowMajor i)) 0 slices_S16384x64_S16384x1_0_0 0#32
    (logits A B C))))))))))))))))

end Cert.ReferenceIdeal.RefStep

end
-- ==== Proof.RefReadB.lean ====
/-
  What each stretch of the reference's operations computes, as a pure term of the contents it starts from: the
  first twenty-one operations leave the logits in `main_v4` and each table of column numbers in its buffer; class k's
  thirty-six operations leave `RefStep.step` of its table and the array before it in its result buffer. Each is read off
  the fold one operation at a time (an operation's result at its own buffer is its function of its operands'
  contents; at any other buffer, what was there); the gather, the reductions and the scatter stay folded.
-/
import proofs.«144457_g41274635714715_cont_8to1_b_145_24_alg».proof.Proof.RefOps
import proofs.«144457_g41274635714715_cont_8to1_b_145_24_alg».proof.Proof.RefStep
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

attribute [local irreducible] Host.reduce Host.gather Host.scatter in
/-- The logits. -/
theorem pre_out (V : Valuation τ sig (Elt F)) :
    after pre V (main_v4 : DevRef τ sig) = RefStep.logits (V (main_arg0 : DevRef τ sig)) (V (main_arg1 : DevRef τ sig)) (V (main_arg2 : DevRef τ sig)) := by
  after_results_simp
  rfl

theorem pre_tbl0 (V : Valuation τ sig (Elt F)) :
    after pre V (main_c : DevRef τ sig) = fun i => lit0 (S4.rowMajor i) := by
  after_results_simp
  rfl

theorem pre_tbl1 (V : Valuation τ sig (Elt F)) :
    after pre V (main_c_0 : DevRef τ sig) = fun i => lit1 (S4.rowMajor i) := by
  after_results_simp
  rfl

theorem pre_tbl2 (V : Valuation τ sig (Elt F)) :
    after pre V (main_c_1 : DevRef τ sig) = fun i => lit2 (S4.rowMajor i) := by
  after_results_simp
  rfl

theorem pre_tbl3 (V : Valuation τ sig (Elt F)) :
    after pre V (main_c_2 : DevRef τ sig) = fun i => lit3 (S4.rowMajor i) := by
  after_results_simp
  rfl

theorem pre_tbl4 (V : Valuation τ sig (Elt F)) :
    after pre V (main_c_3 : DevRef τ sig) = fun i => lit4 (S4.rowMajor i) := by
  after_results_simp
  rfl

theorem pre_tbl5 (V : Valuation τ sig (Elt F)) :
    after pre V (main_c_4 : DevRef τ sig) = fun i => lit5 (S4.rowMajor i) := by
  after_results_simp
  rfl

theorem pre_tbl6 (V : Valuation τ sig (Elt F)) :
    after pre V (main_c_5 : DevRef τ sig) = fun i => lit6 (S4.rowMajor i) := by
  after_results_simp
  rfl

theorem pre_tbl7 (V : Valuation τ sig (Elt F)) :
    after pre V (main_c_6 : DevRef τ sig) = fun i => lit7 (S4.rowMajor i) := by
  after_results_simp
  rfl

theorem pre_tbl8 (V : Valuation τ sig (Elt F)) :
    after pre V (main_c_7 : DevRef τ sig) = fun i => lit8 (S4.rowMajor i) := by
  after_results_simp
  rfl

theorem pre_tbl9 (V : Valuation τ sig (Elt F)) :
    after pre V (main_c_8 : DevRef τ sig) = fun i => lit9 (S4.rowMajor i) := by
  after_results_simp
  rfl

theorem pre_tbl10 (V : Valuation τ sig (Elt F)) :
    after pre V (main_c_9 : DevRef τ sig) = fun i => lit10 (S4.rowMajor i) := by
  after_results_simp
  rfl

theorem pre_tbl11 (V : Valuation τ sig (Elt F)) :
    after pre V (main_c_10 : DevRef τ sig) = fun i => lit11 (S4.rowMajor i) := by
  after_results_simp
  rfl

theorem pre_tbl12 (V : Valuation τ sig (Elt F)) :
    after pre V (main_c_11 : DevRef τ sig) = fun i => lit12 (S4.rowMajor i) := by
  after_results_simp
  rfl

theorem pre_tbl13 (V : Valuation τ sig (Elt F)) :
    after pre V (main_c_12 : DevRef τ sig) = fun i => lit13 (S4.rowMajor i) := by
  after_results_simp
  rfl

theorem pre_tbl14 (V : Valuation τ sig (Elt F)) :
    after pre V (main_c_13 : DevRef τ sig) = fun i => lit14 (S4.rowMajor i) := by
  after_results_simp
  rfl

theorem pre_tbl15 (V : Valuation τ sig (Elt F)) :
    after pre V (main_c_14 : DevRef τ sig) = fun i => lit15 (S4.rowMajor i) := by
  after_results_simp
  rfl

attribute [local irreducible] Host.reduce Host.gather Host.scatter in
/-- Class 0 (columns 0 to 3). -/
theorem cls0_out (W : Valuation τ sig (Elt F)) :
    after cls0 W (main_v31 : DevRef τ sig)
      = RefStep.step (W (main_c : DevRef τ sig)) 0 slices_S16384x64_S16384x1_0_0 0#32 (W (main_v4 : DevRef τ sig)) := by
  after_results_simp
  rfl

attribute [local irreducible] Host.reduce Host.gather Host.scatter in
/-- Class 1 (columns 4 to 7). -/
theorem cls1_out (W : Valuation τ sig (Elt F)) :
    after cls1 W (main_v58 : DevRef τ sig)
      = RefStep.step (W (main_c_0 : DevRef τ sig)) 4 slices_S16384x64_S16384x1_0_4 4#32 (W (main_v31 : DevRef τ sig)) := by
  after_results_simp
  rfl

attribute [local irreducible] Host.reduce Host.gather Host.scatter in
/-- Class 2 (columns 8 to 11). -/
theorem cls2_out (W : Valuation τ sig (Elt F)) :
    after cls2 W (main_v85 : DevRef τ sig)
      = RefStep.step (W (main_c_1 : DevRef τ sig)) 8 slices_S16384x64_S16384x1_0_8 8#32 (W (main_v58 : DevRef τ sig)) := by
  after_results_simp
  rfl

attribute [local irreducible] Host.reduce Host.gather Host.scatter in
/-- Class 3 (columns 12 to 15). -/
theorem cls3_out (W : Valuation τ sig (Elt F)) :
    after cls3 W (main_v112 : DevRef τ sig)
      = RefStep.step (W (main_c_2 : DevRef τ sig)) 12 slices_S16384x64_S16384x1_0_12 12#32 (W (main_v85 : DevRef τ sig)) := by
  after_results_simp
  rfl

attribute [local irreducible] Host.reduce Host.gather Host.scatter in
/-- Class 4 (columns 16 to 19). -/
theorem cls4_out (W : Valuation τ sig (Elt F)) :
    after cls4 W (main_v139 : DevRef τ sig)
      = RefStep.step (W (main_c_3 : DevRef τ sig)) 16 slices_S16384x64_S16384x1_0_16 16#32 (W (main_v112 : DevRef τ sig)) := by
  after_results_simp
  rfl

attribute [local irreducible] Host.reduce Host.gather Host.scatter in
/-- Class 5 (columns 20 to 23). -/
theorem cls5_out (W : Valuation τ sig (Elt F)) :
    after cls5 W (main_v166 : DevRef τ sig)
      = RefStep.step (W (main_c_4 : DevRef τ sig)) 20 slices_S16384x64_S16384x1_0_20 20#32 (W (main_v139 : DevRef τ sig)) := by
  after_results_simp
  rfl

attribute [local irreducible] Host.reduce Host.gather Host.scatter in
/-- Class 6 (columns 24 to 27). -/
theorem cls6_out (W : Valuation τ sig (Elt F)) :
    after cls6 W (main_v193 : DevRef τ sig)
      = RefStep.step (W (main_c_5 : DevRef τ sig)) 24 slices_S16384x64_S16384x1_0_24 24#32 (W (main_v166 : DevRef τ sig)) := by
  after_results_simp
  rfl

attribute [local irreducible] Host.reduce Host.gather Host.scatter in
/-- Class 7 (columns 28 to 31). -/
theorem cls7_out (W : Valuation τ sig (Elt F)) :
    after cls7 W (main_v220 : DevRef τ sig)
      = RefStep.step (W (main_c_6 : DevRef τ sig)) 28 slices_S16384x64_S16384x1_0_28 28#32 (W (main_v193 : DevRef τ sig)) := by
  after_results_simp
  rfl

attribute [local irreducible] Host.reduce Host.gather Host.scatter in
/-- Class 8 (columns 32 to 35). -/
theorem cls8_out (W : Valuation τ sig (Elt F)) :
    after cls8 W (main_v247 : DevRef τ sig)
      = RefStep.step (W (main_c_7 : DevRef τ sig)) 32 slices_S16384x64_S16384x1_0_32 32#32 (W (main_v220 : DevRef τ sig)) := by
  after_results_simp
  rfl

attribute [local irreducible] Host.reduce Host.gather Host.scatter in
/-- Class 9 (columns 36 to 39). -/
theorem cls9_out (W : Valuation τ sig (Elt F)) :
    after cls9 W (main_v274 : DevRef τ sig)
      = RefStep.step (W (main_c_8 : DevRef τ sig)) 36 slices_S16384x64_S16384x1_0_36 36#32 (W (main_v247 : DevRef τ sig)) := by
  after_results_simp
  rfl

attribute [local irreducible] Host.reduce Host.gather Host.scatter in
/-- Class 10 (columns 40 to 43). -/
theorem cls10_out (W : Valuation τ sig (Elt F)) :
    after cls10 W (main_v301 : DevRef τ sig)
      = RefStep.step (W (main_c_9 : DevRef τ sig)) 40 slices_S16384x64_S16384x1_0_40 40#32 (W (main_v274 : DevRef τ sig)) := by
  after_results_simp
  rfl

attribute [local irreducible] Host.reduce Host.gather Host.scatter in
/-- Class 11 (columns 44 to 47). -/
theorem cls11_out (W : Valuation τ sig (Elt F)) :
    after cls11 W (main_v328 : DevRef τ sig)
      = RefStep.step (W (main_c_10 : DevRef τ sig)) 44 slices_S16384x64_S16384x1_0_44 44#32 (W (main_v301 : DevRef τ sig)) := by
  after_results_simp
  rfl

attribute [local irreducible] Host.reduce Host.gather Host.scatter in
/-- Class 12 (columns 48 to 51). -/
theorem cls12_out (W : Valuation τ sig (Elt F)) :
    after cls12 W (main_v355 : DevRef τ sig)
      = RefStep.step (W (main_c_11 : DevRef τ sig)) 48 slices_S16384x64_S16384x1_0_48 48#32 (W (main_v328 : DevRef τ sig)) := by
  after_results_simp
  rfl

attribute [local irreducible] Host.reduce Host.gather Host.scatter in
/-- Class 13 (columns 52 to 55). -/
theorem cls13_out (W : Valuation τ sig (Elt F)) :
    after cls13 W (main_v382 : DevRef τ sig)
      = RefStep.step (W (main_c_12 : DevRef τ sig)) 52 slices_S16384x64_S16384x1_0_52 52#32 (W (main_v355 : DevRef τ sig)) := by
  after_results_simp
  rfl

attribute [local irreducible] Host.reduce Host.gather Host.scatter in
/-- Class 14 (columns 56 to 59). -/
theorem cls14_out (W : Valuation τ sig (Elt F)) :
    after cls14 W (main_v409 : DevRef τ sig)
      = RefStep.step (W (main_c_13 : DevRef τ sig)) 56 slices_S16384x64_S16384x1_0_56 56#32 (W (main_v382 : DevRef τ sig)) := by
  after_results_simp
  rfl

attribute [local irreducible] Host.reduce Host.gather Host.scatter in
/-- Class 15 (columns 60 to 63). -/
theorem cls15_out (W : Valuation τ sig (Elt F)) :
    after cls15 W (main_v436 : DevRef τ sig)
      = RefStep.step (W (main_c_14 : DevRef τ sig)) 60 slices_S16384x64_S16384x1_0_60 60#32 (W (main_v409 : DevRef τ sig)) := by
  after_results_simp
  rfl

end Cert.ReferenceIdeal.RefRun

end
-- ==== Proof.RefRead.lean ====
/-
  The reference's result buffer after its 597 operations is `RefStep.refOut` of the three arguments' contents, and
  the arguments keep theirs. The contents are followed stretch by stretch: `val0` after the logits and the tables,
  `val(k+1)` after class k. A table is written once, before the classes, and no class writes it or an argument,
  so class k finds its table as written; it finds the array of the class before it in that class's result buffer.
-/
import proofs.«144457_g41274635714715_cont_8to1_b_145_24_alg».proof.Proof.RefReadA
import proofs.«144457_g41274635714715_cont_8to1_b_145_24_alg».proof.Proof.RefReadB
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The contents after the logits and the tables. -/
def val0 (V : Valuation τ sig (Elt F)) : Valuation τ sig (Elt F) := after pre V
/-- The contents after class 0. -/
def val1 (V : Valuation τ sig (Elt F)) : Valuation τ sig (Elt F) := after cls0 (val0 V)
/-- The contents after class 1. -/
def val2 (V : Valuation τ sig (Elt F)) : Valuation τ sig (Elt F) := after cls1 (val1 V)
/-- The contents after class 2. -/
def val3 (V : Valuation τ sig (Elt F)) : Valuation τ sig (Elt F) := after cls2 (val2 V)
/-- The contents after class 3. -/
def val4 (V : Valuation τ sig (Elt F)) : Valuation τ sig (Elt F) := after cls3 (val3 V)
/-- The contents after class 4. -/
def val5 (V : Valuation τ sig (Elt F)) : Valuation τ sig (Elt F) := after cls4 (val4 V)
/-- The contents after class 5. -/
def val6 (V : Valuation τ sig (Elt F)) : Valuation τ sig (Elt F) := after cls5 (val5 V)
/-- The contents after class 6. -/
def val7 (V : Valuation τ sig (Elt F)) : Valuation τ sig (Elt F) := after cls6 (val6 V)
/-- The contents after class 7. -/
def val8 (V : Valuation τ sig (Elt F)) : Valuation τ sig (Elt F) := after cls7 (val7 V)
/-- The contents after class 8. -/
def val9 (V : Valuation τ sig (Elt F)) : Valuation τ sig (Elt F) := after cls8 (val8 V)
/-- The contents after class 9. -/
def val10 (V : Valuation τ sig (Elt F)) : Valuation τ sig (Elt F) := after cls9 (val9 V)
/-- The contents after class 10. -/
def val11 (V : Valuation τ sig (Elt F)) : Valuation τ sig (Elt F) := after cls10 (val10 V)
/-- The contents after class 11. -/
def val12 (V : Valuation τ sig (Elt F)) : Valuation τ sig (Elt F) := after cls11 (val11 V)
/-- The contents after class 12. -/
def val13 (V : Valuation τ sig (Elt F)) : Valuation τ sig (Elt F) := after cls12 (val12 V)
/-- The contents after class 13. -/
def val14 (V : Valuation τ sig (Elt F)) : Valuation τ sig (Elt F) := after cls13 (val13 V)
/-- The contents after class 14. -/
def val15 (V : Valuation τ sig (Elt F)) : Valuation τ sig (Elt F) := after cls14 (val14 V)
/-- The contents after class 15. -/
def val16 (V : Valuation τ sig (Elt F)) : Valuation τ sig (Elt F) := after cls15 (val15 V)

theorem after_ops (V : Valuation τ sig (Elt F)) : after ops V = val16 V := by
  simp only [ops, after_append]
  rfl

/-! The references written by the classes so far: outside them, the contents are still `val0`'s. -/

abbrev Ws1 : List (Ref sig .tc) := cls0_W
theorem val1_of (V : Valuation τ sig (Elt F)) {r : Ref sig .tc} (h : r ∉ Ws1) :
    val1 V (Proc.devRef .tc r) = val0 V (Proc.devRef .tc r) :=
  cls0_keep (val0 V) h

abbrev Ws2 : List (Ref sig .tc) := Ws1 ++ cls1_W
theorem val2_of (V : Valuation τ sig (Elt F)) {r : Ref sig .tc} (h : r ∉ Ws2) :
    val2 V (Proc.devRef .tc r) = val0 V (Proc.devRef .tc r) :=
  (cls1_keep (val1 V) (fun hm => h (List.mem_append_right _ hm))).trans
    (val1_of V (fun hm => h (List.mem_append_left _ hm)))

abbrev Ws3 : List (Ref sig .tc) := Ws2 ++ cls2_W
theorem val3_of (V : Valuation τ sig (Elt F)) {r : Ref sig .tc} (h : r ∉ Ws3) :
    val3 V (Proc.devRef .tc r) = val0 V (Proc.devRef .tc r) :=
  (cls2_keep (val2 V) (fun hm => h (List.mem_append_right _ hm))).trans
    (val2_of V (fun hm => h (List.mem_append_left _ hm)))

abbrev Ws4 : List (Ref sig .tc) := Ws3 ++ cls3_W
theorem val4_of (V : Valuation τ sig (Elt F)) {r : Ref sig .tc} (h : r ∉ Ws4) :
    val4 V (Proc.devRef .tc r) = val0 V (Proc.devRef .tc r) :=
  (cls3_keep (val3 V) (fun hm => h (List.mem_append_right _ hm))).trans
    (val3_of V (fun hm => h (List.mem_append_left _ hm)))

abbrev Ws5 : List (Ref sig .tc) := Ws4 ++ cls4_W
theorem val5_of (V : Valuation τ sig (Elt F)) {r : Ref sig .tc} (h : r ∉ Ws5) :
    val5 V (Proc.devRef .tc r) = val0 V (Proc.devRef .tc r) :=
  (cls4_keep (val4 V) (fun hm => h (List.mem_append_right _ hm))).trans
    (val4_of V (fun hm => h (List.mem_append_left _ hm)))

abbrev Ws6 : List (Ref sig .tc) := Ws5 ++ cls5_W
theorem val6_of (V : Valuation τ sig (Elt F)) {r : Ref sig .tc} (h : r ∉ Ws6) :
    val6 V (Proc.devRef .tc r) = val0 V (Proc.devRef .tc r) :=
  (cls5_keep (val5 V) (fun hm => h (List.mem_append_right _ hm))).trans
    (val5_of V (fun hm => h (List.mem_append_left _ hm)))

abbrev Ws7 : List (Ref sig .tc) := Ws6 ++ cls6_W
theorem val7_of (V : Valuation τ sig (Elt F)) {r : Ref sig .tc} (h : r ∉ Ws7) :
    val7 V (Proc.devRef .tc r) = val0 V (Proc.devRef .tc r) :=
  (cls6_keep (val6 V) (fun hm => h (List.mem_append_right _ hm))).trans
    (val6_of V (fun hm => h (List.mem_append_left _ hm)))

abbrev Ws8 : List (Ref sig .tc) := Ws7 ++ cls7_W
theorem val8_of (V : Valuation τ sig (Elt F)) {r : Ref sig .tc} (h : r ∉ Ws8) :
    val8 V (Proc.devRef .tc r) = val0 V (Proc.devRef .tc r) :=
  (cls7_keep (val7 V) (fun hm => h (List.mem_append_right _ hm))).trans
    (val7_of V (fun hm => h (List.mem_append_left _ hm)))

abbrev Ws9 : List (Ref sig .tc) := Ws8 ++ cls8_W
theorem val9_of (V : Valuation τ sig (Elt F)) {r : Ref sig .tc} (h : r ∉ Ws9) :
    val9 V (Proc.devRef .tc r) = val0 V (Proc.devRef .tc r) :=
  (cls8_keep (val8 V) (fun hm => h (List.mem_append_right _ hm))).trans
    (val8_of V (fun hm => h (List.mem_append_left _ hm)))

abbrev Ws10 : List (Ref sig .tc) := Ws9 ++ cls9_W
theorem val10_of (V : Valuation τ sig (Elt F)) {r : Ref sig .tc} (h : r ∉ Ws10) :
    val10 V (Proc.devRef .tc r) = val0 V (Proc.devRef .tc r) :=
  (cls9_keep (val9 V) (fun hm => h (List.mem_append_right _ hm))).trans
    (val9_of V (fun hm => h (List.mem_append_left _ hm)))

abbrev Ws11 : List (Ref sig .tc) := Ws10 ++ cls10_W
theorem val11_of (V : Valuation τ sig (Elt F)) {r : Ref sig .tc} (h : r ∉ Ws11) :
    val11 V (Proc.devRef .tc r) = val0 V (Proc.devRef .tc r) :=
  (cls10_keep (val10 V) (fun hm => h (List.mem_append_right _ hm))).trans
    (val10_of V (fun hm => h (List.mem_append_left _ hm)))

abbrev Ws12 : List (Ref sig .tc) := Ws11 ++ cls11_W
theorem val12_of (V : Valuation τ sig (Elt F)) {r : Ref sig .tc} (h : r ∉ Ws12) :
    val12 V (Proc.devRef .tc r) = val0 V (Proc.devRef .tc r) :=
  (cls11_keep (val11 V) (fun hm => h (List.mem_append_right _ hm))).trans
    (val11_of V (fun hm => h (List.mem_append_left _ hm)))

abbrev Ws13 : List (Ref sig .tc) := Ws12 ++ cls12_W
theorem val13_of (V : Valuation τ sig (Elt F)) {r : Ref sig .tc} (h : r ∉ Ws13) :
    val13 V (Proc.devRef .tc r) = val0 V (Proc.devRef .tc r) :=
  (cls12_keep (val12 V) (fun hm => h (List.mem_append_right _ hm))).trans
    (val12_of V (fun hm => h (List.mem_append_left _ hm)))

abbrev Ws14 : List (Ref sig .tc) := Ws13 ++ cls13_W
theorem val14_of (V : Valuation τ sig (Elt F)) {r : Ref sig .tc} (h : r ∉ Ws14) :
    val14 V (Proc.devRef .tc r) = val0 V (Proc.devRef .tc r) :=
  (cls13_keep (val13 V) (fun hm => h (List.mem_append_right _ hm))).trans
    (val13_of V (fun hm => h (List.mem_append_left _ hm)))

abbrev Ws15 : List (Ref sig .tc) := Ws14 ++ cls14_W
theorem val15_of (V : Valuation τ sig (Elt F)) {r : Ref sig .tc} (h : r ∉ Ws15) :
    val15 V (Proc.devRef .tc r) = val0 V (Proc.devRef .tc r) :=
  (cls14_keep (val14 V) (fun hm => h (List.mem_append_right _ hm))).trans
    (val14_of V (fun hm => h (List.mem_append_left _ hm)))

abbrev Ws16 : List (Ref sig .tc) := Ws15 ++ cls15_W
theorem val16_of (V : Valuation τ sig (Elt F)) {r : Ref sig .tc} (h : r ∉ Ws16) :
    val16 V (Proc.devRef .tc r) = val0 V (Proc.devRef .tc r) :=
  (cls15_keep (val15 V) (fun hm => h (List.mem_append_right _ hm))).trans
    (val15_of V (fun hm => h (List.mem_append_left _ hm)))

/-! The array after each class, as a term of the arguments' contents. -/

/-- The logits of the arguments. -/
def res (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) := RefStep.logits A B C
/-- The array after class 0. -/
def res0 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit0 (S4.rowMajor i)) 0 slices_S16384x64_S16384x1_0_0 0#32 (res A B C)
/-- The array after class 1. -/
def res1 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit1 (S4.rowMajor i)) 4 slices_S16384x64_S16384x1_0_4 4#32 (res0 A B C)
/-- The array after class 2. -/
def res2 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit2 (S4.rowMajor i)) 8 slices_S16384x64_S16384x1_0_8 8#32 (res1 A B C)
/-- The array after class 3. -/
def res3 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit3 (S4.rowMajor i)) 12 slices_S16384x64_S16384x1_0_12 12#32 (res2 A B C)
/-- The array after class 4. -/
def res4 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit4 (S4.rowMajor i)) 16 slices_S16384x64_S16384x1_0_16 16#32 (res3 A B C)
/-- The array after class 5. -/
def res5 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit5 (S4.rowMajor i)) 20 slices_S16384x64_S16384x1_0_20 20#32 (res4 A B C)
/-- The array after class 6. -/
def res6 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit6 (S4.rowMajor i)) 24 slices_S16384x64_S16384x1_0_24 24#32 (res5 A B C)
/-- The array after class 7. -/
def res7 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit7 (S4.rowMajor i)) 28 slices_S16384x64_S16384x1_0_28 28#32 (res6 A B C)
/-- The array after class 8. -/
def res8 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit8 (S4.rowMajor i)) 32 slices_S16384x64_S16384x1_0_32 32#32 (res7 A B C)
/-- The array after class 9. -/
def res9 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit9 (S4.rowMajor i)) 36 slices_S16384x64_S16384x1_0_36 36#32 (res8 A B C)
/-- The array after class 10. -/
def res10 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit10 (S4.rowMajor i)) 40 slices_S16384x64_S16384x1_0_40 40#32 (res9 A B C)
/-- The array after class 11. -/
def res11 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit11 (S4.rowMajor i)) 44 slices_S16384x64_S16384x1_0_44 44#32 (res10 A B C)
/-- The array after class 12. -/
def res12 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit12 (S4.rowMajor i)) 48 slices_S16384x64_S16384x1_0_48 48#32 (res11 A B C)
/-- The array after class 13. -/
def res13 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit13 (S4.rowMajor i)) 52 slices_S16384x64_S16384x1_0_52 52#32 (res12 A B C)
/-- The array after class 14. -/
def res14 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit14 (S4.rowMajor i)) 56 slices_S16384x64_S16384x1_0_56 56#32 (res13 A B C)
/-- The array after class 15. -/
def res15 (A : (⟨S16384x4096, .f32⟩ : BufTy).Contents (Elt F)) (B : (⟨S64x4096, .f32⟩ : BufTy).Contents (Elt F))
    (C : (⟨S64, .f32⟩ : BufTy).Contents (Elt F)) : (⟨S16384x64, .f32⟩ : BufTy).Contents (Elt F) :=
  RefStep.step (fun i => lit15 (S4.rowMajor i)) 60 slices_S16384x64_S16384x1_0_60 60#32 (res14 A B C)

theorem res15_eq (A : (⟨S16384x4096, .f32⟩ : BufTy).Contents (Elt F)) (B : (⟨S64x4096, .f32⟩ : BufTy).Contents (Elt F))
    (C : (⟨S64, .f32⟩ : BufTy).Contents (Elt F)) : res15 A B C = RefStep.refOut A B C := rfl

theorem val0_out (V : Valuation τ sig (Elt F)) : val0 V (main_v4 : DevRef τ sig) = res (V (main_arg0 : DevRef τ sig)) (V (main_arg1 : DevRef τ sig)) (V (main_arg2 : DevRef τ sig)) := pre_out V

theorem val0_tbl (V : Valuation τ sig (Elt F)) : val0 V (main_c : DevRef τ sig) = fun i => lit0 (S4.rowMajor i) :=
  pre_tbl0 V
theorem val1_out (V : Valuation τ sig (Elt F)) : val1 V (main_v31 : DevRef τ sig) = res0 (V (main_arg0 : DevRef τ sig)) (V (main_arg1 : DevRef τ sig)) (V (main_arg2 : DevRef τ sig)) := by
  have h := cls0_out (val0 V)
  rw [val0_tbl V, val0_out V] at h
  exact h

theorem val1_tbl (V : Valuation τ sig (Elt F)) : val1 V (main_c_0 : DevRef τ sig) = fun i => lit1 (S4.rowMajor i) :=
  (val1_of V (r := main_c_0) (by decide)).trans (pre_tbl1 V)
theorem val2_out (V : Valuation τ sig (Elt F)) : val2 V (main_v58 : DevRef τ sig) = res1 (V (main_arg0 : DevRef τ sig)) (V (main_arg1 : DevRef τ sig)) (V (main_arg2 : DevRef τ sig)) := by
  have h := cls1_out (val1 V)
  rw [val1_tbl V, val1_out V] at h
  exact h

theorem val2_tbl (V : Valuation τ sig (Elt F)) : val2 V (main_c_1 : DevRef τ sig) = fun i => lit2 (S4.rowMajor i) :=
  (val2_of V (r := main_c_1) (by decide)).trans (pre_tbl2 V)
theorem val3_out (V : Valuation τ sig (Elt F)) : val3 V (main_v85 : DevRef τ sig) = res2 (V (main_arg0 : DevRef τ sig)) (V (main_arg1 : DevRef τ sig)) (V (main_arg2 : DevRef τ sig)) := by
  have h := cls2_out (val2 V)
  rw [val2_tbl V, val2_out V] at h
  exact h

theorem val3_tbl (V : Valuation τ sig (Elt F)) : val3 V (main_c_2 : DevRef τ sig) = fun i => lit3 (S4.rowMajor i) :=
  (val3_of V (r := main_c_2) (by decide)).trans (pre_tbl3 V)
theorem val4_out (V : Valuation τ sig (Elt F)) : val4 V (main_v112 : DevRef τ sig) = res3 (V (main_arg0 : DevRef τ sig)) (V (main_arg1 : DevRef τ sig)) (V (main_arg2 : DevRef τ sig)) := by
  have h := cls3_out (val3 V)
  rw [val3_tbl V, val3_out V] at h
  exact h

theorem val4_tbl (V : Valuation τ sig (Elt F)) : val4 V (main_c_3 : DevRef τ sig) = fun i => lit4 (S4.rowMajor i) :=
  (val4_of V (r := main_c_3) (by decide)).trans (pre_tbl4 V)
theorem val5_out (V : Valuation τ sig (Elt F)) : val5 V (main_v139 : DevRef τ sig) = res4 (V (main_arg0 : DevRef τ sig)) (V (main_arg1 : DevRef τ sig)) (V (main_arg2 : DevRef τ sig)) := by
  have h := cls4_out (val4 V)
  rw [val4_tbl V, val4_out V] at h
  exact h

theorem val5_tbl (V : Valuation τ sig (Elt F)) : val5 V (main_c_4 : DevRef τ sig) = fun i => lit5 (S4.rowMajor i) :=
  (val5_of V (r := main_c_4) (by decide)).trans (pre_tbl5 V)
theorem val6_out (V : Valuation τ sig (Elt F)) : val6 V (main_v166 : DevRef τ sig) = res5 (V (main_arg0 : DevRef τ sig)) (V (main_arg1 : DevRef τ sig)) (V (main_arg2 : DevRef τ sig)) := by
  have h := cls5_out (val5 V)
  rw [val5_tbl V, val5_out V] at h
  exact h

theorem val6_tbl (V : Valuation τ sig (Elt F)) : val6 V (main_c_5 : DevRef τ sig) = fun i => lit6 (S4.rowMajor i) :=
  (val6_of V (r := main_c_5) (by decide)).trans (pre_tbl6 V)
theorem val7_out (V : Valuation τ sig (Elt F)) : val7 V (main_v193 : DevRef τ sig) = res6 (V (main_arg0 : DevRef τ sig)) (V (main_arg1 : DevRef τ sig)) (V (main_arg2 : DevRef τ sig)) := by
  have h := cls6_out (val6 V)
  rw [val6_tbl V, val6_out V] at h
  exact h

theorem val7_tbl (V : Valuation τ sig (Elt F)) : val7 V (main_c_6 : DevRef τ sig) = fun i => lit7 (S4.rowMajor i) :=
  (val7_of V (r := main_c_6) (by decide)).trans (pre_tbl7 V)
theorem val8_out (V : Valuation τ sig (Elt F)) : val8 V (main_v220 : DevRef τ sig) = res7 (V (main_arg0 : DevRef τ sig)) (V (main_arg1 : DevRef τ sig)) (V (main_arg2 : DevRef τ sig)) := by
  have h := cls7_out (val7 V)
  rw [val7_tbl V, val7_out V] at h
  exact h

theorem val8_tbl (V : Valuation τ sig (Elt F)) : val8 V (main_c_7 : DevRef τ sig) = fun i => lit8 (S4.rowMajor i) :=
  (val8_of V (r := main_c_7) (by decide)).trans (pre_tbl8 V)
theorem val9_out (V : Valuation τ sig (Elt F)) : val9 V (main_v247 : DevRef τ sig) = res8 (V (main_arg0 : DevRef τ sig)) (V (main_arg1 : DevRef τ sig)) (V (main_arg2 : DevRef τ sig)) := by
  have h := cls8_out (val8 V)
  rw [val8_tbl V, val8_out V] at h
  exact h

theorem val9_tbl (V : Valuation τ sig (Elt F)) : val9 V (main_c_8 : DevRef τ sig) = fun i => lit9 (S4.rowMajor i) :=
  (val9_of V (r := main_c_8) (by decide)).trans (pre_tbl9 V)
theorem val10_out (V : Valuation τ sig (Elt F)) : val10 V (main_v274 : DevRef τ sig) = res9 (V (main_arg0 : DevRef τ sig)) (V (main_arg1 : DevRef τ sig)) (V (main_arg2 : DevRef τ sig)) := by
  have h := cls9_out (val9 V)
  rw [val9_tbl V, val9_out V] at h
  exact h

theorem val10_tbl (V : Valuation τ sig (Elt F)) : val10 V (main_c_9 : DevRef τ sig) = fun i => lit10 (S4.rowMajor i) :=
  (val10_of V (r := main_c_9) (by decide)).trans (pre_tbl10 V)
theorem val11_out (V : Valuation τ sig (Elt F)) : val11 V (main_v301 : DevRef τ sig) = res10 (V (main_arg0 : DevRef τ sig)) (V (main_arg1 : DevRef τ sig)) (V (main_arg2 : DevRef τ sig)) := by
  have h := cls10_out (val10 V)
  rw [val10_tbl V, val10_out V] at h
  exact h

theorem val11_tbl (V : Valuation τ sig (Elt F)) : val11 V (main_c_10 : DevRef τ sig) = fun i => lit11 (S4.rowMajor i) :=
  (val11_of V (r := main_c_10) (by decide)).trans (pre_tbl11 V)
theorem val12_out (V : Valuation τ sig (Elt F)) : val12 V (main_v328 : DevRef τ sig) = res11 (V (main_arg0 : DevRef τ sig)) (V (main_arg1 : DevRef τ sig)) (V (main_arg2 : DevRef τ sig)) := by
  have h := cls11_out (val11 V)
  rw [val11_tbl V, val11_out V] at h
  exact h

theorem val12_tbl (V : Valuation τ sig (Elt F)) : val12 V (main_c_11 : DevRef τ sig) = fun i => lit12 (S4.rowMajor i) :=
  (val12_of V (r := main_c_11) (by decide)).trans (pre_tbl12 V)
theorem val13_out (V : Valuation τ sig (Elt F)) : val13 V (main_v355 : DevRef τ sig) = res12 (V (main_arg0 : DevRef τ sig)) (V (main_arg1 : DevRef τ sig)) (V (main_arg2 : DevRef τ sig)) := by
  have h := cls12_out (val12 V)
  rw [val12_tbl V, val12_out V] at h
  exact h

theorem val13_tbl (V : Valuation τ sig (Elt F)) : val13 V (main_c_12 : DevRef τ sig) = fun i => lit13 (S4.rowMajor i) :=
  (val13_of V (r := main_c_12) (by decide)).trans (pre_tbl13 V)
theorem val14_out (V : Valuation τ sig (Elt F)) : val14 V (main_v382 : DevRef τ sig) = res13 (V (main_arg0 : DevRef τ sig)) (V (main_arg1 : DevRef τ sig)) (V (main_arg2 : DevRef τ sig)) := by
  have h := cls13_out (val13 V)
  rw [val13_tbl V, val13_out V] at h
  exact h

theorem val14_tbl (V : Valuation τ sig (Elt F)) : val14 V (main_c_13 : DevRef τ sig) = fun i => lit14 (S4.rowMajor i) :=
  (val14_of V (r := main_c_13) (by decide)).trans (pre_tbl14 V)
theorem val15_out (V : Valuation τ sig (Elt F)) : val15 V (main_v409 : DevRef τ sig) = res14 (V (main_arg0 : DevRef τ sig)) (V (main_arg1 : DevRef τ sig)) (V (main_arg2 : DevRef τ sig)) := by
  have h := cls14_out (val14 V)
  rw [val14_tbl V, val14_out V] at h
  exact h

theorem val15_tbl (V : Valuation τ sig (Elt F)) : val15 V (main_c_14 : DevRef τ sig) = fun i => lit15 (S4.rowMajor i) :=
  (val15_of V (r := main_c_14) (by decide)).trans (pre_tbl15 V)
theorem val16_out (V : Valuation τ sig (Elt F)) : val16 V (main_v436 : DevRef τ sig) = res15 (V (main_arg0 : DevRef τ sig)) (V (main_arg1 : DevRef τ sig)) (V (main_arg2 : DevRef τ sig)) := by
  have h := cls15_out (val15 V)
  rw [val15_tbl V, val15_out V] at h
  exact h

/-- The result buffer after the 597 operations. -/
theorem out_eq (V : Valuation τ sig (Elt F)) :
    after ops V (main_v436 : DevRef τ sig) = RefStep.refOut (V (main_arg0 : DevRef τ sig)) (V (main_arg1 : DevRef τ sig)) (V (main_arg2 : DevRef τ sig)) := by
  rw [after_ops, val16_out, res15_eq]

theorem arg0_eq (V : Valuation τ sig (Elt F)) : after ops V (main_arg0 : DevRef τ sig) = V (main_arg0 : DevRef τ sig) := by
  rw [after_ops]
  exact (val16_of V (r := main_arg0) (by decide)).trans (pre_keep V (r := main_arg0) (by decide))

theorem arg1_eq (V : Valuation τ sig (Elt F)) : after ops V (main_arg1 : DevRef τ sig) = V (main_arg1 : DevRef τ sig) := by
  rw [after_ops]
  exact (val16_of V (r := main_arg1) (by decide)).trans (pre_keep V (r := main_arg1) (by decide))

theorem arg2_eq (V : Valuation τ sig (Elt F)) : after ops V (main_arg2 : DevRef τ sig) = V (main_arg2 : DevRef τ sig) := by
  rw [after_ops]
  exact (val16_of V (r := main_arg2) (by decide)).trans (pre_keep V (r := main_arg2) (by decide))

end Cert.ReferenceIdeal.RefRun

end
-- ==== Proof.RefRun.lean ====
/-
  The reference's run read back: every weakly fair execution of @main terminates with the result buffer at
  `RefStep.refOut` of the three arguments' launch contents, and the arguments unchanged.
-/
import proofs.«144457_g41274635714715_cont_8to1_b_145_24_alg».proof.Proof.RefMain
import proofs.«144457_g41274635714715_cont_8to1_b_145_24_alg».proof.Proof.RefRead
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- On every device, for any float values, from any memory with zero counters: every weakly fair execution of
    @main terminates with the result at the sixteen classes applied in order to the logits of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v436) = RefStep.refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v436).trans (out_eq _),
      (h c main_arg0).trans (arg0_eq _),
      (h c main_arg1).trans (arg1_eq _),
      (h c main_arg2).trans (arg2_eq _)⟩)
    (run_ops m ρ)

end Cert.ReferenceIdeal.RefRun

end
-- ==== Proof.LibScatterSet.lean ====
/-
  A host scatter whose body returns the update (an overwrite), read at an index.

  The scatter folds over the update's indices in row-major order, each step overwriting the operand's element at the
  update index's target. When every update index has a target inside the operand and distinct update indices have
  distinct targets, the order does not matter: the result at a target is that target's update, and every other
  element is the operand's.
-/
import Idealize.ShloMosaic.PureOps.ShapeOps
import Idealize.ShloMosaic.Lib.ValueIdx

noncomputable section

namespace Cert.LibScatterSet

open Idealize.ShloMosaic

variable {α : Type}

/-- A left fold of overwrites leaves alone an index that none of the steps targets. -/
theorem foldl_set_of_forall_ne {ι κ : Type} [inst : DecidableEq ι] (g : κ → ι) (upd : κ → α) :
    ∀ (L : List κ) (x : ι → α) (i : ι), (∀ n ∈ L, g n ≠ i) →
      (L.foldl (fun r n => fun i' => if i' = g n then upd n else r i') x) i = x i
  | [], _, _, _ => rfl
  | n :: L, x, i, h => by
    rw [List.foldl_cons, foldl_set_of_forall_ne g upd L _ i (fun k hk => h k (List.mem_cons_of_mem _ hk))]
    exact if_neg (fun e => h n List.mem_cons_self e.symm)

/-- A left fold of overwrites at pairwise distinct targets holds, at a step's target, that step's value. -/
theorem foldl_set_of_mem {ι κ : Type} [inst : DecidableEq ι] (g : κ → ι) (hg : Function.Injective g) (upd : κ → α) :
    ∀ (L : List κ), L.Nodup → ∀ (x : ι → α) (n0 : κ), n0 ∈ L →
      (L.foldl (fun r n => fun i' => if i' = g n then upd n else r i') x) (g n0) = upd n0
  | [], _, _, _, h => absurd h List.not_mem_nil
  | n :: L, hL, x, n0, h => by
    rw [List.foldl_cons]
    rcases List.mem_cons.mp h with e | h'
    · subst e
      rw [foldl_set_of_forall_ne g upd L _ (g n0)
        (fun k hk e => (List.nodup_cons.mp hL).1 (hg e ▸ hk))]
      exact if_pos rfl
    · exact foldl_set_of_mem g hg upd L (List.nodup_cons.mp hL).2 _ n0 h'

variable {s si u : Shape} {w : Nat}

/-- The overwriting scatter as a fold of plain overwrites, when every update index has a target. -/
theorem scatter_set_eq_foldl (d : ScatterDims s si u) (x : s.Idx → α) (idx : IVec si w) (upd : u.Idx → α)
    (g : u.Idx → s.Idx) (h : ∀ j, d.resultIdx? j idx = some (g j)) :
    Host.scatter d (fun _ b => b) x idx upd
      = (List.finRange u.numel).foldl (fun r n => fun i' =>
          if i' = (g ∘ u.rowMajor.symm) n then (upd ∘ u.rowMajor.symm) n else r i') x := by
  unfold Host.scatter
  congr 1
  funext r n
  rw [h]
  rfl

/-- At an update index's target the overwriting scatter holds that update. -/
theorem scatter_set_at (d : ScatterDims s si u) (x : s.Idx → α) (idx : IVec si w) (upd : u.Idx → α)
    (g : u.Idx → s.Idx) (hg : Function.Injective g) (h : ∀ j, d.resultIdx? j idx = some (g j)) (j : u.Idx) :
    Host.scatter d (fun _ b => b) x idx upd (g j) = upd j := by
  rw [scatter_set_eq_foldl d x idx upd g h]
  have := foldl_set_of_mem (g ∘ u.rowMajor.symm) (hg.comp u.rowMajor.symm.injective) (upd ∘ u.rowMajor.symm)
    (List.finRange u.numel) (List.nodup_finRange _) x (u.rowMajor j) (List.mem_finRange _)
  simpa only [Function.comp_apply, Equiv.symm_apply_apply] using this

/-- Away from every target the overwriting scatter keeps the operand. -/
theorem scatter_set_away (d : ScatterDims s si u) (x : s.Idx → α) (idx : IVec si w) (upd : u.Idx → α)
    (g : u.Idx → s.Idx) (h : ∀ j, d.resultIdx? j idx = some (g j)) (i : s.Idx) (hi : ∀ j, g j ≠ i) :
    Host.scatter d (fun _ b => b) x idx upd i = x i := by
  rw [scatter_set_eq_foldl d x idx upd g h]
  exact foldl_set_of_forall_ne (g ∘ u.rowMajor.symm) (upd ∘ u.rowMajor.symm) (List.finRange u.numel) x i
    (fun n _ => hi _)

end Cert.LibScatterSet

end
-- ==== Proof.RefGatherScatter.lean ====
/-
  One class's gather and scatter, read at an index.

  The gather takes four columns of the array: row `t`, member `q` of the gathered array is the array at row `t` and
  the column the table names for `q` (read as a signed integer and clamped into the array). The scatter overwrites
  one column: at the column the index constant names the result is the update's row entry, elsewhere the array's.
-/
import proofs.«144457_g41274635714715_cont_8to1_b_145_24_alg».proof.Proof.RefStep
import proofs.«144457_g41274635714715_cont_8to1_b_145_24_alg».proof.Proof.LibScatterSet
import Idealize.ShloMosaic.Lib.ValueIdx

noncomputable section

namespace Cert.ReferenceIdeal.RefStep

open Cert.ReferenceIdeal Idealize.ShloMosaic Idealize.ShloMosaic.ValueIdx

variable [Facts]
open Facts₀ Facts

variable {α : Type}

/-- The gather's operand index: the row, and the start index of the member read signed and clamped to the last column. -/
theorem gather_operandIdx (idx : IVec S4x1 32) (t : Fin 16384) (q : Fin 4) :
    gather_S16384x64_S4x1_S16384x4_0_1_n_n_1_1_163841.operandIdx (ix2 t q) idx
      = ix2 t ⟨min (idx (ix2 q (0 : Fin 1))).toInt.toNat 63, by omega⟩ := by
  have hsi : gather_S16384x64_S4x1_S16384x4_0_1_n_n_1_1_163841.siIdx (ix2 t q) ⟨0, Nat.zero_lt_one⟩ = ix2 q (0 : Fin 1) := by
    funext b
    match b with
    | ⟨0, _⟩ => rfl
    | ⟨1, _⟩ => rfl
  funext a
  refine Fin.ext ?_
  match a with
  | ⟨0, _⟩ =>
    show gather_S16384x64_S4x1_S16384x4_0_1_n_n_1_1_163841.start (ix2 t q) idx 0
        + gather_S16384x64_S4x1_S16384x4_0_1_n_n_1_1_163841.batchCoord (ix2 t q) 0
        + gather_S16384x64_S4x1_S16384x4_0_1_n_n_1_1_163841.offCoord (ix2 t q) 0 = t.val
    have h1 : gather_S16384x64_S4x1_S16384x4_0_1_n_n_1_1_163841.start (ix2 t q) idx 0 = 0 := rfl
    have h2 : gather_S16384x64_S4x1_S16384x4_0_1_n_n_1_1_163841.batchCoord (ix2 t q) 0 = 0 := rfl
    have h3 : gather_S16384x64_S4x1_S16384x4_0_1_n_n_1_1_163841.offCoord (ix2 t q) 0 = t.val := rfl
    omega
  | ⟨1, _⟩ =>
    show gather_S16384x64_S4x1_S16384x4_0_1_n_n_1_1_163841.start (ix2 t q) idx 1
        + gather_S16384x64_S4x1_S16384x4_0_1_n_n_1_1_163841.batchCoord (ix2 t q) 1
        + gather_S16384x64_S4x1_S16384x4_0_1_n_n_1_1_163841.offCoord (ix2 t q) 1
      = min (idx (ix2 q (0 : Fin 1))).toInt.toNat 63
    have h1 : gather_S16384x64_S4x1_S16384x4_0_1_n_n_1_1_163841.start (ix2 t q) idx 1
        = min (idx (gather_S16384x64_S4x1_S16384x4_0_1_n_n_1_1_163841.siIdx (ix2 t q) ⟨0, Nat.zero_lt_one⟩)).toInt.toNat 63 := rfl
    have h2 : gather_S16384x64_S4x1_S16384x4_0_1_n_n_1_1_163841.batchCoord (ix2 t q) 1 = 0 := rfl
    have h3 : gather_S16384x64_S4x1_S16384x4_0_1_n_n_1_1_163841.offCoord (ix2 t q) 1 = 0 := rfl
    rw [h1, h2, h3, hsi]
    rfl

/-- THE GATHER READ AT `(t, q)`: the array at row `t` and the clamped start index of member `q`. -/
theorem gather_apply (X : S16384x64.Idx → α) (idx : IVec S4x1 32) (t : Fin 16384) (q : Fin 4) :
    Host.gather gather_S16384x64_S4x1_S16384x4_0_1_n_n_1_1_163841 X idx (ix2 t q)
      = X (ix2 t ⟨min (idx (ix2 q (0 : Fin 1))).toInt.toNat 63, by omega⟩) := by
  unfold Host.gather
  rw [gather_operandIdx]

/-- The scatter's target of update row `t`: row `t`, the column the index constant names. -/
theorem scatter_resultIdx (c : BitVec 32) (hc : 0 ≤ c.toInt ∧ c.toInt < 64) (j : S16384.Idx) :
    scatter_S16384x64_S1_S16384_0_1_1_0.resultIdx? j (fun _ : S1.Idx => c)
      = some (ix2 (n0 := 16384) (n1 := 64) (j 0) ⟨c.toInt.toNat, by omega⟩) := by
  have h0s : scatter_S16384x64_S1_S16384_0_1_1_0.start j (fun _ : S1.Idx => c) 0 = 0 := rfl
  have h0w : scatter_S16384x64_S1_S16384_0_1_1_0.window j 0 = (j 0).val := rfl
  have h1s : scatter_S16384x64_S1_S16384_0_1_1_0.start j (fun _ : S1.Idx => c) 1 = c.toInt := rfl
  have h1w : scatter_S16384x64_S1_S16384_0_1_1_0.window j 1 = 0 := rfl
  have hj : (j 0).val < 16384 := (j 0).isLt
  unfold ScatterDims.resultIdx?
  rw [dif_pos (fun a => by
    match a with
    | ⟨0, _⟩ =>
      show 0 ≤ scatter_S16384x64_S1_S16384_0_1_1_0.start j (fun _ : S1.Idx => c) 0
            + scatter_S16384x64_S1_S16384_0_1_1_0.window j 0
          ∧ scatter_S16384x64_S1_S16384_0_1_1_0.start j (fun _ : S1.Idx => c) 0
            + scatter_S16384x64_S1_S16384_0_1_1_0.window j 0 < (16384 : Nat)
      rw [h0s, h0w]; omega
    | ⟨1, _⟩ =>
      show 0 ≤ scatter_S16384x64_S1_S16384_0_1_1_0.start j (fun _ : S1.Idx => c) 1
            + scatter_S16384x64_S1_S16384_0_1_1_0.window j 1
          ∧ scatter_S16384x64_S1_S16384_0_1_1_0.start j (fun _ : S1.Idx => c) 1
            + scatter_S16384x64_S1_S16384_0_1_1_0.window j 1 < (64 : Nat)
      rw [h1s, h1w]; omega)]
  congr 1
  funext a
  refine Fin.ext ?_
  match a with
  | ⟨0, _⟩ =>
    show (scatter_S16384x64_S1_S16384_0_1_1_0.start j (fun _ : S1.Idx => c) 0
        + scatter_S16384x64_S1_S16384_0_1_1_0.window j 0).toNat = (j 0).val
    rw [h0s, h0w]; omega
  | ⟨1, _⟩ =>
    show (scatter_S16384x64_S1_S16384_0_1_1_0.start j (fun _ : S1.Idx => c) 1
        + scatter_S16384x64_S1_S16384_0_1_1_0.window j 1).toNat = c.toInt.toNat
    rw [h1s, h1w]; omega

/-- THE SCATTER READ AT `(t, e)`: at the named column the update's entry of row `t`, elsewhere the array. -/
theorem scatter_apply (X : S16384x64.Idx → α) (c : BitVec 32) (hc : 0 ≤ c.toInt ∧ c.toInt < 64) (upd : S16384.Idx → α)
    (t : Fin 16384) (e : Fin 64) :
    Host.scatter scatter_S16384x64_S1_S16384_0_1_1_0 (fun _ b => b) X (fun _ : S1.Idx => c) upd (ix2 t e)
      = if e.val = c.toInt.toNat then upd (ix1 t) else X (ix2 t e) := by
  have hg : Function.Injective (fun j : S16384.Idx => ix2 (n0 := 16384) (n1 := 64) (j 0) ⟨c.toInt.toNat, by omega⟩) := by
    intro j j' h
    have := congrFun h 0
    rw [eq_ix1 j, eq_ix1 j']
    exact congrArg ix1 this
  by_cases he : e.val = c.toInt.toNat
  · rw [if_pos he]
    have := Cert.LibScatterSet.scatter_set_at scatter_S16384x64_S1_S16384_0_1_1_0 X (fun _ : S1.Idx => c) upd _ hg
      (scatter_resultIdx c hc) (ix1 t)
    have e' : e = ⟨c.toInt.toNat, by omega⟩ := Fin.ext he
    rw [e']
    exact this
  · rw [if_neg he]
    refine Cert.LibScatterSet.scatter_set_away scatter_S16384x64_S1_S16384_0_1_1_0 X (fun _ : S1.Idx => c) upd _
      (scatter_resultIdx c hc) (ix2 t e) (fun j h => he ?_)
    have := congrArg (fun i : S16384x64.Idx => (i 1).val) h
    exact this.symm

end Cert.ReferenceIdeal.RefStep

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.RefRow.lean ====
/-
  One class's arithmetic on a row, read at an index, over the extended reals.

  Write `v 0 … v 3` for the four gathered members of a row. The row's maximum is a fold of `max` from `-∞` over the
  four, which is `max (max (v 0) (v 1)) (max (v 2) (v 3))` because `-∞` is the least extended real. A member is
  close when the maximum minus it is below the margin. The reference asks that SOME member is close (an `or` over
  the four bits) and that MORE THAN ONE is (the four bits widened to integers, summed, compared with 1): together
  that is "at least two are close".
-/
import proofs.«144457_g41274635714715_cont_8to1_b_145_24_alg».proof.Proof.RefStep
import proofs.«144457_g41274635714715_cont_8to1_b_145_24_alg».proof.Proof.LibHostRead
import proofs.«144457_g41274635714715_cont_8to1_b_145_24_alg».proof.Proof.Spec
import Idealize.ShloMosaic.Lib.ValueIdx
import Idealize.ShloMosaic.Lib.Pipeline.Value
import Idealize.ShloMosaic.PureOps.Ideal.Laws

noncomputable section

namespace Cert.ReferenceIdeal.RefStep

open Cert.ReferenceIdeal Idealize.ShloMosaic Idealize.ShloMosaic.ValueIdx Cert.RouterSpec

variable [Facts]
open Facts₀ Facts

/-- The largest of four members, associated as two pairs. -/
def max4 (v : Fin 4 → EReal) : EReal := max (max (v 0) (v 1)) (max (v 2) (v 3))

/-- Member `j` of four is within the margin of their maximum. -/
def within4 (v : Fin 4 → EReal) (j : Fin 4) : Prop := max4 v - v j < margin

open Classical in
/-- How many of four members are within the margin of their maximum. -/
def cnt4 (v : Fin 4 → EReal) : ℕ :=
  (if within4 v 0 then 1 else 0) + (if within4 v 1 then 1 else 0)
    + (if within4 v 2 then 1 else 0) + (if within4 v 3 then 1 else 0)

/-- The f32 word of `-∞` denotes the least extended real. -/
theorem negInf : Ideal.ofBits .f32 0xFF800000#32 = (⊥ : EReal) := by
  simp [Ideal.ofBits, Ideal.ieee]

theorem hred4 : S16384x4.Reduces [1] S16384 := by decide

/-- A host reduce of a `[16384, 4]` array along its second axis, at row `t`: the operation folded over the row's four
    entries from the initial value. -/
theorem reduce4_apply {α : Type} (f : α → α → α) [Std.Commutative f] [Std.Associative f] (x : S16384x4.Idx → α)
    (init : S_.Idx → α) (t : Fin 16384) :
    Host.reduce f x init reducesTo_S16384x4_S16384_d1 h_S_ (ix1 t)
      = f (x (ix2 t 0)) (f (x (ix2 t 1)) (f (x (ix2 t 2)) (f (x (ix2 t 3)) (init ix0)))) := by
  rw [Host.reduce_eq_fold_single f x init reducesTo_S16384x4_S16384_d1 hred4 h_S_ (ix1 t)]
  have hl : ∀ k : Fin 4, hred4.lift (ix1 t) k = ix2 t k := fun k => by
    funext a
    match a with
    | ⟨0, _⟩ => rfl
    | ⟨1, _⟩ => rfl
  have h0 : Shape.Idx.first h_S_ = ix0 := eq_ix0 _
  rw [h0]
  have hf : ∀ y : Fin 4 → α, (Finset.univ : Finset (Fin 4)).fold f (init ix0) y
      = f (y 0) (f (y 1) (f (y 2) (f (y 3) (init ix0)))) := fun _ => rfl
  refine (hf (x ∘ hred4.lift (ix1 t))).trans ?_
  show f (x (hred4.lift (ix1 t) (0 : Fin 4))) (f (x (hred4.lift (ix1 t) (1 : Fin 4))) (f (x (hred4.lift (ix1 t) (2 : Fin 4)))
    (f (x (hred4.lift (ix1 t) (3 : Fin 4))) (init ix0)))) = _
  rw [hl 0, hl 1, hl 2, hl 3]

/-- A one-column array broadcast along the columns reads its row's entry. -/
theorem bcastCols_apply {α : Type} {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply _ h x (ix2 i j) (ix2 i (0 : Fin 1)) (fun c => match c with
    | ⟨0, _⟩ => by
      show i.val = if a = 1 then 0 else i.val
      split
      · have := i.isLt; omega
      · rfl
    | ⟨1, _⟩ => by
      show 0 = if (1 : Nat) = 1 then 0 else j.val
      rw [if_pos rfl])

/-- Integer operations of arrays read entry by entry. -/
theorem andi_at {s : Shape} {w : Nat} (x y : IVec s w) (i : s.Idx) : andi x y i = IntOp.andi (x i) (y i) := rfl
theorem cmpi_at {s : Shape} {w : Nat} (p : CmpIPredicate) (x y : IVec s w) (i : s.Idx) :
    cmpi p x y i = IntOp.cmpi p (x i) (y i) := rfl
theorem constantI_at {s : Shape} {w : Nat} (b : BitVec w) (i : s.Idx) : constantI s w b i = b := rfl

/-- THE ROW MAXIMUM READ AT ROW `t`: the largest of the row's four members. -/
theorem rowMax_apply (g : S16384x4.Idx → EReal) (t : Fin 16384) (u : Fin 1) :
    rowMax (F := Ideal) g (ix2 t u) = max4 (fun q => g (ix2 t q)) := by
  unfold rowMax
  rw [Cert.LibHR.bcastCol_apply, reduce4_apply, constant_apply, negInf]
  simp only [Ideal.maximumf_def]
  unfold max4
  rw [max_bot_right, max_assoc]

/-- THE CLOSENESS BIT READ AT `(t, q)`: the row's maximum minus the member, compared with the margin. -/
theorem close_apply (g : S16384x4.Idx → EReal) (t : Fin 16384) (q : Fin 4) :
    close (F := Ideal) g (ix2 t q) = Ideal.cmp .olt (max4 (fun q => g (ix2 t q)) - g (ix2 t q)) margin := by
  unfold close
  rw [cmpf_apply, Ideal.cmpf_def, subf_apply, bcastCols_apply, rowMax_apply, Cert.LibHR.bcastScalar_apply, constant_apply]
  rfl

/-- Four bits: some bit is set and, widened to integers and summed, they exceed one — exactly when at least two are set. -/
theorem should_bits (p0 p1 p2 p3 : Prop) (i0 : Decidable p0) (i1 : Decidable p1) (i2 : Decidable p2) (i3 : Decidable p3)
    (d0 : Decidable p0) (d1 : Decidable p1) (d2 : Decidable p2) (d3 : Decidable p3) :
    IntOp.andi
        (IntOp.ori (BitVec.ofBool (@decide p0 i0)) (IntOp.ori (BitVec.ofBool (@decide p1 i1))
          (IntOp.ori (BitVec.ofBool (@decide p2 i2)) (IntOp.ori (BitVec.ofBool (@decide p3 i3)) 0#1))))
        (IntOp.cmpi .sgt
          (IntOp.addi ((BitVec.ofBool (@decide p0 i0)).setWidth 32) (IntOp.addi ((BitVec.ofBool (@decide p1 i1)).setWidth 32)
            (IntOp.addi ((BitVec.ofBool (@decide p2 i2)).setWidth 32) (IntOp.addi ((BitVec.ofBool (@decide p3 i3)).setWidth 32) 0#32))))
          1#32) = 1#1
      ↔ 2 ≤ (@ite _ p0 d0 1 0) + (@ite _ p1 d1 1 0) + (@ite _ p2 d2 1 0) + (@ite _ p3 d3 1 0) := by
  by_cases h0 : p0 <;> by_cases h1 : p1 <;> by_cases h2 : p2 <;> by_cases h3 : p3 <;>
    simp only [h0, h1, h2, h3, decide_true, decide_false, if_true, if_false] <;> decide

/-- THE DECISION READ AT ROW `t`, for closeness bits that are comparisons: it is set exactly when at least two of the
    row's four members are within the margin of their maximum. -/
theorem should_apply (g : S16384x4.Idx → EReal) (t : Fin 16384) :
    should (F := Ideal) (close (F := Ideal) g) (ix1 t) = 1#1 ↔ 2 ≤ cnt4 (fun q => g (ix2 t q)) := by
  unfold should
  rw [andi_at, cmpi_at, reduce4_apply, reduce4_apply, Cert.LibHR.bcastScalar_apply]
  have hcmp : ∀ a b : EReal, Ideal.cmp .olt a b = BitVec.ofBool (decide (a < b)) := fun _ _ => rfl
  simp only [extui_apply, close_apply, constantI_at, hcmp]
  unfold cnt4 within4
  beta_reduce
  exact should_bits _ _ _ _ _ _ _ _ _ _ _ _

end Cert.ReferenceIdeal.RefStep

end
-- ==== Proof.RefStepApply.lean ====
/-
  One class of the reference, read at an index, over the extended reals.

  Class with first column `off` leaves every entry outside column `off` as it was; in column `off`, row `t` becomes the
  maximum of the row's four members `off … off + 3` plus the boost when at least two of the four are within the margin of
  that maximum, and stays otherwise.
-/
import proofs.«144457_g41274635714715_cont_8to1_b_145_24_alg».proof.Proof.RefGatherScatter
import proofs.«144457_g41274635714715_cont_8to1_b_145_24_alg».proof.Proof.RefRow

noncomputable section

namespace Cert.ReferenceIdeal.RefStep

open Cert.ReferenceIdeal Idealize.ShloMosaic Idealize.ShloMosaic.ValueIdx Cert.RouterSpec

variable [Facts]
open Facts₀ Facts

/-- Member `q` of the class whose first column is `off`. -/
def mcol (off : Nat) (hoff : off + 3 < 64) (q : Fin 4) : Fin 64 := ⟨off + q.val, by have := q.isLt; omega⟩

/-- A small column number as a 32-bit word reads back, signed, as itself. -/
theorem toInt_ofNat_lt : ∀ n, n < 64 → (BitVec.ofNat 32 n).toInt = (n : Int) := by decide

/-- A small column number goes through the wrap of negative indices and the clamp unchanged. -/
theorem wrap_lt : ∀ n, n < 64 →
    min (Scalar.select (IntOp.cmpi .slt (BitVec.ofNat 32 n) 0#32) (IntOp.addi (BitVec.ofNat 32 n) 64#32)
      (BitVec.ofNat 32 n)).toInt.toNat 63 = n := by decide

/-- THE GATHERED MEMBERS READ AT `(t, q)`: the array at row `t`, column `off + q`. -/
theorem members_apply (T : S4.Idx → BitVec 32) (off : Nat) (hoff : off + 3 < 64)
    (hT : ∀ q : Fin 4, T (ix1 q) = BitVec.ofNat 32 (off + q.val)) (X : S16384x64.Idx → EReal) (t : Fin 16384) (q : Fin 4) :
    members (F := Ideal) T X (ix2 t q) = X (ix2 t (mcol off hoff q)) := by
  have hidx : min ((broadcastInDim S4x1 ![0] bcast_S4_S4x1_0
        (select (cmpi .slt T (broadcastInDim S4 ![] bcast_S_S4 (constantI S_ 32 0#32)))
          (addi T (broadcastInDim S4 ![] bcast_S_S4 (constantI S_ 32 64#32))) T)) (ix2 q (0 : Fin 1))).toInt.toNat 63
      = off + q.val := by
    rw [Cert.LibHR.bcastCol_apply]
    show min (Scalar.select (IntOp.cmpi .slt (T (ix1 q)) 0#32) (IntOp.addi (T (ix1 q)) 64#32) (T (ix1 q))).toInt.toNat 63 = _
    rw [hT q]
    exact wrap_lt _ (by have := q.isLt; omega)
  unfold members
  rw [gather_apply]
  exact congrArg X (congrArg (fun z : Fin 64 => ix2 t z) (Fin.ext hidx))

/-- ONE CLASS READ AT `(t, e)`. -/
theorem step_apply (T : S4.Idx → BitVec 32) (off : Nat) (hoff : off + 3 < 64) (hs : S16384x64.Slices ![0, off] S16384x1)
    (c : BitVec 32) (hc : c = BitVec.ofNat 32 off) (hT : ∀ q : Fin 4, T (ix1 q) = BitVec.ofNat 32 (off + q.val))
    (X : S16384x64.Idx → EReal) (t : Fin 16384) (e : Fin 64) :
    step (F := Ideal) T off hs c X (ix2 t e)
      = if e.val = off ∧ 2 ≤ cnt4 (fun q => X (ix2 t (mcol off hoff q)))
        then max4 (fun q => X (ix2 t (mcol off hoff q))) + boost else X (ix2 t e) := by
  have hm : (fun q : Fin 4 => members (F := Ideal) T X (ix2 t q)) = fun q => X (ix2 t (mcol off hoff q)) :=
    funext fun q => members_apply T off hoff hT X t q
  have hci : c.toInt = (off : Int) := by rw [hc]; exact toInt_ofNat_lt off (by omega)
  have hcI : 0 ≤ c.toInt ∧ c.toInt < 64 := by rw [hci]; omega
  have hcN : c.toInt.toNat = off := by rw [hci]; omega
  have hidx : broadcastInDim S1 ![] bcast_S_S1 (constantI S_ 32 c) = fun _ : S1.Idx => c :=
    funext fun j => Cert.LibHR.bcastScalar_apply _ _ j
  unfold step
  rw [hidx, scatter_apply X c hcI _ t e, hcN]
  have hcast : ∀ x : S16384x1.Idx → EReal, shapeCast S16384 x shapeCasts_S16384x1_S16384 (ix1 t) = x (ix2 t (0 : Fin 1)) :=
    fun x => shapeCast_apply x shapeCasts_S16384x1_S16384 (ix1 t) (ix2 t (0 : Fin 1)) (by
      rw [Shape.rowMajor_val_two, Shape.rowMajor_val_one]
      show t.val * 1 + 0 = t.val
      omega)
  by_cases he : e.val = off
  · rw [if_pos he, select_apply]
    have hsh := should_apply (members (F := Ideal) T X) t
    rw [hm] at hsh
    unfold Scalar.select
    by_cases hb : should (F := Ideal) (close (F := Ideal) (members (F := Ideal) T X)) (ix1 t) = 1#1
    · rw [if_pos (show _ = (1 : BitVec 1) from hb), if_pos ⟨he, hsh.mp hb⟩, addf_apply, hcast, rowMax_apply, hm, Cert.LibHR.bcastScalar_apply, constant_apply]
      rfl
    · rw [if_neg (show ¬ _ = (1 : BitVec 1) from hb), if_neg (fun h => hb (hsh.mpr h.2)), hcast]
      exact extractStridedSlice_apply ![0, off] X hs (ix2 t (0 : Fin 1)) (ix2 t e) (fun a => match a with
        | ⟨0, _⟩ => by show t.val = 0 + t.val; omega
        | ⟨1, _⟩ => by show e.val = off + 0; omega)
  · rw [if_neg he, if_neg (fun h => he h.1)]

end Cert.ReferenceIdeal.RefStep

end
-- ==== Proof.RefLogits.lean ====
/-
  The reference's logits read at an index, over the extended reals: row `t` of `x` against row `e` of `W` (the
  transposed `W` read at `(k, e)` is `W` at `(e, k)`), plus the bias at `e`.
-/
import proofs.«144457_g41274635714715_cont_8to1_b_145_24_alg».proof.Proof.RefStep
import proofs.«144457_g41274635714715_cont_8to1_b_145_24_alg».proof.Proof.LibHostRead
import proofs.«144457_g41274635714715_cont_8to1_b_145_24_alg».proof.Proof.Spec
import Idealize.ShloMosaic.Lib.ValueIdx
import Idealize.ShloMosaic.Lib.Pipeline.Value

noncomputable section

namespace Cert.ReferenceIdeal.RefStep

open Cert.ReferenceIdeal Idealize.ShloMosaic Idealize.ShloMosaic.ValueIdx Cert.RouterSpec

variable [Facts]
open Facts₀ Facts

/-- THE LOGITS READ AT `(t, e)`. -/
theorem logits_apply (A : S16384x4096.Idx → EReal) (B : S64x4096.Idx → EReal) (C : S64.Idx → EReal)
    (t : Fin 16384) (e : Fin 64) :
    logits (F := Ideal) A B C (ix2 t e) = logit A B C t e := by
  have hd : dot_S16384x4096_S4096x64_S16384x64_1_0_0_1_n_n
      = Cert.LibHR.plainDotDims 16384 4096 64 dot_S16384x4096_S4096x64_S16384x64_1_0_0_1_n_n_wf := rfl
  unfold logits logit
  show Host.dotGeneral (F := Ideal) dot_S16384x4096_S4096x64_S16384x64_1_0_0_1_n_n none A
        (transpose S4096x64 [1, 0] B transposes_S64x4096_S4096x64_1_0) (ix2 t e)
      + broadcastInDim S16384x64 ![0, 1] bcast_S1x64_S16384x64_0_1 (broadcastInDim S1x64 ![1] bcast_S64_S1x64_1 C) (ix2 t e) = _
  rw [Cert.LibHR.bcastRow_apply, hd, Cert.LibHR.plainDot_apply]
  refine congrArg (· + C (ix1 e)) (Finset.sum_congr rfl fun k _ => ?_)
  rw [transpose_apply [1, 0] B transposes_S64x4096_S4096x64_1_0 (ix2 k e) (ix2 e k) (fun b => match b with
    | ⟨0, _⟩ => rfl
    | ⟨1, _⟩ => rfl)]

end Cert.ReferenceIdeal.RefStep

end
-- ==== Proof.RefOut.lean ====
/-
  The sixteen classes composed: the reference's result is the specification.

  Class `n` reads and writes only the columns `4 n … 4 n + 3` of its own group, so after the first `n` classes a row
  holds the canonical overwrite in the first columns of groups `0 … n - 1` and the logits everywhere else; the next
  class finds its four members still at their logits. After sixteen classes every group is done.
-/
import proofs.«144457_g41274635714715_cont_8to1_b_145_24_alg».proof.Proof.RefStepApply
import proofs.«144457_g41274635714715_cont_8to1_b_145_24_alg».proof.Proof.RefLogits

noncomputable section

namespace Cert.ReferenceIdeal.RefStep

open Cert.ReferenceIdeal Idealize.ShloMosaic Idealize.ShloMosaic.ValueIdx Cert.RouterSpec

variable [Facts]
open Facts₀ Facts

/-- A row of logits. -/
def row (A : S16384x4096.Idx → EReal) (B : S64x4096.Idx → EReal) (C : S64.Idx → EReal) (t : Fin 16384) : Fin 64 → EReal :=
  fun e => logit A B C t e

/-- The array after the first `n` classes: groups below `n` are canonically overwritten, the rest still hold logits. -/
def Done (A : S16384x4096.Idx → EReal) (B : S64x4096.Idx → EReal) (C : S64.Idx → EReal) (n : Nat)
    (X : S16384x64.Idx → EReal) : Prop :=
  ∀ (t : Fin 16384) (e : Fin 64), X (ix2 t e)
    = if e.val % 4 = 0 ∧ e.val / 4 < n ∧ 2 ≤ cnt (row A B C t) (grp e) then gmax (row A B C t) (grp e) + boost
      else row A B C t e

variable (A : S16384x4096.Idx → EReal) (B : S64x4096.Idx → EReal) (C : S64.Idx → EReal)

/-- Before any class the array holds the logits. -/
theorem done_zero : Done A B C 0 (logits (F := Ideal) A B C) := fun t e => by
  rw [logits_apply, if_neg (fun h => Nat.not_lt_zero _ h.2.1)]
  rfl

/-- Class `n` takes an array done below `n` to one done below `n + 1`. -/
theorem done_succ (n : Nat) (hn : n < 16) (T : S4.Idx → BitVec 32) (off : Nat) (hoff : off = 4 * n)
    (hs : S16384x64.Slices ![0, off] S16384x1) (c : BitVec 32) (hc : c = BitVec.ofNat 32 off)
    (hT : ∀ q : Fin 4, T (ix1 q) = BitVec.ofNat 32 (off + q.val)) (X : S16384x64.Idx → EReal) (hX : Done A B C n X) :
    Done A B C (n + 1) (step (F := Ideal) T off hs c X) := by
  intro t e
  have h3 : off + 3 < 64 := by omega
  have hv : (fun q => X (ix2 t (mcol off h3 q))) = fun q => row A B C t (col ⟨n, hn⟩ q) := by
    funext q
    have hq := q.isLt
    have hmv : (mcol off h3 q).val = off + q.val := rfl
    rw [hX t (mcol off h3 q), if_neg (fun h => by omega)]
    exact congrArg (row A B C t) (Fin.ext (by show off + q.val = 4 * n + q.val; omega))
  have hmax : max4 (fun q => row A B C t (col ⟨n, hn⟩ q)) = gmax (row A B C t) ⟨n, hn⟩ := rfl
  have hcnt : cnt4 (fun q => row A B C t (col ⟨n, hn⟩ q)) = cnt (row A B C t) ⟨n, hn⟩ := rfl
  rw [step_apply T off h3 hs c hc hT X t e, hv, hmax, hcnt, hX t e]
  by_cases he : e.val = off
  · have hg : grp e = ⟨n, hn⟩ := Fin.ext (by show e.val / 4 = n; omega)
    rw [hg]
    by_cases h2 : 2 ≤ cnt (row A B C t) ⟨n, hn⟩
    · rw [if_pos ⟨he, h2⟩, if_pos ⟨by omega, by omega, h2⟩]
    · rw [if_neg (fun h => h2 h.2), if_neg (fun h => h2 h.2.2), if_neg (fun h => h2 h.2.2)]
  · rw [if_neg (fun h => he h.1)]
    by_cases h : e.val % 4 = 0 ∧ e.val / 4 < n ∧ 2 ≤ cnt (row A B C t) (grp e)
    · rw [if_pos h, if_pos ⟨h.1, by omega, h.2.2⟩]
    · rw [if_neg h, if_neg (fun h' => h ⟨h'.1, by have := h'.1; have := h'.2.1; omega, h'.2.2⟩)]

/-- After the sixteen classes every group is done. -/
theorem done_refOut : Done A B C 16 (refOut (F := Ideal) A B C) := by
  unfold refOut
  refine done_succ A B C 15 (by omega) _ 60 rfl _ _ rfl (by decide) _ ?_
  refine done_succ A B C 14 (by omega) _ 56 rfl _ _ rfl (by decide) _ ?_
  refine done_succ A B C 13 (by omega) _ 52 rfl _ _ rfl (by decide) _ ?_
  refine done_succ A B C 12 (by omega) _ 48 rfl _ _ rfl (by decide) _ ?_
  refine done_succ A B C 11 (by omega) _ 44 rfl _ _ rfl (by decide) _ ?_
  refine done_succ A B C 10 (by omega) _ 40 rfl _ _ rfl (by decide) _ ?_
  refine done_succ A B C 9 (by omega) _ 36 rfl _ _ rfl (by decide) _ ?_
  refine done_succ A B C 8 (by omega) _ 32 rfl _ _ rfl (by decide) _ ?_
  refine done_succ A B C 7 (by omega) _ 28 rfl _ _ rfl (by decide) _ ?_
  refine done_succ A B C 6 (by omega) _ 24 rfl _ _ rfl (by decide) _ ?_
  refine done_succ A B C 5 (by omega) _ 20 rfl _ _ rfl (by decide) _ ?_
  refine done_succ A B C 4 (by omega) _ 16 rfl _ _ rfl (by decide) _ ?_
  refine done_succ A B C 3 (by omega) _ 12 rfl _ _ rfl (by decide) _ ?_
  refine done_succ A B C 2 (by omega) _ 8 rfl _ _ rfl (by decide) _ ?_
  refine done_succ A B C 1 (by omega) _ 4 rfl _ _ rfl (by decide) _ ?_
  refine done_succ A B C 0 (by omega) _ 0 rfl _ _ rfl (by decide) _ ?_
  exact done_zero A B C

/-- THE REFERENCE'S RESULT IS THE SPECIFICATION. -/
theorem refOut_eq : refOut (F := Ideal) A B C = Cert.RouterSpec.out A B C := by
  funext i
  obtain ⟨t, e, rfl⟩ : ∃ (t : Fin 16384) (e : Fin 64), i = ix2 t e := ⟨i 0, i 1, eq_ix2 i⟩
  rw [done_refOut A B C t e]
  unfold Cert.RouterSpec.out canonRow
  show _ = if e.val % 4 = 0 ∧ 2 ≤ cnt (row A B C t) (grp e) then gmax (row A B C t) (grp e) + boost else row A B C t e
  have hlt : e.val / 4 < 16 := by have := e.isLt; omega
  by_cases h : e.val % 4 = 0 ∧ 2 ≤ cnt (row A B C t) (grp e)
  · rw [if_pos h, if_pos ⟨h.1, hlt, h.2⟩]
  · rw [if_neg h, if_neg (fun h' => h ⟨h'.1, h'.2.2⟩)]

end Cert.ReferenceIdeal.RefStep

end
-- ==== Proof.lean ====
/-
  The router's canonical overwrite: the Pallas kernel against its jnp reference, over the extended reals.

  Both programs compute the logits `x · Wᵀ + b` and then, for each of the sixteen groups of four adjacent expert
  columns of every token's row, overwrite the group's first column by the group's maximum plus `0.0001` when at
  least two members of the group lie within `0.1` of that maximum (the specification `Cert.RouterSpec.out`).

  The kernel does it for a block of 1024 rows at once, in registers: the group maximum and the count of close
  members by a two-stage butterfly of lane rotations, the count as a sum of floats `0` and `1` compared with
  `1.5`. The reference does it class by class: a gather of the group's four columns, a maximum, the comparisons
  reduced by `or` and by an integer sum compared with `1`, a select, a scatter into the first column. Over the
  extended reals both are the specification: a maximum does not depend on the order it is taken in, the float count
  and the integer count of the same four comparisons agree on "at least two", and a class touches only its own
  group's columns. The two float literals are the same words in both programs and are never evaluated. The claim
  needs no finiteness: the precondition is not opened.

  The three frames: the kernel's and its idealization's are the generated frame proofs; the reference's is its run
  (a straight line of 597 host operations) with the result dropped. The ideal pass rewrote nothing, so the
  idealization claim is trivial.
-/
import proofs.«144457_g41274635714715_cont_8to1_b_145_24_alg».proof.Defs
import proofs.«144457_g41274635714715_cont_8to1_b_145_24_alg».proof.Proof.Gen.Kernel
import proofs.«144457_g41274635714715_cont_8to1_b_145_24_alg».proof.Proof.Gen.Kernel.Frame
import proofs.«144457_g41274635714715_cont_8to1_b_145_24_alg».proof.Proof.Gen.KernelIdeal
import proofs.«144457_g41274635714715_cont_8to1_b_145_24_alg».proof.Proof.Gen.KernelIdeal.Frame
import proofs.«144457_g41274635714715_cont_8to1_b_145_24_alg».proof.Proof.Gen.KernelIdeal.Value
import proofs.«144457_g41274635714715_cont_8to1_b_145_24_alg».proof.Proof.Gen.ReferenceIdeal
import proofs.«144457_g41274635714715_cont_8to1_b_145_24_alg».proof.Proof.Gen.Pre_finite_inputs
import proofs.«144457_g41274635714715_cont_8to1_b_145_24_alg».proof.Proof.KerRun
import proofs.«144457_g41274635714715_cont_8to1_b_145_24_alg».proof.Proof.RefRun
import proofs.«144457_g41274635714715_cont_8to1_b_145_24_alg».proof.Proof.RefOut
import Idealize.ShloMosaic.Adequacy
import Idealize.ShloMosaic.Init

noncomputable section

namespace Cert.Proof

open Idealize.ShloMosaic Idealize.SL.Sem

/-- The kernel runs and leaves its arguments unchanged: the generated frame proof. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The kernel's result array ends at the specification of its arguments, the reference's at its sixteen classes applied
    to the logits of arguments that agree with the kernel's: the same function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefStep.refOut_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
